-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))

def preserves_Kernel_KernelIdeal : Prop :=
  IdealRules.named_const.Statement Cert.KernelIdeal.κ "inv_scale" .f32 0x3E3504F3#32 ((2097152 / 11863283 : ℝ) : EReal)
  ∧ IdealRules.named_const.Statement Cert.KernelIdeal.κ "inv_scale" .f32 0x3E3504F3#32 ((2097152 / 11863283 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) →
    ∃ (v0 : (c : Dev Cert.KernelIdeal.nD) → Buf (Elt Ideal) ((c.tc : Thread Cert.KernelIdeal.nD Cert.KernelIdeal.τ).loc Cert.KernelIdeal.main_v287)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v287) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v303) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S6144 : Shape := ⟨1, ![6144]⟩
abbrev S297984 : Shape := ⟨1, ![297984]⟩
abbrev S1024x256 : Shape := ⟨2, ![1024, 256]⟩
abbrev S3x256 : Shape := ⟨2, ![3, 256]⟩
abbrev S32x256 : Shape := ⟨2, ![32, 256]⟩
abbrev S2x256 : Shape := ⟨2, ![2, 256]⟩
abbrev S2x256x768 : Shape := ⟨3, ![2, 256, 768]⟩
abbrev S2x768 : Shape := ⟨2, ![2, 768]⟩
abbrev S2x256x256 : Shape := ⟨3, ![2, 256, 256]⟩
abbrev S2x256x1024 : Shape := ⟨3, ![2, 256, 1024]⟩
abbrev S2x1024 : Shape := ⟨2, ![2, 1024]⟩
abbrev S2x1024x256 : Shape := ⟨3, ![2, 1024, 256]⟩
abbrev S256x1024 : Shape := ⟨2, ![256, 1024]⟩
abbrev S1024 : Shape := ⟨1, ![1024]⟩
abbrev S_ : Shape := ⟨0, ![]⟩

class Facts : Prop where
  bcast_S_S1024x256 : S_.BroadcastsInDim S1024x256 (![] : Fin 0 → Fin S1024x256.rank)
  reducesTo_S1024x256_S_d0_1 : S1024x256.ReducesTo [0, 1] S_
  h_S_ : 0 < S_.numel
  bcast_S_S3x256 : S_.BroadcastsInDim S3x256 (![] : Fin 0 → Fin S3x256.rank)
  reducesTo_S3x256_S_d0_1 : S3x256.ReducesTo [0, 1] S_
  bcast_S_S32x256 : S_.BroadcastsInDim S32x256 (![] : Fin 0 → Fin S32x256.rank)
  reducesTo_S32x256_S_d0_1 : S32x256.ReducesTo [0, 1] S_
  bcast_S_S2x256 : S_.BroadcastsInDim S2x256 (![] : Fin 0 → Fin S2x256.rank)
  reducesTo_S2x256_S_d0_1 : S2x256.ReducesTo [0, 1] S_
  bcast_S_S2x256x768 : S_.BroadcastsInDim S2x256x768 (![] : Fin 0 → Fin S2x256x768.rank)
  reducesTo_S2x256x768_S_d0_1_2 : S2x256x768.ReducesTo [0, 1, 2] S_
  bcast_S_S2x768 : S_.BroadcastsInDim S2x768 (![] : Fin 0 → Fin S2x768.rank)
  reducesTo_S2x768_S_d0_1 : S2x768.ReducesTo [0, 1] S_
  bcast_S_S2x256x256 : S_.BroadcastsInDim S2x256x256 (![] : Fin 0 → Fin S2x256x256.rank)
  reducesTo_S2x256x256_S_d0_1_2 : S2x256x256.ReducesTo [0, 1, 2] S_
  bcast_S_S2x256x1024 : S_.BroadcastsInDim S2x256x1024 (![] : Fin 0 → Fin S2x256x1024.rank)
  reducesTo_S2x256x1024_S_d0_1_2 : S2x256x1024.ReducesTo [0, 1, 2] S_
  bcast_S_S2x1024 : S_.BroadcastsInDim S2x1024 (![] : Fin 0 → Fin S2x1024.rank)
  reducesTo_S2x1024_S_d0_1 : S2x1024.ReducesTo [0, 1] S_
  bcast_S_S2x1024x256 : S_.BroadcastsInDim S2x1024x256 (![] : Fin 0 → Fin S2x1024x256.rank)
  reducesTo_S2x1024x256_S_d0_1_2 : S2x1024x256.ReducesTo [0, 1, 2] S_
  bcast_S_S256x1024 : S_.BroadcastsInDim S256x1024 (![] : Fin 0 → Fin S256x1024.rank)
  reducesTo_S256x1024_S_d0_1 : S256x1024.ReducesTo [0, 1] S_
  bcast_S_S1024 : S_.BroadcastsInDim S1024 (![] : Fin 0 → Fin S1024.rank)
  reducesTo_S1024_S_d0 : S1024.ReducesTo [0] S_

variable [Facts]

def fn_part4 {F : FTy → Type} [FloatOps F] (main_arg18 : FVec F S2x256 .f32) (main_arg19 : FVec F S256x1024 .f32) (main_arg20 : FVec F S1024 .f32) (main_v63 : IVec S_ 1) (main_v67 : IVec S_ 1) : IVec S_ 1 :=
  let main_v68 : IVec S_ 1 := andi main_v63 main_v67
  let main_v69 : FVec F S2x256 .f32 := Host.absf main_arg18
  let main_cst_26 : FVec F S_ .f32 := constant S_ .f32 0x7F800000#32
  let main_v70 : FVec F S2x256 .f32 := broadcastInDim S2x256 ![] bcast_S_S2x256 main_cst_26
  let main_v71 : IVec S2x256 1 := cmpf .olt main_v69 main_v70
  let main_c_27 : IVec S_ 1 := constantI S_ 1 1#1
  let main_v72 : IVec S_ 1 := (fun x v => Host.reduce IntOp.andi x v reducesTo_S2x256_S_d0_1 h_S_) main_v71 main_c_27
  let main_v73 : IVec S_ 1 := andi main_v68 main_v72
  let main_v74 : FVec F S256x1024 .f32 := Host.absf main_arg19
  let main_cst_28 : FVec F S_ .f32 := constant S_ .f32 0x7F800000#32
  let main_v75 : FVec F S256x1024 .f32 := broadcastInDim S256x1024 ![] bcast_S_S256x1024 main_cst_28
  let main_v76 : IVec S256x1024 1 := cmpf .olt main_v74 main_v75
  let main_c_29 : IVec S_ 1 := constantI S_ 1 1#1
  let main_v77 : IVec S_ 1 := (fun x v => Host.reduce IntOp.andi x v reducesTo_S256x1024_S_d0_1 h_S_) main_v76 main_c_29
  let main_v78 : IVec S_ 1 := andi main_v73 main_v77
  let main_v79 : FVec F S1024 .f32 := Host.absf main_arg20
  let main_cst_30 : FVec F S_ .f32 := constant S_ .f32 0x7F800000#32
  let main_v80 : FVec F S1024 .f32 := broadcastInDim S1024 ![] bcast_S_S1024 main_cst_30
  let main_v81 : IVec S1024 1 := cmpf .olt main_v79 main_v80
  let main_c_31 : IVec S_ 1 := constantI S_ 1 1#1
  let main_v82 : IVec S_ 1 := (fun x v => Host.reduce IntOp.andi x v reducesTo_S1024_S_d0 h_S_) main_v81 main_c_31
  let main_v83 : IVec S_ 1 := andi main_v78 main_v82
  main_v83

def fn_part3 {F : FTy → Type} [FloatOps F] (main_arg15 : FVec F S2x256x1024 .f32) (main_arg16 : FVec F S2x1024 .f32) (main_arg17 : FVec F S2x1024x256 .f32) (main_arg18 : FVec F S2x256 .f32) (main_arg19 : FVec F S256x1024 .f32) (main_arg20 : FVec F S1024 .f32) (main_v48 : IVec S_ 1) (main_v49 : FVec F S2x256 .f32) (main_v50 : FVec F S2x256 .f32) : IVec S_ 1 :=
  let main_v51 : IVec S2x256 1 := cmpf .olt main_v49 main_v50
  let main_c_19 : IVec S_ 1 := constantI S_ 1 1#1
  let main_v52 : IVec S_ 1 := (fun x v => Host.reduce IntOp.andi x v reducesTo_S2x256_S_d0_1 h_S_) main_v51 main_c_19
  let main_v53 : IVec S_ 1 := andi main_v48 main_v52
  let main_v54 : FVec F S2x256x1024 .f32 := Host.absf main_arg15
  let main_cst_20 : FVec F S_ .f32 := constant S_ .f32 0x7F800000#32
  let main_v55 : FVec F S2x256x1024 .f32 := broadcastInDim S2x256x1024 ![] bcast_S_S2x256x1024 main_cst_20
  let main_v56 : IVec S2x256x1024 1 := cmpf .olt main_v54 main_v55
  let main_c_21 : IVec S_ 1 := constantI S_ 1 1#1
  let main_v57 : IVec S_ 1 := (fun x v => Host.reduce IntOp.andi x v reducesTo_S2x256x1024_S_d0_1_2 h_S_) main_v56 main_c_21
  let main_v58 : IVec S_ 1 := andi main_v53 main_v57
  let main_v59 : FVec F S2x1024 .f32 := Host.absf main_arg16
  let main_cst_22 : FVec F S_ .f32 := constant S_ .f32 0x7F800000#32
  let main_v60 : FVec F S2x1024 .f32 := broadcastInDim S2x1024 ![] bcast_S_S2x1024 main_cst_22
  let main_v61 : IVec S2x1024 1 := cmpf .olt main_v59 main_v60
  let main_c_23 : IVec S_ 1 := constantI S_ 1 1#1
  let main_v62 : IVec S_ 1 := (fun x v => Host.reduce IntOp.andi x v reducesTo_S2x1024_S_d0_1 h_S_) main_v61 main_c_23
  let main_v63 : IVec S_ 1 := andi main_v58 main_v62
  let main_v64 : FVec F S2x1024x256 .f32 := Host.absf main_arg17
  let main_cst_24 : FVec F S_ .f32 := constant S_ .f32 0x7F800000#32
  let main_v65 : FVec F S2x1024x256 .f32 := broadcastInDim S2x1024x256 ![] bcast_S_S2x1024x256 main_cst_24
  let main_v66 : IVec S2x1024x256 1 := cmpf .olt main_v64 main_v65
  let main_c_25 : IVec S_ 1 := constantI S_ 1 1#1
  let main_v67 : IVec S_ 1 := (fun x v => Host.reduce IntOp.andi x v reducesTo_S2x1024x256_S_d0_1_2 h_S_) main_v66 main_c_25
  fn_part4 (F := F) main_arg18 main_arg19 main_arg20 main_v63 main_v67

def fn_part2 {F : FTy → Type} [FloatOps F] (main_arg11 : FVec F S2x256x256 .f32) (main_arg12 : FVec F S2x256 .f32) (main_arg13 : FVec F S2x256 .f32) (main_arg14 : FVec F S2x256 .f32) (main_arg15 : FVec F S2x256x1024 .f32) (main_arg16 : FVec F S2x1024 .f32) (main_arg17 : FVec F S2x1024x256 .f32) (main_arg18 : FVec F S2x256 .f32) (main_arg19 : FVec F S256x1024 .f32) (main_arg20 : FVec F S1024 .f32) (main_v33 : IVec S_ 1) : IVec S_ 1 :=
  let main_v34 : FVec F S2x256x256 .f32 := Host.absf main_arg11
  let main_cst_12 : FVec F S_ .f32 := constant S_ .f32 0x7F800000#32
  let main_v35 : FVec F S2x256x256 .f32 := broadcastInDim S2x256x256 ![] bcast_S_S2x256x256 main_cst_12
  let main_v36 : IVec S2x256x256 1 := cmpf .olt main_v34 main_v35
  let main_c_13 : IVec S_ 1 := constantI S_ 1 1#1
  let main_v37 : IVec S_ 1 := (fun x v => Host.reduce IntOp.andi x v reducesTo_S2x256x256_S_d0_1_2 h_S_) main_v36 main_c_13
  let main_v38 : IVec S_ 1 := andi main_v33 main_v37
  let main_v39 : FVec F S2x256 .f32 := Host.absf main_arg12
  let main_cst_14 : FVec F S_ .f32 := constant S_ .f32 0x7F800000#32
  let main_v40 : FVec F S2x256 .f32 := broadcastInDim S2x256 ![] bcast_S_S2x256 main_cst_14
  let main_v41 : IVec S2x256 1 := cmpf .olt main_v39 main_v40
  let main_c_15 : IVec S_ 1 := constantI S_ 1 1#1
  let main_v42 : IVec S_ 1 := (fun x v => Host.reduce IntOp.andi x v reducesTo_S2x256_S_d0_1 h_S_) main_v41 main_c_15
  let main_v43 : IVec S_ 1 := andi main_v38 main_v42
  let main_v44 : FVec F S2x256 .f32 := Host.absf main_arg13
  let main_cst_16 : FVec F S_ .f32 := constant S_ .f32 0x7F800000#32
  let main_v45 : FVec F S2x256 .f32 := broadcastInDim S2x256 ![] bcast_S_S2x256 main_cst_16
  let main_v46 : IVec S2x256 1 := cmpf .olt main_v44 main_v45
  let main_c_17 : IVec S_ 1 := constantI S_ 1 1#1
  let main_v47 : IVec S_ 1 := (fun x v => Host.reduce IntOp.andi x v reducesTo_S2x256_S_d0_1 h_S_) main_v46 main_c_17
  let main_v48 : IVec S_ 1 := andi main_v43 main_v47
  let main_v49 : FVec F S2x256 .f32 := Host.absf main_arg14
  let main_cst_18 : FVec F S_ .f32 := constant S_ .f32 0x7F800000#32
  let main_v50 : FVec F S2x256 .f32 := broadcastInDim S2x256 ![] bcast_S_S2x256 main_cst_18
  fn_part3 (F := F) main_arg15 main_arg16 main_arg17 main_arg18 main_arg19 main_arg20 main_v48 main_v49 main_v50

def fn_part1 {F : FTy → Type} [FloatOps F] (main_arg8 : FVec F S2x256 .f32) (main_arg9 : FVec F S2x256x768 .f32) (main_arg10 : FVec F S2x768 .f32) (main_arg11 : FVec F S2x256x256 .f32) (main_arg12 : FVec F S2x256 .f32) (main_arg13 : FVec F S2x256 .f32) (main_arg14 : FVec F S2x256 .f32) (main_arg15 : FVec F S2x256x1024 .f32) (main_arg16 : FVec F S2x1024 .f32) (main_arg17 : FVec F S2x1024x256 .f32) (main_arg18 : FVec F S2x256 .f32) (main_arg19 : FVec F S256x1024 .f32) (main_arg20 : FVec F S1024 .f32) (main_v13 : IVec S_ 1) (main_v16 : IVec S2x256 1) : IVec S_ 1 :=
  let main_c_5 : IVec S_ 1 := constantI S_ 1 1#1
  let main_v17 : IVec S_ 1 := (fun x v => Host.reduce IntOp.andi x v reducesTo_S2x256_S_d0_1 h_S_) main_v16 main_c_5
  let main_v18 : IVec S_ 1 := andi main_v13 main_v17
  let main_v19 : FVec F S2x256 .f32 := Host.absf main_arg8
  let main_cst_6 : FVec F S_ .f32 := constant S_ .f32 0x7F800000#32
  let main_v20 : FVec F S2x256 .f32 := broadcastInDim S2x256 ![] bcast_S_S2x256 main_cst_6
  let main_v21 : IVec S2x256 1 := cmpf .olt main_v19 main_v20
  let main_c_7 : IVec S_ 1 := constantI S_ 1 1#1
  let main_v22 : IVec S_ 1 := (fun x v => Host.reduce IntOp.andi x v reducesTo_S2x256_S_d0_1 h_S_) main_v21 main_c_7
  let main_v23 : IVec S_ 1 := andi main_v18 main_v22
  let main_v24 : FVec F S2x256x768 .f32 := Host.absf main_arg9
  let main_cst_8 : FVec F S_ .f32 := constant S_ .f32 0x7F800000#32
  let main_v25 : FVec F S2x256x768 .f32 := broadcastInDim S2x256x768 ![] bcast_S_S2x256x768 main_cst_8
  let main_v26 : IVec S2x256x768 1 := cmpf .olt main_v24 main_v25
  let main_c_9 : IVec S_ 1 := constantI S_ 1 1#1
  let main_v27 : IVec S_ 1 := (fun x v => Host.reduce IntOp.andi x v reducesTo_S2x256x768_S_d0_1_2 h_S_) main_v26 main_c_9
  let main_v28 : IVec S_ 1 := andi main_v23 main_v27
  let main_v29 : FVec F S2x768 .f32 := Host.absf main_arg10
  let main_cst_10 : FVec F S_ .f32 := constant S_ .f32 0x7F800000#32
  let main_v30 : FVec F S2x768 .f32 := broadcastInDim S2x768 ![] bcast_S_S2x768 main_cst_10
  let main_v31 : IVec S2x768 1 := cmpf .olt main_v29 main_v30
  let main_c_11 : IVec S_ 1 := constantI S_ 1 1#1
  let main_v32 : IVec S_ 1 := (fun x v => Host.reduce IntOp.andi x v reducesTo_S2x768_S_d0_1 h_S_) main_v31 main_c_11
  let main_v33 : IVec S_ 1 := andi main_v28 main_v32
  fn_part2 (F := F) main_arg11 main_arg12 main_arg13 main_arg14 main_arg15 main_arg16 main_arg17 main_arg18 main_arg19 main_arg20 main_v33

def fn {F : FTy → Type} [FloatOps F] (main_arg0 : IVec S6144 32) (main_arg1 : IVec S6144 32) (main_arg2 : IVec S297984 32) (main_arg3 : IVec S297984 32) (main_arg4 : FVec F S1024x256 .f32) (main_arg5 : FVec F S3x256 .f32) (main_arg6 : FVec F S32x256 .f32) (main_arg7 : FVec F S2x256 .f32) (main_arg8 : FVec F S2x256 .f32) (main_arg9 : FVec F S2x256x768 .f32) (main_arg10 : FVec F S2x768 .f32) (main_arg11 : FVec F S2x256x256 .f32) (main_arg12 : FVec F S2x256 .f32) (main_arg13 : FVec F S2x256 .f32) (main_arg14 : FVec F S2x256 .f32) (main_arg15 : FVec F S2x256x1024 .f32) (main_arg16 : FVec F S2x1024 .f32) (main_arg17 : FVec F S2x1024x256 .f32) (main_arg18 : FVec F S2x256 .f32) (main_arg19 : FVec F S256x1024 .f32) (main_arg20 : FVec F S1024 .f32) : IVec S_ 1 :=
  let main_v0 : FVec F S1024x256 .f32 := Host.absf main_arg4
  let main_cst : FVec F S_ .f32 := constant S_ .f32 0x7F800000#32
  let main_v1 : FVec F S1024x256 .f32 := broadcastInDim S1024x256 ![] bcast_S_S1024x256 main_cst
  let main_v2 : IVec S1024x256 1 := cmpf .olt main_v0 main_v1
  let main_c : IVec S_ 1 := constantI S_ 1 1#1
  let main_v3 : IVec S_ 1 := (fun x v => Host.reduce IntOp.andi x v reducesTo_S1024x256_S_d0_1 h_S_) main_v2 main_c
  let main_v4 : FVec F S3x256 .f32 := Host.absf main_arg5
  let main_cst_0 : FVec F S_ .f32 := constant S_ .f32 0x7F800000#32
  let main_v5 : FVec F S3x256 .f32 := broadcastInDim S3x256 ![] bcast_S_S3x256 main_cst_0
  let main_v6 : IVec S3x256 1 := cmpf .olt main_v4 main_v5
  let main_c_1 : IVec S_ 1 := constantI S_ 1 1#1
  let main_v7 : IVec S_ 1 := (fun x v => Host.reduce IntOp.andi x v reducesTo_S3x256_S_d0_1 h_S_) main_v6 main_c_1
  let main_v8 : IVec S_ 1 := andi main_v3 main_v7
  let main_v9 : FVec F S32x256 .f32 := Host.absf main_arg6
  let main_cst_2 : FVec F S_ .f32 := constant S_ .f32 0x7F800000#32
  let main_v10 : FVec F S32x256 .f32 := broadcastInDim S32x256 ![] bcast_S_S32x256 main_cst_2
  let main_v11 : IVec S32x256 1 := cmpf .olt main_v9 main_v10
  let main_c_3 : IVec S_ 1 := constantI S_ 1 1#1
  let main_v12 : IVec S_ 1 := (fun x v => Host.reduce IntOp.andi x v reducesTo_S32x256_S_d0_1 h_S_) main_v11 main_c_3
  let main_v13 : IVec S_ 1 := andi main_v8 main_v12
  let main_v14 : FVec F S2x256 .f32 := Host.absf main_arg7
  let main_cst_4 : FVec F S_ .f32 := constant S_ .f32 0x7F800000#32
  let main_v15 : FVec F S2x256 .f32 := broadcastInDim S2x256 ![] bcast_S_S2x256 main_cst_4
  let main_v16 : IVec S2x256 1 := cmpf .olt main_v14 main_v15
  fn_part1 (F := F) main_arg8 main_arg9 main_arg10 main_arg11 main_arg12 main_arg13 main_arg14 main_arg15 main_arg16 main_arg17 main_arg18 main_arg19 main_arg20 main_v13 main_v16
-- ==== Kernel.lean ====
abbrev S6144 : Shape := ⟨1, ![6144]⟩
abbrev S297984 : Shape := ⟨1, ![297984]⟩
abbrev S1024x256 : Shape := ⟨2, ![1024, 256]⟩
abbrev S3x256 : Shape := ⟨2, ![3, 256]⟩
abbrev S32x256 : Shape := ⟨2, ![32, 256]⟩
abbrev S2x256 : Shape := ⟨2, ![2, 256]⟩
abbrev S2x256x768 : Shape := ⟨3, ![2, 256, 768]⟩
abbrev S2x768 : Shape := ⟨2, ![2, 768]⟩
abbrev S2x256x256 : Shape := ⟨3, ![2, 256, 256]⟩
abbrev S2x256x1024 : Shape := ⟨3, ![2, 256, 1024]⟩
abbrev S2x1024 : Shape := ⟨2, ![2, 1024]⟩
abbrev S2x1024x256 : Shape := ⟨3, ![2, 1024, 256]⟩
abbrev S256x1024 : Shape := ⟨2, ![256, 1024]⟩
abbrev S1024 : Shape := ⟨1, ![1024]⟩
abbrev S_ : Shape := ⟨0, ![]⟩
abbrev S6144x1 : Shape := ⟨2, ![6144, 1]⟩
abbrev S6144x256 : Shape := ⟨2, ![6144, 256]⟩
abbrev S1x256 : Shape := ⟨2, ![1, 256]⟩
abbrev S256 : Shape := ⟨1, ![256]⟩
abbrev S1x256x768 : Shape := ⟨3, ![1, 256, 768]⟩
abbrev S256x768 : Shape := ⟨2, ![256, 768]⟩
abbrev S6144x768 : Shape := ⟨2, ![6144, 768]⟩
abbrev S1x768 : Shape := ⟨2, ![1, 768]⟩
abbrev S768 : Shape := ⟨1, ![768]⟩
abbrev S6144x8x32 : Shape := ⟨3, ![6144, 8, 32]⟩
abbrev S297984x1 : Shape := ⟨2, ![297984, 1]⟩
abbrev S297984x8x32 : Shape := ⟨3, ![297984, 8, 32]⟩
abbrev S297984x8 : Shape := ⟨2, ![297984, 8]⟩
abbrev S768x8x32 : Shape := ⟨3, ![768, 8, 32]⟩
abbrev S768x8 : Shape := ⟨2, ![768, 8]⟩
abbrev S768x8x1 : Shape := ⟨3, ![768, 8, 1]⟩
abbrev S6144x8 : Shape := ⟨2, ![6144, 8]⟩
abbrev S6144x8x1 : Shape := ⟨3, ![6144, 8, 1]⟩
abbrev S1x256x256 : Shape := ⟨3, ![1, 256, 256]⟩
abbrev S256x256 : Shape := ⟨2, ![256, 256]⟩
abbrev S1x256x1024 : Shape := ⟨3, ![1, 256, 1024]⟩
abbrev S6144x1024 : Shape := ⟨2, ![6144, 1024]⟩
abbrev S1x1024 : Shape := ⟨2, ![1, 1024]⟩
abbrev S1x1024x256 : Shape := ⟨3, ![1, 1024, 256]⟩

abbrev nBuf : Space → Nat
  | .hbm => 409
  | .vmem => 20
  | .smem => 0
  | _ => 0

abbrev hbmTy0_0 (i : Nat) : BufTy := match i % 128 with
  | 0 => ⟨S6144, .i32⟩
  | 1 => ⟨S6144, .i32⟩
  | 2 => ⟨S297984, .i32⟩
  | 3 => ⟨S297984, .i32⟩
  | 4 => ⟨S1024x256, .f32⟩
  | 5 => ⟨S3x256, .f32⟩
  | 6 => ⟨S32x256, .f32⟩
  | 7 => ⟨S2x256, .f32⟩
  | 8 => ⟨S2x256, .f32⟩
  | 9 => ⟨S2x256x768, .f32⟩
  | 10 => ⟨S2x768, .f32⟩
  | 11 => ⟨S2x256x256, .f32⟩
  | 12 => ⟨S2x256, .f32⟩
  | 13 => ⟨S2x256, .f32⟩
  | 14 => ⟨S2x256, .f32⟩
  | 15 => ⟨S2x256x1024, .f32⟩
  | 16 => ⟨S2x1024, .f32⟩
  | 17 => ⟨S2x1024x256, .f32⟩
  | 18 => ⟨S2x256, .f32⟩
  | 19 => ⟨S256x1024, .f32⟩
  | 20 => ⟨S1024, .f32⟩
  | 21 => ⟨S_, .i32⟩
  | 22 => ⟨S_, .i32⟩
  | 23 => ⟨S_, .i32⟩
  | 24 => ⟨S_, .i1⟩
  | 25 => ⟨S_, .i32⟩
  | 26 => ⟨S_, .i32⟩
  | 27 => ⟨S6144, .i32⟩
  | 28 => ⟨S6144, .i32⟩
  | 29 => ⟨S_, .i32⟩
  | 30 => ⟨S6144, .i32⟩
  | 31 => ⟨S6144, .i1⟩
  | 32 => ⟨S_, .i32⟩
  | 33 => ⟨S6144, .i32⟩
  | 34 => ⟨S6144, .i1⟩
  | 35 => ⟨S_, .i32⟩
  | 36 => ⟨S_, .i1⟩
  | 37 => ⟨S6144, .i1⟩
  | 38 => ⟨S6144, .i1⟩
  | 39 => ⟨S6144, .i1⟩
  | 40 => ⟨S6144, .i32⟩
  | 41 => ⟨S6144, .i32⟩
  | 42 => ⟨S6144, .i32⟩
  | 43 => ⟨S_, .i32⟩
  | 44 => ⟨S6144, .i32⟩
  | 45 => ⟨S6144, .i1⟩
  | 46 => ⟨S_, .i32⟩
  | 47 => ⟨S6144, .i32⟩
  | 48 => ⟨S6144, .i32⟩
  | 49 => ⟨S6144, .i32⟩
  | 50 => ⟨S6144x1, .i32⟩
  | 51 => ⟨S6144x256, .f32⟩
  | 52 => ⟨S_, .i32⟩
  | 53 => ⟨S_, .i32⟩
  | 54 => ⟨S6144, .i32⟩
  | 55 => ⟨S6144, .i32⟩
  | 56 => ⟨S6144, .i32⟩
  | 57 => ⟨S_, .i32⟩
  | 58 => ⟨S6144, .i32⟩
  | 59 => ⟨S6144, .i1⟩
  | 60 => ⟨S6144, .i32⟩
  | 61 => ⟨S6144, .i32⟩
  | 62 => ⟨S_, .i32⟩
  | 63 => ⟨S6144, .i32⟩
  | 64 => ⟨S6144, .i1⟩
  | 65 => ⟨S6144, .i1⟩
  | 66 => ⟨S_, .i32⟩
  | 67 => ⟨S6144, .i32⟩
  | 68 => ⟨S6144, .i32⟩
  | 69 => ⟨S6144, .i32⟩
  | 70 => ⟨S_, .i32⟩
  | 71 => ⟨S6144, .i32⟩
  | 72 => ⟨S6144, .i1⟩
  | 73 => ⟨S_, .i32⟩
  | 74 => ⟨S6144, .i32⟩
  | 75 => ⟨S6144, .i32⟩
  | 76 => ⟨S6144, .i32⟩
  | 77 => ⟨S6144x1, .i32⟩
  | 78 => ⟨S6144x256, .f32⟩
  | 79 => ⟨S6144x256, .f32⟩
  | 80 => ⟨S_, .i32⟩
  | 81 => ⟨S6144, .i32⟩
  | 82 => ⟨S6144, .i1⟩
  | 83 => ⟨S_, .i32⟩
  | 84 => ⟨S6144, .i32⟩
  | 85 => ⟨S6144, .i32⟩
  | 86 => ⟨S6144, .i32⟩
  | 87 => ⟨S6144x1, .i32⟩
  | 88 => ⟨S6144x256, .f32⟩
  | 89 => ⟨S6144x256, .f32⟩
  | 90 => ⟨S1x256, .f32⟩
  | 91 => ⟨S256, .f32⟩
  | 92 => ⟨S1x256, .f32⟩
  | 93 => ⟨S256, .f32⟩
  | 94 => ⟨S_, .f32⟩
  | 95 => ⟨S6144, .f32⟩
  | 96 => ⟨S6144x1, .f32⟩
  | 97 => ⟨S_, .f32⟩
  | 98 => ⟨S6144x1, .f32⟩
  | 99 => ⟨S6144x1, .f32⟩
  | 100 => ⟨S6144x256, .f32⟩
  | 101 => ⟨S6144x256, .f32⟩
  | 102 => ⟨S6144x256, .f32⟩
  | 103 => ⟨S_, .f32⟩
  | 104 => ⟨S6144, .f32⟩
  | 105 => ⟨S6144x1, .f32⟩
  | 106 => ⟨S_, .f32⟩
  | 107 => ⟨S6144x1, .f32⟩
  | 108 => ⟨S6144x1, .f32⟩
  | 109 => ⟨S6144x256, .f32⟩
  | 110 => ⟨S6144x256, .f32⟩
  | 111 => ⟨S_, .f32⟩
  | 112 => ⟨S6144x1, .f32⟩
  | 113 => ⟨S6144x1, .f32⟩
  | 114 => ⟨S6144x1, .f32⟩
  | 115 => ⟨S6144x256, .f32⟩
  | 116 => ⟨S6144x256, .f32⟩
  | 117 => ⟨S1x256, .f32⟩
  | 118 => ⟨S6144x256, .f32⟩
  | 119 => ⟨S6144x256, .f32⟩
  | 120 => ⟨S1x256, .f32⟩
  | 121 => ⟨S6144x256, .f32⟩
  | 122 => ⟨S6144x256, .f32⟩
  | 123 => ⟨S1x256x768, .f32⟩
  | 124 => ⟨S256x768, .f32⟩
  | 125 => ⟨S6144x768, .f32⟩
  | 126 => ⟨S1x768, .f32⟩
  | 127 => ⟨S768, .f32⟩
  | _ => ⟨S6144, .i32⟩

abbrev hbmTy0_1 (i : Nat) : BufTy := match i % 128 with
  | 0 => ⟨S1x768, .f32⟩
  | 1 => ⟨S6144x768, .f32⟩
  | 2 => ⟨S6144x768, .f32⟩
  | 3 => ⟨S6144x256, .f32⟩
  | 4 => ⟨S6144x256, .f32⟩
  | 5 => ⟨S6144x256, .f32⟩
  | 6 => ⟨S6144x8x32, .f32⟩
  | 7 => ⟨S6144x8x32, .f32⟩
  | 8 => ⟨S6144x8x32, .f32⟩
  | 9 => ⟨S_, .i32⟩
  | 10 => ⟨S297984, .i32⟩
  | 11 => ⟨S297984, .i1⟩
  | 12 => ⟨S_, .i32⟩
  | 13 => ⟨S297984, .i32⟩
  | 14 => ⟨S297984, .i32⟩
  | 15 => ⟨S297984, .i32⟩
  | 16 => ⟨S297984x1, .i32⟩
  | 17 => ⟨S297984x8x32, .f32⟩
  | 18 => ⟨S_, .i32⟩
  | 19 => ⟨S297984, .i32⟩
  | 20 => ⟨S297984, .i1⟩
  | 21 => ⟨S_, .i32⟩
  | 22 => ⟨S297984, .i32⟩
  | 23 => ⟨S297984, .i32⟩
  | 24 => ⟨S297984, .i32⟩
  | 25 => ⟨S297984x1, .i32⟩
  | 26 => ⟨S297984x8x32, .f32⟩
  | 27 => ⟨S_, .i32⟩
  | 28 => ⟨S297984, .i32⟩
  | 29 => ⟨S297984, .i1⟩
  | 30 => ⟨S_, .i32⟩
  | 31 => ⟨S297984, .i32⟩
  | 32 => ⟨S297984, .i32⟩
  | 33 => ⟨S297984, .i32⟩
  | 34 => ⟨S297984x1, .i32⟩
  | 35 => ⟨S297984x8x32, .f32⟩
  | 36 => ⟨S297984x8x32, .f32⟩
  | 37 => ⟨S297984x8, .f32⟩
  | 38 => ⟨S_, .f32⟩
  | 39 => ⟨S6144x8x32, .f32⟩
  | 40 => ⟨S297984x1, .i32⟩
  | 41 => ⟨S6144x8x32, .f32⟩
  | 42 => ⟨S_, .f32⟩
  | 43 => ⟨S6144x8, .f32⟩
  | 44 => ⟨S297984x1, .i32⟩
  | 45 => ⟨S6144x8, .f32⟩
  | 46 => ⟨S6144x8x1, .f32⟩
  | 47 => ⟨S6144x8x32, .f32⟩
  | 48 => ⟨S6144x8x32, .f32⟩
  | 49 => ⟨S6144x256, .f32⟩
  | 50 => ⟨S1x256x256, .f32⟩
  | 51 => ⟨S256x256, .f32⟩
  | 52 => ⟨S6144x256, .f32⟩
  | 53 => ⟨S6144x256, .f32⟩
  | 54 => ⟨S1x256, .f32⟩
  | 55 => ⟨S256, .f32⟩
  | 56 => ⟨S1x256, .f32⟩
  | 57 => ⟨S6144x256, .f32⟩
  | 58 => ⟨S6144x256, .f32⟩
  | 59 => ⟨S1x256, .f32⟩
  | 60 => ⟨S256, .f32⟩
  | 61 => ⟨S1x256, .f32⟩
  | 62 => ⟨S256, .f32⟩
  | 63 => ⟨S_, .f32⟩
  | 64 => ⟨S6144, .f32⟩
  | 65 => ⟨S6144x1, .f32⟩
  | 66 => ⟨S_, .f32⟩
  | 67 => ⟨S6144x1, .f32⟩
  | 68 => ⟨S6144x1, .f32⟩
  | 69 => ⟨S6144x256, .f32⟩
  | 70 => ⟨S6144x256, .f32⟩
  | 71 => ⟨S6144x256, .f32⟩
  | 72 => ⟨S_, .f32⟩
  | 73 => ⟨S6144, .f32⟩
  | 74 => ⟨S6144x1, .f32⟩
  | 75 => ⟨S_, .f32⟩
  | 76 => ⟨S6144x1, .f32⟩
  | 77 => ⟨S6144x1, .f32⟩
  | 78 => ⟨S6144x256, .f32⟩
  | 79 => ⟨S6144x256, .f32⟩
  | 80 => ⟨S_, .f32⟩
  | 81 => ⟨S6144x1, .f32⟩
  | 82 => ⟨S6144x1, .f32⟩
  | 83 => ⟨S6144x1, .f32⟩
  | 84 => ⟨S6144x256, .f32⟩
  | 85 => ⟨S6144x256, .f32⟩
  | 86 => ⟨S1x256, .f32⟩
  | 87 => ⟨S6144x256, .f32⟩
  | 88 => ⟨S6144x256, .f32⟩
  | 89 => ⟨S1x256, .f32⟩
  | 90 => ⟨S6144x256, .f32⟩
  | 91 => ⟨S6144x256, .f32⟩
  | 92 => ⟨S1x256x1024, .f32⟩
  | 93 => ⟨S256x1024, .f32⟩
  | 94 => ⟨S6144x1024, .f32⟩
  | 95 => ⟨S1x1024, .f32⟩
  | 96 => ⟨S1024, .f32⟩
  | 97 => ⟨S1x1024, .f32⟩
  | 98 => ⟨S6144x1024, .f32⟩
  | 99 => ⟨S6144x1024, .f32⟩
  | 100 => ⟨S_, .f32⟩
  | 101 => ⟨S6144x1024, .f32⟩
  | 102 => ⟨S6144x1024, .f32⟩
  | 103 => ⟨S1x1024x256, .f32⟩
  | 104 => ⟨S1024x256, .f32⟩
  | 105 => ⟨S6144x256, .f32⟩
  | 106 => ⟨S6144x256, .f32⟩
  | 107 => ⟨S1x256, .f32⟩
  | 108 => ⟨S256, .f32⟩
  | 109 => ⟨S1x256, .f32⟩
  | 110 => ⟨S6144x256, .f32⟩
  | 111 => ⟨S6144x256, .f32⟩
  | 112 => ⟨S1x256, .f32⟩
  | 113 => ⟨S256, .f32⟩
  | 114 => ⟨S1x256, .f32⟩
  | 115 => ⟨S256, .f32⟩
  | 116 => ⟨S_, .f32⟩
  | 117 => ⟨S6144, .f32⟩
  | 118 => ⟨S6144x1, .f32⟩
  | 119 => ⟨S_, .f32⟩
  | 120 => ⟨S6144x1, .f32⟩
  | 121 => ⟨S6144x1, .f32⟩
  | 122 => ⟨S6144x256, .f32⟩
  | 123 => ⟨S6144x256, .f32⟩
  | 124 => ⟨S6144x256, .f32⟩
  | 125 => ⟨S_, .f32⟩
  | 126 => ⟨S6144, .f32⟩
  | 127 => ⟨S6144x1, .f32⟩
  | _ => ⟨S6144, .i32⟩

abbrev hbmTy0_2 (i : Nat) : BufTy := match i % 128 with
  | 0 => ⟨S_, .f32⟩
  | 1 => ⟨S6144x1, .f32⟩
  | 2 => ⟨S6144x1, .f32⟩
  | 3 => ⟨S6144x256, .f32⟩
  | 4 => ⟨S6144x256, .f32⟩
  | 5 => ⟨S_, .f32⟩
  | 6 => ⟨S6144x1, .f32⟩
  | 7 => ⟨S6144x1, .f32⟩
  | 8 => ⟨S6144x1, .f32⟩
  | 9 => ⟨S6144x256, .f32⟩
  | 10 => ⟨S6144x256, .f32⟩
  | 11 => ⟨S1x256, .f32⟩
  | 12 => ⟨S6144x256, .f32⟩
  | 13 => ⟨S6144x256, .f32⟩
  | 14 => ⟨S1x256, .f32⟩
  | 15 => ⟨S6144x256, .f32⟩
  | 16 => ⟨S6144x256, .f32⟩
  | 17 => ⟨S1x256x768, .f32⟩
  | 18 => ⟨S256x768, .f32⟩
  | 19 => ⟨S6144x768, .f32⟩
  | 20 => ⟨S1x768, .f32⟩
  | 21 => ⟨S768, .f32⟩
  | 22 => ⟨S1x768, .f32⟩
  | 23 => ⟨S6144x768, .f32⟩
  | 24 => ⟨S6144x768, .f32⟩
  | 25 => ⟨S6144x256, .f32⟩
  | 26 => ⟨S6144x256, .f32⟩
  | 27 => ⟨S6144x256, .f32⟩
  | 28 => ⟨S6144x8x32, .f32⟩
  | 29 => ⟨S6144x8x32, .f32⟩
  | 30 => ⟨S6144x8x32, .f32⟩
  | 31 => ⟨S_, .i32⟩
  | 32 => ⟨S297984, .i32⟩
  | 33 => ⟨S297984, .i1⟩
  | 34 => ⟨S_, .i32⟩
  | 35 => ⟨S297984, .i32⟩
  | 36 => ⟨S297984, .i32⟩
  | 37 => ⟨S297984, .i32⟩
  | 38 => ⟨S297984x1, .i32⟩
  | 39 => ⟨S297984x8x32, .f32⟩
  | 40 => ⟨S_, .i32⟩
  | 41 => ⟨S297984, .i32⟩
  | 42 => ⟨S297984, .i1⟩
  | 43 => ⟨S_, .i32⟩
  | 44 => ⟨S297984, .i32⟩
  | 45 => ⟨S297984, .i32⟩
  | 46 => ⟨S297984, .i32⟩
  | 47 => ⟨S297984x1, .i32⟩
  | 48 => ⟨S297984x8x32, .f32⟩
  | 49 => ⟨S_, .i32⟩
  | 50 => ⟨S297984, .i32⟩
  | 51 => ⟨S297984, .i1⟩
  | 52 => ⟨S_, .i32⟩
  | 53 => ⟨S297984, .i32⟩
  | 54 => ⟨S297984, .i32⟩
  | 55 => ⟨S297984, .i32⟩
  | 56 => ⟨S297984x1, .i32⟩
  | 57 => ⟨S297984x8x32, .f32⟩
  | 58 => ⟨S297984x8x32, .f32⟩
  | 59 => ⟨S297984x8, .f32⟩
  | 60 => ⟨S_, .f32⟩
  | 61 => ⟨S6144x8x32, .f32⟩
  | 62 => ⟨S297984x1, .i32⟩
  | 63 => ⟨S6144x8x32, .f32⟩
  | 64 => ⟨S_, .f32⟩
  | 65 => ⟨S6144x8, .f32⟩
  | 66 => ⟨S297984x1, .i32⟩
  | 67 => ⟨S6144x8, .f32⟩
  | 68 => ⟨S6144x8x1, .f32⟩
  | 69 => ⟨S6144x8x32, .f32⟩
  | 70 => ⟨S6144x8x32, .f32⟩
  | 71 => ⟨S6144x256, .f32⟩
  | 72 => ⟨S1x256x256, .f32⟩
  | 73 => ⟨S256x256, .f32⟩
  | 74 => ⟨S6144x256, .f32⟩
  | 75 => ⟨S6144x256, .f32⟩
  | 76 => ⟨S1x256, .f32⟩
  | 77 => ⟨S256, .f32⟩
  | 78 => ⟨S1x256, .f32⟩
  | 79 => ⟨S6144x256, .f32⟩
  | 80 => ⟨S6144x256, .f32⟩
  | 81 => ⟨S1x256, .f32⟩
  | 82 => ⟨S256, .f32⟩
  | 83 => ⟨S1x256, .f32⟩
  | 84 => ⟨S256, .f32⟩
  | 85 => ⟨S_, .f32⟩
  | 86 => ⟨S6144, .f32⟩
  | 87 => ⟨S6144x1, .f32⟩
  | 88 => ⟨S_, .f32⟩
  | 89 => ⟨S6144x1, .f32⟩
  | 90 => ⟨S6144x1, .f32⟩
  | 91 => ⟨S6144x256, .f32⟩
  | 92 => ⟨S6144x256, .f32⟩
  | 93 => ⟨S6144x256, .f32⟩
  | 94 => ⟨S_, .f32⟩
  | 95 => ⟨S6144, .f32⟩
  | 96 => ⟨S6144x1, .f32⟩
  | 97 => ⟨S_, .f32⟩
  | 98 => ⟨S6144x1, .f32⟩
  | 99 => ⟨S6144x1, .f32⟩
  | 100 => ⟨S6144x256, .f32⟩
  | 101 => ⟨S6144x256, .f32⟩
  | 102 => ⟨S_, .f32⟩
  | 103 => ⟨S6144x1, .f32⟩
  | 104 => ⟨S6144x1, .f32⟩
  | 105 => ⟨S6144x1, .f32⟩
  | 106 => ⟨S6144x256, .f32⟩
  | 107 => ⟨S6144x256, .f32⟩
  | 108 => ⟨S1x256, .f32⟩
  | 109 => ⟨S6144x256, .f32⟩
  | 110 => ⟨S6144x256, .f32⟩
  | 111 => ⟨S1x256, .f32⟩
  | 112 => ⟨S6144x256, .f32⟩
  | 113 => ⟨S6144x256, .f32⟩
  | 114 => ⟨S1x256x1024, .f32⟩
  | 115 => ⟨S256x1024, .f32⟩
  | 116 => ⟨S6144x1024, .f32⟩
  | 117 => ⟨S1x1024, .f32⟩
  | 118 => ⟨S1024, .f32⟩
  | 119 => ⟨S1x1024, .f32⟩
  | 120 => ⟨S6144x1024, .f32⟩
  | 121 => ⟨S6144x1024, .f32⟩
  | 122 => ⟨S_, .f32⟩
  | 123 => ⟨S6144x1024, .f32⟩
  | 124 => ⟨S6144x1024, .f32⟩
  | 125 => ⟨S1x1024x256, .f32⟩
  | 126 => ⟨S1024x256, .f32⟩
  | 127 => ⟨S6144x256, .f32⟩
  | _ => ⟨S6144, .i32⟩

abbrev hbmTy0_3 (i : Nat) : BufTy := match i % 128 with
  | 0 => ⟨S6144x256, .f32⟩
  | 1 => ⟨S1x256, .f32⟩
  | 2 => ⟨S256, .f32⟩
  | 3 => ⟨S1x256, .f32⟩
  | 4 => ⟨S6144x256, .f32⟩
  | 5 => ⟨S6144x256, .f32⟩
  | 6 => ⟨S6144x1024, .f32⟩
  | 7 => ⟨S1x1024, .f32⟩
  | 8 => ⟨S6144x1024, .f32⟩
  | 9 => ⟨S6144x1024, .f32⟩
  | 10 => ⟨S_, .f32⟩
  | 11 => ⟨S6144, .f32⟩
  | 12 => ⟨S_, .f32⟩
  | 13 => ⟨S6144, .f32⟩
  | 14 => ⟨S6144, .f32⟩
  | 15 => ⟨S6144x1, .f32⟩
  | 16 => ⟨S6144x1024, .f32⟩
  | 17 => ⟨S6144x1024, .f32⟩
  | 18 => ⟨S6144x1024, .f32⟩
  | 19 => ⟨S_, .f32⟩
  | 20 => ⟨S6144, .f32⟩
  | 21 => ⟨S6144x1, .f32⟩
  | 22 => ⟨S6144x1, .f32⟩
  | 23 => ⟨S6144x1024, .f32⟩
  | 24 => ⟨S6144x1024, .f32⟩
  | _ => ⟨S6144, .i32⟩

abbrev hbmTy (i : Nat) : BufTy := match i / 128 with
  | 0 => hbmTy0_0 i
  | 1 => hbmTy0_1 i
  | 2 => hbmTy0_2 i
  | 3 => hbmTy0_3 i
  | _ => ⟨S6144, .i32⟩

abbrev bufTy : (tb : Table) → Fin (tcTables nBuf tb) → BufTy
  | .hbm, ⟨i, _⟩ => hbmTy i
  | .local _ .vmem, ⟨0, _⟩ => ⟨S768x8x32, .f32⟩
  | .local _ .vmem, ⟨1, _⟩ => ⟨S768x8x32, .f32⟩
  | .local _ .vmem, ⟨2, _⟩ => ⟨S768x8x32, .f32⟩
  | .local _ .vmem, ⟨3, _⟩ => ⟨S768x8x32, .f32⟩
  | .local _ .vmem, ⟨4, _⟩ => ⟨S768x8x32, .f32⟩
  | .local _ .vmem, ⟨5, _⟩ => ⟨S768x8x32, .f32⟩
  | .local _ .vmem, ⟨6, _⟩ => ⟨S768x8x32, .f32⟩
  | .local _ .vmem, ⟨7, _⟩ => ⟨S768x8x32, .f32⟩
  | .local _ .vmem, ⟨8, _⟩ => ⟨S768x8, .f32⟩
  | .local _ .vmem, ⟨9, _⟩ => ⟨S768x8, .f32⟩
  | .local _ .vmem, ⟨10, _⟩ => ⟨S768x8x32, .f32⟩
  | .local _ .vmem, ⟨11, _⟩ => ⟨S768x8x32, .f32⟩
  | .local _ .vmem, ⟨12, _⟩ => ⟨S768x8x32, .f32⟩
  | .local _ .vmem, ⟨13, _⟩ => ⟨S768x8x32, .f32⟩
  | .local _ .vmem, ⟨14, _⟩ => ⟨S768x8x32, .f32⟩
  | .local _ .vmem, ⟨15, _⟩ => ⟨S768x8x32, .f32⟩
  | .local _ .vmem, ⟨16, _⟩ => ⟨S768x8x32, .f32⟩
  | .local _ .vmem, ⟨17, _⟩ => ⟨S768x8x32, .f32⟩
  | .local _ .vmem, ⟨18, _⟩ => ⟨S768x8, .f32⟩
  | .local _ .vmem, ⟨19, _⟩ => ⟨S768x8, .f32⟩
  | _, _ => ⟨S6144, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_c : Ref sig .tc := ⟨.hbm, 21, rfl⟩
abbrev main_call0_v0 : Ref sig .tc := ⟨.hbm, 22, rfl⟩
abbrev main_call0_c : Ref sig .tc := ⟨.hbm, 23, rfl⟩
abbrev main_call0_v1 : Ref sig .tc := ⟨.hbm, 24, rfl⟩
abbrev main_call0_c_0 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_call0_c_1 : Ref sig .tc := ⟨.hbm, 29, rfl⟩
abbrev main_call0_v5 : Ref sig .tc := ⟨.hbm, 30, rfl⟩
abbrev main_call0_v6 : Ref sig .tc := ⟨.hbm, 31, rfl⟩
abbrev main_call0_c_2 : Ref sig .tc := ⟨.hbm, 32, rfl⟩
abbrev main_call0_v7 : Ref sig .tc := ⟨.hbm, 33, rfl⟩
abbrev main_call0_v8 : Ref sig .tc := ⟨.hbm, 34, rfl⟩
abbrev main_call0_c_3 : Ref sig .tc := ⟨.hbm, 35, rfl⟩
abbrev main_call0_v9 : Ref sig .tc := ⟨.hbm, 36, rfl⟩
abbrev main_call0_v10 : Ref sig .tc := ⟨.hbm, 37, rfl⟩
abbrev main_call0_v11 : Ref sig .tc := ⟨.hbm, 38, rfl⟩
abbrev main_call0_v12 : Ref sig .tc := ⟨.hbm, 39, rfl⟩
abbrev main_call0_v13 : Ref sig .tc := ⟨.hbm, 40, rfl⟩
abbrev main_call0_v14 : Ref sig .tc := ⟨.hbm, 41, rfl⟩
abbrev main_v0 : Ref sig .tc := ⟨.hbm, 42, rfl⟩
abbrev main_c_0 : Ref sig .tc := ⟨.hbm, 43, rfl⟩
abbrev main_v1 : Ref sig .tc := ⟨.hbm, 44, rfl⟩
abbrev main_v2 : Ref sig .tc := ⟨.hbm, 45, rfl⟩
abbrev main_c_1 : Ref sig .tc := ⟨.hbm, 46, rfl⟩
abbrev main_v3 : Ref sig .tc := ⟨.hbm, 47, rfl⟩
abbrev main_v4 : Ref sig .tc := ⟨.hbm, 48, rfl⟩
abbrev main_v5 : Ref sig .tc := ⟨.hbm, 49, rfl⟩
abbrev main_v6 : Ref sig .tc := ⟨.hbm, 50, rfl⟩
abbrev main_v7 : Ref sig .tc := ⟨.hbm, 51, rfl⟩
abbrev main_c_2 : Ref sig .tc := ⟨.hbm, 52, rfl⟩
abbrev main_call1_v0 : Ref sig .tc := ⟨.hbm, 53, rfl⟩
abbrev main_call1_v1 : Ref sig .tc := ⟨.hbm, 54, rfl⟩
abbrev main_call1_v2 : Ref sig .tc := ⟨.hbm, 55, rfl⟩
abbrev main_call1_v3 : Ref sig .tc := ⟨.hbm, 56, rfl⟩
abbrev main_call1_v4 : Ref sig .tc := ⟨.hbm, 57, rfl⟩
abbrev main_call1_v5 : Ref sig .tc := ⟨.hbm, 58, rfl⟩
abbrev main_call1_v6 : Ref sig .tc := ⟨.hbm, 59, rfl⟩
abbrev main_call1_v7 : Ref sig .tc := ⟨.hbm, 60, rfl⟩
abbrev main_call1_v8 : Ref sig .tc := ⟨.hbm, 61, rfl⟩
abbrev main_call1_c : Ref sig .tc := ⟨.hbm, 62, rfl⟩
abbrev main_call1_v9 : Ref sig .tc := ⟨.hbm, 63, rfl⟩
abbrev main_call1_v10 : Ref sig .tc := ⟨.hbm, 64, rfl⟩
abbrev main_call1_v11 : Ref sig .tc := ⟨.hbm, 65, rfl⟩
abbrev main_call1_c_0 : Ref sig .tc := ⟨.hbm, 66, rfl⟩
abbrev main_call1_v12 : Ref sig .tc := ⟨.hbm, 67, rfl⟩
abbrev main_call1_v13 : Ref sig .tc := ⟨.hbm, 68, rfl⟩
abbrev main_v8 : Ref sig .tc := ⟨.hbm, 69, rfl⟩
abbrev main_c_3 : Ref sig .tc := ⟨.hbm, 70, rfl⟩
abbrev main_v9 : Ref sig .tc := ⟨.hbm, 71, rfl⟩
abbrev main_v10 : Ref sig .tc := ⟨.hbm, 72, rfl⟩
abbrev main_c_4 : Ref sig .tc := ⟨.hbm, 73, rfl⟩
abbrev main_v11 : Ref sig .tc := ⟨.hbm, 74, rfl⟩
abbrev main_v12 : Ref sig .tc := ⟨.hbm, 75, rfl⟩
abbrev main_v13 : Ref sig .tc := ⟨.hbm, 76, rfl⟩
abbrev main_v14 : Ref sig .tc := ⟨.hbm, 77, rfl⟩
abbrev main_v15 : Ref sig .tc := ⟨.hbm, 78, rfl⟩
abbrev main_v16 : Ref sig .tc := ⟨.hbm, 79, rfl⟩
abbrev main_c_5 : Ref sig .tc := ⟨.hbm, 80, rfl⟩
abbrev main_v17 : Ref sig .tc := ⟨.hbm, 81, rfl⟩
abbrev main_v18 : Ref sig .tc := ⟨.hbm, 82, rfl⟩
abbrev main_c_6 : Ref sig .tc := ⟨.hbm, 83, rfl⟩
abbrev main_v19 : Ref sig .tc := ⟨.hbm, 84, rfl⟩
abbrev main_v20 : Ref sig .tc := ⟨.hbm, 85, rfl⟩
abbrev main_v21 : Ref sig .tc := ⟨.hbm, 86, rfl⟩
abbrev main_v22 : Ref sig .tc := ⟨.hbm, 87, rfl⟩
abbrev main_v23 : Ref sig .tc := ⟨.hbm, 88, rfl⟩
abbrev main_v24 : Ref sig .tc := ⟨.hbm, 89, rfl⟩
abbrev main_v25 : Ref sig .tc := ⟨.hbm, 90, rfl⟩
abbrev main_v26 : Ref sig .tc := ⟨.hbm, 91, rfl⟩
abbrev main_v27 : Ref sig .tc := ⟨.hbm, 92, rfl⟩
abbrev main_v28 : Ref sig .tc := ⟨.hbm, 93, rfl⟩
abbrev main_cst : Ref sig .tc := ⟨.hbm, 94, rfl⟩
abbrev main_v29 : Ref sig .tc := ⟨.hbm, 95, rfl⟩
abbrev main_v30 : Ref sig .tc := ⟨.hbm, 96, rfl⟩
abbrev main_cst_7 : Ref sig .tc := ⟨.hbm, 97, rfl⟩
abbrev main_v31 : Ref sig .tc := ⟨.hbm, 98, rfl⟩
abbrev main_v32 : Ref sig .tc := ⟨.hbm, 99, rfl⟩
abbrev main_v33 : Ref sig .tc := ⟨.hbm, 100, rfl⟩
abbrev main_v34 : Ref sig .tc := ⟨.hbm, 101, rfl⟩
abbrev main_v35 : Ref sig .tc := ⟨.hbm, 102, rfl⟩
abbrev main_cst_8 : Ref sig .tc := ⟨.hbm, 103, rfl⟩
abbrev main_v36 : Ref sig .tc := ⟨.hbm, 104, rfl⟩
abbrev main_v37 : Ref sig .tc := ⟨.hbm, 105, rfl⟩
abbrev main_cst_9 : Ref sig .tc := ⟨.hbm, 106, rfl⟩
abbrev main_v38 : Ref sig .tc := ⟨.hbm, 107, rfl⟩
abbrev main_v39 : Ref sig .tc := ⟨.hbm, 108, rfl⟩
abbrev main_v40 : Ref sig .tc := ⟨.hbm, 109, rfl⟩
abbrev main_v41 : Ref sig .tc := ⟨.hbm, 110, rfl⟩
abbrev main_cst_10 : Ref sig .tc := ⟨.hbm, 111, rfl⟩
abbrev main_v42 : Ref sig .tc := ⟨.hbm, 112, rfl⟩
abbrev main_v43 : Ref sig .tc := ⟨.hbm, 113, rfl⟩
abbrev main_v44 : Ref sig .tc := ⟨.hbm, 114, rfl⟩
abbrev main_v45 : Ref sig .tc := ⟨.hbm, 115, rfl⟩
abbrev main_v46 : Ref sig .tc := ⟨.hbm, 116, rfl⟩
abbrev main_v47 : Ref sig .tc := ⟨.hbm, 117, rfl⟩
abbrev main_v48 : Ref sig .tc := ⟨.hbm, 118, rfl⟩
abbrev main_v49 : Ref sig .tc := ⟨.hbm, 119, rfl⟩
abbrev main_v50 : Ref sig .tc := ⟨.hbm, 120, rfl⟩
abbrev main_v51 : Ref sig .tc := ⟨.hbm, 121, rfl⟩
abbrev main_v52 : Ref sig .tc := ⟨.hbm, 122, rfl⟩
abbrev main_v53 : Ref sig .tc := ⟨.hbm, 123, rfl⟩
abbrev main_v54 : Ref sig .tc := ⟨.hbm, 124, rfl⟩
abbrev main_v55 : Ref sig .tc := ⟨.hbm, 125, rfl⟩
abbrev main_v56 : Ref sig .tc := ⟨.hbm, 126, rfl⟩
abbrev main_v57 : Ref sig .tc := ⟨.hbm, 127, rfl⟩
abbrev main_v58 : Ref sig .tc := ⟨.hbm, 128, rfl⟩
abbrev main_v59 : Ref sig .tc := ⟨.hbm, 129, rfl⟩
abbrev main_v60 : Ref sig .tc := ⟨.hbm, 130, rfl⟩
abbrev main_v61 : Ref sig .tc := ⟨.hbm, 131, rfl⟩
abbrev main_v62 : Ref sig .tc := ⟨.hbm, 132, rfl⟩
abbrev main_v63 : Ref sig .tc := ⟨.hbm, 133, rfl⟩
abbrev main_v64 : Ref sig .tc := ⟨.hbm, 134, rfl⟩
abbrev main_v65 : Ref sig .tc := ⟨.hbm, 135, rfl⟩
abbrev main_v66 : Ref sig .tc := ⟨.hbm, 136, rfl⟩
abbrev main_c_11 : Ref sig .tc := ⟨.hbm, 137, rfl⟩
abbrev main_v67 : Ref sig .tc := ⟨.hbm, 138, rfl⟩
abbrev main_v68 : Ref sig .tc := ⟨.hbm, 139, rfl⟩
abbrev main_c_12 : Ref sig .tc := ⟨.hbm, 140, rfl⟩
abbrev main_v69 : Ref sig .tc := ⟨.hbm, 141, rfl⟩
abbrev main_v70 : Ref sig .tc := ⟨.hbm, 142, rfl⟩
abbrev main_v71 : Ref sig .tc := ⟨.hbm, 143, rfl⟩
abbrev main_v72 : Ref sig .tc := ⟨.hbm, 144, rfl⟩
abbrev main_v73 : Ref sig .tc := ⟨.hbm, 145, rfl⟩
abbrev main_c_13 : Ref sig .tc := ⟨.hbm, 146, rfl⟩
abbrev main_v74 : Ref sig .tc := ⟨.hbm, 147, rfl⟩
abbrev main_v75 : Ref sig .tc := ⟨.hbm, 148, rfl⟩
abbrev main_c_14 : Ref sig .tc := ⟨.hbm, 149, rfl⟩
abbrev main_v76 : Ref sig .tc := ⟨.hbm, 150, rfl⟩
abbrev main_v77 : Ref sig .tc := ⟨.hbm, 151, rfl⟩
abbrev main_v78 : Ref sig .tc := ⟨.hbm, 152, rfl⟩
abbrev main_v79 : Ref sig .tc := ⟨.hbm, 153, rfl⟩
abbrev main_v80 : Ref sig .tc := ⟨.hbm, 154, rfl⟩
abbrev main_c_15 : Ref sig .tc := ⟨.hbm, 155, rfl⟩
abbrev main_v81 : Ref sig .tc := ⟨.hbm, 156, rfl⟩
abbrev main_v82 : Ref sig .tc := ⟨.hbm, 157, rfl⟩
abbrev main_c_16 : Ref sig .tc := ⟨.hbm, 158, rfl⟩
abbrev main_v83 : Ref sig .tc := ⟨.hbm, 159, rfl⟩
abbrev main_v84 : Ref sig .tc := ⟨.hbm, 160, rfl⟩
abbrev main_v85 : Ref sig .tc := ⟨.hbm, 161, rfl⟩
abbrev main_v86 : Ref sig .tc := ⟨.hbm, 162, rfl⟩
abbrev main_v87 : Ref sig .tc := ⟨.hbm, 163, rfl⟩
abbrev main_v88_0 : Ref sig .tc := ⟨.hbm, 164, rfl⟩
abbrev main_v88_1 : Ref sig .tc := ⟨.hbm, 165, rfl⟩
abbrev main_cst_17 : Ref sig .tc := ⟨.hbm, 166, rfl⟩
abbrev main_v89 : Ref sig .tc := ⟨.hbm, 167, rfl⟩
abbrev main_v90 : Ref sig .tc := ⟨.hbm, 168, rfl⟩
abbrev main_v91 : Ref sig .tc := ⟨.hbm, 169, rfl⟩
abbrev main_cst_18 : Ref sig .tc := ⟨.hbm, 170, rfl⟩
abbrev main_v92 : Ref sig .tc := ⟨.hbm, 171, rfl⟩
abbrev main_v93 : Ref sig .tc := ⟨.hbm, 172, rfl⟩
abbrev main_v94 : Ref sig .tc := ⟨.hbm, 173, rfl⟩
abbrev main_v95 : Ref sig .tc := ⟨.hbm, 174, rfl⟩
abbrev main_v96 : Ref sig .tc := ⟨.hbm, 175, rfl⟩
abbrev main_v97 : Ref sig .tc := ⟨.hbm, 176, rfl⟩
abbrev main_v98 : Ref sig .tc := ⟨.hbm, 177, rfl⟩
abbrev main_v99 : Ref sig .tc := ⟨.hbm, 178, rfl⟩
abbrev main_v100 : Ref sig .tc := ⟨.hbm, 179, rfl⟩
abbrev main_v101 : Ref sig .tc := ⟨.hbm, 180, rfl⟩
abbrev main_v102 : Ref sig .tc := ⟨.hbm, 181, rfl⟩
abbrev main_v103 : Ref sig .tc := ⟨.hbm, 182, rfl⟩
abbrev main_v104 : Ref sig .tc := ⟨.hbm, 183, rfl⟩
abbrev main_v105 : Ref sig .tc := ⟨.hbm, 184, rfl⟩
abbrev main_v106 : Ref sig .tc := ⟨.hbm, 185, rfl⟩
abbrev main_v107 : Ref sig .tc := ⟨.hbm, 186, rfl⟩
abbrev main_v108 : Ref sig .tc := ⟨.hbm, 187, rfl⟩
abbrev main_v109 : Ref sig .tc := ⟨.hbm, 188, rfl⟩
abbrev main_v110 : Ref sig .tc := ⟨.hbm, 189, rfl⟩
abbrev main_v111 : Ref sig .tc := ⟨.hbm, 190, rfl⟩
abbrev main_cst_19 : Ref sig .tc := ⟨.hbm, 191, rfl⟩
abbrev main_v112 : Ref sig .tc := ⟨.hbm, 192, rfl⟩
abbrev main_v113 : Ref sig .tc := ⟨.hbm, 193, rfl⟩
abbrev main_cst_20 : Ref sig .tc := ⟨.hbm, 194, rfl⟩
abbrev main_v114 : Ref sig .tc := ⟨.hbm, 195, rfl⟩
abbrev main_v115 : Ref sig .tc := ⟨.hbm, 196, rfl⟩
abbrev main_v116 : Ref sig .tc := ⟨.hbm, 197, rfl⟩
abbrev main_v117 : Ref sig .tc := ⟨.hbm, 198, rfl⟩
abbrev main_v118 : Ref sig .tc := ⟨.hbm, 199, rfl⟩
abbrev main_cst_21 : Ref sig .tc := ⟨.hbm, 200, rfl⟩
abbrev main_v119 : Ref sig .tc := ⟨.hbm, 201, rfl⟩
abbrev main_v120 : Ref sig .tc := ⟨.hbm, 202, rfl⟩
abbrev main_cst_22 : Ref sig .tc := ⟨.hbm, 203, rfl⟩
abbrev main_v121 : Ref sig .tc := ⟨.hbm, 204, rfl⟩
abbrev main_v122 : Ref sig .tc := ⟨.hbm, 205, rfl⟩
abbrev main_v123 : Ref sig .tc := ⟨.hbm, 206, rfl⟩
abbrev main_v124 : Ref sig .tc := ⟨.hbm, 207, rfl⟩
abbrev main_cst_23 : Ref sig .tc := ⟨.hbm, 208, rfl⟩
abbrev main_v125 : Ref sig .tc := ⟨.hbm, 209, rfl⟩
abbrev main_v126 : Ref sig .tc := ⟨.hbm, 210, rfl⟩
abbrev main_v127 : Ref sig .tc := ⟨.hbm, 211, rfl⟩
abbrev main_v128 : Ref sig .tc := ⟨.hbm, 212, rfl⟩
abbrev main_v129 : Ref sig .tc := ⟨.hbm, 213, rfl⟩
abbrev main_v130 : Ref sig .tc := ⟨.hbm, 214, rfl⟩
abbrev main_v131 : Ref sig .tc := ⟨.hbm, 215, rfl⟩
abbrev main_v132 : Ref sig .tc := ⟨.hbm, 216, rfl⟩
abbrev main_v133 : Ref sig .tc := ⟨.hbm, 217, rfl⟩
abbrev main_v134 : Ref sig .tc := ⟨.hbm, 218, rfl⟩
abbrev main_v135 : Ref sig .tc := ⟨.hbm, 219, rfl⟩
abbrev main_v136 : Ref sig .tc := ⟨.hbm, 220, rfl⟩
abbrev main_v137 : Ref sig .tc := ⟨.hbm, 221, rfl⟩
abbrev main_v138 : Ref sig .tc := ⟨.hbm, 222, rfl⟩
abbrev main_v139 : Ref sig .tc := ⟨.hbm, 223, rfl⟩
abbrev main_v140 : Ref sig .tc := ⟨.hbm, 224, rfl⟩
abbrev main_v141 : Ref sig .tc := ⟨.hbm, 225, rfl⟩
abbrev main_v142 : Ref sig .tc := ⟨.hbm, 226, rfl⟩
abbrev main_v143 : Ref sig .tc := ⟨.hbm, 227, rfl⟩
abbrev main_call2_cst : Ref sig .tc := ⟨.hbm, 228, rfl⟩
abbrev main_call2_v0 : Ref sig .tc := ⟨.hbm, 229, rfl⟩
abbrev main_v144 : Ref sig .tc := ⟨.hbm, 230, rfl⟩
abbrev main_v145 : Ref sig .tc := ⟨.hbm, 231, rfl⟩
abbrev main_v146 : Ref sig .tc := ⟨.hbm, 232, rfl⟩
abbrev main_v147 : Ref sig .tc := ⟨.hbm, 233, rfl⟩
abbrev main_v148 : Ref sig .tc := ⟨.hbm, 234, rfl⟩
abbrev main_v149 : Ref sig .tc := ⟨.hbm, 235, rfl⟩
abbrev main_v150 : Ref sig .tc := ⟨.hbm, 236, rfl⟩
abbrev main_v151 : Ref sig .tc := ⟨.hbm, 237, rfl⟩
abbrev main_v152 : Ref sig .tc := ⟨.hbm, 238, rfl⟩
abbrev main_v153 : Ref sig .tc := ⟨.hbm, 239, rfl⟩
abbrev main_v154 : Ref sig .tc := ⟨.hbm, 240, rfl⟩
abbrev main_v155 : Ref sig .tc := ⟨.hbm, 241, rfl⟩
abbrev main_v156 : Ref sig .tc := ⟨.hbm, 242, rfl⟩
abbrev main_v157 : Ref sig .tc := ⟨.hbm, 243, rfl⟩
abbrev main_cst_24 : Ref sig .tc := ⟨.hbm, 244, rfl⟩
abbrev main_v158 : Ref sig .tc := ⟨.hbm, 245, rfl⟩
abbrev main_v159 : Ref sig .tc := ⟨.hbm, 246, rfl⟩
abbrev main_cst_25 : Ref sig .tc := ⟨.hbm, 247, rfl⟩
abbrev main_v160 : Ref sig .tc := ⟨.hbm, 248, rfl⟩
abbrev main_v161 : Ref sig .tc := ⟨.hbm, 249, rfl⟩
abbrev main_v162 : Ref sig .tc := ⟨.hbm, 250, rfl⟩
abbrev main_v163 : Ref sig .tc := ⟨.hbm, 251, rfl⟩
abbrev main_v164 : Ref sig .tc := ⟨.hbm, 252, rfl⟩
abbrev main_cst_26 : Ref sig .tc := ⟨.hbm, 253, rfl⟩
abbrev main_v165 : Ref sig .tc := ⟨.hbm, 254, rfl⟩
abbrev main_v166 : Ref sig .tc := ⟨.hbm, 255, rfl⟩
abbrev main_cst_27 : Ref sig .tc := ⟨.hbm, 256, rfl⟩
abbrev main_v167 : Ref sig .tc := ⟨.hbm, 257, rfl⟩
abbrev main_v168 : Ref sig .tc := ⟨.hbm, 258, rfl⟩
abbrev main_v169 : Ref sig .tc := ⟨.hbm, 259, rfl⟩
abbrev main_v170 : Ref sig .tc := ⟨.hbm, 260, rfl⟩
abbrev main_cst_28 : Ref sig .tc := ⟨.hbm, 261, rfl⟩
abbrev main_v171 : Ref sig .tc := ⟨.hbm, 262, rfl⟩
abbrev main_v172 : Ref sig .tc := ⟨.hbm, 263, rfl⟩
abbrev main_v173 : Ref sig .tc := ⟨.hbm, 264, rfl⟩
abbrev main_v174 : Ref sig .tc := ⟨.hbm, 265, rfl⟩
abbrev main_v175 : Ref sig .tc := ⟨.hbm, 266, rfl⟩
abbrev main_v176 : Ref sig .tc := ⟨.hbm, 267, rfl⟩
abbrev main_v177 : Ref sig .tc := ⟨.hbm, 268, rfl⟩
abbrev main_v178 : Ref sig .tc := ⟨.hbm, 269, rfl⟩
abbrev main_v179 : Ref sig .tc := ⟨.hbm, 270, rfl⟩
abbrev main_v180 : Ref sig .tc := ⟨.hbm, 271, rfl⟩
abbrev main_v181 : Ref sig .tc := ⟨.hbm, 272, rfl⟩
abbrev main_v182 : Ref sig .tc := ⟨.hbm, 273, rfl⟩
abbrev main_v183 : Ref sig .tc := ⟨.hbm, 274, rfl⟩
abbrev main_v184 : Ref sig .tc := ⟨.hbm, 275, rfl⟩
abbrev main_v185 : Ref sig .tc := ⟨.hbm, 276, rfl⟩
abbrev main_v186 : Ref sig .tc := ⟨.hbm, 277, rfl⟩
abbrev main_v187 : Ref sig .tc := ⟨.hbm, 278, rfl⟩
abbrev main_v188 : Ref sig .tc := ⟨.hbm, 279, rfl⟩
abbrev main_v189 : Ref sig .tc := ⟨.hbm, 280, rfl⟩
abbrev main_v190 : Ref sig .tc := ⟨.hbm, 281, rfl⟩
abbrev main_v191 : Ref sig .tc := ⟨.hbm, 282, rfl⟩
abbrev main_v192 : Ref sig .tc := ⟨.hbm, 283, rfl⟩
abbrev main_v193 : Ref sig .tc := ⟨.hbm, 284, rfl⟩
abbrev main_v194 : Ref sig .tc := ⟨.hbm, 285, rfl⟩
abbrev main_v195 : Ref sig .tc := ⟨.hbm, 286, rfl⟩
abbrev main_c_29 : Ref sig .tc := ⟨.hbm, 287, rfl⟩
abbrev main_v196 : Ref sig .tc := ⟨.hbm, 288, rfl⟩
abbrev main_v197 : Ref sig .tc := ⟨.hbm, 289, rfl⟩
abbrev main_c_30 : Ref sig .tc := ⟨.hbm, 290, rfl⟩
abbrev main_v198 : Ref sig .tc := ⟨.hbm, 291, rfl⟩
abbrev main_v199 : Ref sig .tc := ⟨.hbm, 292, rfl⟩
abbrev main_v200 : Ref sig .tc := ⟨.hbm, 293, rfl⟩
abbrev main_v201 : Ref sig .tc := ⟨.hbm, 294, rfl⟩
abbrev main_v202 : Ref sig .tc := ⟨.hbm, 295, rfl⟩
abbrev main_c_31 : Ref sig .tc := ⟨.hbm, 296, rfl⟩
abbrev main_v203 : Ref sig .tc := ⟨.hbm, 297, rfl⟩
abbrev main_v204 : Ref sig .tc := ⟨.hbm, 298, rfl⟩
abbrev main_c_32 : Ref sig .tc := ⟨.hbm, 299, rfl⟩
abbrev main_v205 : Ref sig .tc := ⟨.hbm, 300, rfl⟩
abbrev main_v206 : Ref sig .tc := ⟨.hbm, 301, rfl⟩
abbrev main_v207 : Ref sig .tc := ⟨.hbm, 302, rfl⟩
abbrev main_v208 : Ref sig .tc := ⟨.hbm, 303, rfl⟩
abbrev main_v209 : Ref sig .tc := ⟨.hbm, 304, rfl⟩
abbrev main_c_33 : Ref sig .tc := ⟨.hbm, 305, rfl⟩
abbrev main_v210 : Ref sig .tc := ⟨.hbm, 306, rfl⟩
abbrev main_v211 : Ref sig .tc := ⟨.hbm, 307, rfl⟩
abbrev main_c_34 : Ref sig .tc := ⟨.hbm, 308, rfl⟩
abbrev main_v212 : Ref sig .tc := ⟨.hbm, 309, rfl⟩
abbrev main_v213 : Ref sig .tc := ⟨.hbm, 310, rfl⟩
abbrev main_v214 : Ref sig .tc := ⟨.hbm, 311, rfl⟩
abbrev main_v215 : Ref sig .tc := ⟨.hbm, 312, rfl⟩
abbrev main_v216 : Ref sig .tc := ⟨.hbm, 313, rfl⟩
abbrev main_v217_0 : Ref sig .tc := ⟨.hbm, 314, rfl⟩
abbrev main_v217_1 : Ref sig .tc := ⟨.hbm, 315, rfl⟩
abbrev main_cst_35 : Ref sig .tc := ⟨.hbm, 316, rfl⟩
abbrev main_v218 : Ref sig .tc := ⟨.hbm, 317, rfl⟩
abbrev main_v219 : Ref sig .tc := ⟨.hbm, 318, rfl⟩
abbrev main_v220 : Ref sig .tc := ⟨.hbm, 319, rfl⟩
abbrev main_cst_36 : Ref sig .tc := ⟨.hbm, 320, rfl⟩
abbrev main_v221 : Ref sig .tc := ⟨.hbm, 321, rfl⟩
abbrev main_v222 : Ref sig .tc := ⟨.hbm, 322, rfl⟩
abbrev main_v223 : Ref sig .tc := ⟨.hbm, 323, rfl⟩
abbrev main_v224 : Ref sig .tc := ⟨.hbm, 324, rfl⟩
abbrev main_v225 : Ref sig .tc := ⟨.hbm, 325, rfl⟩
abbrev main_v226 : Ref sig .tc := ⟨.hbm, 326, rfl⟩
abbrev main_v227 : Ref sig .tc := ⟨.hbm, 327, rfl⟩
abbrev main_v228 : Ref sig .tc := ⟨.hbm, 328, rfl⟩
abbrev main_v229 : Ref sig .tc := ⟨.hbm, 329, rfl⟩
abbrev main_v230 : Ref sig .tc := ⟨.hbm, 330, rfl⟩
abbrev main_v231 : Ref sig .tc := ⟨.hbm, 331, rfl⟩
abbrev main_v232 : Ref sig .tc := ⟨.hbm, 332, rfl⟩
abbrev main_v233 : Ref sig .tc := ⟨.hbm, 333, rfl⟩
abbrev main_v234 : Ref sig .tc := ⟨.hbm, 334, rfl⟩
abbrev main_v235 : Ref sig .tc := ⟨.hbm, 335, rfl⟩
abbrev main_v236 : Ref sig .tc := ⟨.hbm, 336, rfl⟩
abbrev main_v237 : Ref sig .tc := ⟨.hbm, 337, rfl⟩
abbrev main_v238 : Ref sig .tc := ⟨.hbm, 338, rfl⟩
abbrev main_v239 : Ref sig .tc := ⟨.hbm, 339, rfl⟩
abbrev main_v240 : Ref sig .tc := ⟨.hbm, 340, rfl⟩
abbrev main_cst_37 : Ref sig .tc := ⟨.hbm, 341, rfl⟩
abbrev main_v241 : Ref sig .tc := ⟨.hbm, 342, rfl⟩
abbrev main_v242 : Ref sig .tc := ⟨.hbm, 343, rfl⟩
abbrev main_cst_38 : Ref sig .tc := ⟨.hbm, 344, rfl⟩
abbrev main_v243 : Ref sig .tc := ⟨.hbm, 345, rfl⟩
abbrev main_v244 : Ref sig .tc := ⟨.hbm, 346, rfl⟩
abbrev main_v245 : Ref sig .tc := ⟨.hbm, 347, rfl⟩
abbrev main_v246 : Ref sig .tc := ⟨.hbm, 348, rfl⟩
abbrev main_v247 : Ref sig .tc := ⟨.hbm, 349, rfl⟩
abbrev main_cst_39 : Ref sig .tc := ⟨.hbm, 350, rfl⟩
abbrev main_v248 : Ref sig .tc := ⟨.hbm, 351, rfl⟩
abbrev main_v249 : Ref sig .tc := ⟨.hbm, 352, rfl⟩
abbrev main_cst_40 : Ref sig .tc := ⟨.hbm, 353, rfl⟩
abbrev main_v250 : Ref sig .tc := ⟨.hbm, 354, rfl⟩
abbrev main_v251 : Ref sig .tc := ⟨.hbm, 355, rfl⟩
abbrev main_v252 : Ref sig .tc := ⟨.hbm, 356, rfl⟩
abbrev main_v253 : Ref sig .tc := ⟨.hbm, 357, rfl⟩
abbrev main_cst_41 : Ref sig .tc := ⟨.hbm, 358, rfl⟩
abbrev main_v254 : Ref sig .tc := ⟨.hbm, 359, rfl⟩
abbrev main_v255 : Ref sig .tc := ⟨.hbm, 360, rfl⟩
abbrev main_v256 : Ref sig .tc := ⟨.hbm, 361, rfl⟩
abbrev main_v257 : Ref sig .tc := ⟨.hbm, 362, rfl⟩
abbrev main_v258 : Ref sig .tc := ⟨.hbm, 363, rfl⟩
abbrev main_v259 : Ref sig .tc := ⟨.hbm, 364, rfl⟩
abbrev main_v260 : Ref sig .tc := ⟨.hbm, 365, rfl⟩
abbrev main_v261 : Ref sig .tc := ⟨.hbm, 366, rfl⟩
abbrev main_v262 : Ref sig .tc := ⟨.hbm, 367, rfl⟩
abbrev main_v263 : Ref sig .tc := ⟨.hbm, 368, rfl⟩
abbrev main_v264 : Ref sig .tc := ⟨.hbm, 369, rfl⟩
abbrev main_v265 : Ref sig .tc := ⟨.hbm, 370, rfl⟩
abbrev main_v266 : Ref sig .tc := ⟨.hbm, 371, rfl⟩
abbrev main_v267 : Ref sig .tc := ⟨.hbm, 372, rfl⟩
abbrev main_v268 : Ref sig .tc := ⟨.hbm, 373, rfl⟩
abbrev main_v269 : Ref sig .tc := ⟨.hbm, 374, rfl⟩
abbrev main_v270 : Ref sig .tc := ⟨.hbm, 375, rfl⟩
abbrev main_v271 : Ref sig .tc := ⟨.hbm, 376, rfl⟩
abbrev main_v272 : Ref sig .tc := ⟨.hbm, 377, rfl⟩
abbrev main_call3_cst : Ref sig .tc := ⟨.hbm, 378, rfl⟩
abbrev main_call3_v0 : Ref sig .tc := ⟨.hbm, 379, rfl⟩
abbrev main_v273 : Ref sig .tc := ⟨.hbm, 380, rfl⟩
abbrev main_v274 : Ref sig .tc := ⟨.hbm, 381, rfl⟩
abbrev main_v275 : Ref sig .tc := ⟨.hbm, 382, rfl⟩
abbrev main_v276 : Ref sig .tc := ⟨.hbm, 383, rfl⟩
abbrev main_v277 : Ref sig .tc := ⟨.hbm, 384, rfl⟩
abbrev main_v278 : Ref sig .tc := ⟨.hbm, 385, rfl⟩
abbrev main_v279 : Ref sig .tc := ⟨.hbm, 386, rfl⟩
abbrev main_v280 : Ref sig .tc := ⟨.hbm, 387, rfl⟩
abbrev main_v281 : Ref sig .tc := ⟨.hbm, 388, rfl⟩
abbrev main_v282 : Ref sig .tc := ⟨.hbm, 389, rfl⟩
abbrev main_v283 : Ref sig .tc := ⟨.hbm, 390, rfl⟩
abbrev main_v284 : Ref sig .tc := ⟨.hbm, 391, rfl⟩
abbrev main_v285 : Ref sig .tc := ⟨.hbm, 392, rfl⟩
abbrev main_v286 : Ref sig .tc := ⟨.hbm, 393, rfl⟩
abbrev main_call4_cst : Ref sig .tc := ⟨.hbm, 394, rfl⟩
abbrev main_call4_v0 : Ref sig .tc := ⟨.hbm, 395, rfl⟩
abbrev main_call4_cst_0 : Ref sig .tc := ⟨.hbm, 396, rfl⟩
abbrev main_call4_v1 : Ref sig .tc := ⟨.hbm, 397, rfl⟩
abbrev main_call4_v2 : Ref sig .tc := ⟨.hbm, 398, rfl⟩
abbrev main_call4_v3 : Ref sig .tc := ⟨.hbm, 399, rfl⟩
abbrev main_call4_v4 : Ref sig .tc := ⟨.hbm, 400, rfl⟩
abbrev main_call4_v5 : Ref sig .tc := ⟨.hbm, 401, rfl⟩
abbrev main_call4_v6 : Ref sig .tc := ⟨.hbm, 402, rfl⟩
abbrev main_call4_cst_1 : Ref sig .tc := ⟨.hbm, 403, rfl⟩
abbrev main_call4_v7 : Ref sig .tc := ⟨.hbm, 404, rfl⟩
abbrev main_call4_v8 : Ref sig .tc := ⟨.hbm, 405, rfl⟩
abbrev main_call4_v9 : Ref sig .tc := ⟨.hbm, 406, rfl⟩
abbrev main_call4_v10 : Ref sig .tc := ⟨.hbm, 407, rfl⟩
abbrev main_v287 : Ref sig .tc := ⟨.hbm, 408, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19

abbrev nD : Nat := 1
abbrev τ : Topo := Topo.v7x

variable {F : FTy → Type} [FloatOps F]

abbrev grid0 : Pipeline.Grid := ⟨1, ![388], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S768x8x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S768x8x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S768x8x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S768x8x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S768x8 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![388], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S768x8x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S768x8x32 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S768x8x32 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S768x8x32 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S768x8 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  bcast_S_S6144 : S_.BroadcastsInDim S6144 (![] : Fin 0 → Fin S6144.rank)
  bcast_S6144_S6144x1_0 : S6144.BroadcastsInDim S6144x1 (![0] : Fin 1 → Fin S6144x1.rank)
  slices_S2x256_S1x256_0_0 : S2x256.Slices ![0, 0] S1x256
  shapeCasts_S1x256_S256 : S1x256.ShapeCasts S256
  reducesTo_S6144x256_S6144_d1 : S6144x256.ReducesTo [1] S6144
  h_S_ : 0 < S_.numel
  bcast_S_S6144x1 : S_.BroadcastsInDim S6144x1 (![] : Fin 0 → Fin S6144x1.rank)
  bcast_S6144x1_S6144x256_0_1 : S6144x1.BroadcastsInDim S6144x256 (![0, 1] : Fin 2 → Fin S6144x256.rank)
  bcast_S256_S1x256_1 : S256.BroadcastsInDim S1x256 (![1] : Fin 1 → Fin S1x256.rank)
  bcast_S1x256_S6144x256_0_1 : S1x256.BroadcastsInDim S6144x256 (![0, 1] : Fin 2 → Fin S6144x256.rank)
  slices_S2x256x768_S1x256x768_0_0_0 : S2x256x768.Slices ![0, 0, 0] S1x256x768
  shapeCasts_S1x256x768_S256x768 : S1x256x768.ShapeCasts S256x768
  slices_S2x768_S1x768_0_0 : S2x768.Slices ![0, 0] S1x768
  shapeCasts_S1x768_S768 : S1x768.ShapeCasts S768
  bcast_S768_S1x768_1 : S768.BroadcastsInDim S1x768 (![1] : Fin 1 → Fin S1x768.rank)
  bcast_S1x768_S6144x768_0_1 : S1x768.BroadcastsInDim S6144x768 (![0, 1] : Fin 2 → Fin S6144x768.rank)
  slices_S6144x768_S6144x256_0_0 : S6144x768.Slices ![0, 0] S6144x256
  slices_S6144x768_S6144x256_0_256 : S6144x768.Slices ![0, 256] S6144x256
  slices_S6144x768_S6144x256_0_512 : S6144x768.Slices ![0, 512] S6144x256
  shapeCasts_S6144x256_S6144x8x32 : S6144x256.ShapeCasts S6144x8x32
  bcast_S_S297984 : S_.BroadcastsInDim S297984 (![] : Fin 0 → Fin S297984.rank)
  bcast_S297984_S297984x1_0 : S297984.BroadcastsInDim S297984x1 (![0] : Fin 1 → Fin S297984x1.rank)
  inb_S768x8x32_S768x8x32_0_0_0 : ∀ a, (![0, 0, 0] : Fin 3 → Nat) a + S768x8x32.size a ≤ S768x8x32.size a
  h_S768x8x32 : 0 < S768x8x32.numel
  shapeCasts_S768x8x32_S768x8x32 : S768x8x32.ShapeCasts S768x8x32
  reduces_S768x8x32_S768x8 : S768x8x32.Reduces [2] S768x8
  inb_S768x8_S768x8_0_0 : ∀ a, (![0, 0] : Fin 2 → Nat) a + S768x8.size a ≤ S768x8.size a
  h_S768x8 : 0 < S768x8.numel
  shapeCasts_S768x8_S768x8x1 : S768x8.ShapeCasts S768x8x1
  broadcasts_S768x8x1_S768x8x32 : S768x8x1.Broadcasts S768x8x32
  bcast_S_S6144x8x32 : S_.BroadcastsInDim S6144x8x32 (![] : Fin 0 → Fin S6144x8x32.rank)
  bcast_S_S6144x8 : S_.BroadcastsInDim S6144x8 (![] : Fin 0 → Fin S6144x8.rank)
  bcast_S6144x8_S6144x8x1_0_1 : S6144x8.BroadcastsInDim S6144x8x1 (![0, 1] : Fin 2 → Fin S6144x8x1.rank)
  bcast_S6144x8x1_S6144x8x32_0_1_2 : S6144x8x1.BroadcastsInDim S6144x8x32 (![0, 1, 2] : Fin 3 → Fin S6144x8x32.rank)
  shapeCasts_S6144x8x32_S6144x256 : S6144x8x32.ShapeCasts S6144x256
  slices_S2x256x256_S1x256x256_0_0_0 : S2x256x256.Slices ![0, 0, 0] S1x256x256
  shapeCasts_S1x256x256_S256x256 : S1x256x256.ShapeCasts S256x256
  slices_S2x256x1024_S1x256x1024_0_0_0 : S2x256x1024.Slices ![0, 0, 0] S1x256x1024
  shapeCasts_S1x256x1024_S256x1024 : S1x256x1024.ShapeCasts S256x1024
  slices_S2x1024_S1x1024_0_0 : S2x1024.Slices ![0, 0] S1x1024
  shapeCasts_S1x1024_S1024 : S1x1024.ShapeCasts S1024
  bcast_S1024_S1x1024_1 : S1024.BroadcastsInDim S1x1024 (![1] : Fin 1 → Fin S1x1024.rank)
  bcast_S1x1024_S6144x1024_0_1 : S1x1024.BroadcastsInDim S6144x1024 (![0, 1] : Fin 2 → Fin S6144x1024.rank)
  bcast_S_S6144x1024 : S_.BroadcastsInDim S6144x1024 (![] : Fin 0 → Fin S6144x1024.rank)
  slices_S2x1024x256_S1x1024x256_0_0_0 : S2x1024x256.Slices ![0, 0, 0] S1x1024x256
  shapeCasts_S1x1024x256_S1024x256 : S1x1024x256.ShapeCasts S1024x256
  slices_S2x256_S1x256_1_0 : S2x256.Slices ![1, 0] S1x256
  slices_S2x256x768_S1x256x768_1_0_0 : S2x256x768.Slices ![1, 0, 0] S1x256x768
  slices_S2x768_S1x768_1_0 : S2x768.Slices ![1, 0] S1x768
  slices_S2x256x256_S1x256x256_1_0_0 : S2x256x256.Slices ![1, 0, 0] S1x256x256
  slices_S2x256x1024_S1x256x1024_1_0_0 : S2x256x1024.Slices ![1, 0, 0] S1x256x1024
  slices_S2x1024_S1x1024_1_0 : S2x1024.Slices ![1, 0] S1x1024
  slices_S2x1024x256_S1x1024x256_1_0_0 : S2x1024x256.Slices ![1, 0, 0] S1x1024x256
  reducesTo_S6144x1024_S6144_d1 : S6144x1024.ReducesTo [1] S6144
  bcast_S6144x1_S6144x1024_0_1 : S6144x1.BroadcastsInDim S6144x1024 (![0, 1] : Fin 2 → Fin S6144x1024.rank)
  gather_S3x256_S6144x1_S6144x256_1_0_n_n_0_1_1256_wf : GatherDims.WF S3x256 S6144x1 S6144x256 [1] [0] [] [0] [] 1 ![1, 256]
  gather_S32x256_S6144x1_S6144x256_1_0_n_n_0_1_1256_wf : GatherDims.WF S32x256 S6144x1 S6144x256 [1] [0] [] [0] [] 1 ![1, 256]
  gather_S1024x256_S6144x1_S6144x256_1_0_n_n_0_1_1256_wf : GatherDims.WF S1024x256 S6144x1 S6144x256 [1] [0] [] [0] [] 1 ![1, 256]
  dot_S6144x256_S256x768_S6144x768_1_0_0_1_n_n_wf : DotDims.WF S6144x256 S256x768 S6144x768 [1] [0] [0] [1] [] []
  gather_S6144x8x32_S297984x1_S297984x8x32_12_0_n_n_0_1_1832_wf : GatherDims.WF S6144x8x32 S297984x1 S297984x8x32 [1, 2] [0] [] [0] [] 1 ![1, 8, 32]
  scatter_S6144x8x32_S297984x1_S297984x8x32_12_0_0_1_wf : ScatterDims.WF S6144x8x32 S297984x1 S297984x8x32 [1, 2] [0] [0] 1
  scatter_S6144x8_S297984x1_S297984x8_1_0_0_1_wf : ScatterDims.WF S6144x8 S297984x1 S297984x8 [1] [0] [0] 1
  dot_S6144x256_S256x256_S6144x256_1_0_0_1_n_n_wf : DotDims.WF S6144x256 S256x256 S6144x256 [1] [0] [0] [1] [] []
  dot_S6144x256_S256x1024_S6144x1024_1_0_0_1_n_n_wf : DotDims.WF S6144x256 S256x1024 S6144x1024 [1] [0] [0] [1] [] []
  dot_S6144x1024_S1024x256_S6144x256_1_0_0_1_n_n_wf : DotDims.WF S6144x1024 S1024x256 S6144x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S768x8x32.size a ≤ S297984x8x32.size a
  hwx0_0 : ∀ i : grid0.Coords, EltTy.bits .f32 = 32 ∨ (Rect.block (s := S297984x8x32) S768x8x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S768x8x32.size a ≤ S297984x8x32.size a
  hwx0_1 : ∀ i : grid0.Coords, EltTy.bits .f32 = 32 ∨ (Rect.block (s := S297984x8x32) S768x8x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S768x8x32.size a ≤ S297984x8x32.size a
  hwx0_2 : ∀ i : grid0.Coords, EltTy.bits .f32 = 32 ∨ (Rect.block (s := S297984x8x32) S768x8x32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S768x8x32.size a ≤ S297984x8x32.size a
  hwx0_3 : ∀ i : grid0.Coords, EltTy.bits .f32 = 32 ∨ (Rect.block (s := S297984x8x32) S768x8x32.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S768x8.size a ≤ S297984x8.size a
  hwx0_4 : ∀ i : grid0.Coords, EltTy.bits .f32 = 32 ∨ (Rect.block (s := S297984x8) S768x8.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S768x8x32.size a ≤ S297984x8x32.size a
  hwx1_0 : ∀ i : grid1.Coords, EltTy.bits .f32 = 32 ∨ (Rect.block (s := S297984x8x32) S768x8x32.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S768x8x32.size a ≤ S297984x8x32.size a
  hwx1_1 : ∀ i : grid1.Coords, EltTy.bits .f32 = 32 ∨ (Rect.block (s := S297984x8x32) S768x8x32.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S768x8x32.size a ≤ S297984x8x32.size a
  hwx1_2 : ∀ i : grid1.Coords, EltTy.bits .f32 = 32 ∨ (Rect.block (s := S297984x8x32) S768x8x32.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S768x8x32.size a ≤ S297984x8x32.size a
  hwx1_3 : ∀ i : grid1.Coords, EltTy.bits .f32 = 32 ∨ (Rect.block (s := S297984x8x32) S768x8x32.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S768x8.size a ≤ S297984x8.size a
  hwx1_4 : ∀ i : grid1.Coords, EltTy.bits .f32 = 32 ∨ (Rect.block (s := S297984x8) S768x8.size (cc1_transform_4 i) (hinb1_4 i)).WholeWords (EltTy.packing .f32)

variable [Facts₀]

def gather_S3x256_S6144x1_S6144x256_1_0_n_n_0_1_1256 : GatherDims S3x256 S6144x1 S6144x256 where
  offsetDims := [1]
  collapsedSliceDims := [0]
  operandBatchingDims := []
  startIndicesBatchingDims := []
  startIndexMap := [0]
  indexVectorDim := 1
  sliceSizes := ![1, 256]
  wf := gather_S3x256_S6144x1_S6144x256_1_0_n_n_0_1_1256_wf
def gather_S32x256_S6144x1_S6144x256_1_0_n_n_0_1_1256 : GatherDims S32x256 S6144x1 S6144x256 where
  offsetDims := [1]
  collapsedSliceDims := [0]
  operandBatchingDims := []
  startIndicesBatchingDims := []
  startIndexMap := [0]
  indexVectorDim := 1
  sliceSizes := ![1, 256]
  wf := gather_S32x256_S6144x1_S6144x256_1_0_n_n_0_1_1256_wf
def gather_S1024x256_S6144x1_S6144x256_1_0_n_n_0_1_1256 : GatherDims S1024x256 S6144x1 S6144x256 where
  offsetDims := [1]
  collapsedSliceDims := [0]
  operandBatchingDims := []
  startIndicesBatchingDims := []
  startIndexMap := [0]
  indexVectorDim := 1
  sliceSizes := ![1, 256]
  wf := gather_S1024x256_S6144x1_S6144x256_1_0_n_n_0_1_1256_wf
def dot_S6144x256_S256x768_S6144x768_1_0_0_1_n_n : DotDims S6144x256 S256x768 S6144x768 where
  lhsContracting := [1]
  rhsContracting := [0]
  lhsNonContracting := [0]
  rhsNonContracting := [1]
  lhsBatch := []
  rhsBatch := []
  wf := dot_S6144x256_S256x768_S6144x768_1_0_0_1_n_n_wf
def gather_S6144x8x32_S297984x1_S297984x8x32_12_0_n_n_0_1_1832 : GatherDims S6144x8x32 S297984x1 S297984x8x32 where
  offsetDims := [1, 2]
  collapsedSliceDims := [0]
  operandBatchingDims := []
  startIndicesBatchingDims := []
  startIndexMap := [0]
  indexVectorDim := 1
  sliceSizes := ![1, 8, 32]
  wf := gather_S6144x8x32_S297984x1_S297984x8x32_12_0_n_n_0_1_1832_wf
def scatter_S6144x8x32_S297984x1_S297984x8x32_12_0_0_1 : ScatterDims S6144x8x32 S297984x1 S297984x8x32 where
  updateWindowDims := [1, 2]
  insertedWindowDims := [0]
  scatterDimsToOperandDims := [0]
  indexVectorDim := 1
  wf := scatter_S6144x8x32_S297984x1_S297984x8x32_12_0_0_1_wf
def scatter_S6144x8_S297984x1_S297984x8_1_0_0_1 : ScatterDims S6144x8 S297984x1 S297984x8 where
  updateWindowDims := [1]
  insertedWindowDims := [0]
  scatterDimsToOperandDims := [0]
  indexVectorDim := 1
  wf := scatter_S6144x8_S297984x1_S297984x8_1_0_0_1_wf
def dot_S6144x256_S256x256_S6144x256_1_0_0_1_n_n : DotDims S6144x256 S256x256 S6144x256 where
  lhsContracting := [1]
  rhsContracting := [0]
  lhsNonContracting := [0]
  rhsNonContracting := [1]
  lhsBatch := []
  rhsBatch := []
  wf := dot_S6144x256_S256x256_S6144x256_1_0_0_1_n_n_wf
def dot_S6144x256_S256x1024_S6144x1024_1_0_0_1_n_n : DotDims S6144x256 S256x1024 S6144x1024 where
  lhsContracting := [1]
  rhsContracting := [0]
  lhsNonContracting := [0]
  rhsNonContracting := [1]
  lhsBatch := []
  rhsBatch := []
  wf := dot_S6144x256_S256x1024_S6144x1024_1_0_0_1_n_n_wf
def dot_S6144x1024_S1024x256_S6144x256_1_0_0_1_n_n : DotDims S6144x1024 S1024x256 S6144x256 where
  lhsContracting := [1]
  rhsContracting := [0]
  lhsNonContracting := [0]
  rhsNonContracting := [1]
  lhsBatch := []
  rhsBatch := []
  wf := dot_S6144x1024_S1024x256_S6144x256_1_0_0_1_n_n_wf

abbrev win0_0 : Pipeline.Window sig grid0 :=
  Pipeline.Window.ofSpec (Memref.whole main_v73) S768x8x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v80) S768x8x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v87) S768x8x32.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v88_0) S768x8x32.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v88_1) S768x8.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v202) S768x8x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v209) S768x8x32.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v216) S768x8x32.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v217_0) S768x8x32.size cc1_transform_3 reads1_3 true false 2 stage1_3 sem1_3
    hrank1 hreads1_3 hinb1_3 nbuf1_3 (Memref.isWhole_whole _) hwx1_3 hstage1_3

abbrev win1_4 : Pipeline.Window sig grid1 :=
  Pipeline.Window.ofSpec (Memref.whole main_v217_1) S768x8.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S6144 : Shape := ⟨1, ![6144]⟩
abbrev S297984 : Shape := ⟨1, ![297984]⟩
abbrev S1024x256 : Shape := ⟨2, ![1024, 256]⟩
abbrev S3x256 : Shape := ⟨2, ![3, 256]⟩
abbrev S32x256 : Shape := ⟨2, ![32, 256]⟩
abbrev S2x256 : Shape := ⟨2, ![2, 256]⟩
abbrev S2x256x768 : Shape := ⟨3, ![2, 256, 768]⟩
abbrev S2x768 : Shape := ⟨2, ![2, 768]⟩
abbrev S2x256x256 : Shape := ⟨3, ![2, 256, 256]⟩
abbrev S2x256x1024 : Shape := ⟨3, ![2, 256, 1024]⟩
abbrev S2x1024 : Shape := ⟨2, ![2, 1024]⟩
abbrev S2x1024x256 : Shape := ⟨3, ![2, 1024, 256]⟩
abbrev S256x1024 : Shape := ⟨2, ![256, 1024]⟩
abbrev S1024 : Shape := ⟨1, ![1024]⟩
abbrev S_ : Shape := ⟨0, ![]⟩
abbrev S6144x1 : Shape := ⟨2, ![6144, 1]⟩
abbrev S6144x256 : Shape := ⟨2, ![6144, 256]⟩
abbrev S1x256 : Shape := ⟨2, ![1, 256]⟩
abbrev S256 : Shape := ⟨1, ![256]⟩
abbrev S1x256x768 : Shape := ⟨3, ![1, 256, 768]⟩
abbrev S256x768 : Shape := ⟨2, ![256, 768]⟩
abbrev S6144x768 : Shape := ⟨2, ![6144, 768]⟩
abbrev S1x768 : Shape := ⟨2, ![1, 768]⟩
abbrev S768 : Shape := ⟨1, ![768]⟩
abbrev S6144x8x32 : Shape := ⟨3, ![6144, 8, 32]⟩
abbrev S297984x1 : Shape := ⟨2, ![297984, 1]⟩
abbrev S297984x8x32 : Shape := ⟨3, ![297984, 8, 32]⟩
abbrev S297984x8 : Shape := ⟨2, ![297984, 8]⟩
abbrev S297984x8x1 : Shape := ⟨3, ![297984, 8, 1]⟩
abbrev S6144x8 : Shape := ⟨2, ![6144, 8]⟩
abbrev S6144x8x1 : Shape := ⟨3, ![6144, 8, 1]⟩
abbrev S1x256x256 : Shape := ⟨3, ![1, 256, 256]⟩
abbrev S256x256 : Shape := ⟨2, ![256, 256]⟩
abbrev S1x256x1024 : Shape := ⟨3, ![1, 256, 1024]⟩
abbrev S6144x1024 : Shape := ⟨2, ![6144, 1024]⟩
abbrev S1x1024 : Shape := ⟨2, ![1, 1024]⟩
abbrev S1x1024x256 : Shape := ⟨3, ![1, 1024, 256]⟩

abbrev nBuf : Space → Nat
  | .hbm => 441
  | .vmem => 0
  | .smem => 0
  | _ => 0

abbrev hbmTy0_0 (i : Nat) : BufTy := match i % 128 with
  | 0 => ⟨S6144, .i32⟩
  | 1 => ⟨S6144, .i32⟩
  | 2 => ⟨S297984, .i32⟩
  | 3 => ⟨S297984, .i32⟩
  | 4 => ⟨S1024x256, .f32⟩
  | 5 => ⟨S3x256, .f32⟩
  | 6 => ⟨S32x256, .f32⟩
  | 7 => ⟨S2x256, .f32⟩
  | 8 => ⟨S2x256, .f32⟩
  | 9 => ⟨S2x256x768, .f32⟩
  | 10 => ⟨S2x768, .f32⟩
  | 11 => ⟨S2x256x256, .f32⟩
  | 12 => ⟨S2x256, .f32⟩
  | 13 => ⟨S2x256, .f32⟩
  | 14 => ⟨S2x256, .f32⟩
  | 15 => ⟨S2x256x1024, .f32⟩
  | 16 => ⟨S2x1024, .f32⟩
  | 17 => ⟨S2x1024x256, .f32⟩
  | 18 => ⟨S2x256, .f32⟩
  | 19 => ⟨S256x1024, .f32⟩
  | 20 => ⟨S1024, .f32⟩
  | 21 => ⟨S_, .i32⟩
  | 22 => ⟨S_, .i32⟩
  | 23 => ⟨S_, .i32⟩
  | 24 => ⟨S_, .i1⟩
  | 25 => ⟨S_, .i32⟩
  | 26 => ⟨S_, .i32⟩
  | 27 => ⟨S6144, .i32⟩
  | 28 => ⟨S6144, .i32⟩
  | 29 => ⟨S_, .i32⟩
  | 30 => ⟨S6144, .i32⟩
  | 31 => ⟨S6144, .i1⟩
  | 32 => ⟨S_, .i32⟩
  | 33 => ⟨S6144, .i32⟩
  | 34 => ⟨S6144, .i1⟩
  | 35 => ⟨S_, .i32⟩
  | 36 => ⟨S_, .i1⟩
  | 37 => ⟨S6144, .i1⟩
  | 38 => ⟨S6144, .i1⟩
  | 39 => ⟨S6144, .i1⟩
  | 40 => ⟨S6144, .i32⟩
  | 41 => ⟨S6144, .i32⟩
  | 42 => ⟨S6144, .i32⟩
  | 43 => ⟨S_, .i32⟩
  | 44 => ⟨S6144, .i32⟩
  | 45 => ⟨S6144, .i1⟩
  | 46 => ⟨S_, .i32⟩
  | 47 => ⟨S6144, .i32⟩
  | 48 => ⟨S6144, .i32⟩
  | 49 => ⟨S6144, .i32⟩
  | 50 => ⟨S6144x1, .i32⟩
  | 51 => ⟨S6144x256, .f32⟩
  | 52 => ⟨S_, .i32⟩
  | 53 => ⟨S_, .i32⟩
  | 54 => ⟨S6144, .i32⟩
  | 55 => ⟨S6144, .i32⟩
  | 56 => ⟨S6144, .i32⟩
  | 57 => ⟨S_, .i32⟩
  | 58 => ⟨S6144, .i32⟩
  | 59 => ⟨S6144, .i1⟩
  | 60 => ⟨S6144, .i32⟩
  | 61 => ⟨S6144, .i32⟩
  | 62 => ⟨S_, .i32⟩
  | 63 => ⟨S6144, .i32⟩
  | 64 => ⟨S6144, .i1⟩
  | 65 => ⟨S6144, .i1⟩
  | 66 => ⟨S_, .i32⟩
  | 67 => ⟨S6144, .i32⟩
  | 68 => ⟨S6144, .i32⟩
  | 69 => ⟨S6144, .i32⟩
  | 70 => ⟨S_, .i32⟩
  | 71 => ⟨S6144, .i32⟩
  | 72 => ⟨S6144, .i1⟩
  | 73 => ⟨S_, .i32⟩
  | 74 => ⟨S6144, .i32⟩
  | 75 => ⟨S6144, .i32⟩
  | 76 => ⟨S6144, .i32⟩
  | 77 => ⟨S6144x1, .i32⟩
  | 78 => ⟨S6144x256, .f32⟩
  | 79 => ⟨S6144x256, .f32⟩
  | 80 => ⟨S_, .i32⟩
  | 81 => ⟨S6144, .i32⟩
  | 82 => ⟨S6144, .i1⟩
  | 83 => ⟨S_, .i32⟩
  | 84 => ⟨S6144, .i32⟩
  | 85 => ⟨S6144, .i32⟩
  | 86 => ⟨S6144, .i32⟩
  | 87 => ⟨S6144x1, .i32⟩
  | 88 => ⟨S6144x256, .f32⟩
  | 89 => ⟨S6144x256, .f32⟩
  | 90 => ⟨S1x256, .f32⟩
  | 91 => ⟨S256, .f32⟩
  | 92 => ⟨S1x256, .f32⟩
  | 93 => ⟨S256, .f32⟩
  | 94 => ⟨S_, .f32⟩
  | 95 => ⟨S6144, .f32⟩
  | 96 => ⟨S6144x1, .f32⟩
  | 97 => ⟨S_, .f32⟩
  | 98 => ⟨S6144x1, .f32⟩
  | 99 => ⟨S6144x1, .f32⟩
  | 100 => ⟨S6144x256, .f32⟩
  | 101 => ⟨S6144x256, .f32⟩
  | 102 => ⟨S6144x256, .f32⟩
  | 103 => ⟨S_, .f32⟩
  | 104 => ⟨S6144, .f32⟩
  | 105 => ⟨S6144x1, .f32⟩
  | 106 => ⟨S_, .f32⟩
  | 107 => ⟨S6144x1, .f32⟩
  | 108 => ⟨S6144x1, .f32⟩
  | 109 => ⟨S6144x256, .f32⟩
  | 110 => ⟨S6144x256, .f32⟩
  | 111 => ⟨S_, .f32⟩
  | 112 => ⟨S6144x1, .f32⟩
  | 113 => ⟨S6144x1, .f32⟩
  | 114 => ⟨S6144x1, .f32⟩
  | 115 => ⟨S6144x256, .f32⟩
  | 116 => ⟨S6144x256, .f32⟩
  | 117 => ⟨S1x256, .f32⟩
  | 118 => ⟨S6144x256, .f32⟩
  | 119 => ⟨S6144x256, .f32⟩
  | 120 => ⟨S1x256, .f32⟩
  | 121 => ⟨S6144x256, .f32⟩
  | 122 => ⟨S6144x256, .f32⟩
  | 123 => ⟨S1x256x768, .f32⟩
  | 124 => ⟨S256x768, .f32⟩
  | 125 => ⟨S6144x768, .f32⟩
  | 126 => ⟨S1x768, .f32⟩
  | 127 => ⟨S768, .f32⟩
  | _ => ⟨S6144, .i32⟩

abbrev hbmTy0_1 (i : Nat) : BufTy := match i % 128 with
  | 0 => ⟨S1x768, .f32⟩
  | 1 => ⟨S6144x768, .f32⟩
  | 2 => ⟨S6144x768, .f32⟩
  | 3 => ⟨S6144x256, .f32⟩
  | 4 => ⟨S6144x256, .f32⟩
  | 5 => ⟨S6144x256, .f32⟩
  | 6 => ⟨S6144x8x32, .f32⟩
  | 7 => ⟨S6144x8x32, .f32⟩
  | 8 => ⟨S6144x8x32, .f32⟩
  | 9 => ⟨S_, .i32⟩
  | 10 => ⟨S297984, .i32⟩
  | 11 => ⟨S297984, .i1⟩
  | 12 => ⟨S_, .i32⟩
  | 13 => ⟨S297984, .i32⟩
  | 14 => ⟨S297984, .i32⟩
  | 15 => ⟨S297984, .i32⟩
  | 16 => ⟨S297984x1, .i32⟩
  | 17 => ⟨S297984x8x32, .f32⟩
  | 18 => ⟨S_, .i32⟩
  | 19 => ⟨S297984, .i32⟩
  | 20 => ⟨S297984, .i1⟩
  | 21 => ⟨S_, .i32⟩
  | 22 => ⟨S297984, .i32⟩
  | 23 => ⟨S297984, .i32⟩
  | 24 => ⟨S297984, .i32⟩
  | 25 => ⟨S297984x1, .i32⟩
  | 26 => ⟨S297984x8x32, .f32⟩
  | 27 => ⟨S297984x8x32, .f32⟩
  | 28 => ⟨S_, .f32⟩
  | 29 => ⟨S297984x8, .f32⟩
  | 30 => ⟨S_, .f32⟩
  | 31 => ⟨S297984x8, .f32⟩
  | 32 => ⟨S297984x8, .f32⟩
  | 33 => ⟨S_, .f32⟩
  | 34 => ⟨S_, .f32⟩
  | 35 => ⟨S_, .f32⟩
  | 36 => ⟨S297984x8, .f32⟩
  | 37 => ⟨S297984x8, .f32⟩
  | 38 => ⟨S_, .f32⟩
  | 39 => ⟨S297984x8, .f32⟩
  | 40 => ⟨S297984x8, .f32⟩
  | 41 => ⟨S297984x8, .f32⟩
  | 42 => ⟨S_, .i32⟩
  | 43 => ⟨S297984, .i32⟩
  | 44 => ⟨S297984, .i1⟩
  | 45 => ⟨S_, .i32⟩
  | 46 => ⟨S297984, .i32⟩
  | 47 => ⟨S297984, .i32⟩
  | 48 => ⟨S297984, .i32⟩
  | 49 => ⟨S297984x1, .i32⟩
  | 50 => ⟨S297984x8x32, .f32⟩
  | 51 => ⟨S297984x8x1, .f32⟩
  | 52 => ⟨S297984x8x32, .f32⟩
  | 53 => ⟨S297984x8x32, .f32⟩
  | 54 => ⟨S_, .f32⟩
  | 55 => ⟨S6144x8x32, .f32⟩
  | 56 => ⟨S297984x1, .i32⟩
  | 57 => ⟨S6144x8x32, .f32⟩
  | 58 => ⟨S_, .f32⟩
  | 59 => ⟨S6144x8, .f32⟩
  | 60 => ⟨S297984x1, .i32⟩
  | 61 => ⟨S6144x8, .f32⟩
  | 62 => ⟨S6144x8x1, .f32⟩
  | 63 => ⟨S6144x8x32, .f32⟩
  | 64 => ⟨S6144x8x32, .f32⟩
  | 65 => ⟨S6144x256, .f32⟩
  | 66 => ⟨S1x256x256, .f32⟩
  | 67 => ⟨S256x256, .f32⟩
  | 68 => ⟨S6144x256, .f32⟩
  | 69 => ⟨S6144x256, .f32⟩
  | 70 => ⟨S1x256, .f32⟩
  | 71 => ⟨S256, .f32⟩
  | 72 => ⟨S1x256, .f32⟩
  | 73 => ⟨S6144x256, .f32⟩
  | 74 => ⟨S6144x256, .f32⟩
  | 75 => ⟨S1x256, .f32⟩
  | 76 => ⟨S256, .f32⟩
  | 77 => ⟨S1x256, .f32⟩
  | 78 => ⟨S256, .f32⟩
  | 79 => ⟨S_, .f32⟩
  | 80 => ⟨S6144, .f32⟩
  | 81 => ⟨S6144x1, .f32⟩
  | 82 => ⟨S_, .f32⟩
  | 83 => ⟨S6144x1, .f32⟩
  | 84 => ⟨S6144x1, .f32⟩
  | 85 => ⟨S6144x256, .f32⟩
  | 86 => ⟨S6144x256, .f32⟩
  | 87 => ⟨S6144x256, .f32⟩
  | 88 => ⟨S_, .f32⟩
  | 89 => ⟨S6144, .f32⟩
  | 90 => ⟨S6144x1, .f32⟩
  | 91 => ⟨S_, .f32⟩
  | 92 => ⟨S6144x1, .f32⟩
  | 93 => ⟨S6144x1, .f32⟩
  | 94 => ⟨S6144x256, .f32⟩
  | 95 => ⟨S6144x256, .f32⟩
  | 96 => ⟨S_, .f32⟩
  | 97 => ⟨S6144x1, .f32⟩
  | 98 => ⟨S6144x1, .f32⟩
  | 99 => ⟨S6144x1, .f32⟩
  | 100 => ⟨S6144x256, .f32⟩
  | 101 => ⟨S6144x256, .f32⟩
  | 102 => ⟨S1x256, .f32⟩
  | 103 => ⟨S6144x256, .f32⟩
  | 104 => ⟨S6144x256, .f32⟩
  | 105 => ⟨S1x256, .f32⟩
  | 106 => ⟨S6144x256, .f32⟩
  | 107 => ⟨S6144x256, .f32⟩
  | 108 => ⟨S1x256x1024, .f32⟩
  | 109 => ⟨S256x1024, .f32⟩
  | 110 => ⟨S6144x1024, .f32⟩
  | 111 => ⟨S1x1024, .f32⟩
  | 112 => ⟨S1024, .f32⟩
  | 113 => ⟨S1x1024, .f32⟩
  | 114 => ⟨S6144x1024, .f32⟩
  | 115 => ⟨S6144x1024, .f32⟩
  | 116 => ⟨S_, .f32⟩
  | 117 => ⟨S6144x1024, .f32⟩
  | 118 => ⟨S6144x1024, .f32⟩
  | 119 => ⟨S1x1024x256, .f32⟩
  | 120 => ⟨S1024x256, .f32⟩
  | 121 => ⟨S6144x256, .f32⟩
  | 122 => ⟨S6144x256, .f32⟩
  | 123 => ⟨S1x256, .f32⟩
  | 124 => ⟨S256, .f32⟩
  | 125 => ⟨S1x256, .f32⟩
  | 126 => ⟨S6144x256, .f32⟩
  | 127 => ⟨S6144x256, .f32⟩
  | _ => ⟨S6144, .i32⟩

abbrev hbmTy0_2 (i : Nat) : BufTy := match i % 128 with
  | 0 => ⟨S1x256, .f32⟩
  | 1 => ⟨S256, .f32⟩
  | 2 => ⟨S1x256, .f32⟩
  | 3 => ⟨S256, .f32⟩
  | 4 => ⟨S_, .f32⟩
  | 5 => ⟨S6144, .f32⟩
  | 6 => ⟨S6144x1, .f32⟩
  | 7 => ⟨S_, .f32⟩
  | 8 => ⟨S6144x1, .f32⟩
  | 9 => ⟨S6144x1, .f32⟩
  | 10 => ⟨S6144x256, .f32⟩
  | 11 => ⟨S6144x256, .f32⟩
  | 12 => ⟨S6144x256, .f32⟩
  | 13 => ⟨S_, .f32⟩
  | 14 => ⟨S6144, .f32⟩
  | 15 => ⟨S6144x1, .f32⟩
  | 16 => ⟨S_, .f32⟩
  | 17 => ⟨S6144x1, .f32⟩
  | 18 => ⟨S6144x1, .f32⟩
  | 19 => ⟨S6144x256, .f32⟩
  | 20 => ⟨S6144x256, .f32⟩
  | 21 => ⟨S_, .f32⟩
  | 22 => ⟨S6144x1, .f32⟩
  | 23 => ⟨S6144x1, .f32⟩
  | 24 => ⟨S6144x1, .f32⟩
  | 25 => ⟨S6144x256, .f32⟩
  | 26 => ⟨S6144x256, .f32⟩
  | 27 => ⟨S1x256, .f32⟩
  | 28 => ⟨S6144x256, .f32⟩
  | 29 => ⟨S6144x256, .f32⟩
  | 30 => ⟨S1x256, .f32⟩
  | 31 => ⟨S6144x256, .f32⟩
  | 32 => ⟨S6144x256, .f32⟩
  | 33 => ⟨S1x256x768, .f32⟩
  | 34 => ⟨S256x768, .f32⟩
  | 35 => ⟨S6144x768, .f32⟩
  | 36 => ⟨S1x768, .f32⟩
  | 37 => ⟨S768, .f32⟩
  | 38 => ⟨S1x768, .f32⟩
  | 39 => ⟨S6144x768, .f32⟩
  | 40 => ⟨S6144x768, .f32⟩
  | 41 => ⟨S6144x256, .f32⟩
  | 42 => ⟨S6144x256, .f32⟩
  | 43 => ⟨S6144x256, .f32⟩
  | 44 => ⟨S6144x8x32, .f32⟩
  | 45 => ⟨S6144x8x32, .f32⟩
  | 46 => ⟨S6144x8x32, .f32⟩
  | 47 => ⟨S_, .i32⟩
  | 48 => ⟨S297984, .i32⟩
  | 49 => ⟨S297984, .i1⟩
  | 50 => ⟨S_, .i32⟩
  | 51 => ⟨S297984, .i32⟩
  | 52 => ⟨S297984, .i32⟩
  | 53 => ⟨S297984, .i32⟩
  | 54 => ⟨S297984x1, .i32⟩
  | 55 => ⟨S297984x8x32, .f32⟩
  | 56 => ⟨S_, .i32⟩
  | 57 => ⟨S297984, .i32⟩
  | 58 => ⟨S297984, .i1⟩
  | 59 => ⟨S_, .i32⟩
  | 60 => ⟨S297984, .i32⟩
  | 61 => ⟨S297984, .i32⟩
  | 62 => ⟨S297984, .i32⟩
  | 63 => ⟨S297984x1, .i32⟩
  | 64 => ⟨S297984x8x32, .f32⟩
  | 65 => ⟨S297984x8x32, .f32⟩
  | 66 => ⟨S_, .f32⟩
  | 67 => ⟨S297984x8, .f32⟩
  | 68 => ⟨S_, .f32⟩
  | 69 => ⟨S297984x8, .f32⟩
  | 70 => ⟨S297984x8, .f32⟩
  | 71 => ⟨S_, .f32⟩
  | 72 => ⟨S_, .f32⟩
  | 73 => ⟨S_, .f32⟩
  | 74 => ⟨S297984x8, .f32⟩
  | 75 => ⟨S297984x8, .f32⟩
  | 76 => ⟨S_, .f32⟩
  | 77 => ⟨S297984x8, .f32⟩
  | 78 => ⟨S297984x8, .f32⟩
  | 79 => ⟨S297984x8, .f32⟩
  | 80 => ⟨S_, .i32⟩
  | 81 => ⟨S297984, .i32⟩
  | 82 => ⟨S297984, .i1⟩
  | 83 => ⟨S_, .i32⟩
  | 84 => ⟨S297984, .i32⟩
  | 85 => ⟨S297984, .i32⟩
  | 86 => ⟨S297984, .i32⟩
  | 87 => ⟨S297984x1, .i32⟩
  | 88 => ⟨S297984x8x32, .f32⟩
  | 89 => ⟨S297984x8x1, .f32⟩
  | 90 => ⟨S297984x8x32, .f32⟩
  | 91 => ⟨S297984x8x32, .f32⟩
  | 92 => ⟨S_, .f32⟩
  | 93 => ⟨S6144x8x32, .f32⟩
  | 94 => ⟨S297984x1, .i32⟩
  | 95 => ⟨S6144x8x32, .f32⟩
  | 96 => ⟨S_, .f32⟩
  | 97 => ⟨S6144x8, .f32⟩
  | 98 => ⟨S297984x1, .i32⟩
  | 99 => ⟨S6144x8, .f32⟩
  | 100 => ⟨S6144x8x1, .f32⟩
  | 101 => ⟨S6144x8x32, .f32⟩
  | 102 => ⟨S6144x8x32, .f32⟩
  | 103 => ⟨S6144x256, .f32⟩
  | 104 => ⟨S1x256x256, .f32⟩
  | 105 => ⟨S256x256, .f32⟩
  | 106 => ⟨S6144x256, .f32⟩
  | 107 => ⟨S6144x256, .f32⟩
  | 108 => ⟨S1x256, .f32⟩
  | 109 => ⟨S256, .f32⟩
  | 110 => ⟨S1x256, .f32⟩
  | 111 => ⟨S6144x256, .f32⟩
  | 112 => ⟨S6144x256, .f32⟩
  | 113 => ⟨S1x256, .f32⟩
  | 114 => ⟨S256, .f32⟩
  | 115 => ⟨S1x256, .f32⟩
  | 116 => ⟨S256, .f32⟩
  | 117 => ⟨S_, .f32⟩
  | 118 => ⟨S6144, .f32⟩
  | 119 => ⟨S6144x1, .f32⟩
  | 120 => ⟨S_, .f32⟩
  | 121 => ⟨S6144x1, .f32⟩
  | 122 => ⟨S6144x1, .f32⟩
  | 123 => ⟨S6144x256, .f32⟩
  | 124 => ⟨S6144x256, .f32⟩
  | 125 => ⟨S6144x256, .f32⟩
  | 126 => ⟨S_, .f32⟩
  | 127 => ⟨S6144, .f32⟩
  | _ => ⟨S6144, .i32⟩

abbrev hbmTy0_3 (i : Nat) : BufTy := match i % 128 with
  | 0 => ⟨S6144x1, .f32⟩
  | 1 => ⟨S_, .f32⟩
  | 2 => ⟨S6144x1, .f32⟩
  | 3 => ⟨S6144x1, .f32⟩
  | 4 => ⟨S6144x256, .f32⟩
  | 5 => ⟨S6144x256, .f32⟩
  | 6 => ⟨S_, .f32⟩
  | 7 => ⟨S6144x1, .f32⟩
  | 8 => ⟨S6144x1, .f32⟩
  | 9 => ⟨S6144x1, .f32⟩
  | 10 => ⟨S6144x256, .f32⟩
  | 11 => ⟨S6144x256, .f32⟩
  | 12 => ⟨S1x256, .f32⟩
  | 13 => ⟨S6144x256, .f32⟩
  | 14 => ⟨S6144x256, .f32⟩
  | 15 => ⟨S1x256, .f32⟩
  | 16 => ⟨S6144x256, .f32⟩
  | 17 => ⟨S6144x256, .f32⟩
  | 18 => ⟨S1x256x1024, .f32⟩
  | 19 => ⟨S256x1024, .f32⟩
  | 20 => ⟨S6144x1024, .f32⟩
  | 21 => ⟨S1x1024, .f32⟩
  | 22 => ⟨S1024, .f32⟩
  | 23 => ⟨S1x1024, .f32⟩
  | 24 => ⟨S6144x1024, .f32⟩
  | 25 => ⟨S6144x1024, .f32⟩
  | 26 => ⟨S_, .f32⟩
  | 27 => ⟨S6144x1024, .f32⟩
  | 28 => ⟨S6144x1024, .f32⟩
  | 29 => ⟨S1x1024x256, .f32⟩
  | 30 => ⟨S1024x256, .f32⟩
  | 31 => ⟨S6144x256, .f32⟩
  | 32 => ⟨S6144x256, .f32⟩
  | 33 => ⟨S1x256, .f32⟩
  | 34 => ⟨S256, .f32⟩
  | 35 => ⟨S1x256, .f32⟩
  | 36 => ⟨S6144x256, .f32⟩
  | 37 => ⟨S6144x256, .f32⟩
  | 38 => ⟨S6144x1024, .f32⟩
  | 39 => ⟨S1x1024, .f32⟩
  | 40 => ⟨S6144x1024, .f32⟩
  | 41 => ⟨S6144x1024, .f32⟩
  | 42 => ⟨S_, .f32⟩
  | 43 => ⟨S6144, .f32⟩
  | 44 => ⟨S_, .f32⟩
  | 45 => ⟨S6144, .f32⟩
  | 46 => ⟨S6144, .f32⟩
  | 47 => ⟨S6144x1, .f32⟩
  | 48 => ⟨S6144x1024, .f32⟩
  | 49 => ⟨S6144x1024, .f32⟩
  | 50 => ⟨S6144x1024, .f32⟩
  | 51 => ⟨S_, .f32⟩
  | 52 => ⟨S6144, .f32⟩
  | 53 => ⟨S6144x1, .f32⟩
  | 54 => ⟨S6144x1, .f32⟩
  | 55 => ⟨S6144x1024, .f32⟩
  | 56 => ⟨S6144x1024, .f32⟩
  | _ => ⟨S6144, .i32⟩

abbrev hbmTy (i : Nat) : BufTy := match i / 128 with
  | 0 => hbmTy0_0 i
  | 1 => hbmTy0_1 i
  | 2 => hbmTy0_2 i
  | 3 => hbmTy0_3 i
  | _ => ⟨S6144, .i32⟩

abbrev bufTy : (tb : Table) → Fin (tcTables nBuf tb) → BufTy
  | .hbm, ⟨i, _⟩ => hbmTy i
  | _, _ => ⟨S6144, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_c : Ref sig .tc := ⟨.hbm, 21, rfl⟩
abbrev main_call0_v0 : Ref sig .tc := ⟨.hbm, 22, rfl⟩
abbrev main_call0_c : Ref sig .tc := ⟨.hbm, 23, rfl⟩
abbrev main_call0_v1 : Ref sig .tc := ⟨.hbm, 24, rfl⟩
abbrev main_call0_c_0 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_call0_c_1 : Ref sig .tc := ⟨.hbm, 29, rfl⟩
abbrev main_call0_v5 : Ref sig .tc := ⟨.hbm, 30, rfl⟩
abbrev main_call0_v6 : Ref sig .tc := ⟨.hbm, 31, rfl⟩
abbrev main_call0_c_2 : Ref sig .tc := ⟨.hbm, 32, rfl⟩
abbrev main_call0_v7 : Ref sig .tc := ⟨.hbm, 33, rfl⟩
abbrev main_call0_v8 : Ref sig .tc := ⟨.hbm, 34, rfl⟩
abbrev main_call0_c_3 : Ref sig .tc := ⟨.hbm, 35, rfl⟩
abbrev main_call0_v9 : Ref sig .tc := ⟨.hbm, 36, rfl⟩
abbrev main_call0_v10 : Ref sig .tc := ⟨.hbm, 37, rfl⟩
abbrev main_call0_v11 : Ref sig .tc := ⟨.hbm, 38, rfl⟩
abbrev main_call0_v12 : Ref sig .tc := ⟨.hbm, 39, rfl⟩
abbrev main_call0_v13 : Ref sig .tc := ⟨.hbm, 40, rfl⟩
abbrev main_call0_v14 : Ref sig .tc := ⟨.hbm, 41, rfl⟩
abbrev main_v0 : Ref sig .tc := ⟨.hbm, 42, rfl⟩
abbrev main_c_0 : Ref sig .tc := ⟨.hbm, 43, rfl⟩
abbrev main_v1 : Ref sig .tc := ⟨.hbm, 44, rfl⟩
abbrev main_v2 : Ref sig .tc := ⟨.hbm, 45, rfl⟩
abbrev main_c_1 : Ref sig .tc := ⟨.hbm, 46, rfl⟩
abbrev main_v3 : Ref sig .tc := ⟨.hbm, 47, rfl⟩
abbrev main_v4 : Ref sig .tc := ⟨.hbm, 48, rfl⟩
abbrev main_v5 : Ref sig .tc := ⟨.hbm, 49, rfl⟩
abbrev main_v6 : Ref sig .tc := ⟨.hbm, 50, rfl⟩
abbrev main_v7 : Ref sig .tc := ⟨.hbm, 51, rfl⟩
abbrev main_c_2 : Ref sig .tc := ⟨.hbm, 52, rfl⟩
abbrev main_call1_v0 : Ref sig .tc := ⟨.hbm, 53, rfl⟩
abbrev main_call1_v1 : Ref sig .tc := ⟨.hbm, 54, rfl⟩
abbrev main_call1_v2 : Ref sig .tc := ⟨.hbm, 55, rfl⟩
abbrev main_call1_v3 : Ref sig .tc := ⟨.hbm, 56, rfl⟩
abbrev main_call1_v4 : Ref sig .tc := ⟨.hbm, 57, rfl⟩
abbrev main_call1_v5 : Ref sig .tc := ⟨.hbm, 58, rfl⟩
abbrev main_call1_v6 : Ref sig .tc := ⟨.hbm, 59, rfl⟩
abbrev main_call1_v7 : Ref sig .tc := ⟨.hbm, 60, rfl⟩
abbrev main_call1_v8 : Ref sig .tc := ⟨.hbm, 61, rfl⟩
abbrev main_call1_c : Ref sig .tc := ⟨.hbm, 62, rfl⟩
abbrev main_call1_v9 : Ref sig .tc := ⟨.hbm, 63, rfl⟩
abbrev main_call1_v10 : Ref sig .tc := ⟨.hbm, 64, rfl⟩
abbrev main_call1_v11 : Ref sig .tc := ⟨.hbm, 65, rfl⟩
abbrev main_call1_c_0 : Ref sig .tc := ⟨.hbm, 66, rfl⟩
abbrev main_call1_v12 : Ref sig .tc := ⟨.hbm, 67, rfl⟩
abbrev main_call1_v13 : Ref sig .tc := ⟨.hbm, 68, rfl⟩
abbrev main_v8 : Ref sig .tc := ⟨.hbm, 69, rfl⟩
abbrev main_c_3 : Ref sig .tc := ⟨.hbm, 70, rfl⟩
abbrev main_v9 : Ref sig .tc := ⟨.hbm, 71, rfl⟩
abbrev main_v10 : Ref sig .tc := ⟨.hbm, 72, rfl⟩
abbrev main_c_4 : Ref sig .tc := ⟨.hbm, 73, rfl⟩
abbrev main_v11 : Ref sig .tc := ⟨.hbm, 74, rfl⟩
abbrev main_v12 : Ref sig .tc := ⟨.hbm, 75, rfl⟩
abbrev main_v13 : Ref sig .tc := ⟨.hbm, 76, rfl⟩
abbrev main_v14 : Ref sig .tc := ⟨.hbm, 77, rfl⟩
abbrev main_v15 : Ref sig .tc := ⟨.hbm, 78, rfl⟩
abbrev main_v16 : Ref sig .tc := ⟨.hbm, 79, rfl⟩
abbrev main_c_5 : Ref sig .tc := ⟨.hbm, 80, rfl⟩
abbrev main_v17 : Ref sig .tc := ⟨.hbm, 81, rfl⟩
abbrev main_v18 : Ref sig .tc := ⟨.hbm, 82, rfl⟩
abbrev main_c_6 : Ref sig .tc := ⟨.hbm, 83, rfl⟩
abbrev main_v19 : Ref sig .tc := ⟨.hbm, 84, rfl⟩
abbrev main_v20 : Ref sig .tc := ⟨.hbm, 85, rfl⟩
abbrev main_v21 : Ref sig .tc := ⟨.hbm, 86, rfl⟩
abbrev main_v22 : Ref sig .tc := ⟨.hbm, 87, rfl⟩
abbrev main_v23 : Ref sig .tc := ⟨.hbm, 88, rfl⟩
abbrev main_v24 : Ref sig .tc := ⟨.hbm, 89, rfl⟩
abbrev main_v25 : Ref sig .tc := ⟨.hbm, 90, rfl⟩
abbrev main_v26 : Ref sig .tc := ⟨.hbm, 91, rfl⟩
abbrev main_v27 : Ref sig .tc := ⟨.hbm, 92, rfl⟩
abbrev main_v28 : Ref sig .tc := ⟨.hbm, 93, rfl⟩
abbrev main_cst : Ref sig .tc := ⟨.hbm, 94, rfl⟩
abbrev main_v29 : Ref sig .tc := ⟨.hbm, 95, rfl⟩
abbrev main_v30 : Ref sig .tc := ⟨.hbm, 96, rfl⟩
abbrev main_cst_7 : Ref sig .tc := ⟨.hbm, 97, rfl⟩
abbrev main_v31 : Ref sig .tc := ⟨.hbm, 98, rfl⟩
abbrev main_v32 : Ref sig .tc := ⟨.hbm, 99, rfl⟩
abbrev main_v33 : Ref sig .tc := ⟨.hbm, 100, rfl⟩
abbrev main_v34 : Ref sig .tc := ⟨.hbm, 101, rfl⟩
abbrev main_v35 : Ref sig .tc := ⟨.hbm, 102, rfl⟩
abbrev main_cst_8 : Ref sig .tc := ⟨.hbm, 103, rfl⟩
abbrev main_v36 : Ref sig .tc := ⟨.hbm, 104, rfl⟩
abbrev main_v37 : Ref sig .tc := ⟨.hbm, 105, rfl⟩
abbrev main_cst_9 : Ref sig .tc := ⟨.hbm, 106, rfl⟩
abbrev main_v38 : Ref sig .tc := ⟨.hbm, 107, rfl⟩
abbrev main_v39 : Ref sig .tc := ⟨.hbm, 108, rfl⟩
abbrev main_v40 : Ref sig .tc := ⟨.hbm, 109, rfl⟩
abbrev main_v41 : Ref sig .tc := ⟨.hbm, 110, rfl⟩
abbrev main_cst_10 : Ref sig .tc := ⟨.hbm, 111, rfl⟩
abbrev main_v42 : Ref sig .tc := ⟨.hbm, 112, rfl⟩
abbrev main_v43 : Ref sig .tc := ⟨.hbm, 113, rfl⟩
abbrev main_v44 : Ref sig .tc := ⟨.hbm, 114, rfl⟩
abbrev main_v45 : Ref sig .tc := ⟨.hbm, 115, rfl⟩
abbrev main_v46 : Ref sig .tc := ⟨.hbm, 116, rfl⟩
abbrev main_v47 : Ref sig .tc := ⟨.hbm, 117, rfl⟩
abbrev main_v48 : Ref sig .tc := ⟨.hbm, 118, rfl⟩
abbrev main_v49 : Ref sig .tc := ⟨.hbm, 119, rfl⟩
abbrev main_v50 : Ref sig .tc := ⟨.hbm, 120, rfl⟩
abbrev main_v51 : Ref sig .tc := ⟨.hbm, 121, rfl⟩
abbrev main_v52 : Ref sig .tc := ⟨.hbm, 122, rfl⟩
abbrev main_v53 : Ref sig .tc := ⟨.hbm, 123, rfl⟩
abbrev main_v54 : Ref sig .tc := ⟨.hbm, 124, rfl⟩
abbrev main_v55 : Ref sig .tc := ⟨.hbm, 125, rfl⟩
abbrev main_v56 : Ref sig .tc := ⟨.hbm, 126, rfl⟩
abbrev main_v57 : Ref sig .tc := ⟨.hbm, 127, rfl⟩
abbrev main_v58 : Ref sig .tc := ⟨.hbm, 128, rfl⟩
abbrev main_v59 : Ref sig .tc := ⟨.hbm, 129, rfl⟩
abbrev main_v60 : Ref sig .tc := ⟨.hbm, 130, rfl⟩
abbrev main_v61 : Ref sig .tc := ⟨.hbm, 131, rfl⟩
abbrev main_v62 : Ref sig .tc := ⟨.hbm, 132, rfl⟩
abbrev main_v63 : Ref sig .tc := ⟨.hbm, 133, rfl⟩
abbrev main_v64 : Ref sig .tc := ⟨.hbm, 134, rfl⟩
abbrev main_v65 : Ref sig .tc := ⟨.hbm, 135, rfl⟩
abbrev main_v66 : Ref sig .tc := ⟨.hbm, 136, rfl⟩
abbrev main_c_11 : Ref sig .tc := ⟨.hbm, 137, rfl⟩
abbrev main_v67 : Ref sig .tc := ⟨.hbm, 138, rfl⟩
abbrev main_v68 : Ref sig .tc := ⟨.hbm, 139, rfl⟩
abbrev main_c_12 : Ref sig .tc := ⟨.hbm, 140, rfl⟩
abbrev main_v69 : Ref sig .tc := ⟨.hbm, 141, rfl⟩
abbrev main_v70 : Ref sig .tc := ⟨.hbm, 142, rfl⟩
abbrev main_v71 : Ref sig .tc := ⟨.hbm, 143, rfl⟩
abbrev main_v72 : Ref sig .tc := ⟨.hbm, 144, rfl⟩
abbrev main_v73 : Ref sig .tc := ⟨.hbm, 145, rfl⟩
abbrev main_c_13 : Ref sig .tc := ⟨.hbm, 146, rfl⟩
abbrev main_v74 : Ref sig .tc := ⟨.hbm, 147, rfl⟩
abbrev main_v75 : Ref sig .tc := ⟨.hbm, 148, rfl⟩
abbrev main_c_14 : Ref sig .tc := ⟨.hbm, 149, rfl⟩
abbrev main_v76 : Ref sig .tc := ⟨.hbm, 150, rfl⟩
abbrev main_v77 : Ref sig .tc := ⟨.hbm, 151, rfl⟩
abbrev main_v78 : Ref sig .tc := ⟨.hbm, 152, rfl⟩
abbrev main_v79 : Ref sig .tc := ⟨.hbm, 153, rfl⟩
abbrev main_v80 : Ref sig .tc := ⟨.hbm, 154, rfl⟩
abbrev main_v81 : Ref sig .tc := ⟨.hbm, 155, rfl⟩
abbrev main_cst_15 : Ref sig .tc := ⟨.hbm, 156, rfl⟩
abbrev main_v82 : Ref sig .tc := ⟨.hbm, 157, rfl⟩
abbrev main_cst_16 : Ref sig .tc := ⟨.hbm, 158, rfl⟩
abbrev main_v83 : Ref sig .tc := ⟨.hbm, 159, rfl⟩
abbrev main_v84 : Ref sig .tc := ⟨.hbm, 160, rfl⟩
abbrev main_cst_17 : Ref sig .tc := ⟨.hbm, 161, rfl⟩
abbrev main_cst_18 : Ref sig .tc := ⟨.hbm, 162, rfl⟩
abbrev main_call2_v0 : Ref sig .tc := ⟨.hbm, 163, rfl⟩
abbrev main_call2_v1 : Ref sig .tc := ⟨.hbm, 164, rfl⟩
abbrev main_call2_v2 : Ref sig .tc := ⟨.hbm, 165, rfl⟩
abbrev main_call2_v3 : Ref sig .tc := ⟨.hbm, 166, rfl⟩
abbrev main_call2_v4 : Ref sig .tc := ⟨.hbm, 167, rfl⟩
abbrev main_v85 : Ref sig .tc := ⟨.hbm, 168, rfl⟩
abbrev main_v86 : Ref sig .tc := ⟨.hbm, 169, rfl⟩
abbrev main_c_19 : Ref sig .tc := ⟨.hbm, 170, rfl⟩
abbrev main_v87 : Ref sig .tc := ⟨.hbm, 171, rfl⟩
abbrev main_v88 : Ref sig .tc := ⟨.hbm, 172, rfl⟩
abbrev main_c_20 : Ref sig .tc := ⟨.hbm, 173, rfl⟩
abbrev main_v89 : Ref sig .tc := ⟨.hbm, 174, rfl⟩
abbrev main_v90 : Ref sig .tc := ⟨.hbm, 175, rfl⟩
abbrev main_v91 : Ref sig .tc := ⟨.hbm, 176, rfl⟩
abbrev main_v92 : Ref sig .tc := ⟨.hbm, 177, rfl⟩
abbrev main_v93 : Ref sig .tc := ⟨.hbm, 178, rfl⟩
abbrev main_v94 : Ref sig .tc := ⟨.hbm, 179, rfl⟩
abbrev main_v95 : Ref sig .tc := ⟨.hbm, 180, rfl⟩
abbrev main_v96 : Ref sig .tc := ⟨.hbm, 181, rfl⟩
abbrev main_cst_21 : Ref sig .tc := ⟨.hbm, 182, rfl⟩
abbrev main_v97 : Ref sig .tc := ⟨.hbm, 183, rfl⟩
abbrev main_v98 : Ref sig .tc := ⟨.hbm, 184, rfl⟩
abbrev main_v99 : Ref sig .tc := ⟨.hbm, 185, rfl⟩
abbrev main_cst_22 : Ref sig .tc := ⟨.hbm, 186, rfl⟩
abbrev main_v100 : Ref sig .tc := ⟨.hbm, 187, rfl⟩
abbrev main_v101 : Ref sig .tc := ⟨.hbm, 188, rfl⟩
abbrev main_v102 : Ref sig .tc := ⟨.hbm, 189, rfl⟩
abbrev main_v103 : Ref sig .tc := ⟨.hbm, 190, rfl⟩
abbrev main_v104 : Ref sig .tc := ⟨.hbm, 191, rfl⟩
abbrev main_v105 : Ref sig .tc := ⟨.hbm, 192, rfl⟩
abbrev main_v106 : Ref sig .tc := ⟨.hbm, 193, rfl⟩
abbrev main_v107 : Ref sig .tc := ⟨.hbm, 194, rfl⟩
abbrev main_v108 : Ref sig .tc := ⟨.hbm, 195, rfl⟩
abbrev main_v109 : Ref sig .tc := ⟨.hbm, 196, rfl⟩
abbrev main_v110 : Ref sig .tc := ⟨.hbm, 197, rfl⟩
abbrev main_v111 : Ref sig .tc := ⟨.hbm, 198, rfl⟩
abbrev main_v112 : Ref sig .tc := ⟨.hbm, 199, rfl⟩
abbrev main_v113 : Ref sig .tc := ⟨.hbm, 200, rfl⟩
abbrev main_v114 : Ref sig .tc := ⟨.hbm, 201, rfl⟩
abbrev main_v115 : Ref sig .tc := ⟨.hbm, 202, rfl⟩
abbrev main_v116 : Ref sig .tc := ⟨.hbm, 203, rfl⟩
abbrev main_v117 : Ref sig .tc := ⟨.hbm, 204, rfl⟩
abbrev main_v118 : Ref sig .tc := ⟨.hbm, 205, rfl⟩
abbrev main_v119 : Ref sig .tc := ⟨.hbm, 206, rfl⟩
abbrev main_cst_23 : Ref sig .tc := ⟨.hbm, 207, rfl⟩
abbrev main_v120 : Ref sig .tc := ⟨.hbm, 208, rfl⟩
abbrev main_v121 : Ref sig .tc := ⟨.hbm, 209, rfl⟩
abbrev main_cst_24 : Ref sig .tc := ⟨.hbm, 210, rfl⟩
abbrev main_v122 : Ref sig .tc := ⟨.hbm, 211, rfl⟩
abbrev main_v123 : Ref sig .tc := ⟨.hbm, 212, rfl⟩
abbrev main_v124 : Ref sig .tc := ⟨.hbm, 213, rfl⟩
abbrev main_v125 : Ref sig .tc := ⟨.hbm, 214, rfl⟩
abbrev main_v126 : Ref sig .tc := ⟨.hbm, 215, rfl⟩
abbrev main_cst_25 : Ref sig .tc := ⟨.hbm, 216, rfl⟩
abbrev main_v127 : Ref sig .tc := ⟨.hbm, 217, rfl⟩
abbrev main_v128 : Ref sig .tc := ⟨.hbm, 218, rfl⟩
abbrev main_cst_26 : Ref sig .tc := ⟨.hbm, 219, rfl⟩
abbrev main_v129 : Ref sig .tc := ⟨.hbm, 220, rfl⟩
abbrev main_v130 : Ref sig .tc := ⟨.hbm, 221, rfl⟩
abbrev main_v131 : Ref sig .tc := ⟨.hbm, 222, rfl⟩
abbrev main_v132 : Ref sig .tc := ⟨.hbm, 223, rfl⟩
abbrev main_cst_27 : Ref sig .tc := ⟨.hbm, 224, rfl⟩
abbrev main_v133 : Ref sig .tc := ⟨.hbm, 225, rfl⟩
abbrev main_v134 : Ref sig .tc := ⟨.hbm, 226, rfl⟩
abbrev main_v135 : Ref sig .tc := ⟨.hbm, 227, rfl⟩
abbrev main_v136 : Ref sig .tc := ⟨.hbm, 228, rfl⟩
abbrev main_v137 : Ref sig .tc := ⟨.hbm, 229, rfl⟩
abbrev main_v138 : Ref sig .tc := ⟨.hbm, 230, rfl⟩
abbrev main_v139 : Ref sig .tc := ⟨.hbm, 231, rfl⟩
abbrev main_v140 : Ref sig .tc := ⟨.hbm, 232, rfl⟩
abbrev main_v141 : Ref sig .tc := ⟨.hbm, 233, rfl⟩
abbrev main_v142 : Ref sig .tc := ⟨.hbm, 234, rfl⟩
abbrev main_v143 : Ref sig .tc := ⟨.hbm, 235, rfl⟩
abbrev main_v144 : Ref sig .tc := ⟨.hbm, 236, rfl⟩
abbrev main_v145 : Ref sig .tc := ⟨.hbm, 237, rfl⟩
abbrev main_v146 : Ref sig .tc := ⟨.hbm, 238, rfl⟩
abbrev main_v147 : Ref sig .tc := ⟨.hbm, 239, rfl⟩
abbrev main_v148 : Ref sig .tc := ⟨.hbm, 240, rfl⟩
abbrev main_v149 : Ref sig .tc := ⟨.hbm, 241, rfl⟩
abbrev main_v150 : Ref sig .tc := ⟨.hbm, 242, rfl⟩
abbrev main_v151 : Ref sig .tc := ⟨.hbm, 243, rfl⟩
abbrev main_call3_cst : Ref sig .tc := ⟨.hbm, 244, rfl⟩
abbrev main_call3_v0 : Ref sig .tc := ⟨.hbm, 245, rfl⟩
abbrev main_v152 : Ref sig .tc := ⟨.hbm, 246, rfl⟩
abbrev main_v153 : Ref sig .tc := ⟨.hbm, 247, rfl⟩
abbrev main_v154 : Ref sig .tc := ⟨.hbm, 248, rfl⟩
abbrev main_v155 : Ref sig .tc := ⟨.hbm, 249, rfl⟩
abbrev main_v156 : Ref sig .tc := ⟨.hbm, 250, rfl⟩
abbrev main_v157 : Ref sig .tc := ⟨.hbm, 251, rfl⟩
abbrev main_v158 : Ref sig .tc := ⟨.hbm, 252, rfl⟩
abbrev main_v159 : Ref sig .tc := ⟨.hbm, 253, rfl⟩
abbrev main_v160 : Ref sig .tc := ⟨.hbm, 254, rfl⟩
abbrev main_v161 : Ref sig .tc := ⟨.hbm, 255, rfl⟩
abbrev main_v162 : Ref sig .tc := ⟨.hbm, 256, rfl⟩
abbrev main_v163 : Ref sig .tc := ⟨.hbm, 257, rfl⟩
abbrev main_v164 : Ref sig .tc := ⟨.hbm, 258, rfl⟩
abbrev main_v165 : Ref sig .tc := ⟨.hbm, 259, rfl⟩
abbrev main_cst_28 : Ref sig .tc := ⟨.hbm, 260, rfl⟩
abbrev main_v166 : Ref sig .tc := ⟨.hbm, 261, rfl⟩
abbrev main_v167 : Ref sig .tc := ⟨.hbm, 262, rfl⟩
abbrev main_cst_29 : Ref sig .tc := ⟨.hbm, 263, rfl⟩
abbrev main_v168 : Ref sig .tc := ⟨.hbm, 264, rfl⟩
abbrev main_v169 : Ref sig .tc := ⟨.hbm, 265, rfl⟩
abbrev main_v170 : Ref sig .tc := ⟨.hbm, 266, rfl⟩
abbrev main_v171 : Ref sig .tc := ⟨.hbm, 267, rfl⟩
abbrev main_v172 : Ref sig .tc := ⟨.hbm, 268, rfl⟩
abbrev main_cst_30 : Ref sig .tc := ⟨.hbm, 269, rfl⟩
abbrev main_v173 : Ref sig .tc := ⟨.hbm, 270, rfl⟩
abbrev main_v174 : Ref sig .tc := ⟨.hbm, 271, rfl⟩
abbrev main_cst_31 : Ref sig .tc := ⟨.hbm, 272, rfl⟩
abbrev main_v175 : Ref sig .tc := ⟨.hbm, 273, rfl⟩
abbrev main_v176 : Ref sig .tc := ⟨.hbm, 274, rfl⟩
abbrev main_v177 : Ref sig .tc := ⟨.hbm, 275, rfl⟩
abbrev main_v178 : Ref sig .tc := ⟨.hbm, 276, rfl⟩
abbrev main_cst_32 : Ref sig .tc := ⟨.hbm, 277, rfl⟩
abbrev main_v179 : Ref sig .tc := ⟨.hbm, 278, rfl⟩
abbrev main_v180 : Ref sig .tc := ⟨.hbm, 279, rfl⟩
abbrev main_v181 : Ref sig .tc := ⟨.hbm, 280, rfl⟩
abbrev main_v182 : Ref sig .tc := ⟨.hbm, 281, rfl⟩
abbrev main_v183 : Ref sig .tc := ⟨.hbm, 282, rfl⟩
abbrev main_v184 : Ref sig .tc := ⟨.hbm, 283, rfl⟩
abbrev main_v185 : Ref sig .tc := ⟨.hbm, 284, rfl⟩
abbrev main_v186 : Ref sig .tc := ⟨.hbm, 285, rfl⟩
abbrev main_v187 : Ref sig .tc := ⟨.hbm, 286, rfl⟩
abbrev main_v188 : Ref sig .tc := ⟨.hbm, 287, rfl⟩
abbrev main_v189 : Ref sig .tc := ⟨.hbm, 288, rfl⟩
abbrev main_v190 : Ref sig .tc := ⟨.hbm, 289, rfl⟩
abbrev main_v191 : Ref sig .tc := ⟨.hbm, 290, rfl⟩
abbrev main_v192 : Ref sig .tc := ⟨.hbm, 291, rfl⟩
abbrev main_v193 : Ref sig .tc := ⟨.hbm, 292, rfl⟩
abbrev main_v194 : Ref sig .tc := ⟨.hbm, 293, rfl⟩
abbrev main_v195 : Ref sig .tc := ⟨.hbm, 294, rfl⟩
abbrev main_v196 : Ref sig .tc := ⟨.hbm, 295, rfl⟩
abbrev main_v197 : Ref sig .tc := ⟨.hbm, 296, rfl⟩
abbrev main_v198 : Ref sig .tc := ⟨.hbm, 297, rfl⟩
abbrev main_v199 : Ref sig .tc := ⟨.hbm, 298, rfl⟩
abbrev main_v200 : Ref sig .tc := ⟨.hbm, 299, rfl⟩
abbrev main_v201 : Ref sig .tc := ⟨.hbm, 300, rfl⟩
abbrev main_v202 : Ref sig .tc := ⟨.hbm, 301, rfl⟩
abbrev main_v203 : Ref sig .tc := ⟨.hbm, 302, rfl⟩
abbrev main_c_33 : Ref sig .tc := ⟨.hbm, 303, rfl⟩
abbrev main_v204 : Ref sig .tc := ⟨.hbm, 304, rfl⟩
abbrev main_v205 : Ref sig .tc := ⟨.hbm, 305, rfl⟩
abbrev main_c_34 : Ref sig .tc := ⟨.hbm, 306, rfl⟩
abbrev main_v206 : Ref sig .tc := ⟨.hbm, 307, rfl⟩
abbrev main_v207 : Ref sig .tc := ⟨.hbm, 308, rfl⟩
abbrev main_v208 : Ref sig .tc := ⟨.hbm, 309, rfl⟩
abbrev main_v209 : Ref sig .tc := ⟨.hbm, 310, rfl⟩
abbrev main_v210 : Ref sig .tc := ⟨.hbm, 311, rfl⟩
abbrev main_c_35 : Ref sig .tc := ⟨.hbm, 312, rfl⟩
abbrev main_v211 : Ref sig .tc := ⟨.hbm, 313, rfl⟩
abbrev main_v212 : Ref sig .tc := ⟨.hbm, 314, rfl⟩
abbrev main_c_36 : Ref sig .tc := ⟨.hbm, 315, rfl⟩
abbrev main_v213 : Ref sig .tc := ⟨.hbm, 316, rfl⟩
abbrev main_v214 : Ref sig .tc := ⟨.hbm, 317, rfl⟩
abbrev main_v215 : Ref sig .tc := ⟨.hbm, 318, rfl⟩
abbrev main_v216 : Ref sig .tc := ⟨.hbm, 319, rfl⟩
abbrev main_v217 : Ref sig .tc := ⟨.hbm, 320, rfl⟩
abbrev main_v218 : Ref sig .tc := ⟨.hbm, 321, rfl⟩
abbrev main_cst_37 : Ref sig .tc := ⟨.hbm, 322, rfl⟩
abbrev main_v219 : Ref sig .tc := ⟨.hbm, 323, rfl⟩
abbrev main_cst_38 : Ref sig .tc := ⟨.hbm, 324, rfl⟩
abbrev main_v220 : Ref sig .tc := ⟨.hbm, 325, rfl⟩
abbrev main_v221 : Ref sig .tc := ⟨.hbm, 326, rfl⟩
abbrev main_cst_39 : Ref sig .tc := ⟨.hbm, 327, rfl⟩
abbrev main_cst_40 : Ref sig .tc := ⟨.hbm, 328, rfl⟩
abbrev main_call4_v0 : Ref sig .tc := ⟨.hbm, 329, rfl⟩
abbrev main_call4_v1 : Ref sig .tc := ⟨.hbm, 330, rfl⟩
abbrev main_call4_v2 : Ref sig .tc := ⟨.hbm, 331, rfl⟩
abbrev main_call4_v3 : Ref sig .tc := ⟨.hbm, 332, rfl⟩
abbrev main_call4_v4 : Ref sig .tc := ⟨.hbm, 333, rfl⟩
abbrev main_v222 : Ref sig .tc := ⟨.hbm, 334, rfl⟩
abbrev main_v223 : Ref sig .tc := ⟨.hbm, 335, rfl⟩
abbrev main_c_41 : Ref sig .tc := ⟨.hbm, 336, rfl⟩
abbrev main_v224 : Ref sig .tc := ⟨.hbm, 337, rfl⟩
abbrev main_v225 : Ref sig .tc := ⟨.hbm, 338, rfl⟩
abbrev main_c_42 : Ref sig .tc := ⟨.hbm, 339, rfl⟩
abbrev main_v226 : Ref sig .tc := ⟨.hbm, 340, rfl⟩
abbrev main_v227 : Ref sig .tc := ⟨.hbm, 341, rfl⟩
abbrev main_v228 : Ref sig .tc := ⟨.hbm, 342, rfl⟩
abbrev main_v229 : Ref sig .tc := ⟨.hbm, 343, rfl⟩
abbrev main_v230 : Ref sig .tc := ⟨.hbm, 344, rfl⟩
abbrev main_v231 : Ref sig .tc := ⟨.hbm, 345, rfl⟩
abbrev main_v232 : Ref sig .tc := ⟨.hbm, 346, rfl⟩
abbrev main_v233 : Ref sig .tc := ⟨.hbm, 347, rfl⟩
abbrev main_cst_43 : Ref sig .tc := ⟨.hbm, 348, rfl⟩
abbrev main_v234 : Ref sig .tc := ⟨.hbm, 349, rfl⟩
abbrev main_v235 : Ref sig .tc := ⟨.hbm, 350, rfl⟩
abbrev main_v236 : Ref sig .tc := ⟨.hbm, 351, rfl⟩
abbrev main_cst_44 : Ref sig .tc := ⟨.hbm, 352, rfl⟩
abbrev main_v237 : Ref sig .tc := ⟨.hbm, 353, rfl⟩
abbrev main_v238 : Ref sig .tc := ⟨.hbm, 354, rfl⟩
abbrev main_v239 : Ref sig .tc := ⟨.hbm, 355, rfl⟩
abbrev main_v240 : Ref sig .tc := ⟨.hbm, 356, rfl⟩
abbrev main_v241 : Ref sig .tc := ⟨.hbm, 357, rfl⟩
abbrev main_v242 : Ref sig .tc := ⟨.hbm, 358, rfl⟩
abbrev main_v243 : Ref sig .tc := ⟨.hbm, 359, rfl⟩
abbrev main_v244 : Ref sig .tc := ⟨.hbm, 360, rfl⟩
abbrev main_v245 : Ref sig .tc := ⟨.hbm, 361, rfl⟩
abbrev main_v246 : Ref sig .tc := ⟨.hbm, 362, rfl⟩
abbrev main_v247 : Ref sig .tc := ⟨.hbm, 363, rfl⟩
abbrev main_v248 : Ref sig .tc := ⟨.hbm, 364, rfl⟩
abbrev main_v249 : Ref sig .tc := ⟨.hbm, 365, rfl⟩
abbrev main_v250 : Ref sig .tc := ⟨.hbm, 366, rfl⟩
abbrev main_v251 : Ref sig .tc := ⟨.hbm, 367, rfl⟩
abbrev main_v252 : Ref sig .tc := ⟨.hbm, 368, rfl⟩
abbrev main_v253 : Ref sig .tc := ⟨.hbm, 369, rfl⟩
abbrev main_v254 : Ref sig .tc := ⟨.hbm, 370, rfl⟩
abbrev main_v255 : Ref sig .tc := ⟨.hbm, 371, rfl⟩
abbrev main_v256 : Ref sig .tc := ⟨.hbm, 372, rfl⟩
abbrev main_cst_45 : Ref sig .tc := ⟨.hbm, 373, rfl⟩
abbrev main_v257 : Ref sig .tc := ⟨.hbm, 374, rfl⟩
abbrev main_v258 : Ref sig .tc := ⟨.hbm, 375, rfl⟩
abbrev main_cst_46 : Ref sig .tc := ⟨.hbm, 376, rfl⟩
abbrev main_v259 : Ref sig .tc := ⟨.hbm, 377, rfl⟩
abbrev main_v260 : Ref sig .tc := ⟨.hbm, 378, rfl⟩
abbrev main_v261 : Ref sig .tc := ⟨.hbm, 379, rfl⟩
abbrev main_v262 : Ref sig .tc := ⟨.hbm, 380, rfl⟩
abbrev main_v263 : Ref sig .tc := ⟨.hbm, 381, rfl⟩
abbrev main_cst_47 : Ref sig .tc := ⟨.hbm, 382, rfl⟩
abbrev main_v264 : Ref sig .tc := ⟨.hbm, 383, rfl⟩
abbrev main_v265 : Ref sig .tc := ⟨.hbm, 384, rfl⟩
abbrev main_cst_48 : Ref sig .tc := ⟨.hbm, 385, rfl⟩
abbrev main_v266 : Ref sig .tc := ⟨.hbm, 386, rfl⟩
abbrev main_v267 : Ref sig .tc := ⟨.hbm, 387, rfl⟩
abbrev main_v268 : Ref sig .tc := ⟨.hbm, 388, rfl⟩
abbrev main_v269 : Ref sig .tc := ⟨.hbm, 389, rfl⟩
abbrev main_cst_49 : Ref sig .tc := ⟨.hbm, 390, rfl⟩
abbrev main_v270 : Ref sig .tc := ⟨.hbm, 391, rfl⟩
abbrev main_v271 : Ref sig .tc := ⟨.hbm, 392, rfl⟩
abbrev main_v272 : Ref sig .tc := ⟨.hbm, 393, rfl⟩
abbrev main_v273 : Ref sig .tc := ⟨.hbm, 394, rfl⟩
abbrev main_v274 : Ref sig .tc := ⟨.hbm, 395, rfl⟩
abbrev main_v275 : Ref sig .tc := ⟨.hbm, 396, rfl⟩
abbrev main_v276 : Ref sig .tc := ⟨.hbm, 397, rfl⟩
abbrev main_v277 : Ref sig .tc := ⟨.hbm, 398, rfl⟩
abbrev main_v278 : Ref sig .tc := ⟨.hbm, 399, rfl⟩
abbrev main_v279 : Ref sig .tc := ⟨.hbm, 400, rfl⟩
abbrev main_v280 : Ref sig .tc := ⟨.hbm, 401, rfl⟩
abbrev main_v281 : Ref sig .tc := ⟨.hbm, 402, rfl⟩
abbrev main_v282 : Ref sig .tc := ⟨.hbm, 403, rfl⟩
abbrev main_v283 : Ref sig .tc := ⟨.hbm, 404, rfl⟩
abbrev main_v284 : Ref sig .tc := ⟨.hbm, 405, rfl⟩
abbrev main_v285 : Ref sig .tc := ⟨.hbm, 406, rfl⟩
abbrev main_v286 : Ref sig .tc := ⟨.hbm, 407, rfl⟩
abbrev main_v287 : Ref sig .tc := ⟨.hbm, 408, rfl⟩
abbrev main_v288 : Ref sig .tc := ⟨.hbm, 409, rfl⟩
abbrev main_call5_cst : Ref sig .tc := ⟨.hbm, 410, rfl⟩
abbrev main_call5_v0 : Ref sig .tc := ⟨.hbm, 411, rfl⟩
abbrev main_v289 : Ref sig .tc := ⟨.hbm, 412, rfl⟩
abbrev main_v290 : Ref sig .tc := ⟨.hbm, 413, rfl⟩
abbrev main_v291 : Ref sig .tc := ⟨.hbm, 414, rfl⟩
abbrev main_v292 : Ref sig .tc := ⟨.hbm, 415, rfl⟩
abbrev main_v293 : Ref sig .tc := ⟨.hbm, 416, rfl⟩
abbrev main_v294 : Ref sig .tc := ⟨.hbm, 417, rfl⟩
abbrev main_v295 : Ref sig .tc := ⟨.hbm, 418, rfl⟩
abbrev main_v296 : Ref sig .tc := ⟨.hbm, 419, rfl⟩
abbrev main_v297 : Ref sig .tc := ⟨.hbm, 420, rfl⟩
abbrev main_v298 : Ref sig .tc := ⟨.hbm, 421, rfl⟩
abbrev main_v299 : Ref sig .tc := ⟨.hbm, 422, rfl⟩
abbrev main_v300 : Ref sig .tc := ⟨.hbm, 423, rfl⟩
abbrev main_v301 : Ref sig .tc := ⟨.hbm, 424, rfl⟩
abbrev main_v302 : Ref sig .tc := ⟨.hbm, 425, rfl⟩
abbrev main_call6_cst : Ref sig .tc := ⟨.hbm, 426, rfl⟩
abbrev main_call6_v0 : Ref sig .tc := ⟨.hbm, 427, rfl⟩
abbrev main_call6_cst_0 : Ref sig .tc := ⟨.hbm, 428, rfl⟩
abbrev main_call6_v1 : Ref sig .tc := ⟨.hbm, 429, rfl⟩
abbrev main_call6_v2 : Ref sig .tc := ⟨.hbm, 430, rfl⟩
abbrev main_call6_v3 : Ref sig .tc := ⟨.hbm, 431, rfl⟩
abbrev main_call6_v4 : Ref sig .tc := ⟨.hbm, 432, rfl⟩
abbrev main_call6_v5 : Ref sig .tc := ⟨.hbm, 433, rfl⟩
abbrev main_call6_v6 : Ref sig .tc := ⟨.hbm, 434, rfl⟩
abbrev main_call6_cst_1 : Ref sig .tc := ⟨.hbm, 435, rfl⟩
abbrev main_call6_v7 : Ref sig .tc := ⟨.hbm, 436, rfl⟩
abbrev main_call6_v8 : Ref sig .tc := ⟨.hbm, 437, rfl⟩
abbrev main_call6_v9 : Ref sig .tc := ⟨.hbm, 438, rfl⟩
abbrev main_call6_v10 : Ref sig .tc := ⟨.hbm, 439, rfl⟩
abbrev main_v303 : Ref sig .tc := ⟨.hbm, 440, rfl⟩

abbrev nD : Nat := 1
abbrev τ : Topo := Topo.v7x

variable {F : FTy → Type} [FloatOps F]

class Facts₀ : Prop where
  bcast_S_S6144 : S_.BroadcastsInDim S6144 (![] : Fin 0 → Fin S6144.rank)
  bcast_S6144_S6144x1_0 : S6144.BroadcastsInDim S6144x1 (![0] : Fin 1 → Fin S6144x1.rank)
  slices_S2x256_S1x256_0_0 : S2x256.Slices ![0, 0] S1x256
  shapeCasts_S1x256_S256 : S1x256.ShapeCasts S256
  reducesTo_S6144x256_S6144_d1 : S6144x256.ReducesTo [1] S6144
  h_S_ : 0 < S_.numel
  bcast_S_S6144x1 : S_.BroadcastsInDim S6144x1 (![] : Fin 0 → Fin S6144x1.rank)
  bcast_S6144x1_S6144x256_0_1 : S6144x1.BroadcastsInDim S6144x256 (![0, 1] : Fin 2 → Fin S6144x256.rank)
  bcast_S256_S1x256_1 : S256.BroadcastsInDim S1x256 (![1] : Fin 1 → Fin S1x256.rank)
  bcast_S1x256_S6144x256_0_1 : S1x256.BroadcastsInDim S6144x256 (![0, 1] : Fin 2 → Fin S6144x256.rank)
  slices_S2x256x768_S1x256x768_0_0_0 : S2x256x768.Slices ![0, 0, 0] S1x256x768
  shapeCasts_S1x256x768_S256x768 : S1x256x768.ShapeCasts S256x768
  slices_S2x768_S1x768_0_0 : S2x768.Slices ![0, 0] S1x768
  shapeCasts_S1x768_S768 : S1x768.ShapeCasts S768
  bcast_S768_S1x768_1 : S768.BroadcastsInDim S1x768 (![1] : Fin 1 → Fin S1x768.rank)
  bcast_S1x768_S6144x768_0_1 : S1x768.BroadcastsInDim S6144x768 (![0, 1] : Fin 2 → Fin S6144x768.rank)
  slices_S6144x768_S6144x256_0_0 : S6144x768.Slices ![0, 0] S6144x256
  slices_S6144x768_S6144x256_0_256 : S6144x768.Slices ![0, 256] S6144x256
  slices_S6144x768_S6144x256_0_512 : S6144x768.Slices ![0, 512] S6144x256
  shapeCasts_S6144x256_S6144x8x32 : S6144x256.ShapeCasts S6144x8x32
  bcast_S_S297984 : S_.BroadcastsInDim S297984 (![] : Fin 0 → Fin S297984.rank)
  bcast_S297984_S297984x1_0 : S297984.BroadcastsInDim S297984x1 (![0] : Fin 1 → Fin S297984x1.rank)
  reducesTo_S297984x8x32_S297984x8_d2 : S297984x8x32.ReducesTo [2] S297984x8
  bcast_S_S297984x8 : S_.BroadcastsInDim S297984x8 (![] : Fin 0 → Fin S297984x8.rank)
  bcast_S297984x8_S297984x8x1_0_1 : S297984x8.BroadcastsInDim S297984x8x1 (![0, 1] : Fin 2 → Fin S297984x8x1.rank)
  bcast_S297984x8x1_S297984x8x32_0_1_2 : S297984x8x1.BroadcastsInDim S297984x8x32 (![0, 1, 2] : Fin 3 → Fin S297984x8x32.rank)
  bcast_S_S6144x8x32 : S_.BroadcastsInDim S6144x8x32 (![] : Fin 0 → Fin S6144x8x32.rank)
  bcast_S_S6144x8 : S_.BroadcastsInDim S6144x8 (![] : Fin 0 → Fin S6144x8.rank)
  bcast_S6144x8_S6144x8x1_0_1 : S6144x8.BroadcastsInDim S6144x8x1 (![0, 1] : Fin 2 → Fin S6144x8x1.rank)
  bcast_S6144x8x1_S6144x8x32_0_1_2 : S6144x8x1.BroadcastsInDim S6144x8x32 (![0, 1, 2] : Fin 3 → Fin S6144x8x32.rank)
  shapeCasts_S6144x8x32_S6144x256 : S6144x8x32.ShapeCasts S6144x256
  slices_S2x256x256_S1x256x256_0_0_0 : S2x256x256.Slices ![0, 0, 0] S1x256x256
  shapeCasts_S1x256x256_S256x256 : S1x256x256.ShapeCasts S256x256
  slices_S2x256x1024_S1x256x1024_0_0_0 : S2x256x1024.Slices ![0, 0, 0] S1x256x1024
  shapeCasts_S1x256x1024_S256x1024 : S1x256x1024.ShapeCasts S256x1024
  slices_S2x1024_S1x1024_0_0 : S2x1024.Slices ![0, 0] S1x1024
  shapeCasts_S1x1024_S1024 : S1x1024.ShapeCasts S1024
  bcast_S1024_S1x1024_1 : S1024.BroadcastsInDim S1x1024 (![1] : Fin 1 → Fin S1x1024.rank)
  bcast_S1x1024_S6144x1024_0_1 : S1x1024.BroadcastsInDim S6144x1024 (![0, 1] : Fin 2 → Fin S6144x1024.rank)
  bcast_S_S6144x1024 : S_.BroadcastsInDim S6144x1024 (![] : Fin 0 → Fin S6144x1024.rank)
  slices_S2x1024x256_S1x1024x256_0_0_0 : S2x1024x256.Slices ![0, 0, 0] S1x1024x256
  shapeCasts_S1x1024x256_S1024x256 : S1x1024x256.ShapeCasts S1024x256
  slices_S2x256_S1x256_1_0 : S2x256.Slices ![1, 0] S1x256
  slices_S2x256x768_S1x256x768_1_0_0 : S2x256x768.Slices ![1, 0, 0] S1x256x768
  slices_S2x768_S1x768_1_0 : S2x768.Slices ![1, 0] S1x768
  slices_S2x256x256_S1x256x256_1_0_0 : S2x256x256.Slices ![1, 0, 0] S1x256x256
  slices_S2x256x1024_S1x256x1024_1_0_0 : S2x256x1024.Slices ![1, 0, 0] S1x256x1024
  slices_S2x1024_S1x1024_1_0 : S2x1024.Slices ![1, 0] S1x1024
  slices_S2x1024x256_S1x1024x256_1_0_0 : S2x1024x256.Slices ![1, 0, 0] S1x1024x256
  reducesTo_S6144x1024_S6144_d1 : S6144x1024.ReducesTo [1] S6144
  bcast_S6144x1_S6144x1024_0_1 : S6144x1.BroadcastsInDim S6144x1024 (![0, 1] : Fin 2 → Fin S6144x1024.rank)
  gather_S3x256_S6144x1_S6144x256_1_0_n_n_0_1_1256_wf : GatherDims.WF S3x256 S6144x1 S6144x256 [1] [0] [] [0] [] 1 ![1, 256]
  gather_S32x256_S6144x1_S6144x256_1_0_n_n_0_1_1256_wf : GatherDims.WF S32x256 S6144x1 S6144x256 [1] [0] [] [0] [] 1 ![1, 256]
  gather_S1024x256_S6144x1_S6144x256_1_0_n_n_0_1_1256_wf : GatherDims.WF S1024x256 S6144x1 S6144x256 [1] [0] [] [0] [] 1 ![1, 256]
  dot_S6144x256_S256x768_S6144x768_1_0_0_1_n_n_wf : DotDims.WF S6144x256 S256x768 S6144x768 [1] [0] [0] [1] [] []
  gather_S6144x8x32_S297984x1_S297984x8x32_12_0_n_n_0_1_1832_wf : GatherDims.WF S6144x8x32 S297984x1 S297984x8x32 [1, 2] [0] [] [0] [] 1 ![1, 8, 32]
  scatter_S6144x8x32_S297984x1_S297984x8x32_12_0_0_1_wf : ScatterDims.WF S6144x8x32 S297984x1 S297984x8x32 [1, 2] [0] [0] 1
  scatter_S6144x8_S297984x1_S297984x8_1_0_0_1_wf : ScatterDims.WF S6144x8 S297984x1 S297984x8 [1] [0] [0] 1
  dot_S6144x256_S256x256_S6144x256_1_0_0_1_n_n_wf : DotDims.WF S6144x256 S256x256 S6144x256 [1] [0] [0] [1] [] []
  dot_S6144x256_S256x1024_S6144x1024_1_0_0_1_n_n_wf : DotDims.WF S6144x256 S256x1024 S6144x1024 [1] [0] [0] [1] [] []
  dot_S6144x1024_S1024x256_S6144x256_1_0_0_1_n_n_wf : DotDims.WF S6144x1024 S1024x256 S6144x256 [1] [0] [0] [1] [] []

variable [Facts₀]

def gather_S3x256_S6144x1_S6144x256_1_0_n_n_0_1_1256 : GatherDims S3x256 S6144x1 S6144x256 where
  offsetDims := [1]
  collapsedSliceDims := [0]
  operandBatchingDims := []
  startIndicesBatchingDims := []
  startIndexMap := [0]
  indexVectorDim := 1
  sliceSizes := ![1, 256]
  wf := gather_S3x256_S6144x1_S6144x256_1_0_n_n_0_1_1256_wf
def gather_S32x256_S6144x1_S6144x256_1_0_n_n_0_1_1256 : GatherDims S32x256 S6144x1 S6144x256 where
  offsetDims := [1]
  collapsedSliceDims := [0]
  operandBatchingDims := []
  startIndicesBatchingDims := []
  startIndexMap := [0]
  indexVectorDim := 1
  sliceSizes := ![1, 256]
  wf := gather_S32x256_S6144x1_S6144x256_1_0_n_n_0_1_1256_wf
def gather_S1024x256_S6144x1_S6144x256_1_0_n_n_0_1_1256 : GatherDims S1024x256 S6144x1 S6144x256 where
  offsetDims := [1]
  collapsedSliceDims := [0]
  operandBatchingDims := []
  startIndicesBatchingDims := []
  startIndexMap := [0]
  indexVectorDim := 1
  sliceSizes := ![1, 256]
  wf := gather_S1024x256_S6144x1_S6144x256_1_0_n_n_0_1_1256_wf
def dot_S6144x256_S256x768_S6144x768_1_0_0_1_n_n : DotDims S6144x256 S256x768 S6144x768 where
  lhsContracting := [1]
  rhsContracting := [0]
  lhsNonContracting := [0]
  rhsNonContracting := [1]
  lhsBatch := []
  rhsBatch := []
  wf := dot_S6144x256_S256x768_S6144x768_1_0_0_1_n_n_wf
def gather_S6144x8x32_S297984x1_S297984x8x32_12_0_n_n_0_1_1832 : GatherDims S6144x8x32 S297984x1 S297984x8x32 where
  offsetDims := [1, 2]
  collapsedSliceDims := [0]
  operandBatchingDims := []
  startIndicesBatchingDims := []
  startIndexMap := [0]
  indexVectorDim := 1
  sliceSizes := ![1, 8, 32]
  wf := gather_S6144x8x32_S297984x1_S297984x8x32_12_0_n_n_0_1_1832_wf
def scatter_S6144x8x32_S297984x1_S297984x8x32_12_0_0_1 : ScatterDims S6144x8x32 S297984x1 S297984x8x32 where
  updateWindowDims := [1, 2]
  insertedWindowDims := [0]
  scatterDimsToOperandDims := [0]
  indexVectorDim := 1
  wf := scatter_S6144x8x32_S297984x1_S297984x8x32_12_0_0_1_wf
def scatter_S6144x8_S297984x1_S297984x8_1_0_0_1 : ScatterDims S6144x8 S297984x1 S297984x8 where
  updateWindowDims := [1]
  insertedWindowDims := [0]
  scatterDimsToOperandDims := [0]
  indexVectorDim := 1
  wf := scatter_S6144x8_S297984x1_S297984x8_1_0_0_1_wf
def dot_S6144x256_S256x256_S6144x256_1_0_0_1_n_n : DotDims S6144x256 S256x256 S6144x256 where
  lhsContracting := [1]
  rhsContracting := [0]
  lhsNonContracting := [0]
  rhsNonContracting := [1]
  lhsBatch := []
  rhsBatch := []
  wf := dot_S6144x256_S256x256_S6144x256_1_0_0_1_n_n_wf
def dot_S6144x256_S256x1024_S6144x1024_1_0_0_1_n_n : DotDims S6144x256 S256x1024 S6144x1024 where
  lhsContracting := [1]
  rhsContracting := [0]
  lhsNonContracting := [0]
  rhsNonContracting := [1]
  lhsBatch := []
  rhsBatch := []
  wf := dot_S6144x256_S256x1024_S6144x1024_1_0_0_1_n_n_wf
def dot_S6144x1024_S1024x256_S6144x256_1_0_0_1_n_n : DotDims S6144x1024 S1024x256 S6144x256 where
  lhsContracting := [1]
  rhsContracting := [0]
  lhsNonContracting := [0]
  rhsNonContracting := [1]
  lhsBatch := []
  rhsBatch := []
  wf := dot_S6144x1024_S1024x256_S6144x256_1_0_0_1_n_n_wf

class Facts : Prop extends Facts₀ where

variable [Facts]
-- ==== Proof.KerRun.lean ====
/-
  The idealized kernel program's run, with the final contents of every buffer named.

  The program is fourteen segments: stretches of host operations around two kernel regions.  The contents of a core's
  buffers at each boundary are a fold from the launch memory: a stretch applies its operations in order, a region
  replaces its five arrays by what its 388 write-backs leave and keeps every other buffer.  Every weakly fair execution
  terminates without a fault, and every unscoped buffer then holds the last boundary's contents.
-/
import proofs.«124614_j50809463111778_2_alg».proof.Proof.Gen.KernelIdeal.Frame

set_option maxRecDepth 16384

noncomputable section

namespace Cert.KernelIdeal.KerRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters every weakly fair execution of the program terminates, nothing faulting, and
    every unscoped buffer of every core ends at the fold of the fourteen segments over that core's launch contents. -/
theorem run_value : θ_run defs (onTc (τ := τ) (main (F := F))) ⟨m, fun _ => 0, ρ⟩ (fun r => ∀ (c : Dev nD) (b : Ref sig .tc),
      ¬ (Proc.devRef .tc b : DevRef τ sig).isScoped →
      r.2.mem ((c.tc : Thread nD τ).loc b) = W14 m ρ c (Proc.devRef .tc b)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h c b hb => h c _ (mem_uc b hb))

end Cert.KernelIdeal.KerRun

end
-- ==== Proof.EdgeSpec.lean ====
/-
  The edge attention of one layer, as functions of whole arrays over the extended reals.

  For an edge e and a head h the weight is exp(clamp(⟨K[e,h,·], Q[e,h,·]⟩ · c, −5, 5)), where K and Q hold the key of the
  edge's source node and the query of its destination node, the inner product runs over the 32 coordinates of the head,
  and c is the reciprocal of the divisor √32 as the reference carries it (the 32-bit float 11863283/2097152).  The
  weighted value is V[e,h,d] times that weight.  Both programs compute these two arrays: one block of 768 edges at a time
  in the kernel, whole arrays at once in the reference.
-/
import Idealize.ShloMosaic.PureOps.Ideal
import Idealize.ShloMosaic.Lib.ValueIdx

noncomputable section

namespace Cert.EdgeSpec

open Idealize.ShloMosaic Idealize.ShloMosaic.ValueIdx
open scoped BigOperators

/-- The scaling factor: the reciprocal of the reference's divisor 11863283/2097152. -/
abbrev invScale : EReal := ((2097152 / 11863283 : ℝ) : EReal)

/-- The weight of one edge and head from the inner product of its key and query rows: scaled by `invScale`, clamped to
    [−5, 5] (the two bounds kept as the float words both programs carry), exponentiated. -/
def weight (dot : EReal) : EReal :=
  Ideal.exp (min (Ideal.ofBits .f32 0x40A00000#32) (max (Ideal.ofBits .f32 0xC0A00000#32) (dot * invScale)))

/-- The weights of all edges and heads: entry (e, h) from the 32 products of key and query at (e, h, ·). -/
def score (K Q : (⟨3, ![297984, 8, 32]⟩ : Shape).Idx → EReal) : (⟨2, ![297984, 8]⟩ : Shape).Idx → EReal :=
  fun j => weight (∑ d : Fin 32, K (ix3 (j 0 : Fin 297984) (j 1 : Fin 8) d) * Q (ix3 (j 0 : Fin 297984) (j 1 : Fin 8) d))

/-- The weighted values: entry (e, h, d) is V[e, h, d] times the weight of (e, h). -/
def weighted (K Q V : (⟨3, ![297984, 8, 32]⟩ : Shape).Idx → EReal) : (⟨3, ![297984, 8, 32]⟩ : Shape).Idx → EReal :=
  fun i => V i * score K Q (ix2 (i 0 : Fin 297984) (i 1 : Fin 8))

/-- Dividing by the reference's divisor is multiplying by `invScale`, on every extended real. -/
theorem div_divisor (x : EReal) : Ideal.div x ((11863283 / 2097152 : ℝ) : EReal) = x * invScale := by
  rw [Ideal.div_coe (by norm_num : (11863283 / 2097152 : ℝ) ≠ 0)]
  congr 2
  norm_num

end Cert.EdgeSpec

end
-- ==== Proof.LibLayout3.lean ====
/-
  Keep-dimension layout operations of rank-3 arrays read at an index.

  A reduction that keeps its axis is spelled as a cast to a shape with a unit axis followed by a broadcast along that
  axis. Read at coordinates these are the identity on the remaining coordinates:
    * an [a, b] array cast to [a, 1, b] reads, at (p, u, w), the operand at (p, w); cast to [a, b, 1] it reads, at
      (p, n, u), the operand at (p, n);
    * an [a, 1, c] array broadcast to [a, b, c] reads, at (p, j, w), the operand at (p, 0, w); a [1, b, c] array reads
      the operand at (0, j, w); an [a, b, 1] array reads the operand at (p, j, 0).
-/
import Idealize.ShloMosaic.Lib.Pipeline.Value
import Idealize.ShloMosaic.Lib.ValueIdx

noncomputable section

namespace Cert.LibLayout3

open Idealize.ShloMosaic Idealize.ShloMosaic.ValueIdx

variable {α : Type}

/-- An `[a, b]` array cast to `[a, 1, b]` reads, at `(p, u, w)`, the operand at `(p, w)`. -/
theorem shapeCast_ab_a1b_apply {a b : ℕ} (x : (⟨2, ![a, b]⟩ : Shape).Idx → α)
    (h : (⟨2, ![a, b]⟩ : Shape).ShapeCasts ⟨3, ![a, 1, b]⟩) (p : Fin a) (u : Fin 1) (w : Fin b) :
    shapeCast ⟨3, ![a, 1, b]⟩ x h (ix3 p u w) = x (ix2 p w) :=
  shapeCast_apply x h _ _ (by
    have hu : u.val = 0 := by omega
    rw [Shape.rowMajor_val_three, Shape.rowMajor_val_two]
    show p.val * b + w.val = (p.val * 1 + u.val) * b + w.val
    rw [hu, Nat.mul_one, Nat.add_zero])

/-- An `[a, b]` array cast to `[a, b, 1]` reads, at `(p, n, u)`, the operand at `(p, n)`. -/
theorem shapeCast_ab_ab1_apply {a b : ℕ} (x : (⟨2, ![a, b]⟩ : Shape).Idx → α)
    (h : (⟨2, ![a, b]⟩ : Shape).ShapeCasts ⟨3, ![a, b, 1]⟩) (p : Fin a) (n : Fin b) (u : Fin 1) :
    shapeCast ⟨3, ![a, b, 1]⟩ x h (ix3 p n u) = x (ix2 p n) :=
  shapeCast_apply x h _ _ (by
    have hu : u.val = 0 := by omega
    rw [Shape.rowMajor_val_three, Shape.rowMajor_val_two]
    show p.val * b + n.val = (p.val * b + n.val) * 1 + u.val
    rw [hu, Nat.mul_one, Nat.add_zero])

/-- An `[a, 1, c]` array broadcast to `[a, b, c]` reads, at `(p, j, w)`, the operand at `(p, 0, w)`. -/
theorem broadcastTo_a1c_abc_apply {a b c : ℕ} (v : (⟨3, ![a, 1, c]⟩ : Shape).Idx → α)
    (h : (⟨3, ![a, 1, c]⟩ : Shape).Broadcasts ⟨3, ![a, b, c]⟩) (p : Fin a) (j : Fin b) (w : Fin c) :
    broadcastTo ⟨3, ![a, b, c]⟩ v h (ix3 p j w) = v (ix3 p (0 : Fin 1) w) := by
  refine broadcastTo_apply v h (ix3 p j w) (ix3 p (0 : Fin 1) w) fun ax => ?_
  match ax with
  | ⟨0, _⟩ =>
    show p.val = if a = 1 then 0 else p.val
    split
    · have := p.isLt; omega
    · rfl
  | ⟨1, _⟩ => rfl
  | ⟨2, _⟩ =>
    show w.val = if c = 1 then 0 else w.val
    split
    · have := w.isLt; omega
    · rfl

/-- A `[1, b, c]` array broadcast to `[a, b, c]` reads, at `(p, j, w)`, the operand at `(0, j, w)`. -/
theorem broadcastTo_1bc_abc_apply {a b c : ℕ} (v : (⟨3, ![1, b, c]⟩ : Shape).Idx → α)
    (h : (⟨3, ![1, b, c]⟩ : Shape).Broadcasts ⟨3, ![a, b, c]⟩) (p : Fin a) (j : Fin b) (w : Fin c) :
    broadcastTo ⟨3, ![a, b, c]⟩ v h (ix3 p j w) = v (ix3 (0 : Fin 1) j w) := by
  refine broadcastTo_apply v h (ix3 p j w) (ix3 (0 : Fin 1) j w) fun ax => ?_
  match ax with
  | ⟨0, _⟩ => rfl
  | ⟨1, _⟩ =>
    show j.val = if b = 1 then 0 else j.val
    split
    · have := j.isLt; omega
    · rfl
  | ⟨2, _⟩ =>
    show w.val = if c = 1 then 0 else w.val
    split
    · have := w.isLt; omega
    · rfl

/-- An `[a, b, 1]` array broadcast to `[a, b, c]` reads, at `(p, j, w)`, the operand at `(p, j, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (p : Fin a) (j : Fin b) (w : Fin c) :
    broadcastTo ⟨3, ![a, b, c]⟩ v h (ix3 p j w) = v (ix3 p j (0 : Fin 1)) := by
  refine broadcastTo_apply v h (ix3 p j w) (ix3 p j (0 : Fin 1)) fun ax => ?_
  match ax with
  | ⟨0, _⟩ =>
    show p.val = if a = 1 then 0 else p.val
    split
    · have := p.isLt; omega
    · rfl
  | ⟨1, _⟩ =>
    show j.val = if b = 1 then 0 else j.val
    split
    · have := j.isLt; omega
    · rfl
  | ⟨2, _⟩ => rfl

end Cert.LibLayout3

end
-- ==== Proof.KerEdgePay.lean ====
/-
  The two payloads of the edge-score body, read at an index.

  The body loads one block of 768 edges of the keys K, the queries Q and the values V, each 768 × 8 × 32.  Its first
  payload is, at edge r and head h, the weight of the inner product of K[r,h,·] and Q[r,h,·] over the 32 coordinates of
  the head: the product is summed along the last axis, scaled, clamped to [−5, 5] and exponentiated.  Its second payload
  is, at (r, h, d), V[r,h,d] times that weight: the weights are given a unit last axis and repeated along it 32 times.
  Both regions run the same body, so what is proved of the first region's payloads holds of the second's.
-/
import proofs.«124614_j50809463111778_2_alg».proof.Proof.Gen.KernelIdeal.Skeleton
import proofs.«124614_j50809463111778_2_alg».proof.Proof.EdgeSpec
import proofs.«124614_j50809463111778_2_alg».proof.Proof.LibLayout3
import Idealize.ShloMosaic.PureOps.Ideal.Laws
import Idealize.ShloMosaic.PureOps.IdealRules
import Idealize.ShloMosaic.Lib.ValueIdx
import Idealize.ShloMosaic.Lib.Pipeline.Value

noncomputable section

namespace Cert.KernelIdeal.KerEdge

open Idealize.ShloMosaic Idealize.ShloMosaic.ValueIdx Cert.KernelIdeal Cert.KernelIdeal.Gen
open scoped BigOperators

/-- The zero offsets of a whole-block access, on three axes and on two. -/
theorem hz3 : (![0, 0, 0] : Fin 3 → Nat) = fun _ => 0 := funext fun a => by fin_cases a <;> rfl
theorem hz2 : (![0, 0] : Fin 2 → Nat) = fun _ => 0 := funext fun a => by fin_cases a <;> rfl

/-- The named scaling constant is the specification's factor, the reciprocal of the reference's divisor. -/
theorem named_invScale :
    Named.named (F := Ideal) κ "inv_scale" (φ := .f32) 0x3E3504F3#32 = Cert.EdgeSpec.invScale :=
  IdealRules.named_const.ideal_named_scalar κ "inv_scale" _ _ rfl

/-- The sum along the last axis of a 768 × 8 × 32 block, at (r, h), is the sum over the 32 coordinates of the head. -/
theorem sum_last (v : FVec Ideal S768x8x32 .f32) (hφ : FKind.Formats .f32)
    (hacc : (0x00000000#32 : BitVec 32) = 0x00000000#32) (r : Fin 768) (h : Fin 8) :
    multiReduction .add [2] S768x8 v 0x00000000#32 reduces_S768x8x32_S768x8 hφ hacc (ix2 r h)
      = ∑ d : Fin 32, v (ix3 r h d) := by
  refine (Ideal.multiReduction_add_single v 0x00000000#32 reduces_S768x8x32_S768x8 hφ hacc (ix2 r h)).trans ?_
  refine Finset.sum_congr rfl fun d _ => congrArg v ?_
  funext a
  match a with
  | ⟨0, _⟩ => rfl
  | ⟨1, _⟩ => rfl
  | ⟨2, _⟩ => rfl

/-- The first payload at edge r and head h: the weight of the inner product of the key and query rows. -/
theorem pay1_apply (x0 x1 : Vec Ideal S768x8x32 .f32) (r : Fin 768) (h : Fin 8) :
    k0_pay1 x0 x1 (ix2 r h) = Cert.EdgeSpec.weight (∑ d : Fin 32, x0 (ix3 r h d) * x1 (ix3 r h d)) := by
  unfold k0_pay1
  simp only [shapeCast_self]
  show Ideal.exp (min (Ideal.ofBits .f32 0x40A00000#32) (max (Ideal.ofBits .f32 0xC0A00000#32)
      (multiReduction (F := Ideal) .add [2] S768x8 (mulf (x0 : FVec Ideal S768x8x32 .f32) x1) 0x00000000#32
          reduces_S768x8x32_S768x8 (.inl rfl) rfl (ix2 r h)
        * Named.named (F := Ideal) κ "inv_scale" (φ := .f32) 0x3E3504F3#32))) = _
  rw [named_invScale, sum_last]
  rfl

/-- The second payload at (r, h, d): the value times the weight of edge r and head h.  The weights, given a unit last axis
    and repeated along it, read at (r, h, d) the weight at (r, h). -/
theorem pay2_apply (x0 x1 x2 : Vec Ideal S768x8x32 .f32) (r : Fin 768) (h : Fin 8) (d : Fin 32) :
    k0_pay2 x0 x1 x2 (ix3 r h d)
      = x2 (ix3 r h d) * Cert.EdgeSpec.weight (∑ d' : Fin 32, x0 (ix3 r h d') * x1 (ix3 r h d')) := by
  unfold k0_pay2
  simp only [shapeCast_self]
  show (x2 (ix3 r h d) : EReal)
      * broadcastTo S768x8x32 (shapeCast S768x8x1 (k0_pay1 x0 x1) shapeCasts_S768x8_S768x8x1)
          broadcasts_S768x8x1_S768x8x32 (ix3 r h d) = _
  refine congrArg (fun z : EReal => x2 (ix3 r h d) * z) ?_
  refine (Cert.LibLayout3.broadcastTo_ab1_abc_apply _ broadcasts_S768x8x1_S768x8x32 r h d).trans ?_
  refine (Cert.LibLayout3.shapeCast_ab_ab1_apply _ shapeCasts_S768x8_S768x8x1 r h (0 : Fin 1)).trans ?_
  exact pay1_apply x0 x1 r h

/-- The weights of one block of 768 edges from its key and query blocks, as a function of the block index. -/
def blockScore (x0 x1 : S768x8x32.Idx → EReal) : S768x8.Idx → EReal :=
  fun j => Cert.EdgeSpec.weight
    (∑ d : Fin 32, x0 (ix3 (j 0 : Fin 768) (j 1 : Fin 8) d) * x1 (ix3 (j 0 : Fin 768) (j 1 : Fin 8) d))

/-- The weighted values of one block from its key, query and value blocks. -/
def blockWeighted (x0 x1 x2 : S768x8x32.Idx → EReal) : S768x8x32.Idx → EReal :=
  fun i => x2 i * blockScore x0 x1 (ix2 (i 0 : Fin 768) (i 1 : Fin 8))

/-- The first payload is the block's weights. -/
theorem pay1_eq (x0 x1 : Vec Ideal S768x8x32 .f32) : k0_pay1 x0 x1 = blockScore x0 x1 := by
  funext j
  obtain ⟨r, h, rfl⟩ : ∃ (r : Fin 768) (h : Fin 8), j = ix2 r h := ⟨j 0, j 1, eq_ix2 j⟩
  exact pay1_apply x0 x1 r h

/-- The second payload is the block's weighted values. -/
theorem pay2_eq (x0 x1 x2 : Vec Ideal S768x8x32 .f32) : k0_pay2 x0 x1 x2 = blockWeighted x0 x1 x2 := by
  funext i
  obtain ⟨r, h, d, rfl⟩ : ∃ (r : Fin 768) (h : Fin 8) (d : Fin 32), i = ix3 r h d := ⟨i 0, i 1, i 2, eq_ix3 i⟩
  exact pay2_apply x0 x1 x2 r h d

/-- The second region's body is the first's: the same two payloads. -/
theorem k1_pay1_eq (x0 x1 : Vec Ideal S768x8x32 .f32) : k1_pay1 x0 x1 = k0_pay1 x0 x1 := rfl

theorem k1_pay2_eq (x0 x1 x2 : Vec Ideal S768x8x32 .f32) : k1_pay2 x0 x1 x2 = k0_pay2 x0 x1 x2 := rfl

end Cert.KernelIdeal.KerEdge

end
-- ==== Proof.KerEdgeBlock0.lean ====
/-
  The first region's two results as whole arrays.

  The region runs the edge-score body at 388 points; point t works on edges 768·t … 768·t + 767.  Each of its five windows
  (keys, queries, values, weighted values, weights) moves with the point along the edge axis only: block t of a window is
  rows 768·t … 768·t + 767 of its array, all heads and all coordinates.  So what point t writes back to the weights is
  rows 768·t … of the specification's weights of the whole key and query arrays, likewise for the weighted values, and
  since the 388 blocks tile the 297984 edges (edge e is in block e / 768) the two arrays end as the specification's.
-/
import proofs.«124614_j50809463111778_2_alg».proof.Proof.Gen.KernelIdeal.Frame
import proofs.«124614_j50809463111778_2_alg».proof.Proof.Gen.KernelIdeal.Points
import proofs.«124614_j50809463111778_2_alg».proof.Proof.KerEdgePay
import Idealize.ShloMosaic.Lib.Pipeline.Value

noncomputable section

namespace Cert.KernelIdeal.KerEdge

open Idealize.ShloMosaic Idealize.ShloMosaic.TcCoe Idealize.ShloMosaic.ValueIdx Idealize.SL.Sem
open Idealize.ShloMosaic.Pipeline (Dat)
open Cert.KernelIdeal Cert.KernelIdeal.Gen
open scoped BigOperators

variable (V : (c : Dev nD) → (b : Ref sig .tc) → Buf (Elt Ideal) ((c : Thread nD τ).loc b))

/-- The printed index maps, decided over the grid: at point t every window's block index is t on the edge axis and 0 on
    the others. -/
theorem idx0 : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0
    ∧ win0_3.index t (0 : Fin 3) = t.val ∧ win0_3.index t (1 : Fin 3) = 0 ∧ win0_3.index t (2 : Fin 3) = 0
    ∧ win0_4.index t (0 : Fin 2) = t.val ∧ win0_4.index t (1 : Fin 2) = 0 :=
  (by decide +kernel : ∀ t : Fin grid0.N, _)

/-- The key window's block at point t is rows 768·t … of the key array. -/
theorem iblk0_0_apply (c : Dev nD) (t : Fin cfg0.N) (y : S768x8x32.Idx) (k : S297984x8x32.Idx)
    (hk0 : (k 0).val = 768 * t.val + (y 0).val) (hk1 : (k 1).val = (y 1).val) (hk2 : (k 2).val = (y 2).val) :
    (iblk0 V c 0 t : Vec Ideal S768x8x32 .f32) y = (V c main_v73 : S297984x8x32.Idx → EReal) k := by
  obtain ⟨e0, e1, e2, -⟩ := idx0 t
  unfold iblk0
  rw [View.read_apply]
  show V c main_v73 _ = V c main_v73 _
  congr 1
  funext a
  apply Fin.ext
  match a with
  | ⟨0, _⟩ => show win0_0.index t (0 : Fin 3) * 768 + 1 * (y 0).val = (k 0).val; rw [e0, hk0]; omega
  | ⟨1, _⟩ => show win0_0.index t (1 : Fin 3) * 8 + 1 * (y 1).val = (k 1).val; rw [e1, hk1]; omega
  | ⟨2, _⟩ => show win0_0.index t (2 : Fin 3) * 32 + 1 * (y 2).val = (k 2).val; rw [e2, hk2]; omega

/-- The query window's block at point t is rows 768·t … of the query array. -/
theorem iblk0_1_apply (c : Dev nD) (t : Fin cfg0.N) (y : S768x8x32.Idx) (k : S297984x8x32.Idx)
    (hk0 : (k 0).val = 768 * t.val + (y 0).val) (hk1 : (k 1).val = (y 1).val) (hk2 : (k 2).val = (y 2).val) :
    (iblk0 V c 1 t : Vec Ideal S768x8x32 .f32) y = (V c main_v80 : S297984x8x32.Idx → EReal) k := by
  obtain ⟨-, -, -, e0, e1, e2, -⟩ := idx0 t
  unfold iblk0
  rw [View.read_apply]
  show V c main_v80 _ = V c main_v80 _
  congr 1
  funext a
  apply Fin.ext
  match a with
  | ⟨0, _⟩ => show win0_1.index t (0 : Fin 3) * 768 + 1 * (y 0).val = (k 0).val; rw [e0, hk0]; omega
  | ⟨1, _⟩ => show win0_1.index t (1 : Fin 3) * 8 + 1 * (y 1).val = (k 1).val; rw [e1, hk1]; omega
  | ⟨2, _⟩ => show win0_1.index t (2 : Fin 3) * 32 + 1 * (y 2).val = (k 2).val; rw [e2, hk2]; omega

/-- The value window's block at point t is rows 768·t … of the value array. -/
theorem iblk0_2_apply (c : Dev nD) (t : Fin cfg0.N) (y : S768x8x32.Idx) (k : S297984x8x32.Idx)
    (hk0 : (k 0).val = 768 * t.val + (y 0).val) (hk1 : (k 1).val = (y 1).val) (hk2 : (k 2).val = (y 2).val) :
    (iblk0 V c 2 t : Vec Ideal S768x8x32 .f32) y = (V c main_v87 : S297984x8x32.Idx → EReal) k := by
  obtain ⟨-, -, -, -, -, -, e0, e1, e2, -⟩ := idx0 t
  unfold iblk0
  rw [View.read_apply]
  show V c main_v87 _ = V c main_v87 _
  congr 1
  funext a
  apply Fin.ext
  match a with
  | ⟨0, _⟩ => show win0_2.index t (0 : Fin 3) * 768 + 1 * (y 0).val = (k 0).val; rw [e0, hk0]; omega
  | ⟨1, _⟩ => show win0_2.index t (1 : Fin 3) * 8 + 1 * (y 1).val = (k 1).val; rw [e1, hk1]; omega
  | ⟨2, _⟩ => show win0_2.index t (2 : Fin 3) * 32 + 1 * (y 2).val = (k 2).val; rw [e2, hk2]; omega

/-- WHAT POINT t WRITES BACK TO THE WEIGHTS is rows 768·t … of the specification's weights of the whole key and query
    arrays: the body's first payload of the key and query blocks, each block read where the weights' block sits. -/
theorem flushed0_4_eq (c : Dev nD) (t : Fin cfg0.N) :
    (dat0 (F := Ideal) V c).flushed 4 t
      = ((cfg0.win 4).blk t).view.read (Elt Ideal) (Cert.EdgeSpec.score (V c main_v73) (V c main_v80)) := by
  show (cfg0.win 4).cut (grid0.coords t) ((dat0 V c).after 4 t) = _
  rw [after0_4]
  unfold out0_4
  rw [View.canon_unit_zero hz2]
  simp only [View.ld_unit_zero (S := S768x8x32) hz3]
  obtain ⟨-, -, -, -, -, -, -, -, -, -, -, -, e0, e1⟩ := idx0 t
  funext j
  show k0_pay1 (iblk0 V c 0 t) (iblk0 V c 1 t) j
      = Cert.EdgeSpec.score (V c main_v73) (V c main_v80) (((cfg0.win 4).blk t).view.emb j)
  refine (congrFun (pay1_eq (iblk0 V c 0 t) (iblk0 V c 1 t)) j).trans ?_
  have h0 : ((((cfg0.win 4).blk t).view.emb j) 0).val = 768 * t.val + (j 0).val := by
    show win0_4.index t (0 : Fin 2) * 768 + 1 * (j 0).val = _; rw [e0]; omega
  have h1 : ((((cfg0.win 4).blk t).view.emb j) 1).val = (j 1).val := by
    show win0_4.index t (1 : Fin 2) * 8 + 1 * (j 1).val = _; rw [e1]; omega
  refine congrArg Cert.EdgeSpec.weight (Finset.sum_congr rfl fun d _ => ?_)
  exact congrArg₂ (· * ·) (iblk0_0_apply V c t _ _ h0 h1 rfl) (iblk0_1_apply V c t _ _ h0 h1 rfl)

/-- WHAT POINT t WRITES BACK TO THE WEIGHTED VALUES is rows 768·t … of the specification's weighted values of the whole
    key, query and value arrays. -/
theorem flushed0_3_eq (c : Dev nD) (t : Fin cfg0.N) :
    (dat0 (F := Ideal) V c).flushed 3 t
      = ((cfg0.win 3).blk t).view.read (Elt Ideal)
          (Cert.EdgeSpec.weighted (V c main_v73) (V c main_v80) (V c main_v87)) := by
  show (cfg0.win 3).cut (grid0.coords t) ((dat0 V c).after 3 t) = _
  rw [after0_3]
  unfold out0_3
  rw [View.canon_unit_zero hz3]
  simp only [View.ld_unit_zero (S := S768x8x32) hz3]
  obtain ⟨-, -, -, -, -, -, -, -, -, e0, e1, e2, -⟩ := idx0 t
  funext j
  show k0_pay2 (iblk0 V c 0 t) (iblk0 V c 1 t) (iblk0 V c 2 t) j
      = Cert.EdgeSpec.weighted (V c main_v73) (V c main_v80) (V c main_v87) (((cfg0.win 3).blk t).view.emb j)
  refine (congrFun (pay2_eq (iblk0 V c 0 t) (iblk0 V c 1 t) (iblk0 V c 2 t)) j).trans ?_
  have h0 : ((((cfg0.win 3).blk t).view.emb j) 0).val = 768 * t.val + (j 0).val := by
    show win0_3.index t (0 : Fin 3) * 768 + 1 * (j 0).val = _; rw [e0]; omega
  have h1 : ((((cfg0.win 3).blk t).view.emb j) 1).val = (j 1).val := by
    show win0_3.index t (1 : Fin 3) * 8 + 1 * (j 1).val = _; rw [e1]; omega
  have h2 : ((((cfg0.win 3).blk t).view.emb j) 2).val = (j 2).val := by
    show win0_3.index t (2 : Fin 3) * 32 + 1 * (j 2).val = _; rw [e2]; omega
  refine congrArg₂ (· * ·) (iblk0_2_apply V c t _ _ h0 h1 h2) ?_
  refine congrArg Cert.EdgeSpec.weight (Finset.sum_congr rfl fun d _ => ?_)
  exact congrArg₂ (· * ·) (iblk0_0_apply V c t _ _ h0 h1 rfl) (iblk0_1_apply V c t _ _ h0 h1 rfl)

/-- An index of the weights' array is in point t's block iff each coordinate is in the block's range on its axis. -/
theorem mem_blk0_4 (t : Fin cfg0.N) (i : S297984x8.Idx) :
    i ∈ ((cfg0.win 4).blk t).view.set ↔ ∀ a : Fin 2, win0_4.index t a * S768x8.size a ≤ (i a).val
      ∧ (i a).val < win0_4.index t a * S768x8.size a + S768x8.size a := by
  show i ∈ ((View.whole main_v88_1).slice (win0_4.rect t)).set ↔ _
  rw [View.set_slice_whole, Rect.mem_set_unit]
  exact Iff.rfl

/-- An index of the weighted values' array is in point t's block iff each coordinate is in the block's range. -/
theorem mem_blk0_3 (t : Fin cfg0.N) (i : S297984x8x32.Idx) :
    i ∈ ((cfg0.win 3).blk t).view.set ↔ ∀ a : Fin 3, win0_3.index t a * S768x8x32.size a ≤ (i a).val
      ∧ (i a).val < win0_3.index t a * S768x8x32.size a + S768x8x32.size a := by
  show i ∈ ((View.whole main_v88_0).slice (win0_3.rect t)).set ↔ _
  rw [View.set_slice_whole, Rect.mem_set_unit]
  exact Iff.rfl

/-- THE WEIGHTS after the region: edge e is in the block of point e / 768, so the 388 blocks cover the array. -/
theorem region0_score (c : Dev nD) :
    (dat0 (F := Ideal) V c).arrAt 4 cfg0.N = Cert.EdgeSpec.score (V c main_v73) (V c main_v80) :=
  (dat0 V c).arrAt_eq_of_cover 4 _ (fun t _ => flushed0_4_eq V c t) fun i => by
    have hi0 : (i 0).val < 297984 := (i 0).isLt
    have hi1 : (i 1).val < 8 := (i 1).isLt
    have hN : cfg0.N = 388 := N_0
    obtain ⟨t, ht⟩ : ∃ t : Fin cfg0.N, t.val = (i 0).val / 768 := ⟨⟨(i 0).val / 768, by rw [hN]; omega⟩, rfl⟩
    obtain ⟨-, -, -, -, -, -, -, -, -, -, -, -, e0, e1⟩ := idx0 t
    refine ⟨t, flush0_4 t, ?_⟩
    rw [mem_blk0_4]
    intro a
    match a with
    | ⟨0, _⟩ =>
      show win0_4.index t (0 : Fin 2) * 768 ≤ (i 0).val ∧ (i 0).val < win0_4.index t (0 : Fin 2) * 768 + 768
      rw [e0, ht]; omega
    | ⟨1, _⟩ =>
      show win0_4.index t (1 : Fin 2) * 8 ≤ (i 1).val ∧ (i 1).val < win0_4.index t (1 : Fin 2) * 8 + 8
      rw [e1]; omega

/-- THE WEIGHTED VALUES after the region, by the same cover. -/
theorem region0_weighted (c : Dev nD) :
    (dat0 (F := Ideal) V c).arrAt 3 cfg0.N
      = Cert.EdgeSpec.weighted (V c main_v73) (V c main_v80) (V c main_v87) :=
  (dat0 V c).arrAt_eq_of_cover 3 _ (fun t _ => flushed0_3_eq V c t) fun i => by
    have hi0 : (i 0).val < 297984 := (i 0).isLt
    have hi1 : (i 1).val < 8 := (i 1).isLt
    have hi2 : (i 2).val < 32 := (i 2).isLt
    have hN : cfg0.N = 388 := N_0
    obtain ⟨t, ht⟩ : ∃ t : Fin cfg0.N, t.val = (i 0).val / 768 := ⟨⟨(i 0).val / 768, by rw [hN]; omega⟩, rfl⟩
    obtain ⟨-, -, -, -, -, -, -, -, -, e0, e1, e2, -⟩ := idx0 t
    refine ⟨t, flush0_3 t, ?_⟩
    rw [mem_blk0_3]
    intro a
    match a with
    | ⟨0, _⟩ =>
      show win0_3.index t (0 : Fin 3) * 768 ≤ (i 0).val ∧ (i 0).val < win0_3.index t (0 : Fin 3) * 768 + 768
      rw [e0, ht]; omega
    | ⟨1, _⟩ =>
      show win0_3.index t (1 : Fin 3) * 8 ≤ (i 1).val ∧ (i 1).val < win0_3.index t (1 : Fin 3) * 8 + 8
      rw [e1]; omega
    | ⟨2, _⟩ =>
      show win0_3.index t (2 : Fin 3) * 32 ≤ (i 2).val ∧ (i 2).val < win0_3.index t (2 : Fin 3) * 32 + 32
      rw [e2]; omega

end Cert.KernelIdeal.KerEdge

end
-- ==== Proof.KerEdgeBlock1.lean ====
/-
  The second region's two results as whole arrays.

  The second region runs the same edge-score body as the first, on its own five arrays, at 388 points; point t works on
  edges 768·t … 768·t + 767.  Each of its five windows (keys, queries, values, weighted values, weights) moves with the
  point along the edge axis only: block t of a window is rows 768·t … 768·t + 767 of its array, all heads and all
  coordinates.  So what point t writes back to the weights is
  rows 768·t … of the specification's weights of the whole key and query arrays, likewise for the weighted values, and
  since the 388 blocks tile the 297984 edges (edge e is in block e / 768) the two arrays end as the specification's.
-/
import proofs.«124614_j50809463111778_2_alg».proof.Proof.Gen.KernelIdeal.Frame
import proofs.«124614_j50809463111778_2_alg».proof.Proof.Gen.KernelIdeal.Points
import proofs.«124614_j50809463111778_2_alg».proof.Proof.KerEdgePay
import Idealize.ShloMosaic.Lib.Pipeline.Value

noncomputable section

namespace Cert.KernelIdeal.KerEdge

open Idealize.ShloMosaic Idealize.ShloMosaic.TcCoe Idealize.ShloMosaic.ValueIdx Idealize.SL.Sem
open Idealize.ShloMosaic.Pipeline (Dat)
open Cert.KernelIdeal Cert.KernelIdeal.Gen
open scoped BigOperators

variable (V : (c : Dev nD) → (b : Ref sig .tc) → Buf (Elt Ideal) ((c : Thread nD τ).loc b))

/-- The printed index maps, decided over the grid: at point t every window's block index is t on the edge axis and 0 on
    the others. -/
theorem idx1 : ∀ t : Fin cfg1.N,
    win1_0.index t (0 : Fin 3) = t.val ∧ win1_0.index t (1 : Fin 3) = 0 ∧ win1_0.index t (2 : Fin 3) = 0
    ∧ win1_1.index t (0 : Fin 3) = t.val ∧ win1_1.index t (1 : Fin 3) = 0 ∧ win1_1.index t (2 : Fin 3) = 0
    ∧ win1_2.index t (0 : Fin 3) = t.val ∧ win1_2.index t (1 : Fin 3) = 0 ∧ win1_2.index t (2 : Fin 3) = 0
    ∧ win1_3.index t (0 : Fin 3) = t.val ∧ win1_3.index t (1 : Fin 3) = 0 ∧ win1_3.index t (2 : Fin 3) = 0
    ∧ win1_4.index t (0 : Fin 2) = t.val ∧ win1_4.index t (1 : Fin 2) = 0 :=
  (by decide +kernel : ∀ t : Fin grid1.N, _)

/-- The key window's block at point t is rows 768·t … of the key array. -/
theorem iblk1_0_apply (c : Dev nD) (t : Fin cfg1.N) (y : S768x8x32.Idx) (k : S297984x8x32.Idx)
    (hk0 : (k 0).val = 768 * t.val + (y 0).val) (hk1 : (k 1).val = (y 1).val) (hk2 : (k 2).val = (y 2).val) :
    (iblk1 V c 0 t : Vec Ideal S768x8x32 .f32) y = (V c main_v202 : S297984x8x32.Idx → EReal) k := by
  obtain ⟨e0, e1, e2, -⟩ := idx1 t
  unfold iblk1
  rw [View.read_apply]
  show V c main_v202 _ = V c main_v202 _
  congr 1
  funext a
  apply Fin.ext
  match a with
  | ⟨0, _⟩ => show win1_0.index t (0 : Fin 3) * 768 + 1 * (y 0).val = (k 0).val; rw [e0, hk0]; omega
  | ⟨1, _⟩ => show win1_0.index t (1 : Fin 3) * 8 + 1 * (y 1).val = (k 1).val; rw [e1, hk1]; omega
  | ⟨2, _⟩ => show win1_0.index t (2 : Fin 3) * 32 + 1 * (y 2).val = (k 2).val; rw [e2, hk2]; omega

/-- The query window's block at point t is rows 768·t … of the query array. -/
theorem iblk1_1_apply (c : Dev nD) (t : Fin cfg1.N) (y : S768x8x32.Idx) (k : S297984x8x32.Idx)
    (hk0 : (k 0).val = 768 * t.val + (y 0).val) (hk1 : (k 1).val = (y 1).val) (hk2 : (k 2).val = (y 2).val) :
    (iblk1 V c 1 t : Vec Ideal S768x8x32 .f32) y = (V c main_v209 : S297984x8x32.Idx → EReal) k := by
  obtain ⟨-, -, -, e0, e1, e2, -⟩ := idx1 t
  unfold iblk1
  rw [View.read_apply]
  show V c main_v209 _ = V c main_v209 _
  congr 1
  funext a
  apply Fin.ext
  match a with
  | ⟨0, _⟩ => show win1_1.index t (0 : Fin 3) * 768 + 1 * (y 0).val = (k 0).val; rw [e0, hk0]; omega
  | ⟨1, _⟩ => show win1_1.index t (1 : Fin 3) * 8 + 1 * (y 1).val = (k 1).val; rw [e1, hk1]; omega
  | ⟨2, _⟩ => show win1_1.index t (2 : Fin 3) * 32 + 1 * (y 2).val = (k 2).val; rw [e2, hk2]; omega

/-- The value window's block at point t is rows 768·t … of the value array. -/
theorem iblk1_2_apply (c : Dev nD) (t : Fin cfg1.N) (y : S768x8x32.Idx) (k : S297984x8x32.Idx)
    (hk0 : (k 0).val = 768 * t.val + (y 0).val) (hk1 : (k 1).val = (y 1).val) (hk2 : (k 2).val = (y 2).val) :
    (iblk1 V c 2 t : Vec Ideal S768x8x32 .f32) y = (V c main_v216 : S297984x8x32.Idx → EReal) k := by
  obtain ⟨-, -, -, -, -, -, e0, e1, e2, -⟩ := idx1 t
  unfold iblk1
  rw [View.read_apply]
  show V c main_v216 _ = V c main_v216 _
  congr 1
  funext a
  apply Fin.ext
  match a with
  | ⟨0, _⟩ => show win1_2.index t (0 : Fin 3) * 768 + 1 * (y 0).val = (k 0).val; rw [e0, hk0]; omega
  | ⟨1, _⟩ => show win1_2.index t (1 : Fin 3) * 8 + 1 * (y 1).val = (k 1).val; rw [e1, hk1]; omega
  | ⟨2, _⟩ => show win1_2.index t (2 : Fin 3) * 32 + 1 * (y 2).val = (k 2).val; rw [e2, hk2]; omega

/-- WHAT POINT t WRITES BACK TO THE WEIGHTS is rows 768·t … of the specification's weights of the whole key and query
    arrays: the body's first payload of the key and query blocks, each block read where the weights' block sits. -/
theorem flushed1_4_eq (c : Dev nD) (t : Fin cfg1.N) :
    (dat1 (F := Ideal) V c).flushed 4 t
      = ((cfg1.win 4).blk t).view.read (Elt Ideal) (Cert.EdgeSpec.score (V c main_v202) (V c main_v209)) := by
  show (cfg1.win 4).cut (grid1.coords t) ((dat1 V c).after 4 t) = _
  rw [after1_4]
  unfold out1_4
  rw [View.canon_unit_zero hz2]
  simp only [View.ld_unit_zero (S := S768x8x32) hz3]
  obtain ⟨-, -, -, -, -, -, -, -, -, -, -, -, e0, e1⟩ := idx1 t
  funext j
  show k1_pay1 (iblk1 V c 0 t) (iblk1 V c 1 t) j
      = Cert.EdgeSpec.score (V c main_v202) (V c main_v209) (((cfg1.win 4).blk t).view.emb j)
  refine (congrFun ((k1_pay1_eq (iblk1 V c 0 t) (iblk1 V c 1 t)).trans (pay1_eq (iblk1 V c 0 t) (iblk1 V c 1 t))) j).trans ?_
  have h0 : ((((cfg1.win 4).blk t).view.emb j) 0).val = 768 * t.val + (j 0).val := by
    show win1_4.index t (0 : Fin 2) * 768 + 1 * (j 0).val = _; rw [e0]; omega
  have h1 : ((((cfg1.win 4).blk t).view.emb j) 1).val = (j 1).val := by
    show win1_4.index t (1 : Fin 2) * 8 + 1 * (j 1).val = _; rw [e1]; omega
  refine congrArg Cert.EdgeSpec.weight (Finset.sum_congr rfl fun d _ => ?_)
  exact congrArg₂ (· * ·) (iblk1_0_apply V c t _ _ h0 h1 rfl) (iblk1_1_apply V c t _ _ h0 h1 rfl)

/-- WHAT POINT t WRITES BACK TO THE WEIGHTED VALUES is rows 768·t … of the specification's weighted values of the whole
    key, query and value arrays. -/
theorem flushed1_3_eq (c : Dev nD) (t : Fin cfg1.N) :
    (dat1 (F := Ideal) V c).flushed 3 t
      = ((cfg1.win 3).blk t).view.read (Elt Ideal)
          (Cert.EdgeSpec.weighted (V c main_v202) (V c main_v209) (V c main_v216)) := by
  show (cfg1.win 3).cut (grid1.coords t) ((dat1 V c).after 3 t) = _
  rw [after1_3]
  unfold out1_3
  rw [View.canon_unit_zero hz3]
  simp only [View.ld_unit_zero (S := S768x8x32) hz3]
  obtain ⟨-, -, -, -, -, -, -, -, -, e0, e1, e2, -⟩ := idx1 t
  funext j
  show k1_pay2 (iblk1 V c 0 t) (iblk1 V c 1 t) (iblk1 V c 2 t) j
      = Cert.EdgeSpec.weighted (V c main_v202) (V c main_v209) (V c main_v216) (((cfg1.win 3).blk t).view.emb j)
  refine (congrFun ((k1_pay2_eq (iblk1 V c 0 t) (iblk1 V c 1 t) (iblk1 V c 2 t)).trans (pay2_eq (iblk1 V c 0 t) (iblk1 V c 1 t) (iblk1 V c 2 t))) j).trans ?_
  have h0 : ((((cfg1.win 3).blk t).view.emb j) 0).val = 768 * t.val + (j 0).val := by
    show win1_3.index t (0 : Fin 3) * 768 + 1 * (j 0).val = _; rw [e0]; omega
  have h1 : ((((cfg1.win 3).blk t).view.emb j) 1).val = (j 1).val := by
    show win1_3.index t (1 : Fin 3) * 8 + 1 * (j 1).val = _; rw [e1]; omega
  have h2 : ((((cfg1.win 3).blk t).view.emb j) 2).val = (j 2).val := by
    show win1_3.index t (2 : Fin 3) * 32 + 1 * (j 2).val = _; rw [e2]; omega
  refine congrArg₂ (· * ·) (iblk1_2_apply V c t _ _ h0 h1 h2) ?_
  refine congrArg Cert.EdgeSpec.weight (Finset.sum_congr rfl fun d _ => ?_)
  exact congrArg₂ (· * ·) (iblk1_0_apply V c t _ _ h0 h1 rfl) (iblk1_1_apply V c t _ _ h0 h1 rfl)

/-- An index of the weights' array is in point t's block iff each coordinate is in the block's range on its axis. -/
theorem mem_blk1_4 (t : Fin cfg1.N) (i : S297984x8.Idx) :
    i ∈ ((cfg1.win 4).blk t).view.set ↔ ∀ a : Fin 2, win1_4.index t a * S768x8.size a ≤ (i a).val
      ∧ (i a).val < win1_4.index t a * S768x8.size a + S768x8.size a := by
  show i ∈ ((View.whole main_v217_1).slice (win1_4.rect t)).set ↔ _
  rw [View.set_slice_whole, Rect.mem_set_unit]
  exact Iff.rfl

/-- An index of the weighted values' array is in point t's block iff each coordinate is in the block's range. -/
theorem mem_blk1_3 (t : Fin cfg1.N) (i : S297984x8x32.Idx) :
    i ∈ ((cfg1.win 3).blk t).view.set ↔ ∀ a : Fin 3, win1_3.index t a * S768x8x32.size a ≤ (i a).val
      ∧ (i a).val < win1_3.index t a * S768x8x32.size a + S768x8x32.size a := by
  show i ∈ ((View.whole main_v217_0).slice (win1_3.rect t)).set ↔ _
  rw [View.set_slice_whole, Rect.mem_set_unit]
  exact Iff.rfl

/-- THE WEIGHTS after the region: edge e is in the block of point e / 768, so the 388 blocks cover the array. -/
theorem region1_score (c : Dev nD) :
    (dat1 (F := Ideal) V c).arrAt 4 cfg1.N = Cert.EdgeSpec.score (V c main_v202) (V c main_v209) :=
  (dat1 V c).arrAt_eq_of_cover 4 _ (fun t _ => flushed1_4_eq V c t) fun i => by
    have hi0 : (i 0).val < 297984 := (i 0).isLt
    have hi1 : (i 1).val < 8 := (i 1).isLt
    have hN : cfg1.N = 388 := N_1
    obtain ⟨t, ht⟩ : ∃ t : Fin cfg1.N, t.val = (i 0).val / 768 := ⟨⟨(i 0).val / 768, by rw [hN]; omega⟩, rfl⟩
    obtain ⟨-, -, -, -, -, -, -, -, -, -, -, -, e0, e1⟩ := idx1 t
    refine ⟨t, flush1_4 t, ?_⟩
    rw [mem_blk1_4]
    intro a
    match a with
    | ⟨0, _⟩ =>
      show win1_4.index t (0 : Fin 2) * 768 ≤ (i 0).val ∧ (i 0).val < win1_4.index t (0 : Fin 2) * 768 + 768
      rw [e0, ht]; omega
    | ⟨1, _⟩ =>
      show win1_4.index t (1 : Fin 2) * 8 ≤ (i 1).val ∧ (i 1).val < win1_4.index t (1 : Fin 2) * 8 + 8
      rw [e1]; omega

/-- THE WEIGHTED VALUES after the region, by the same cover. -/
theorem region1_weighted (c : Dev nD) :
    (dat1 (F := Ideal) V c).arrAt 3 cfg1.N
      = Cert.EdgeSpec.weighted (V c main_v202) (V c main_v209) (V c main_v216) :=
  (dat1 V c).arrAt_eq_of_cover 3 _ (fun t _ => flushed1_3_eq V c t) fun i => by
    have hi0 : (i 0).val < 297984 := (i 0).isLt
    have hi1 : (i 1).val < 8 := (i 1).isLt
    have hi2 : (i 2).val < 32 := (i 2).isLt
    have hN : cfg1.N = 388 := N_1
    obtain ⟨t, ht⟩ : ∃ t : Fin cfg1.N, t.val = (i 0).val / 768 := ⟨⟨(i 0).val / 768, by rw [hN]; omega⟩, rfl⟩
    obtain ⟨-, -, -, -, -, -, -, -, -, e0, e1, e2, -⟩ := idx1 t
    refine ⟨t, flush1_3 t, ?_⟩
    rw [mem_blk1_3]
    intro a
    match a with
    | ⟨0, _⟩ =>
      show win1_3.index t (0 : Fin 3) * 768 ≤ (i 0).val ∧ (i 0).val < win1_3.index t (0 : Fin 3) * 768 + 768
      rw [e0, ht]; omega
    | ⟨1, _⟩ =>
      show win1_3.index t (1 : Fin 3) * 8 ≤ (i 1).val ∧ (i 1).val < win1_3.index t (1 : Fin 3) * 8 + 8
      rw [e1]; omega
    | ⟨2, _⟩ =>
      show win1_3.index t (2 : Fin 3) * 32 ≤ (i 2).val ∧ (i 2).val < win1_3.index t (2 : Fin 3) * 32 + 32
      rw [e2]; omega

end Cert.KernelIdeal.KerEdge

end
-- ==== Proof.RefEdge.lean ====
/-
  The reference's host operations for the edge attention of one layer, composed as functions of whole arrays, and
  their reading at the extended reals: the composition is the specification's `score` and `weighted`.

  At an index (e, h) the host's sum over the last axis is 0 + ∑ k, K[e,h,k] · Q[e,h,k]; dividing by the broadcast
  divisor 11863283/2097152 is multiplying by its reciprocal, for every extended real; the clamp, the exponential and
  the final product read pointwise; and the two broadcasts that bring the weights to the shape of the values read
  (e, h, d) ↦ (e, h).
-/
import proofs.«124614_j50809463111778_2_alg».proof.ReferenceIdeal
import proofs.«124614_j50809463111778_2_alg».proof.Proof.EdgeSpec
import Idealize.ShloMosaic.Lib.IdealHost
import Idealize.ShloMosaic.Lib.Pipeline.Value

noncomputable section

namespace Cert.ReferenceIdeal.RefEdge

open Idealize.ShloMosaic Idealize.ShloMosaic.ValueIdx
open Cert.ReferenceIdeal
open scoped BigOperators

/-! ## The two float words the chain reads as numbers -/

/-- The divisor's word denotes the real 11863283/2097152: sign 0, exponent 2, significand 1 + 3474675/2²³. -/
theorem ofBits_divisor : Ideal.ofBits .f32 0x40B504F3#32 = ((11863283 / 2097152 : ℝ) : EReal) := by
  simp [Ideal.ofBits, Ideal.ieee, -EReal.coe_mul]; norm_num

/-- The sum's initial word denotes zero. -/
theorem ofBits_zero : Ideal.ofBits .f32 0x00000000#32 = 0 := Ideal.ofBits_zero_f32

/-- Removing the last axis of [297984, 8, 32] leaves [297984, 8]: the witness that names the inserted index. -/
theorem reduces_last : S297984x8x32.Reduces [2] S297984x8 := by decide

/-- The host's exponential at an index is the exponential of the element. -/
theorem hostExp_apply {s : Shape} {φ : FTy} (a : FVec Ideal s φ) (i : s.Idx) : Host.exp a i = Ideal.exp (a i) := rfl

/-! ## The chain -/

variable [Facts₀]
open Facts₀

/-- The weights of all edges and heads as the reference's host operations compute them from the gathered keys and
    queries: product, sum over the last axis from zero, quotient by the broadcast divisor, the clamp (the lower bound
    broadcast and taken as a maximum, then the upper bound broadcast and taken as a minimum), exponential. -/
def scoreChain (K Q : FVec Ideal S297984x8x32 .f32) : FVec Ideal S297984x8 .f32 :=
  Host.exp (F := Ideal)
    (minimumf
      (broadcastInDim S297984x8 ![] bcast_S_S297984x8 (id (constant (F := Ideal) S_ .f32 0x40A00000#32)))
      (maximumf
        (broadcastInDim S297984x8 ![] bcast_S_S297984x8 (id (constant (F := Ideal) S_ .f32 0xC0A00000#32)))
        (Host.divf (F := Ideal)
          (Host.reduceAdd (F := Ideal) (mulf K Q) (constant (F := Ideal) S_ .f32 0x00000000#32)
            reducesTo_S297984x8x32_S297984x8_d2 h_S_)
          (broadcastInDim S297984x8 ![] bcast_S_S297984x8 (constant (F := Ideal) S_ .f32 0x40B504F3#32)))))

/-- The weighted values as the reference computes them: the weights broadcast along a new unit axis, then along the 32
    coordinates of a head, times the gathered values. -/
def weightedChain (K Q V : FVec Ideal S297984x8x32 .f32) : FVec Ideal S297984x8x32 .f32 :=
  mulf V (broadcastInDim S297984x8x32 ![0, 1, 2] bcast_S297984x8x1_S297984x8x32_0_1_2
    (broadcastInDim S297984x8x1 ![0, 1] bcast_S297984x8_S297984x8x1_0_1 (scoreChain K Q)))

/-! ## The operations that are not pointwise, read at coordinates -/

/-- The host's sum over the last axis from the zero word, at (e, h): the sum over the 32 coordinates of the head. -/
theorem reduce_apply (x : FVec Ideal S297984x8x32 .f32) (e : Fin 297984) (h : Fin 8) :
    Host.reduceAdd (F := Ideal) x (constant (F := Ideal) S_ .f32 0x00000000#32)
        reducesTo_S297984x8x32_S297984x8_d2 h_S_ (ix2 e h)
      = ∑ k : Fin 32, x (ix3 e h k) := by
  rw [hostReduceAdd_apply, Ideal.hostReduceAdd_single _ reduces_last, constant_apply, Ideal.ofBits_zero_f32, zero_add]
  refine Finset.sum_congr rfl fun k _ => congrArg x ?_
  funext c
  match c with
  | ⟨0, _⟩ => rfl
  | ⟨1, _⟩ => rfl
  | ⟨2, _⟩ => rfl

/-- A scalar broadcast to [297984, 8] reads the scalar at every (e, h). -/
theorem bcast_scalar_apply (x : FVec Ideal S_ .f32) (e : Fin 297984) (h : Fin 8) :
    broadcastInDim S297984x8 ![] bcast_S_S297984x8 x (ix2 e h) = x ix0 :=
  broadcastInDim_scalar_apply _ x _

/-- The weights broadcast along a new unit axis read (e, h, ·) ↦ (e, h). -/
theorem bcast_unit_apply (x : FVec Ideal S297984x8 .f32) (e : Fin 297984) (h : Fin 8) (u : Fin 1) :
    broadcastInDim S297984x8x1 ![0, 1] bcast_S297984x8_S297984x8x1_0_1 x (ix3 e h u) = x (ix2 e h) := by
  refine broadcastInDim_apply _ _ x _ (ix2 e h) fun a => ?_
  match a with
  | ⟨0, _⟩ => rfl
  | ⟨1, _⟩ => rfl

/-- The unit axis stretched to the 32 coordinates of a head reads (e, h, d) ↦ (e, h, 0). -/
theorem bcast_head_apply (x : FVec Ideal S297984x8x1 .f32) (e : Fin 297984) (h : Fin 8) (d : Fin 32) :
    broadcastInDim S297984x8x32 ![0, 1, 2] bcast_S297984x8x1_S297984x8x32_0_1_2 x (ix3 e h d)
      = x (ix3 e h (0 : Fin 1)) := by
  refine broadcastInDim_apply _ _ x _ (ix3 e h (0 : Fin 1)) fun a => ?_
  match a with
  | ⟨0, _⟩ => rfl
  | ⟨1, _⟩ => rfl
  | ⟨2, _⟩ => rfl

/-! ## The chain is the specification -/

/-- The reference's weights are the specification's: at (e, h) the sum is the inner product, the quotient by the
    divisor is the product with its reciprocal, and the clamp and the exponential read pointwise. -/
theorem scoreChain_eq (K Q : FVec Ideal S297984x8x32 .f32) : scoreChain K Q = Cert.EdgeSpec.score K Q := by
  funext j
  obtain ⟨e, h, rfl⟩ : ∃ (e : Fin 297984) (h : Fin 8), j = ix2 e h := ⟨j 0, j 1, eq_ix2 j⟩
  unfold scoreChain
  rw [hostExp_apply, minimumf_apply, maximumf_apply, hostDivf_apply, reduce_apply,
    bcast_scalar_apply, bcast_scalar_apply, bcast_scalar_apply]
  simp only [id, constant_apply, mulf_apply, ofBits_divisor, Cert.EdgeSpec.div_divisor]
  rfl

/-- The reference's weighted values are the specification's: the two broadcasts read the weight of (e, h) at every
    coordinate d of the head. -/
theorem weightedChain_eq (K Q V : FVec Ideal S297984x8x32 .f32) :
    weightedChain K Q V = Cert.EdgeSpec.weighted K Q V := by
  funext i
  obtain ⟨e, h, d, rfl⟩ : ∃ (e : Fin 297984) (h : Fin 8) (d : Fin 32), i = ix3 e h d := ⟨i 0, i 1, i 2, eq_ix3 i⟩
  unfold weightedChain
  rw [mulf_apply, bcast_head_apply, bcast_unit_apply, scoreChain_eq]
  rfl

end Cert.ReferenceIdeal.RefEdge

end
-- ==== Proof.RefEdgeRun.lean ====
/-
  The two stretches of the reference that compute the edge attention — one per layer, twenty-seven host operations each,
  the clamp function's six among them — read as folds over the buffers: after a stretch has run from any contents V,
  the buffer of the weights holds the chain of RefEdge applied to V's keys and queries, the buffer of the weighted
  values holds the product chain applied to V's keys, queries and the values gathered by the stretch itself, and every
  buffer the stretch does not write holds what V gave it.
-/
import proofs.«124614_j50809463111778_2_alg».proof.Proof.RefEdge
import proofs.«124614_j50809463111778_2_alg».proof.Proof.Gen.ReferenceIdeal
import Idealize.ShloMosaic.Lib.StableHlo.Run

noncomputable section

namespace Cert.ReferenceIdeal.RefEdge

open Idealize.ShloMosaic Idealize.ShloMosaic.StableHlo
open Cert.ReferenceIdeal
open Facts₀

/-! ## The two stretches, operation by operation in program order -/

section Lists
variable {F : FTy → Type} [FloatOps F]

/-- The first layer's stretch: from the product of keys and queries to the weighted values. -/
abbrev edgeOps0 : List (HloOp τ sig (Elt F)) :=
  [ StableHlo.binary main_v73 main_v80 main_v81 (mulf : (⟨S297984x8x32, .f32⟩ : BufTy).Contents (Elt F) → (⟨S297984x8x32, .f32⟩ : BufTy).Contents (Elt F) → (⟨S297984x8x32, .f32⟩ : BufTy).Contents (Elt F)),
    StableHlo.nullary main_cst_15 (constant S_ .f32 0x00000000#32),
    StableHlo.binary main_v81 main_cst_15 main_v82 ((fun x v => Host.reduceAdd x v reducesTo_S297984x8x32_S297984x8_d2 h_S_) : (⟨S297984x8x32, .f32⟩ : BufTy).Contents (Elt F) → (⟨S_, .f32⟩ : BufTy).Contents (Elt F) → (⟨S297984x8, .f32⟩ : BufTy).Contents (Elt F)),
    StableHlo.nullary main_cst_16 (constant S_ .f32 0x40B504F3#32),
    StableHlo.unary main_cst_16 main_v83 (broadcastInDim S297984x8 ![] bcast_S_S297984x8 : (⟨S_, .f32⟩ : BufTy).Contents (Elt F) → (⟨S297984x8, .f32⟩ : BufTy).Contents (Elt F)),
    StableHlo.binary main_v82 main_v83 main_v84 (Host.divf : (⟨S297984x8, .f32⟩ : BufTy).Contents (Elt F) → (⟨S297984x8, .f32⟩ : BufTy).Contents (Elt F) → (⟨S297984x8, .f32⟩ : BufTy).Contents (Elt F)),
    StableHlo.nullary main_cst_17 (constant S_ .f32 0xC0A00000#32),
    StableHlo.nullary main_cst_18 (constant S_ .f32 0x40A00000#32),
    StableHlo.TRef.unary (.of main_cst_17 : StableHlo.TRef sig ⟨S_, .f32⟩) (.of main_call2_v0 : StableHlo.TRef sig ⟨S_, .f32⟩) id,
    StableHlo.TRef.unary (.of main_call2_v0 : StableHlo.TRef sig ⟨S_, .f32⟩) (.of main_call2_v1 : StableHlo.TRef sig ⟨S297984x8, .f32⟩) (broadcastInDim S297984x8 ![] bcast_S_S297984x8),
    StableHlo.TRef.binary (.of main_call2_v1 : StableHlo.TRef sig ⟨S297984x8, .f32⟩) (.of main_v84 : StableHlo.TRef sig ⟨S297984x8, .f32⟩) (.of main_call2_v2 : StableHlo.TRef sig ⟨S297984x8, .f32⟩) maximumf,
    StableHlo.TRef.unary (.of main_cst_18 : StableHlo.TRef sig ⟨S_, .f32⟩) (.of main_call2_v3 : StableHlo.TRef sig ⟨S_, .f32⟩) id,
    StableHlo.TRef.unary (.of main_call2_v3 : StableHlo.TRef sig ⟨S_, .f32⟩) (.of main_call2_v4 : StableHlo.TRef sig ⟨S297984x8, .f32⟩) (broadcastInDim S297984x8 ![] bcast_S_S297984x8),
    StableHlo.TRef.binary (.of main_call2_v4 : StableHlo.TRef sig ⟨S297984x8, .f32⟩) (.of main_call2_v2 : StableHlo.TRef sig ⟨S297984x8, .f32⟩) (.of main_v85 : StableHlo.TRef sig ⟨S297984x8, .f32⟩) minimumf,
    StableHlo.unary main_v85 main_v86 (Host.exp : (⟨S297984x8, .f32⟩ : BufTy).Contents (Elt F) → (⟨S297984x8, .f32⟩ : BufTy).Contents (Elt F)),
    StableHlo.nullary main_c_19 (constantI S_ 32 0#32),
    StableHlo.unary main_c_19 main_v87 (broadcastInDim S297984 ![] bcast_S_S297984 : (⟨S_, .i32⟩ : BufTy).Contents (Elt F) → (⟨S297984, .i32⟩ : BufTy).Contents (Elt F)),
    StableHlo.binary main_arg2 main_v87 main_v88 (cmpi .slt : (⟨S297984, .i32⟩ : BufTy).Contents (Elt F) → (⟨S297984, .i32⟩ : BufTy).Contents (Elt F) → (⟨S297984, .i1⟩ : BufTy).Contents (Elt F)),
    StableHlo.nullary main_c_20 (constantI S_ 32 6144#32),
    StableHlo.unary main_c_20 main_v89 (broadcastInDim S297984 ![] bcast_S_S297984 : (⟨S_, .i32⟩ : BufTy).Contents (Elt F) → (⟨S297984, .i32⟩ : BufTy).Contents (Elt F)),
    StableHlo.binary main_arg2 main_v89 main_v90 (addi : (⟨S297984, .i32⟩ : BufTy).Contents (Elt F) → (⟨S297984, .i32⟩ : BufTy).Contents (Elt F) → (⟨S297984, .i32⟩ : BufTy).Contents (Elt F)),
    StableHlo.ternary main_v88 main_v90 main_arg2 main_v91 (select : (⟨S297984, .i1⟩ : BufTy).Contents (Elt F) → (⟨S297984, .i32⟩ : BufTy).Contents (Elt F) → (⟨S297984, .i32⟩ : BufTy).Contents (Elt F) → (⟨S297984, .i32⟩ : BufTy).Contents (Elt F)),
    StableHlo.unary main_v91 main_v92 (broadcastInDim S297984x1 ![0] bcast_S297984_S297984x1_0 : (⟨S297984, .i32⟩ : BufTy).Contents (Elt F) → (⟨S297984x1, .i32⟩ : BufTy).Contents (Elt F)),
    StableHlo.binary main_v66 main_v92 main_v93 ((fun x i => Host.gather gather_S6144x8x32_S297984x1_S297984x8x32_12_0_n_n_0_1_1832 x i) : (⟨S6144x8x32, .f32⟩ : BufTy).Contents (Elt F) → (⟨S297984x1, .i32⟩ : BufTy).Contents (Elt F) → (⟨S297984x8x32, .f32⟩ : BufTy).Contents (Elt F)),
    StableHlo.unary main_v86 main_v94 (broadcastInDim S297984x8x1 ![0, 1] bcast_S297984x8_S297984x8x1_0_1 : (⟨S297984x8, .f32⟩ : BufTy).Contents (Elt F) → (⟨S297984x8x1, .f32⟩ : BufTy).Contents (Elt F)),
    StableHlo.unary main_v94 main_v95 (broadcastInDim S297984x8x32 ![0, 1, 2] bcast_S297984x8x1_S297984x8x32_0_1_2 : (⟨S297984x8x1, .f32⟩ : BufTy).Contents (Elt F) → (⟨S297984x8x32, .f32⟩ : BufTy).Contents (Elt F)),
    StableHlo.binary main_v93 main_v95 main_v96 (mulf : (⟨S297984x8x32, .f32⟩ : BufTy).Contents (Elt F) → (⟨S297984x8x32, .f32⟩ : BufTy).Contents (Elt F) → (⟨S297984x8x32, .f32⟩ : BufTy).Contents (Elt F)) ]

/-- The second layer's stretch: the same operations over the second layer's buffers. -/
abbrev edgeOps1 : List (HloOp τ sig (Elt F)) :=
  [ StableHlo.binary main_v210 main_v217 main_v218 (mulf : (⟨S297984x8x32, .f32⟩ : BufTy).Contents (Elt F) → (⟨S297984x8x32, .f32⟩ : BufTy).Contents (Elt F) → (⟨S297984x8x32, .f32⟩ : BufTy).Contents (Elt F)),
    StableHlo.nullary main_cst_37 (constant S_ .f32 0x00000000#32),
    StableHlo.binary main_v218 main_cst_37 main_v219 ((fun x v => Host.reduceAdd x v reducesTo_S297984x8x32_S297984x8_d2 h_S_) : (⟨S297984x8x32, .f32⟩ : BufTy).Contents (Elt F) → (⟨S_, .f32⟩ : BufTy).Contents (Elt F) → (⟨S297984x8, .f32⟩ : BufTy).Contents (Elt F)),
    StableHlo.nullary main_cst_38 (constant S_ .f32 0x40B504F3#32),
    StableHlo.unary main_cst_38 main_v220 (broadcastInDim S297984x8 ![] bcast_S_S297984x8 : (⟨S_, .f32⟩ : BufTy).Contents (Elt F) → (⟨S297984x8, .f32⟩ : BufTy).Contents (Elt F)),
    StableHlo.binary main_v219 main_v220 main_v221 (Host.divf : (⟨S297984x8, .f32⟩ : BufTy).Contents (Elt F) → (⟨S297984x8, .f32⟩ : BufTy).Contents (Elt F) → (⟨S297984x8, .f32⟩ : BufTy).Contents (Elt F)),
    StableHlo.nullary main_cst_39 (constant S_ .f32 0xC0A00000#32),
    StableHlo.nullary main_cst_40 (constant S_ .f32 0x40A00000#32),
    StableHlo.TRef.unary (.of main_cst_39 : StableHlo.TRef sig ⟨S_, .f32⟩) (.of main_call4_v0 : StableHlo.TRef sig ⟨S_, .f32⟩) id,
    StableHlo.TRef.unary (.of main_call4_v0 : StableHlo.TRef sig ⟨S_, .f32⟩) (.of main_call4_v1 : StableHlo.TRef sig ⟨S297984x8, .f32⟩) (broadcastInDim S297984x8 ![] bcast_S_S297984x8),
    StableHlo.TRef.binary (.of main_call4_v1 : StableHlo.TRef sig ⟨S297984x8, .f32⟩) (.of main_v221 : StableHlo.TRef sig ⟨S297984x8, .f32⟩) (.of main_call4_v2 : StableHlo.TRef sig ⟨S297984x8, .f32⟩) maximumf,
    StableHlo.TRef.unary (.of main_cst_40 : StableHlo.TRef sig ⟨S_, .f32⟩) (.of main_call4_v3 : StableHlo.TRef sig ⟨S_, .f32⟩) id,
    StableHlo.TRef.unary (.of main_call4_v3 : StableHlo.TRef sig ⟨S_, .f32⟩) (.of main_call4_v4 : StableHlo.TRef sig ⟨S297984x8, .f32⟩) (broadcastInDim S297984x8 ![] bcast_S_S297984x8),
    StableHlo.TRef.binary (.of main_call4_v4 : StableHlo.TRef sig ⟨S297984x8, .f32⟩) (.of main_call4_v2 : StableHlo.TRef sig ⟨S297984x8, .f32⟩) (.of main_v222 : StableHlo.TRef sig ⟨S297984x8, .f32⟩) minimumf,
    StableHlo.unary main_v222 main_v223 (Host.exp : (⟨S297984x8, .f32⟩ : BufTy).Contents (Elt F) → (⟨S297984x8, .f32⟩ : BufTy).Contents (Elt F)),
    StableHlo.nullary main_c_41 (constantI S_ 32 0#32),
    StableHlo.unary main_c_41 main_v224 (broadcastInDim S297984 ![] bcast_S_S297984 : (⟨S_, .i32⟩ : BufTy).Contents (Elt F) → (⟨S297984, .i32⟩ : BufTy).Contents (Elt F)),
    StableHlo.binary main_arg2 main_v224 main_v225 (cmpi .slt : (⟨S297984, .i32⟩ : BufTy).Contents (Elt F) → (⟨S297984, .i32⟩ : BufTy).Contents (Elt F) → (⟨S297984, .i1⟩ : BufTy).Contents (Elt F)),
    StableHlo.nullary main_c_42 (constantI S_ 32 6144#32),
    StableHlo.unary main_c_42 main_v226 (broadcastInDim S297984 ![] bcast_S_S297984 : (⟨S_, .i32⟩ : BufTy).Contents (Elt F) → (⟨S297984, .i32⟩ : BufTy).Contents (Elt F)),
    StableHlo.binary main_arg2 main_v226 main_v227 (addi : (⟨S297984, .i32⟩ : BufTy).Contents (Elt F) → (⟨S297984, .i32⟩ : BufTy).Contents (Elt F) → (⟨S297984, .i32⟩ : BufTy).Contents (Elt F)),
    StableHlo.ternary main_v225 main_v227 main_arg2 main_v228 (select : (⟨S297984, .i1⟩ : BufTy).Contents (Elt F) → (⟨S297984, .i32⟩ : BufTy).Contents (Elt F) → (⟨S297984, .i32⟩ : BufTy).Contents (Elt F) → (⟨S297984, .i32⟩ : BufTy).Contents (Elt F)),
    StableHlo.unary main_v228 main_v229 (broadcastInDim S297984x1 ![0] bcast_S297984_S297984x1_0 : (⟨S297984, .i32⟩ : BufTy).Contents (Elt F) → (⟨S297984x1, .i32⟩ : BufTy).Contents (Elt F)),
    StableHlo.binary main_v203 main_v229 main_v230 ((fun x i => Host.gather gather_S6144x8x32_S297984x1_S297984x8x32_12_0_n_n_0_1_1832 x i) : (⟨S6144x8x32, .f32⟩ : BufTy).Contents (Elt F) → (⟨S297984x1, .i32⟩ : BufTy).Contents (Elt F) → (⟨S297984x8x32, .f32⟩ : BufTy).Contents (Elt F)),
    StableHlo.unary main_v223 main_v231 (broadcastInDim S297984x8x1 ![0, 1] bcast_S297984x8_S297984x8x1_0_1 : (⟨S297984x8, .f32⟩ : BufTy).Contents (Elt F) → (⟨S297984x8x1, .f32⟩ : BufTy).Contents (Elt F)),
    StableHlo.unary main_v231 main_v232 (broadcastInDim S297984x8x32 ![0, 1, 2] bcast_S297984x8x1_S297984x8x32_0_1_2 : (⟨S297984x8x1, .f32⟩ : BufTy).Contents (Elt F) → (⟨S297984x8x32, .f32⟩ : BufTy).Contents (Elt F)),
    StableHlo.binary main_v230 main_v232 main_v233 (mulf : (⟨S297984x8x32, .f32⟩ : BufTy).Contents (Elt F) → (⟨S297984x8x32, .f32⟩ : BufTy).Contents (Elt F) → (⟨S297984x8x32, .f32⟩ : BufTy).Contents (Elt F)) ]

/-- The start indices of the values' gather as the stretch computes them from an index array: an index below zero is
    moved up by the 6144 nodes, then a unit axis is appended. -/
def gatherIndex (a : (⟨S297984, .i32⟩ : BufTy).Contents (Elt F)) : (⟨S297984x1, .i32⟩ : BufTy).Contents (Elt F) :=
  (broadcastInDim S297984x1 ![0] bcast_S297984_S297984x1_0 : (⟨S297984, .i32⟩ : BufTy).Contents (Elt F) → (⟨S297984x1, .i32⟩ : BufTy).Contents (Elt F))
    ((select : (⟨S297984, .i1⟩ : BufTy).Contents (Elt F) → (⟨S297984, .i32⟩ : BufTy).Contents (Elt F) → (⟨S297984, .i32⟩ : BufTy).Contents (Elt F) → (⟨S297984, .i32⟩ : BufTy).Contents (Elt F))
      ((cmpi .slt : (⟨S297984, .i32⟩ : BufTy).Contents (Elt F) → (⟨S297984, .i32⟩ : BufTy).Contents (Elt F) → (⟨S297984, .i1⟩ : BufTy).Contents (Elt F)) a
        ((broadcastInDim S297984 ![] bcast_S_S297984 : (⟨S_, .i32⟩ : BufTy).Contents (Elt F) → (⟨S297984, .i32⟩ : BufTy).Contents (Elt F)) (constantI S_ 32 0#32)))
      ((addi : (⟨S297984, .i32⟩ : BufTy).Contents (Elt F) → (⟨S297984, .i32⟩ : BufTy).Contents (Elt F) → (⟨S297984, .i32⟩ : BufTy).Contents (Elt F)) a
        ((broadcastInDim S297984 ![] bcast_S_S297984 : (⟨S_, .i32⟩ : BufTy).Contents (Elt F) → (⟨S297984, .i32⟩ : BufTy).Contents (Elt F)) (constantI S_ 32 6144#32)))
      a)

end Lists

/-- The buffers the first layer's stretch writes, in program order. -/
abbrev edgeWrites0 : List (Ref sig .tc) :=
  [main_v81, main_cst_15, main_v82, main_cst_16, main_v83, main_v84, main_cst_17, main_cst_18, main_call2_v0, main_call2_v1, main_call2_v2, main_call2_v3, main_call2_v4, main_v85, main_v86, main_c_19, main_v87, main_v88, main_c_20, main_v89, main_v90, main_v91, main_v92, main_v93, main_v94, main_v95, main_v96]

/-- The buffers the second layer's stretch writes, in program order. -/
abbrev edgeWrites1 : List (Ref sig .tc) :=
  [main_v218, main_cst_37, main_v219, main_cst_38, main_v220, main_v221, main_cst_39, main_cst_40, main_call4_v0, main_call4_v1, main_call4_v2, main_call4_v3, main_call4_v4, main_v222, main_v223, main_c_41, main_v224, main_v225, main_c_42, main_v226, main_v227, main_v228, main_v229, main_v230, main_v231, main_v232, main_v233]

/-- One buffer of a list, as a set of device buffers, lies in the list's set. -/
theorem single_sub {W : List (Ref sig .tc)} {y : Ref sig .tc} (h : y ∈ W) :
    ({Proc.devRef (τ := τ) .tc y} : Finset (DevRef τ sig)) ⊆ (W.map (Proc.devRef (τ := τ) .tc)).toFinset :=
  Finset.singleton_subset_iff.mpr (List.mem_toFinset.mpr (List.mem_map_of_mem h))

section Writes
variable {F : FTy → Type} [FloatOps F]

/-- Every operation of the first stretch writes one of the listed buffers. -/
theorem edgeOps0_writes : (edgeOps0 : List (HloOp τ sig (Elt F))).Forall fun op =>
    op.writes ⊆ (edgeWrites0.map (Proc.devRef (τ := τ) .tc)).toFinset := by
  simp only [edgeOps0, List.Forall, nullary_writes, unary_writes, binary_writes, ternary_writes]
  repeat' apply And.intro
  all_goals exact single_sub (by decide)

/-- Every operation of the second stretch writes one of the listed buffers. -/
theorem edgeOps1_writes : (edgeOps1 : List (HloOp τ sig (Elt F))).Forall fun op =>
    op.writes ⊆ (edgeWrites1.map (Proc.devRef (τ := τ) .tc)).toFinset := by
  simp only [edgeOps1, List.Forall, nullary_writes, unary_writes, binary_writes, ternary_writes]
  repeat' apply And.intro
  all_goals exact single_sub (by decide)

/-- A buffer the first stretch does not write keeps its contents. -/
theorem edge0_keeps (V : Valuation τ sig (Elt F)) (b : Ref sig .tc) (hb : b ∉ edgeWrites0) :
    after edgeOps0 V (Proc.devRef .tc b) = V (Proc.devRef .tc b) :=
  after_of_writes_sub edgeOps0 V edgeOps0_writes hb

/-- A buffer the second stretch does not write keeps its contents. -/
theorem edge1_keeps (V : Valuation τ sig (Elt F)) (b : Ref sig .tc) (hb : b ∉ edgeWrites1) :
    after edgeOps1 V (Proc.devRef .tc b) = V (Proc.devRef .tc b) :=
  after_of_writes_sub edgeOps1 V edgeOps1_writes hb

end Writes

/-! ## What the stretches leave in the weights', the values' and the weighted values' buffers, at the extended reals -/

/-- After the first stretch the weights' buffer holds the chain over the keys and queries V gave. -/
theorem edge0_score (V : Valuation τ sig (Elt Ideal)) :
    after edgeOps0 V (Proc.devRef .tc main_v86)
      = scoreChain (V (Proc.devRef .tc main_v73)) (V (Proc.devRef .tc main_v80)) := by
  dsimp only [edgeOps0]
  after_results_simp
  rfl

/-- After the first stretch the gathered values' buffer holds the rows of V's value array at the start indices computed
    from V's index array. -/
theorem edge0_values (V : Valuation τ sig (Elt Ideal)) :
    after edgeOps0 V (Proc.devRef .tc main_v93)
      = Host.gather gather_S6144x8x32_S297984x1_S297984x8x32_12_0_n_n_0_1_1832 (V (Proc.devRef .tc main_v66))
          (gatherIndex (V (Proc.devRef .tc main_arg2))) := by
  dsimp only [edgeOps0]
  after_results_simp
  rfl

/-- After the first stretch the weighted values' buffer holds the product chain over V's keys and queries and the
    values the stretch gathered. -/
theorem edge0_weighted (V : Valuation τ sig (Elt Ideal)) :
    after edgeOps0 V (Proc.devRef .tc main_v96)
      = weightedChain (V (Proc.devRef .tc main_v73)) (V (Proc.devRef .tc main_v80))
          (after edgeOps0 V (Proc.devRef .tc main_v93)) := by
  dsimp only [edgeOps0]
  after_results_simp
  rfl

/-- After the second stretch the weights' buffer holds the chain over the keys and queries V gave. -/
theorem edge1_score (V : Valuation τ sig (Elt Ideal)) :
    after edgeOps1 V (Proc.devRef .tc main_v223)
      = scoreChain (V (Proc.devRef .tc main_v210)) (V (Proc.devRef .tc main_v217)) := by
  dsimp only [edgeOps1]
  after_results_simp
  rfl

/-- After the second stretch the gathered values' buffer holds the rows of V's value array at the start indices computed
    from V's index array. -/
theorem edge1_values (V : Valuation τ sig (Elt Ideal)) :
    after edgeOps1 V (Proc.devRef .tc main_v230)
      = Host.gather gather_S6144x8x32_S297984x1_S297984x8x32_12_0_n_n_0_1_1832 (V (Proc.devRef .tc main_v203))
          (gatherIndex (V (Proc.devRef .tc main_arg2))) := by
  dsimp only [edgeOps1]
  after_results_simp
  rfl

/-- After the second stretch the weighted values' buffer holds the product chain over V's keys and queries and the
    values the stretch gathered. -/
theorem edge1_weighted (V : Valuation τ sig (Elt Ideal)) :
    after edgeOps1 V (Proc.devRef .tc main_v233)
      = weightedChain (V (Proc.devRef .tc main_v210)) (V (Proc.devRef .tc main_v217))
          (after edgeOps1 V (Proc.devRef .tc main_v230)) := by
  dsimp only [edgeOps1]
  after_results_simp
  rfl

end Cert.ReferenceIdeal.RefEdge

end
-- ==== Proof.RefAppend.lean ====
/-
  The contents after two lines of operations run in a row are the second line's fold over the first's.
-/
import proofs.«124614_j50809463111778_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The contents after two lines in a row: the second line's fold over the first's. -/
theorem after_append (l₁ l₂ : List (HloOp τ sig (Elt F))) (V : Valuation τ sig (Elt F)) :
    after (l₁ ++ l₂) V = after l₂ (after l₁ V) := by
  induction l₁ generalizing V with
  | nil => rfl
  | cons op l ih => rw [List.cons_append, after_cons, after_cons, ih]

end Cert.ReferenceIdeal.RefRun

end
-- ==== Proof.RefOps1.lean ====
/- Stretch 1 of 5 of the reference program's operations, in program order, as a literal list (operations 1 to 134 of 420;
  it ends with the operation that writes main_v80): each printed statement without its wrapper, a call replaced by the callee's
  statements over the call's own buffers. With it: every operation touches TensorCore buffers only, and none allocates. -/
import proofs.«124614_j50809463111778_2_alg».proof.Proof.Gen.ReferenceIdeal
import Idealize.ShloMosaic.Lib.StableHlo.Run

set_option maxRecDepth 8000

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The 134 operations of stretch 1, in order, the calls unfolded. -/
abbrev ops1 : List (HloOp τ sig (Elt F)) :=
  [ StableHlo.nullary main_c (constantI S_ 32 3#32),
    StableHlo.TRef.unary (.of main_c : StableHlo.TRef sig ⟨S_, .i32⟩) (.of main_call0_v0 : StableHlo.TRef sig ⟨S_, .i32⟩) id,
    StableHlo.TRef.nullary (.of main_call0_c : StableHlo.TRef sig ⟨S_, .i32⟩) (constantI S_ 32 0#32),
    StableHlo.TRef.binary (.of main_call0_v0 : StableHlo.TRef sig ⟨S_, .i32⟩) (.of main_call0_c : StableHlo.TRef sig ⟨S_, .i32⟩) (.of main_call0_v1 : StableHlo.TRef sig ⟨S_, .i1⟩) (cmpi .eq),
    StableHlo.TRef.nullary (.of main_call0_c_0 : StableHlo.TRef sig ⟨S_, .i32⟩) (constantI S_ 32 1#32),
    StableHlo.TRef.ternary (.of main_call0_v1 : StableHlo.TRef sig ⟨S_, .i1⟩) (.of main_call0_c_0 : StableHlo.TRef sig ⟨S_, .i32⟩) (.of main_call0_v0 : StableHlo.TRef sig ⟨S_, .i32⟩) (.of main_call0_v2 : StableHlo.TRef sig ⟨S_, .i32⟩) select,
    StableHlo.TRef.unary (.of main_call0_v2 : StableHlo.TRef sig ⟨S_, .i32⟩) (.of main_call0_v3 : StableHlo.TRef sig ⟨S6144, .i32⟩) (broadcastInDim S6144 ![] bcast_S_S6144),
    StableHlo.TRef.binary (.of main_arg1 : StableHlo.TRef sig ⟨S6144, .i32⟩) (.of main_call0_v3 : StableHlo.TRef sig ⟨S6144, .i32⟩) (.of main_call0_v4 : StableHlo.TRef sig ⟨S6144, .i32⟩) Host.remsi,
    StableHlo.TRef.nullary (.of main_call0_c_1 : StableHlo.TRef sig ⟨S_, .i32⟩) (constantI S_ 32 0#32),
    StableHlo.TRef.unary (.of main_call0_c_1 : StableHlo.TRef sig ⟨S_, .i32⟩) (.of main_call0_v5 : StableHlo.TRef sig ⟨S6144, .i32⟩) (broadcastInDim S6144 ![] bcast_S_S6144),
    StableHlo.TRef.binary (.of main_call0_v4 : StableHlo.TRef sig ⟨S6144, .i32⟩) (.of main_call0_v5 : StableHlo.TRef sig ⟨S6144, .i32⟩) (.of main_call0_v6 : StableHlo.TRef sig ⟨S6144, .i1⟩) (cmpi .ne),
    StableHlo.TRef.nullary (.of main_call0_c_2 : StableHlo.TRef sig ⟨S_, .i32⟩) (constantI S_ 32 0#32),
    StableHlo.TRef.unary (.of main_call0_c_2 : StableHlo.TRef sig ⟨S_, .i32⟩) (.of main_call0_v7 : StableHlo.TRef sig ⟨S6144, .i32⟩) (broadcastInDim S6144 ![] bcast_S_S6144),
    StableHlo.TRef.binary (.of main_call0_v4 : StableHlo.TRef sig ⟨S6144, .i32⟩) (.of main_call0_v7 : StableHlo.TRef sig ⟨S6144, .i32⟩) (.of main_call0_v8 : StableHlo.TRef sig ⟨S6144, .i1⟩) (cmpi .slt),
    StableHlo.TRef.nullary (.of main_call0_c_3 : StableHlo.TRef sig ⟨S_, .i32⟩) (constantI S_ 32 0#32),
    StableHlo.TRef.binary (.of main_call0_v2 : StableHlo.TRef sig ⟨S_, .i32⟩) (.of main_call0_c_3 : StableHlo.TRef sig ⟨S_, .i32⟩) (.of main_call0_v9 : StableHlo.TRef sig ⟨S_, .i1⟩) (cmpi .slt),
    StableHlo.TRef.unary (.of main_call0_v9 : StableHlo.TRef sig ⟨S_, .i1⟩) (.of main_call0_v10 : StableHlo.TRef sig ⟨S6144, .i1⟩) (broadcastInDim S6144 ![] bcast_S_S6144),
    StableHlo.TRef.binary (.of main_call0_v8 : StableHlo.TRef sig ⟨S6144, .i1⟩) (.of main_call0_v10 : StableHlo.TRef sig ⟨S6144, .i1⟩) (.of main_call0_v11 : StableHlo.TRef sig ⟨S6144, .i1⟩) (cmpi .ne),
    StableHlo.TRef.binary (.of main_call0_v11 : StableHlo.TRef sig ⟨S6144, .i1⟩) (.of main_call0_v6 : StableHlo.TRef sig ⟨S6144, .i1⟩) (.of main_call0_v12 : StableHlo.TRef sig ⟨S6144, .i1⟩) andi,
    StableHlo.TRef.unary (.of main_call0_v2 : StableHlo.TRef sig ⟨S_, .i32⟩) (.of main_call0_v13 : StableHlo.TRef sig ⟨S6144, .i32⟩) (broadcastInDim S6144 ![] bcast_S_S6144),
    StableHlo.TRef.binary (.of main_call0_v4 : StableHlo.TRef sig ⟨S6144, .i32⟩) (.of main_call0_v13 : StableHlo.TRef sig ⟨S6144, .i32⟩) (.of main_call0_v14 : StableHlo.TRef sig ⟨S6144, .i32⟩) addi,
    StableHlo.TRef.ternary (.of main_call0_v12 : StableHlo.TRef sig ⟨S6144, .i1⟩) (.of main_call0_v14 : StableHlo.TRef sig ⟨S6144, .i32⟩) (.of main_call0_v4 : StableHlo.TRef sig ⟨S6144, .i32⟩) (.of main_v0 : StableHlo.TRef sig ⟨S6144, .i32⟩) select,
    StableHlo.nullary main_c_0 (constantI S_ 32 0#32),
    StableHlo.unary main_c_0 main_v1 (broadcastInDim S6144 ![] bcast_S_S6144 : (⟨S_, .i32⟩ : BufTy).Contents (Elt F) → (⟨S6144, .i32⟩ : BufTy).Contents (Elt F)),
    StableHlo.binary main_v0 main_v1 main_v2 (cmpi .slt : (⟨S6144, .i32⟩ : BufTy).Contents (Elt F) → (⟨S6144, .i32⟩ : BufTy).Contents (Elt F) → (⟨S6144, .i1⟩ : BufTy).Contents (Elt F)),
    StableHlo.nullary main_c_1 (constantI S_ 32 3#32),
    StableHlo.unary main_c_1 main_v3 (broadcastInDim S6144 ![] bcast_S_S6144 : (⟨S_, .i32⟩ : BufTy).Contents (Elt F) → (⟨S6144, .i32⟩ : BufTy).Contents (Elt F)),
    StableHlo.binary main_v0 main_v3 main_v4 (addi : (⟨S6144, .i32⟩ : BufTy).Contents (Elt F) → (⟨S6144, .i32⟩ : BufTy).Contents (Elt F) → (⟨S6144, .i32⟩ : BufTy).Contents (Elt F)),
    StableHlo.ternary main_v2 main_v4 main_v0 main_v5 (select : (⟨S6144, .i1⟩ : BufTy).Contents (Elt F) → (⟨S6144, .i32⟩ : BufTy).Contents (Elt F) → (⟨S6144, .i32⟩ : BufTy).Contents (Elt F) → (⟨S6144, .i32⟩ : BufTy).Contents (Elt F)),
    StableHlo.unary main_v5 main_v6 (broadcastInDim S6144x1 ![0] bcast_S6144_S6144x1_0 : (⟨S6144, .i32⟩ : BufTy).Contents (Elt F) → (⟨S6144x1, .i32⟩ : BufTy).Contents (Elt F)),
    StableHlo.binary main_arg5 main_v6 main_v7 ((fun x i => Host.gather gather_S3x256_S6144x1_S6144x256_1_0_n_n_0_1_1256 x i) : (⟨S3x256, .f32⟩ : BufTy).Contents (Elt F) → (⟨S6144x1, .i32⟩ : BufTy).Contents (Elt F) → (⟨S6144x256, .f32⟩ : BufTy).Contents (Elt F)),
    StableHlo.nullary main_c_2 (constantI S_ 32 3#32),
    StableHlo.TRef.unary (.of main_c_2 : StableHlo.TRef sig ⟨S_, .i32⟩) (.of main_call1_v0 : StableHlo.TRef sig ⟨S_, .i32⟩) id,
    StableHlo.TRef.unary (.of main_call1_v0 : StableHlo.TRef sig ⟨S_, .i32⟩) (.of main_call1_v1 : StableHlo.TRef sig ⟨S6144, .i32⟩) (broadcastInDim S6144 ![] bcast_S_S6144),
    StableHlo.TRef.binary (.of main_arg1 : StableHlo.TRef sig ⟨S6144, .i32⟩) (.of main_call1_v1 : StableHlo.TRef sig ⟨S6144, .i32⟩) (.of main_call1_v2 : StableHlo.TRef sig ⟨S6144, .i32⟩) Host.divsi,
    StableHlo.TRef.unary (.of main_arg1 : StableHlo.TRef sig ⟨S6144, .i32⟩) (.of main_call1_v3 : StableHlo.TRef sig ⟨S6144, .i32⟩) signi,
    StableHlo.TRef.unary (.of main_call1_v0 : StableHlo.TRef sig ⟨S_, .i32⟩) (.of main_call1_v4 : StableHlo.TRef sig ⟨S_, .i32⟩) signi,
    StableHlo.TRef.unary (.of main_call1_v4 : StableHlo.TRef sig ⟨S_, .i32⟩) (.of main_call1_v5 : StableHlo.TRef sig ⟨S6144, .i32⟩) (broadcastInDim S6144 ![] bcast_S_S6144),
    StableHlo.TRef.binary (.of main_call1_v3 : StableHlo.TRef sig ⟨S6144, .i32⟩) (.of main_call1_v5 : StableHlo.TRef sig ⟨S6144, .i32⟩) (.of main_call1_v6 : StableHlo.TRef sig ⟨S6144, .i1⟩) (cmpi .ne),
    StableHlo.TRef.unary (.of main_call1_v0 : StableHlo.TRef sig ⟨S_, .i32⟩) (.of main_call1_v7 : StableHlo.TRef sig ⟨S6144, .i32⟩) (broadcastInDim S6144 ![] bcast_S_S6144),
    StableHlo.TRef.binary (.of main_arg1 : StableHlo.TRef sig ⟨S6144, .i32⟩) (.of main_call1_v7 : StableHlo.TRef sig ⟨S6144, .i32⟩) (.of main_call1_v8 : StableHlo.TRef sig ⟨S6144, .i32⟩) Host.remsi,
    StableHlo.TRef.nullary (.of main_call1_c : StableHlo.TRef sig ⟨S_, .i32⟩) (constantI S_ 32 0#32),
    StableHlo.TRef.unary (.of main_call1_c : StableHlo.TRef sig ⟨S_, .i32⟩) (.of main_call1_v9 : StableHlo.TRef sig ⟨S6144, .i32⟩) (broadcastInDim S6144 ![] bcast_S_S6144),
    StableHlo.TRef.binary (.of main_call1_v8 : StableHlo.TRef sig ⟨S6144, .i32⟩) (.of main_call1_v9 : StableHlo.TRef sig ⟨S6144, .i32⟩) (.of main_call1_v10 : StableHlo.TRef sig ⟨S6144, .i1⟩) (cmpi .ne),
    StableHlo.TRef.binary (.of main_call1_v6 : StableHlo.TRef sig ⟨S6144, .i1⟩) (.of main_call1_v10 : StableHlo.TRef sig ⟨S6144, .i1⟩) (.of main_call1_v11 : StableHlo.TRef sig ⟨S6144, .i1⟩) andi,
    StableHlo.TRef.nullary (.of main_call1_c_0 : StableHlo.TRef sig ⟨S_, .i32⟩) (constantI S_ 32 1#32),
    StableHlo.TRef.unary (.of main_call1_c_0 : StableHlo.TRef sig ⟨S_, .i32⟩) (.of main_call1_v12 : StableHlo.TRef sig ⟨S6144, .i32⟩) (broadcastInDim S6144 ![] bcast_S_S6144),
    StableHlo.TRef.binary (.of main_call1_v2 : StableHlo.TRef sig ⟨S6144, .i32⟩) (.of main_call1_v12 : StableHlo.TRef sig ⟨S6144, .i32⟩) (.of main_call1_v13 : StableHlo.TRef sig ⟨S6144, .i32⟩) subi,
    StableHlo.TRef.ternary (.of main_call1_v11 : StableHlo.TRef sig ⟨S6144, .i1⟩) (.of main_call1_v13 : StableHlo.TRef sig ⟨S6144, .i32⟩) (.of main_call1_v2 : StableHlo.TRef sig ⟨S6144, .i32⟩) (.of main_v8 : StableHlo.TRef sig ⟨S6144, .i32⟩) select,
    StableHlo.nullary main_c_3 (constantI S_ 32 0#32),
    StableHlo.unary main_c_3 main_v9 (broadcastInDim S6144 ![] bcast_S_S6144 : (⟨S_, .i32⟩ : BufTy).Contents (Elt F) → (⟨S6144, .i32⟩ : BufTy).Contents (Elt F)),
    StableHlo.binary main_v8 main_v9 main_v10 (cmpi .slt : (⟨S6144, .i32⟩ : BufTy).Contents (Elt F) → (⟨S6144, .i32⟩ : BufTy).Contents (Elt F) → (⟨S6144, .i1⟩ : BufTy).Contents (Elt F)),
    StableHlo.nullary main_c_4 (constantI S_ 32 32#32),
    StableHlo.unary main_c_4 main_v11 (broadcastInDim S6144 ![] bcast_S_S6144 : (⟨S_, .i32⟩ : BufTy).Contents (Elt F) → (⟨S6144, .i32⟩ : BufTy).Contents (Elt F)),
    StableHlo.binary main_v8 main_v11 main_v12 (addi : (⟨S6144, .i32⟩ : BufTy).Contents (Elt F) → (⟨S6144, .i32⟩ : BufTy).Contents (Elt F) → (⟨S6144, .i32⟩ : BufTy).Contents (Elt F)),
    StableHlo.ternary main_v10 main_v12 main_v8 main_v13 (select : (⟨S6144, .i1⟩ : BufTy).Contents (Elt F) → (⟨S6144, .i32⟩ : BufTy).Contents (Elt F) → (⟨S6144, .i32⟩ : BufTy).Contents (Elt F) → (⟨S6144, .i32⟩ : BufTy).Contents (Elt F)),
    StableHlo.unary main_v13 main_v14 (broadcastInDim S6144x1 ![0] bcast_S6144_S6144x1_0 : (⟨S6144, .i32⟩ : BufTy).Contents (Elt F) → (⟨S6144x1, .i32⟩ : BufTy).Contents (Elt F)),
    StableHlo.binary main_arg6 main_v14 main_v15 ((fun x i => Host.gather gather_S32x256_S6144x1_S6144x256_1_0_n_n_0_1_1256 x i) : (⟨S32x256, .f32⟩ : BufTy).Contents (Elt F) → (⟨S6144x1, .i32⟩ : BufTy).Contents (Elt F) → (⟨S6144x256, .f32⟩ : BufTy).Contents (Elt F)),
    StableHlo.binary main_v7 main_v15 main_v16 (addf : (⟨S6144x256, .f32⟩ : BufTy).Contents (Elt F) → (⟨S6144x256, .f32⟩ : BufTy).Contents (Elt F) → (⟨S6144x256, .f32⟩ : BufTy).Contents (Elt F)),
    StableHlo.nullary main_c_5 (constantI S_ 32 0#32),
    StableHlo.unary main_c_5 main_v17 (broadcastInDim S6144 ![] bcast_S_S6144 : (⟨S_, .i32⟩ : BufTy).Contents (Elt F) → (⟨S6144, .i32⟩ : BufTy).Contents (Elt F)),
    StableHlo.binary main_arg0 main_v17 main_v18 (cmpi .slt : (⟨S6144, .i32⟩ : BufTy).Contents (Elt F) → (⟨S6144, .i32⟩ : BufTy).Contents (Elt F) → (⟨S6144, .i1⟩ : BufTy).Contents (Elt F)),
    StableHlo.nullary main_c_6 (constantI S_ 32 1024#32),
    StableHlo.unary main_c_6 main_v19 (broadcastInDim S6144 ![] bcast_S_S6144 : (⟨S_, .i32⟩ : BufTy).Contents (Elt F) → (⟨S6144, .i32⟩ : BufTy).Contents (Elt F)),
    StableHlo.binary main_arg0 main_v19 main_v20 (addi : (⟨S6144, .i32⟩ : BufTy).Contents (Elt F) → (⟨S6144, .i32⟩ : BufTy).Contents (Elt F) → (⟨S6144, .i32⟩ : BufTy).Contents (Elt F)),
    StableHlo.ternary main_v18 main_v20 main_arg0 main_v21 (select : (⟨S6144, .i1⟩ : BufTy).Contents (Elt F) → (⟨S6144, .i32⟩ : BufTy).Contents (Elt F) → (⟨S6144, .i32⟩ : BufTy).Contents (Elt F) → (⟨S6144, .i32⟩ : BufTy).Contents (Elt F)),
    StableHlo.unary main_v21 main_v22 (broadcastInDim S6144x1 ![0] bcast_S6144_S6144x1_0 : (⟨S6144, .i32⟩ : BufTy).Contents (Elt F) → (⟨S6144x1, .i32⟩ : BufTy).Contents (Elt F)),
    StableHlo.binary main_arg4 main_v22 main_v23 ((fun x i => Host.gather gather_S1024x256_S6144x1_S6144x256_1_0_n_n_0_1_1256 x i) : (⟨S1024x256, .f32⟩ : BufTy).Contents (Elt F) → (⟨S6144x1, .i32⟩ : BufTy).Contents (Elt F) → (⟨S6144x256, .f32⟩ : BufTy).Contents (Elt F)),
    StableHlo.binary main_v16 main_v23 main_v24 (addf : (⟨S6144x256, .f32⟩ : BufTy).Contents (Elt F) → (⟨S6144x256, .f32⟩ : BufTy).Contents (Elt F) → (⟨S6144x256, .f32⟩ : BufTy).Contents (Elt F)),
    StableHlo.unary main_arg7 main_v25 ((extractStridedSlice S1x256 ![0, 0] · slices_S2x256_S1x256_0_0) : (⟨S2x256, .f32⟩ : BufTy).Contents (Elt F) → (⟨S1x256, .f32⟩ : BufTy).Contents (Elt F)),
    StableHlo.reshape main_v25 main_v26 rfl shapeCasts_S1x256_S256,
    StableHlo.unary main_arg8 main_v27 ((extractStridedSlice S1x256 ![0, 0] · slices_S2x256_S1x256_0_0) : (⟨S2x256, .f32⟩ : BufTy).Contents (Elt F) → (⟨S1x256, .f32⟩ : BufTy).Contents (Elt F)),
    StableHlo.reshape main_v27 main_v28 rfl shapeCasts_S1x256_S256,
    StableHlo.nullary main_cst (constant S_ .f32 0x00000000#32),
    StableHlo.binary main_v24 main_cst main_v29 ((fun x v => Host.reduceAdd x v reducesTo_S6144x256_S6144_d1 h_S_) : (⟨S6144x256, .f32⟩ : BufTy).Contents (Elt F) → (⟨S_, .f32⟩ : BufTy).Contents (Elt F) → (⟨S6144, .f32⟩ : BufTy).Contents (Elt F)),
    StableHlo.unary main_v29 main_v30 (broadcastInDim S6144x1 ![0] bcast_S6144_S6144x1_0 : (⟨S6144, .f32⟩ : BufTy).Contents (Elt F) → (⟨S6144x1, .f32⟩ : BufTy).Contents (Elt F)),
    StableHlo.nullary main_cst_7 (constant S_ .f32 0x43800000#32),
    StableHlo.unary main_cst_7 main_v31 (broadcastInDim S6144x1 ![] bcast_S_S6144x1 : (⟨S_, .f32⟩ : BufTy).Contents (Elt F) → (⟨S6144x1, .f32⟩ : BufTy).Contents (Elt F)),
    StableHlo.binary main_v30 main_v31 main_v32 (Host.divf : (⟨S6144x1, .f32⟩ : BufTy).Contents (Elt F) → (⟨S6144x1, .f32⟩ : BufTy).Contents (Elt F) → (⟨S6144x1, .f32⟩ : BufTy).Contents (Elt F)),
    StableHlo.unary main_v32 main_v33 (broadcastInDim S6144x256 ![0, 1] bcast_S6144x1_S6144x256_0_1 : (⟨S6144x1, .f32⟩ : BufTy).Contents (Elt F) → (⟨S6144x256, .f32⟩ : BufTy).Contents (Elt F)),
    StableHlo.binary main_v24 main_v33 main_v34 (subf : (⟨S6144x256, .f32⟩ : BufTy).Contents (Elt F) → (⟨S6144x256, .f32⟩ : BufTy).Contents (Elt F) → (⟨S6144x256, .f32⟩ : BufTy).Contents (Elt F)),
    StableHlo.binary main_v34 main_v34 main_v35 (mulf : (⟨S6144x256, .f32⟩ : BufTy).Contents (Elt F) → (⟨S6144x256, .f32⟩ : BufTy).Contents (Elt F) → (⟨S6144x256, .f32⟩ : BufTy).Contents (Elt F)),
    StableHlo.nullary main_cst_8 (constant S_ .f32 0x00000000#32),
    StableHlo.binary main_v35 main_cst_8 main_v36 ((fun x v => Host.reduceAdd x v reducesTo_S6144x256_S6144_d1 h_S_) : (⟨S6144x256, .f32⟩ : BufTy).Contents (Elt F) → (⟨S_, .f32⟩ : BufTy).Contents (Elt F) → (⟨S6144, .f32⟩ : BufTy).Contents (Elt F)),
    StableHlo.unary main_v36 main_v37 (broadcastInDim S6144x1 ![0] bcast_S6144_S6144x1_0 : (⟨S6144, .f32⟩ : BufTy).Contents (Elt F) → (⟨S6144x1, .f32⟩ : BufTy).Contents (Elt F)),
    StableHlo.nullary main_cst_9 (constant S_ .f32 0x43800000#32),
    StableHlo.unary main_cst_9 main_v38 (broadcastInDim S6144x1 ![] bcast_S_S6144x1 : (⟨S_, .f32⟩ : BufTy).Contents (Elt F) → (⟨S6144x1, .f32⟩ : BufTy).Contents (Elt F)),
    StableHlo.binary main_v37 main_v38 main_v39 (Host.divf : (⟨S6144x1, .f32⟩ : BufTy).Contents (Elt F) → (⟨S6144x1, .f32⟩ : BufTy).Contents (Elt F) → (⟨S6144x1, .f32⟩ : BufTy).Contents (Elt F)),
    StableHlo.unary main_v32 main_v40 (broadcastInDim S6144x256 ![0, 1] bcast_S6144x1_S6144x256_0_1 : (⟨S6144x1, .f32⟩ : BufTy).Contents (Elt F) → (⟨S6144x256, .f32⟩ : BufTy).Contents (Elt F)),
    StableHlo.binary main_v24 main_v40 main_v41 (subf : (⟨S6144x256, .f32⟩ : BufTy).Contents (Elt F) → (⟨S6144x256, .f32⟩ : BufTy).Contents (Elt F) → (⟨S6144x256, .f32⟩ : BufTy).Contents (Elt F)),
    StableHlo.nullary main_cst_10 (constant S_ .f32 0x3727C5AC#32),
    StableHlo.unary main_cst_10 main_v42 (broadcastInDim S6144x1 ![] bcast_S_S6144x1 : (⟨S_, .f32⟩ : BufTy).Contents (Elt F) → (⟨S6144x1, .f32⟩ : BufTy).Contents (Elt F)),
    StableHlo.binary main_v39 main_v42 main_v43 (addf : (⟨S6144x1, .f32⟩ : BufTy).Contents (Elt F) → (⟨S6144x1, .f32⟩ : BufTy).Contents (Elt F) → (⟨S6144x1, .f32⟩ : BufTy).Contents (Elt F)),
    StableHlo.unary main_v43 main_v44 (Host.rsqrt : (⟨S6144x1, .f32⟩ : BufTy).Contents (Elt F) → (⟨S6144x1, .f32⟩ : BufTy).Contents (Elt F)),
    StableHlo.unary main_v44 main_v45 (broadcastInDim S6144x256 ![0, 1] bcast_S6144x1_S6144x256_0_1 : (⟨S6144x1, .f32⟩ : BufTy).Contents (Elt F) → (⟨S6144x256, .f32⟩ : BufTy).Contents (Elt F)),
    StableHlo.binary main_v41 main_v45 main_v46 (mulf : (⟨S6144x256, .f32⟩ : BufTy).Contents (Elt F) → (⟨S6144x256, .f32⟩ : BufTy).Contents (Elt F) → (⟨S6144x256, .f32⟩ : BufTy).Contents (Elt F)),
    StableHlo.unary main_v26 main_v47 (broadcastInDim S1x256 ![1] bcast_S256_S1x256_1 : (⟨S256, .f32⟩ : BufTy).Contents (Elt F) → (⟨S1x256, .f32⟩ : BufTy).Contents (Elt F)),
    StableHlo.unary main_v47 main_v48 (broadcastInDim S6144x256 ![0, 1] bcast_S1x256_S6144x256_0_1 : (⟨S1x256, .f32⟩ : BufTy).Contents (Elt F) → (⟨S6144x256, .f32⟩ : BufTy).Contents (Elt F)),
    StableHlo.binary main_v46 main_v48 main_v49 (mulf : (⟨S6144x256, .f32⟩ : BufTy).Contents (Elt F) → (⟨S6144x256, .f32⟩ : BufTy).Contents (Elt F) → (⟨S6144x256, .f32⟩ : BufTy).Contents (Elt F)),
    StableHlo.unary main_v28 main_v50 (broadcastInDim S1x256 ![1] bcast_S256_S1x256_1 : (⟨S256, .f32⟩ : BufTy).Contents (Elt F) → (⟨S1x256, .f32⟩ : BufTy).Contents (Elt F)),
    StableHlo.unary main_v50 main_v51 (broadcastInDim S6144x256 ![0, 1] bcast_S1x256_S6144x256_0_1 : (⟨S1x256, .f32⟩ : BufTy).Contents (Elt F) → (⟨S6144x256, .f32⟩ : BufTy).Contents (Elt F)),
    StableHlo.binary main_v49 main_v51 main_v52 (addf : (⟨S6144x256, .f32⟩ : BufTy).Contents (Elt F) → (⟨S6144x256, .f32⟩ : BufTy).Contents (Elt F) → (⟨S6144x256, .f32⟩ : BufTy).Contents (Elt F)),
    StableHlo.unary main_arg9 main_v53 ((extractStridedSlice S1x256x768 ![0, 0, 0] · slices_S2x256x768_S1x256x768_0_0_0) : (⟨S2x256x768, .f32⟩ : BufTy).Contents (Elt F) → (⟨S1x256x768, .f32⟩ : BufTy).Contents (Elt F)),
    StableHlo.reshape main_v53 main_v54 rfl shapeCasts_S1x256x768_S256x768,
    StableHlo.binary main_v52 main_v54 main_v55 ((fun l r => Host.dotGeneral dot_S6144x256_S256x768_S6144x768_1_0_0_1_n_n none l r) : (⟨S6144x256, .f32⟩ : BufTy).Contents (Elt F) → (⟨S256x768, .f32⟩ : BufTy).Contents (Elt F) → (⟨S6144x768, .f32⟩ : BufTy).Contents (Elt F)),
    StableHlo.unary main_arg10 main_v56 ((extractStridedSlice S1x768 ![0, 0] · slices_S2x768_S1x768_0_0) : (⟨S2x768, .f32⟩ : BufTy).Contents (Elt F) → (⟨S1x768, .f32⟩ : BufTy).Contents (Elt F)),
    StableHlo.reshape main_v56 main_v57 rfl shapeCasts_S1x768_S768,
    StableHlo.unary main_v57 main_v58 (broadcastInDim S1x768 ![1] bcast_S768_S1x768_1 : (⟨S768, .f32⟩ : BufTy).Contents (Elt F) → (⟨S1x768, .f32⟩ : BufTy).Contents (Elt F)),
    StableHlo.unary main_v58 main_v59 (broadcastInDim S6144x768 ![0, 1] bcast_S1x768_S6144x768_0_1 : (⟨S1x768, .f32⟩ : BufTy).Contents (Elt F) → (⟨S6144x768, .f32⟩ : BufTy).Contents (Elt F)),
    StableHlo.binary main_v55 main_v59 main_v60 (addf : (⟨S6144x768, .f32⟩ : BufTy).Contents (Elt F) → (⟨S6144x768, .f32⟩ : BufTy).Contents (Elt F) → (⟨S6144x768, .f32⟩ : BufTy).Contents (Elt F)),
    StableHlo.unary main_v60 main_v61 ((extractStridedSlice S6144x256 ![0, 0] · slices_S6144x768_S6144x256_0_0) : (⟨S6144x768, .f32⟩ : BufTy).Contents (Elt F) → (⟨S6144x256, .f32⟩ : BufTy).Contents (Elt F)),
    StableHlo.unary main_v60 main_v62 ((extractStridedSlice S6144x256 ![0, 256] · slices_S6144x768_S6144x256_0_256) : (⟨S6144x768, .f32⟩ : BufTy).Contents (Elt F) → (⟨S6144x256, .f32⟩ : BufTy).Contents (Elt F)),
    StableHlo.unary main_v60 main_v63 ((extractStridedSlice S6144x256 ![0, 512] · slices_S6144x768_S6144x256_0_512) : (⟨S6144x768, .f32⟩ : BufTy).Contents (Elt F) → (⟨S6144x256, .f32⟩ : BufTy).Contents (Elt F)),
    StableHlo.reshape main_v61 main_v64 rfl shapeCasts_S6144x256_S6144x8x32,
    StableHlo.reshape main_v62 main_v65 rfl shapeCasts_S6144x256_S6144x8x32,
    StableHlo.reshape main_v63 main_v66 rfl shapeCasts_S6144x256_S6144x8x32,
    StableHlo.nullary main_c_11 (constantI S_ 32 0#32),
    StableHlo.unary main_c_11 main_v67 (broadcastInDim S297984 ![] bcast_S_S297984 : (⟨S_, .i32⟩ : BufTy).Contents (Elt F) → (⟨S297984, .i32⟩ : BufTy).Contents (Elt F)),
    StableHlo.binary main_arg2 main_v67 main_v68 (cmpi .slt : (⟨S297984, .i32⟩ : BufTy).Contents (Elt F) → (⟨S297984, .i32⟩ : BufTy).Contents (Elt F) → (⟨S297984, .i1⟩ : BufTy).Contents (Elt F)),
    StableHlo.nullary main_c_12 (constantI S_ 32 6144#32),
    StableHlo.unary main_c_12 main_v69 (broadcastInDim S297984 ![] bcast_S_S297984 : (⟨S_, .i32⟩ : BufTy).Contents (Elt F) → (⟨S297984, .i32⟩ : BufTy).Contents (Elt F)),
    StableHlo.binary main_arg2 main_v69 main_v70 (addi : (⟨S297984, .i32⟩ : BufTy).Contents (Elt F) → (⟨S297984, .i32⟩ : BufTy).Contents (Elt F) → (⟨S297984, .i32⟩ : BufTy).Contents (Elt F)),
    StableHlo.ternary main_v68 main_v70 main_arg2 main_v71 (select : (⟨S297984, .i1⟩ : BufTy).Contents (Elt F) → (⟨S297984, .i32⟩ : BufTy).Contents (Elt F) → (⟨S297984, .i32⟩ : BufTy).Contents (Elt F) → (⟨S297984, .i32⟩ : BufTy).Contents (Elt F)),
    StableHlo.unary main_v71 main_v72 (broadcastInDim S297984x1 ![0] bcast_S297984_S297984x1_0 : (⟨S297984, .i32⟩ : BufTy).Contents (Elt F) → (⟨S297984x1, .i32⟩ : BufTy).Contents (Elt F)),
    StableHlo.binary main_v65 main_v72 main_v73 ((fun x i => Host.gather gather_S6144x8x32_S297984x1_S297984x8x32_12_0_n_n_0_1_1832 x i) : (⟨S6144x8x32, .f32⟩ : BufTy).Contents (Elt F) → (⟨S297984x1, .i32⟩ : BufTy).Contents (Elt F) → (⟨S297984x8x32, .f32⟩ : BufTy).Contents (Elt F)),
    StableHlo.nullary main_c_13 (constantI S_ 32 0#32),
    StableHlo.unary main_c_13 main_v74 (broadcastInDim S297984 ![] bcast_S_S297984 : (⟨S_, .i32⟩ : BufTy).Contents (Elt F) → (⟨S297984, .i32⟩ : BufTy).Contents (Elt F)),
    StableHlo.binary main_arg3 main_v74 main_v75 (cmpi .slt : (⟨S297984, .i32⟩ : BufTy).Contents (Elt F) → (⟨S297984, .i32⟩ : BufTy).Contents (Elt F) → (⟨S297984, .i1⟩ : BufTy).Contents (Elt F)),
    StableHlo.nullary main_c_14 (constantI S_ 32 6144#32),
    StableHlo.unary main_c_14 main_v76 (broadcastInDim S297984 ![] bcast_S_S297984 : (⟨S_, .i32⟩ : BufTy).Contents (Elt F) → (⟨S297984, .i32⟩ : BufTy).Contents (Elt F)),
    StableHlo.binary main_arg3 main_v76 main_v77 (addi : (⟨S297984, .i32⟩ : BufTy).Contents (Elt F) → (⟨S297984, .i32⟩ : BufTy).Contents (Elt F) → (⟨S297984, .i32⟩ : BufTy).Contents (Elt F)),
    StableHlo.ternary main_v75 main_v77 main_arg3 main_v78 (select : (⟨S297984, .i1⟩ : BufTy).Contents (Elt F) → (⟨S297984, .i32⟩ : BufTy).Contents (Elt F) → (⟨S297984, .i32⟩ : BufTy).Contents (Elt F) → (⟨S297984, .i32⟩ : BufTy).Contents (Elt F)),
    StableHlo.unary main_v78 main_v79 (broadcastInDim S297984x1 ![0] bcast_S297984_S297984x1_0 : (⟨S297984, .i32⟩ : BufTy).Contents (Elt F) → (⟨S297984x1, .i32⟩ : BufTy).Contents (Elt F)),
    StableHlo.binary main_v64 main_v79 main_v80 ((fun x i => Host.gather gather_S6144x8x32_S297984x1_S297984x8x32_12_0_n_n_0_1_1832 x i) : (⟨S6144x8x32, .f32⟩ : BufTy).Contents (Elt F) → (⟨S297984x1, .i32⟩ : BufTy).Contents (Elt F) → (⟨S297984x8x32, .f32⟩ : BufTy).Contents (Elt F)) ]

/-- Each operation of the stretch reads and writes TensorCore buffers only. -/
theorem ops1_sub : (ops1 : List (HloOp τ sig (Elt F))).Forall fun op => op.bufs ⊆ tcRefs τ sig :=
  ⟨nullary_bufs_sub .., unary_bufs_sub .., nullary_bufs_sub .., binary_bufs_sub .., nullary_bufs_sub .., ternary_bufs_sub .., unary_bufs_sub .., binary_bufs_sub ..,
    nullary_bufs_sub .., unary_bufs_sub .., binary_bufs_sub .., nullary_bufs_sub .., unary_bufs_sub .., binary_bufs_sub .., nullary_bufs_sub .., binary_bufs_sub ..,
    unary_bufs_sub .., binary_bufs_sub .., binary_bufs_sub .., unary_bufs_sub .., binary_bufs_sub .., ternary_bufs_sub .., nullary_bufs_sub .., unary_bufs_sub ..,
    binary_bufs_sub .., nullary_bufs_sub .., unary_bufs_sub .., binary_bufs_sub .., ternary_bufs_sub .., unary_bufs_sub .., binary_bufs_sub .., nullary_bufs_sub ..,
    unary_bufs_sub .., unary_bufs_sub .., binary_bufs_sub .., unary_bufs_sub .., unary_bufs_sub .., unary_bufs_sub .., binary_bufs_sub .., unary_bufs_sub ..,
    binary_bufs_sub .., nullary_bufs_sub .., unary_bufs_sub .., binary_bufs_sub .., binary_bufs_sub .., nullary_bufs_sub .., unary_bufs_sub .., binary_bufs_sub ..,
    ternary_bufs_sub .., nullary_bufs_sub .., unary_bufs_sub .., binary_bufs_sub .., nullary_bufs_sub .., unary_bufs_sub .., binary_bufs_sub .., ternary_bufs_sub ..,
    unary_bufs_sub .., binary_bufs_sub .., binary_bufs_sub .., nullary_bufs_sub .., unary_bufs_sub .., binary_bufs_sub .., nullary_bufs_sub .., unary_bufs_sub ..,
    binary_bufs_sub .., ternary_bufs_sub .., unary_bufs_sub .., binary_bufs_sub .., binary_bufs_sub .., unary_bufs_sub .., reshape_bufs_sub .., unary_bufs_sub ..,
    reshape_bufs_sub .., nullary_bufs_sub .., binary_bufs_sub .., unary_bufs_sub .., nullary_bufs_sub .., unary_bufs_sub .., binary_bufs_sub .., unary_bufs_sub ..,
    binary_bufs_sub .., binary_bufs_sub .., nullary_bufs_sub .., binary_bufs_sub .., unary_bufs_sub .., nullary_bufs_sub .., unary_bufs_sub .., binary_bufs_sub ..,
    unary_bufs_sub .., binary_bufs_sub .., nullary_bufs_sub .., unary_bufs_sub .., binary_bufs_sub .., unary_bufs_sub .., unary_bufs_sub .., binary_bufs_sub ..,
    unary_bufs_sub .., unary_bufs_sub .., binary_bufs_sub .., unary_bufs_sub .., unary_bufs_sub .., binary_bufs_sub .., unary_bufs_sub .., reshape_bufs_sub ..,
    binary_bufs_sub .., unary_bufs_sub .., reshape_bufs_sub .., unary_bufs_sub .., unary_bufs_sub .., binary_bufs_sub .., unary_bufs_sub .., unary_bufs_sub ..,
    unary_bufs_sub .., reshape_bufs_sub .., reshape_bufs_sub .., reshape_bufs_sub .., nullary_bufs_sub .., unary_bufs_sub .., binary_bufs_sub .., nullary_bufs_sub ..,
    unary_bufs_sub .., binary_bufs_sub .., ternary_bufs_sub .., unary_bufs_sub .., binary_bufs_sub .., nullary_bufs_sub .., unary_bufs_sub .., binary_bufs_sub ..,
    nullary_bufs_sub .., unary_bufs_sub .., binary_bufs_sub .., ternary_bufs_sub .., unary_bufs_sub .., binary_bufs_sub ..⟩

/-- No operation of the stretch allocates a buffer. -/
theorem ops1_fresh : (ops1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl⟩

end Cert.ReferenceIdeal.RefRun

end
-- ==== Proof.RefKeep1.lean ====
/- The buffers that stretch 1 of the reference program's operations writes, as a literal list in the operations' order; each operation's
  written buffer is in the list, so a buffer outside the list holds after the stretch what it held before. -/
import proofs.«124614_j50809463111778_2_alg».proof.Proof.RefOps1

set_option maxRecDepth 8000

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The buffers the 134 operations of stretch 1 write, in order. -/
abbrev ops1_W : List (Ref sig .tc) :=
  [main_c, main_call0_v0, main_call0_c, main_call0_v1, main_call0_c_0, main_call0_v2, main_call0_v3, main_call0_v4, main_call0_c_1, main_call0_v5, main_call0_v6, main_call0_c_2,
    main_call0_v7, main_call0_v8, main_call0_c_3, main_call0_v9, main_call0_v10, main_call0_v11, main_call0_v12, main_call0_v13, main_call0_v14, main_v0, main_c_0, main_v1,
    main_v2, main_c_1, main_v3, main_v4, main_v5, main_v6, main_v7, main_c_2, main_call1_v0, main_call1_v1, main_call1_v2, main_call1_v3,
    main_call1_v4, main_call1_v5, main_call1_v6, main_call1_v7, main_call1_v8, main_call1_c, main_call1_v9, main_call1_v10, main_call1_v11, main_call1_c_0, main_call1_v12, main_call1_v13,
    main_v8, main_c_3, main_v9, main_v10, main_c_4, main_v11, main_v12, main_v13, main_v14, main_v15, main_v16, main_c_5,
    main_v17, main_v18, main_c_6, main_v19, main_v20, main_v21, main_v22, main_v23, main_v24, main_v25, main_v26, main_v27,
    main_v28, main_cst, main_v29, main_v30, main_cst_7, main_v31, main_v32, main_v33, main_v34, main_v35, main_cst_8, main_v36,
    main_v37, main_cst_9, main_v38, main_v39, main_v40, main_v41, main_cst_10, main_v42, main_v43, main_v44, main_v45, main_v46,
    main_v47, main_v48, main_v49, main_v50, main_v51, main_v52, main_v53, main_v54, main_v55, main_v56, main_v57, main_v58,
    main_v59, main_v60, main_v61, main_v62, main_v63, main_v64, main_v65, main_v66, main_c_11, main_v67, main_v68, main_c_12,
    main_v69, main_v70, main_v71, main_v72, main_v73, main_c_13, main_v74, main_v75, main_c_14, main_v76, main_v77, main_v78,
    main_v79, main_v80]

/-- Each operation of the stretch writes a buffer of the list. -/
theorem ops1_writes : (ops1 : List (HloOp τ sig (Elt F))).Forall fun op =>
    op.writes ⊆ (ops1_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-- A buffer the stretch does not write holds after it what it held before. -/
theorem ops1_keep (V : Valuation τ sig (Elt F)) (r : Ref sig .tc) (h : r ∉ ops1_W) :
    after ops1 V (Proc.devRef .tc r) = V (Proc.devRef .tc r) :=
  after_of_writes_sub ops1 V ops1_writes h

end Cert.ReferenceIdeal.RefRun

end
-- ==== Proof.RefOps2.lean ====
/- Stretch 2 of 5 of the reference program's operations, in program order, as a literal list (operations 135 to 161 of 420;
  it ends with the operation that writes main_v96): each printed statement without its wrapper, a call replaced by the callee's
  statements over the call's own buffers. With it: every operation touches TensorCore buffers only, and none allocates. -/
import proofs.«124614_j50809463111778_2_alg».proof.Proof.Gen.ReferenceIdeal
import Idealize.ShloMosaic.Lib.StableHlo.Run

set_option maxRecDepth 8000

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The 27 operations of stretch 2, in order, the calls unfolded. -/
abbrev ops2 : List (HloOp τ sig (Elt F)) :=
  [ StableHlo.binary main_v73 main_v80 main_v81 (mulf : (⟨S297984x8x32, .f32⟩ : BufTy).Contents (Elt F) → (⟨S297984x8x32, .f32⟩ : BufTy).Contents (Elt F) → (⟨S297984x8x32, .f32⟩ : BufTy).Contents (Elt F)),
    StableHlo.nullary main_cst_15 (constant S_ .f32 0x00000000#32),
    StableHlo.binary main_v81 main_cst_15 main_v82 ((fun x v => Host.reduceAdd x v reducesTo_S297984x8x32_S297984x8_d2 h_S_) : (⟨S297984x8x32, .f32⟩ : BufTy).Contents (Elt F) → (⟨S_, .f32⟩ : BufTy).Contents (Elt F) → (⟨S297984x8, .f32⟩ : BufTy).Contents (Elt F)),
    StableHlo.nullary main_cst_16 (constant S_ .f32 0x40B504F3#32),
    StableHlo.unary main_cst_16 main_v83 (broadcastInDim S297984x8 ![] bcast_S_S297984x8 : (⟨S_, .f32⟩ : BufTy).Contents (Elt F) → (⟨S297984x8, .f32⟩ : BufTy).Contents (Elt F)),
    StableHlo.binary main_v82 main_v83 main_v84 (Host.divf : (⟨S297984x8, .f32⟩ : BufTy).Contents (Elt F) → (⟨S297984x8, .f32⟩ : BufTy).Contents (Elt F) → (⟨S297984x8, .f32⟩ : BufTy).Contents (Elt F)),
    StableHlo.nullary main_cst_17 (constant S_ .f32 0xC0A00000#32),
    StableHlo.nullary main_cst_18 (constant S_ .f32 0x40A00000#32),
    StableHlo.TRef.unary (.of main_cst_17 : StableHlo.TRef sig ⟨S_, .f32⟩) (.of main_call2_v0 : StableHlo.TRef sig ⟨S_, .f32⟩) id,
    StableHlo.TRef.unary (.of main_call2_v0 : StableHlo.TRef sig ⟨S_, .f32⟩) (.of main_call2_v1 : StableHlo.TRef sig ⟨S297984x8, .f32⟩) (broadcastInDim S297984x8 ![] bcast_S_S297984x8),
    StableHlo.TRef.binary (.of main_call2_v1 : StableHlo.TRef sig ⟨S297984x8, .f32⟩) (.of main_v84 : StableHlo.TRef sig ⟨S297984x8, .f32⟩) (.of main_call2_v2 : StableHlo.TRef sig ⟨S297984x8, .f32⟩) maximumf,
    StableHlo.TRef.unary (.of main_cst_18 : StableHlo.TRef sig ⟨S_, .f32⟩) (.of main_call2_v3 : StableHlo.TRef sig ⟨S_, .f32⟩) id,
    StableHlo.TRef.unary (.of main_call2_v3 : StableHlo.TRef sig ⟨S_, .f32⟩) (.of main_call2_v4 : StableHlo.TRef sig ⟨S297984x8, .f32⟩) (broadcastInDim S297984x8 ![] bcast_S_S297984x8),
    StableHlo.TRef.binary (.of main_call2_v4 : StableHlo.TRef sig ⟨S297984x8, .f32⟩) (.of main_call2_v2 : StableHlo.TRef sig ⟨S297984x8, .f32⟩) (.of main_v85 : StableHlo.TRef sig ⟨S297984x8, .f32⟩) minimumf,
    StableHlo.unary main_v85 main_v86 (Host.exp : (⟨S297984x8, .f32⟩ : BufTy).Contents (Elt F) → (⟨S297984x8, .f32⟩ : BufTy).Contents (Elt F)),
    StableHlo.nullary main_c_19 (constantI S_ 32 0#32),
    StableHlo.unary main_c_19 main_v87 (broadcastInDim S297984 ![] bcast_S_S297984 : (⟨S_, .i32⟩ : BufTy).Contents (Elt F) → (⟨S297984, .i32⟩ : BufTy).Contents (Elt F)),
    StableHlo.binary main_arg2 main_v87 main_v88 (cmpi .slt : (⟨S297984, .i32⟩ : BufTy).Contents (Elt F) → (⟨S297984, .i32⟩ : BufTy).Contents (Elt F) → (⟨S297984, .i1⟩ : BufTy).Contents (Elt F)),
    StableHlo.nullary main_c_20 (constantI S_ 32 6144#32),
    StableHlo.unary main_c_20 main_v89 (broadcastInDim S297984 ![] bcast_S_S297984 : (⟨S_, .i32⟩ : BufTy).Contents (Elt F) → (⟨S297984, .i32⟩ : BufTy).Contents (Elt F)),
    StableHlo.binary main_arg2 main_v89 main_v90 (addi : (⟨S297984, .i32⟩ : BufTy).Contents (Elt F) → (⟨S297984, .i32⟩ : BufTy).Contents (Elt F) → (⟨S297984, .i32⟩ : BufTy).Contents (Elt F)),
    StableHlo.ternary main_v88 main_v90 main_arg2 main_v91 (select : (⟨S297984, .i1⟩ : BufTy).Contents (Elt F) → (⟨S297984, .i32⟩ : BufTy).Contents (Elt F) → (⟨S297984, .i32⟩ : BufTy).Contents (Elt F) → (⟨S297984, .i32⟩ : BufTy).Contents (Elt F)),
    StableHlo.unary main_v91 main_v92 (broadcastInDim S297984x1 ![0] bcast_S297984_S297984x1_0 : (⟨S297984, .i32⟩ : BufTy).Contents (Elt F) → (⟨S297984x1, .i32⟩ : BufTy).Contents (Elt F)),
    StableHlo.binary main_v66 main_v92 main_v93 ((fun x i => Host.gather gather_S6144x8x32_S297984x1_S297984x8x32_12_0_n_n_0_1_1832 x i) : (⟨S6144x8x32, .f32⟩ : BufTy).Contents (Elt F) → (⟨S297984x1, .i32⟩ : BufTy).Contents (Elt F) → (⟨S297984x8x32, .f32⟩ : BufTy).Contents (Elt F)),
    StableHlo.unary main_v86 main_v94 (broadcastInDim S297984x8x1 ![0, 1] bcast_S297984x8_S297984x8x1_0_1 : (⟨S297984x8, .f32⟩ : BufTy).Contents (Elt F) → (⟨S297984x8x1, .f32⟩ : BufTy).Contents (Elt F)),
    StableHlo.unary main_v94 main_v95 (broadcastInDim S297984x8x32 ![0, 1, 2] bcast_S297984x8x1_S297984x8x32_0_1_2 : (⟨S297984x8x1, .f32⟩ : BufTy).Contents (Elt F) → (⟨S297984x8x32, .f32⟩ : BufTy).Contents (Elt F)),
    StableHlo.binary main_v93 main_v95 main_v96 (mulf : (⟨S297984x8x32, .f32⟩ : BufTy).Contents (Elt F) → (⟨S297984x8x32, .f32⟩ : BufTy).Contents (Elt F) → (⟨S297984x8x32, .f32⟩ : BufTy).Contents (Elt F)) ]

/-- Each operation of the stretch reads and writes TensorCore buffers only. -/
theorem ops2_sub : (ops2 : List (HloOp τ sig (Elt F))).Forall fun op => op.bufs ⊆ tcRefs τ sig :=
  ⟨binary_bufs_sub .., nullary_bufs_sub .., binary_bufs_sub .., nullary_bufs_sub .., unary_bufs_sub .., binary_bufs_sub .., nullary_bufs_sub .., nullary_bufs_sub ..,
    unary_bufs_sub .., unary_bufs_sub .., binary_bufs_sub .., unary_bufs_sub .., unary_bufs_sub .., binary_bufs_sub .., unary_bufs_sub .., nullary_bufs_sub ..,
    unary_bufs_sub .., binary_bufs_sub .., nullary_bufs_sub .., unary_bufs_sub .., binary_bufs_sub .., ternary_bufs_sub .., unary_bufs_sub .., binary_bufs_sub ..,
    unary_bufs_sub .., unary_bufs_sub .., binary_bufs_sub ..⟩

/-- No operation of the stretch allocates a buffer. -/
theorem ops2_fresh : (ops2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl,
    rfl, rfl, rfl⟩

end Cert.ReferenceIdeal.RefRun

end
-- ==== Proof.RefKeep2.lean ====
/- The buffers that stretch 2 of the reference program's operations writes, as a literal list in the operations' order; each operation's
  written buffer is in the list, so a buffer outside the list holds after the stretch what it held before. -/
import proofs.«124614_j50809463111778_2_alg».proof.Proof.RefOps2

set_option maxRecDepth 8000

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The buffers the 27 operations of stretch 2 write, in order. -/
abbrev ops2_W : List (Ref sig .tc) :=
  [main_v81, main_cst_15, main_v82, main_cst_16, main_v83, main_v84, main_cst_17, main_cst_18, main_call2_v0, main_call2_v1, main_call2_v2, main_call2_v3,
    main_call2_v4, main_v85, main_v86, main_c_19, main_v87, main_v88, main_c_20, main_v89, main_v90, main_v91, main_v92, main_v93,
    main_v94, main_v95, main_v96]

/-- Each operation of the stretch writes a buffer of the list. -/
theorem ops2_writes : (ops2 : List (HloOp τ sig (Elt F))).Forall fun op =>
    op.writes ⊆ (ops2_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-- A buffer the stretch does not write holds after it what it held before. -/
theorem ops2_keep (V : Valuation τ sig (Elt F)) (r : Ref sig .tc) (h : r ∉ ops2_W) :
    after ops2 V (Proc.devRef .tc r) = V (Proc.devRef .tc r) :=
  after_of_writes_sub ops2 V ops2_writes h

end Cert.ReferenceIdeal.RefRun

end
-- ==== Proof.RefOps3.lean ====
/- Stretch 3 of 5 of the reference program's operations, in program order, as a literal list (operations 162 to 300 of 420;
  it ends with the operation that writes main_v217): each printed statement without its wrapper, a call replaced by the callee's
  statements over the call's own buffers. With it: every operation touches TensorCore buffers only, and none allocates. -/
import proofs.«124614_j50809463111778_2_alg».proof.Proof.Gen.ReferenceIdeal
import Idealize.ShloMosaic.Lib.StableHlo.Run

set_option maxRecDepth 8000

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The 139 operations of stretch 3, in order, the calls unfolded. -/
abbrev ops3 : List (HloOp τ sig (Elt F)) :=
  [ StableHlo.nullary main_cst_21 (constant S_ .f32 0x00000000#32),
    StableHlo.unary main_cst_21 main_v97 (broadcastInDim S6144x8x32 ![] bcast_S_S6144x8x32 : (⟨S_, .f32⟩ : BufTy).Contents (Elt F) → (⟨S6144x8x32, .f32⟩ : BufTy).Contents (Elt F)),
    StableHlo.unary main_arg3 main_v98 (broadcastInDim S297984x1 ![0] bcast_S297984_S297984x1_0 : (⟨S297984, .i32⟩ : BufTy).Contents (Elt F) → (⟨S297984x1, .i32⟩ : BufTy).Contents (Elt F)),
    StableHlo.ternary main_v97 main_v98 main_v96 main_v99 ((fun x i u => Host.scatterAdd scatter_S6144x8x32_S297984x1_S297984x8x32_12_0_0_1 x i u) : (⟨S6144x8x32, .f32⟩ : BufTy).Contents (Elt F) → (⟨S297984x1, .i32⟩ : BufTy).Contents (Elt F) → (⟨S297984x8x32, .f32⟩ : BufTy).Contents (Elt F) → (⟨S6144x8x32, .f32⟩ : BufTy).Contents (Elt F)),
    StableHlo.nullary main_cst_22 (constant S_ .f32 0x00000000#32),
    StableHlo.unary main_cst_22 main_v100 (broadcastInDim S6144x8 ![] bcast_S_S6144x8 : (⟨S_, .f32⟩ : BufTy).Contents (Elt F) → (⟨S6144x8, .f32⟩ : BufTy).Contents (Elt F)),
    StableHlo.unary main_arg3 main_v101 (broadcastInDim S297984x1 ![0] bcast_S297984_S297984x1_0 : (⟨S297984, .i32⟩ : BufTy).Contents (Elt F) → (⟨S297984x1, .i32⟩ : BufTy).Contents (Elt F)),
    StableHlo.ternary main_v100 main_v101 main_v86 main_v102 ((fun x i u => Host.scatterAdd scatter_S6144x8_S297984x1_S297984x8_1_0_0_1 x i u) : (⟨S6144x8, .f32⟩ : BufTy).Contents (Elt F) → (⟨S297984x1, .i32⟩ : BufTy).Contents (Elt F) → (⟨S297984x8, .f32⟩ : BufTy).Contents (Elt F) → (⟨S6144x8, .f32⟩ : BufTy).Contents (Elt F)),
    StableHlo.unary main_v102 main_v103 (broadcastInDim S6144x8x1 ![0, 1] bcast_S6144x8_S6144x8x1_0_1 : (⟨S6144x8, .f32⟩ : BufTy).Contents (Elt F) → (⟨S6144x8x1, .f32⟩ : BufTy).Contents (Elt F)),
    StableHlo.unary main_v103 main_v104 (broadcastInDim S6144x8x32 ![0, 1, 2] bcast_S6144x8x1_S6144x8x32_0_1_2 : (⟨S6144x8x1, .f32⟩ : BufTy).Contents (Elt F) → (⟨S6144x8x32, .f32⟩ : BufTy).Contents (Elt F)),
    StableHlo.binary main_v99 main_v104 main_v105 (Host.divf : (⟨S6144x8x32, .f32⟩ : BufTy).Contents (Elt F) → (⟨S6144x8x32, .f32⟩ : BufTy).Contents (Elt F) → (⟨S6144x8x32, .f32⟩ : BufTy).Contents (Elt F)),
    StableHlo.reshape main_v105 main_v106 rfl shapeCasts_S6144x8x32_S6144x256,
    StableHlo.unary main_arg11 main_v107 ((extractStridedSlice S1x256x256 ![0, 0, 0] · slices_S2x256x256_S1x256x256_0_0_0) : (⟨S2x256x256, .f32⟩ : BufTy).Contents (Elt F) → (⟨S1x256x256, .f32⟩ : BufTy).Contents (Elt F)),
    StableHlo.reshape main_v107 main_v108 rfl shapeCasts_S1x256x256_S256x256,
    StableHlo.binary main_v106 main_v108 main_v109 ((fun l r => Host.dotGeneral dot_S6144x256_S256x256_S6144x256_1_0_0_1_n_n none l r) : (⟨S6144x256, .f32⟩ : BufTy).Contents (Elt F) → (⟨S256x256, .f32⟩ : BufTy).Contents (Elt F) → (⟨S6144x256, .f32⟩ : BufTy).Contents (Elt F)),
    StableHlo.binary main_v24 main_v109 main_v110 (addf : (⟨S6144x256, .f32⟩ : BufTy).Contents (Elt F) → (⟨S6144x256, .f32⟩ : BufTy).Contents (Elt F) → (⟨S6144x256, .f32⟩ : BufTy).Contents (Elt F)),
    StableHlo.unary main_arg12 main_v111 ((extractStridedSlice S1x256 ![0, 0] · slices_S2x256_S1x256_0_0) : (⟨S2x256, .f32⟩ : BufTy).Contents (Elt F) → (⟨S1x256, .f32⟩ : BufTy).Contents (Elt F)),
    StableHlo.reshape main_v111 main_v112 rfl shapeCasts_S1x256_S256,
    StableHlo.unary main_v112 main_v113 (broadcastInDim S1x256 ![1] bcast_S256_S1x256_1 : (⟨S256, .f32⟩ : BufTy).Contents (Elt F) → (⟨S1x256, .f32⟩ : BufTy).Contents (Elt F)),
    StableHlo.unary main_v113 main_v114 (broadcastInDim S6144x256 ![0, 1] bcast_S1x256_S6144x256_0_1 : (⟨S1x256, .f32⟩ : BufTy).Contents (Elt F) → (⟨S6144x256, .f32⟩ : BufTy).Contents (Elt F)),
    StableHlo.binary main_v110 main_v114 main_v115 (addf : (⟨S6144x256, .f32⟩ : BufTy).Contents (Elt F) → (⟨S6144x256, .f32⟩ : BufTy).Contents (Elt F) → (⟨S6144x256, .f32⟩ : BufTy).Contents (Elt F)),
    StableHlo.unary main_arg13 main_v116 ((extractStridedSlice S1x256 ![0, 0] · slices_S2x256_S1x256_0_0) : (⟨S2x256, .f32⟩ : BufTy).Contents (Elt F) → (⟨S1x256, .f32⟩ : BufTy).Contents (Elt F)),
    StableHlo.reshape main_v116 main_v117 rfl shapeCasts_S1x256_S256,
    StableHlo.unary main_arg14 main_v118 ((extractStridedSlice S1x256 ![0, 0] · slices_S2x256_S1x256_0_0) : (⟨S2x256, .f32⟩ : BufTy).Contents (Elt F) → (⟨S1x256, .f32⟩ : BufTy).Contents (Elt F)),
    StableHlo.reshape main_v118 main_v119 rfl shapeCasts_S1x256_S256,
    StableHlo.nullary main_cst_23 (constant S_ .f32 0x00000000#32),
    StableHlo.binary main_v115 main_cst_23 main_v120 ((fun x v => Host.reduceAdd x v reducesTo_S6144x256_S6144_d1 h_S_) : (⟨S6144x256, .f32⟩ : BufTy).Contents (Elt F) → (⟨S_, .f32⟩ : BufTy).Contents (Elt F) → (⟨S6144, .f32⟩ : BufTy).Contents (Elt F)),
    StableHlo.unary main_v120 main_v121 (broadcastInDim S6144x1 ![0] bcast_S6144_S6144x1_0 : (⟨S6144, .f32⟩ : BufTy).Contents (Elt F) → (⟨S6144x1, .f32⟩ : BufTy).Contents (Elt F)),
    StableHlo.nullary main_cst_24 (constant S_ .f32 0x43800000#32),
    StableHlo.unary main_cst_24 main_v122 (broadcastInDim S6144x1 ![] bcast_S_S6144x1 : (⟨S_, .f32⟩ : BufTy).Contents (Elt F) → (⟨S6144x1, .f32⟩ : BufTy).Contents (Elt F)),
    StableHlo.binary main_v121 main_v122 main_v123 (Host.divf : (⟨S6144x1, .f32⟩ : BufTy).Contents (Elt F) → (⟨S6144x1, .f32⟩ : BufTy).Contents (Elt F) → (⟨S6144x1, .f32⟩ : BufTy).Contents (Elt F)),
    StableHlo.unary main_v123 main_v124 (broadcastInDim S6144x256 ![0, 1] bcast_S6144x1_S6144x256_0_1 : (⟨S6144x1, .f32⟩ : BufTy).Contents (Elt F) → (⟨S6144x256, .f32⟩ : BufTy).Contents (Elt F)),
    StableHlo.binary main_v115 main_v124 main_v125 (subf : (⟨S6144x256, .f32⟩ : BufTy).Contents (Elt F) → (⟨S6144x256, .f32⟩ : BufTy).Contents (Elt F) → (⟨S6144x256, .f32⟩ : BufTy).Contents (Elt F)),
    StableHlo.binary main_v125 main_v125 main_v126 (mulf : (⟨S6144x256, .f32⟩ : BufTy).Contents (Elt F) → (⟨S6144x256, .f32⟩ : BufTy).Contents (Elt F) → (⟨S6144x256, .f32⟩ : BufTy).Contents (Elt F)),
    StableHlo.nullary main_cst_25 (constant S_ .f32 0x00000000#32),
    StableHlo.binary main_v126 main_cst_25 main_v127 ((fun x v => Host.reduceAdd x v reducesTo_S6144x256_S6144_d1 h_S_) : (⟨S6144x256, .f32⟩ : BufTy).Contents (Elt F) → (⟨S_, .f32⟩ : BufTy).Contents (Elt F) → (⟨S6144, .f32⟩ : BufTy).Contents (Elt F)),
    StableHlo.unary main_v127 main_v128 (broadcastInDim S6144x1 ![0] bcast_S6144_S6144x1_0 : (⟨S6144, .f32⟩ : BufTy).Contents (Elt F) → (⟨S6144x1, .f32⟩ : BufTy).Contents (Elt F)),
    StableHlo.nullary main_cst_26 (constant S_ .f32 0x43800000#32),
    StableHlo.unary main_cst_26 main_v129 (broadcastInDim S6144x1 ![] bcast_S_S6144x1 : (⟨S_, .f32⟩ : BufTy).Contents (Elt F) → (⟨S6144x1, .f32⟩ : BufTy).Contents (Elt F)),
    StableHlo.binary main_v128 main_v129 main_v130 (Host.divf : (⟨S6144x1, .f32⟩ : BufTy).Contents (Elt F) → (⟨S6144x1, .f32⟩ : BufTy).Contents (Elt F) → (⟨S6144x1, .f32⟩ : BufTy).Contents (Elt F)),
    StableHlo.unary main_v123 main_v131 (broadcastInDim S6144x256 ![0, 1] bcast_S6144x1_S6144x256_0_1 : (⟨S6144x1, .f32⟩ : BufTy).Contents (Elt F) → (⟨S6144x256, .f32⟩ : BufTy).Contents (Elt F)),
    StableHlo.binary main_v115 main_v131 main_v132 (subf : (⟨S6144x256, .f32⟩ : BufTy).Contents (Elt F) → (⟨S6144x256, .f32⟩ : BufTy).Contents (Elt F) → (⟨S6144x256, .f32⟩ : BufTy).Contents (Elt F)),
    StableHlo.nullary main_cst_27 (constant S_ .f32 0x3727C5AC#32),
    StableHlo.unary main_cst_27 main_v133 (broadcastInDim S6144x1 ![] bcast_S_S6144x1 : (⟨S_, .f32⟩ : BufTy).Contents (Elt F) → (⟨S6144x1, .f32⟩ : BufTy).Contents (Elt F)),
    StableHlo.binary main_v130 main_v133 main_v134 (addf : (⟨S6144x1, .f32⟩ : BufTy).Contents (Elt F) → (⟨S6144x1, .f32⟩ : BufTy).Contents (Elt F) → (⟨S6144x1, .f32⟩ : BufTy).Contents (Elt F)),
    StableHlo.unary main_v134 main_v135 (Host.rsqrt : (⟨S6144x1, .f32⟩ : BufTy).Contents (Elt F) → (⟨S6144x1, .f32⟩ : BufTy).Contents (Elt F)),
    StableHlo.unary main_v135 main_v136 (broadcastInDim S6144x256 ![0, 1] bcast_S6144x1_S6144x256_0_1 : (⟨S6144x1, .f32⟩ : BufTy).Contents (Elt F) → (⟨S6144x256, .f32⟩ : BufTy).Contents (Elt F)),
    StableHlo.binary main_v132 main_v136 main_v137 (mulf : (⟨S6144x256, .f32⟩ : BufTy).Contents (Elt F) → (⟨S6144x256, .f32⟩ : BufTy).Contents (Elt F) → (⟨S6144x256, .f32⟩ : BufTy).Contents (Elt F)),
    StableHlo.unary main_v117 main_v138 (broadcastInDim S1x256 ![1] bcast_S256_S1x256_1 : (⟨S256, .f32⟩ : BufTy).Contents (Elt F) → (⟨S1x256, .f32⟩ : BufTy).Contents (Elt F)),
    StableHlo.unary main_v138 main_v139 (broadcastInDim S6144x256 ![0, 1] bcast_S1x256_S6144x256_0_1 : (⟨S1x256, .f32⟩ : BufTy).Contents (Elt F) → (⟨S6144x256, .f32⟩ : BufTy).Contents (Elt F)),
    StableHlo.binary main_v137 main_v139 main_v140 (mulf : (⟨S6144x256, .f32⟩ : BufTy).Contents (Elt F) → (⟨S6144x256, .f32⟩ : BufTy).Contents (Elt F) → (⟨S6144x256, .f32⟩ : BufTy).Contents (Elt F)),
    StableHlo.unary main_v119 main_v141 (broadcastInDim S1x256 ![1] bcast_S256_S1x256_1 : (⟨S256, .f32⟩ : BufTy).Contents (Elt F) → (⟨S1x256, .f32⟩ : BufTy).Contents (Elt F)),
    StableHlo.unary main_v141 main_v142 (broadcastInDim S6144x256 ![0, 1] bcast_S1x256_S6144x256_0_1 : (⟨S1x256, .f32⟩ : BufTy).Contents (Elt F) → (⟨S6144x256, .f32⟩ : BufTy).Contents (Elt F)),
    StableHlo.binary main_v140 main_v142 main_v143 (addf : (⟨S6144x256, .f32⟩ : BufTy).Contents (Elt F) → (⟨S6144x256, .f32⟩ : BufTy).Contents (Elt F) → (⟨S6144x256, .f32⟩ : BufTy).Contents (Elt F)),
    StableHlo.unary main_arg15 main_v144 ((extractStridedSlice S1x256x1024 ![0, 0, 0] · slices_S2x256x1024_S1x256x1024_0_0_0) : (⟨S2x256x1024, .f32⟩ : BufTy).Contents (Elt F) → (⟨S1x256x1024, .f32⟩ : BufTy).Contents (Elt F)),
    StableHlo.reshape main_v144 main_v145 rfl shapeCasts_S1x256x1024_S256x1024,
    StableHlo.binary main_v143 main_v145 main_v146 ((fun l r => Host.dotGeneral dot_S6144x256_S256x1024_S6144x1024_1_0_0_1_n_n none l r) : (⟨S6144x256, .f32⟩ : BufTy).Contents (Elt F) → (⟨S256x1024, .f32⟩ : BufTy).Contents (Elt F) → (⟨S6144x1024, .f32⟩ : BufTy).Contents (Elt F)),
    StableHlo.unary main_arg16 main_v147 ((extractStridedSlice S1x1024 ![0, 0] · slices_S2x1024_S1x1024_0_0) : (⟨S2x1024, .f32⟩ : BufTy).Contents (Elt F) → (⟨S1x1024, .f32⟩ : BufTy).Contents (Elt F)),
    StableHlo.reshape main_v147 main_v148 rfl shapeCasts_S1x1024_S1024,
    StableHlo.unary main_v148 main_v149 (broadcastInDim S1x1024 ![1] bcast_S1024_S1x1024_1 : (⟨S1024, .f32⟩ : BufTy).Contents (Elt F) → (⟨S1x1024, .f32⟩ : BufTy).Contents (Elt F)),
    StableHlo.unary main_v149 main_v150 (broadcastInDim S6144x1024 ![0, 1] bcast_S1x1024_S6144x1024_0_1 : (⟨S1x1024, .f32⟩ : BufTy).Contents (Elt F) → (⟨S6144x1024, .f32⟩ : BufTy).Contents (Elt F)),
    StableHlo.binary main_v146 main_v150 main_v151 (addf : (⟨S6144x1024, .f32⟩ : BufTy).Contents (Elt F) → (⟨S6144x1024, .f32⟩ : BufTy).Contents (Elt F) → (⟨S6144x1024, .f32⟩ : BufTy).Contents (Elt F)),
    StableHlo.TRef.nullary (.of main_call3_cst : StableHlo.TRef sig ⟨S_, .f32⟩) (constant S_ .f32 0x00000000#32),
    StableHlo.TRef.unary (.of main_call3_cst : StableHlo.TRef sig ⟨S_, .f32⟩) (.of main_call3_v0 : StableHlo.TRef sig ⟨S6144x1024, .f32⟩) (broadcastInDim S6144x1024 ![] bcast_S_S6144x1024),
    StableHlo.TRef.binary (.of main_v151 : StableHlo.TRef sig ⟨S6144x1024, .f32⟩) (.of main_call3_v0 : StableHlo.TRef sig ⟨S6144x1024, .f32⟩) (.of main_v152 : StableHlo.TRef sig ⟨S6144x1024, .f32⟩) maximumf,
    StableHlo.unary main_arg17 main_v153 ((extractStridedSlice S1x1024x256 ![0, 0, 0] · slices_S2x1024x256_S1x1024x256_0_0_0) : (⟨S2x1024x256, .f32⟩ : BufTy).Contents (Elt F) → (⟨S1x1024x256, .f32⟩ : BufTy).Contents (Elt F)),
    StableHlo.reshape main_v153 main_v154 rfl shapeCasts_S1x1024x256_S1024x256,
    StableHlo.binary main_v152 main_v154 main_v155 ((fun l r => Host.dotGeneral dot_S6144x1024_S1024x256_S6144x256_1_0_0_1_n_n none l r) : (⟨S6144x1024, .f32⟩ : BufTy).Contents (Elt F) → (⟨S1024x256, .f32⟩ : BufTy).Contents (Elt F) → (⟨S6144x256, .f32⟩ : BufTy).Contents (Elt F)),
    StableHlo.binary main_v115 main_v155 main_v156 (addf : (⟨S6144x256, .f32⟩ : BufTy).Contents (Elt F) → (⟨S6144x256, .f32⟩ : BufTy).Contents (Elt F) → (⟨S6144x256, .f32⟩ : BufTy).Contents (Elt F)),
    StableHlo.unary main_arg18 main_v157 ((extractStridedSlice S1x256 ![0, 0] · slices_S2x256_S1x256_0_0) : (⟨S2x256, .f32⟩ : BufTy).Contents (Elt F) → (⟨S1x256, .f32⟩ : BufTy).Contents (Elt F)),
    StableHlo.reshape main_v157 main_v158 rfl shapeCasts_S1x256_S256,
    StableHlo.unary main_v158 main_v159 (broadcastInDim S1x256 ![1] bcast_S256_S1x256_1 : (⟨S256, .f32⟩ : BufTy).Contents (Elt F) → (⟨S1x256, .f32⟩ : BufTy).Contents (Elt F)),
    StableHlo.unary main_v159 main_v160 (broadcastInDim S6144x256 ![0, 1] bcast_S1x256_S6144x256_0_1 : (⟨S1x256, .f32⟩ : BufTy).Contents (Elt F) → (⟨S6144x256, .f32⟩ : BufTy).Contents (Elt F)),
    StableHlo.binary main_v156 main_v160 main_v161 (addf : (⟨S6144x256, .f32⟩ : BufTy).Contents (Elt F) → (⟨S6144x256, .f32⟩ : BufTy).Contents (Elt F) → (⟨S6144x256, .f32⟩ : BufTy).Contents (Elt F)),
    StableHlo.unary main_arg7 main_v162 ((extractStridedSlice S1x256 ![1, 0] · slices_S2x256_S1x256_1_0) : (⟨S2x256, .f32⟩ : BufTy).Contents (Elt F) → (⟨S1x256, .f32⟩ : BufTy).Contents (Elt F)),
    StableHlo.reshape main_v162 main_v163 rfl shapeCasts_S1x256_S256,
    StableHlo.unary main_arg8 main_v164 ((extractStridedSlice S1x256 ![1, 0] · slices_S2x256_S1x256_1_0) : (⟨S2x256, .f32⟩ : BufTy).Contents (Elt F) → (⟨S1x256, .f32⟩ : BufTy).Contents (Elt F)),
    StableHlo.reshape main_v164 main_v165 rfl shapeCasts_S1x256_S256,
    StableHlo.nullary main_cst_28 (constant S_ .f32 0x00000000#32),
    StableHlo.binary main_v161 main_cst_28 main_v166 ((fun x v => Host.reduceAdd x v reducesTo_S6144x256_S6144_d1 h_S_) : (⟨S6144x256, .f32⟩ : BufTy).Contents (Elt F) → (⟨S_, .f32⟩ : BufTy).Contents (Elt F) → (⟨S6144, .f32⟩ : BufTy).Contents (Elt F)),
    StableHlo.unary main_v166 main_v167 (broadcastInDim S6144x1 ![0] bcast_S6144_S6144x1_0 : (⟨S6144, .f32⟩ : BufTy).Contents (Elt F) → (⟨S6144x1, .f32⟩ : BufTy).Contents (Elt F)),
    StableHlo.nullary main_cst_29 (constant S_ .f32 0x43800000#32),
    StableHlo.unary main_cst_29 main_v168 (broadcastInDim S6144x1 ![] bcast_S_S6144x1 : (⟨S_, .f32⟩ : BufTy).Contents (Elt F) → (⟨S6144x1, .f32⟩ : BufTy).Contents (Elt F)),
    StableHlo.binary main_v167 main_v168 main_v169 (Host.divf : (⟨S6144x1, .f32⟩ : BufTy).Contents (Elt F) → (⟨S6144x1, .f32⟩ : BufTy).Contents (Elt F) → (⟨S6144x1, .f32⟩ : BufTy).Contents (Elt F)),
    StableHlo.unary main_v169 main_v170 (broadcastInDim S6144x256 ![0, 1] bcast_S6144x1_S6144x256_0_1 : (⟨S6144x1, .f32⟩ : BufTy).Contents (Elt F) → (⟨S6144x256, .f32⟩ : BufTy).Contents (Elt F)),
    StableHlo.binary main_v161 main_v170 main_v171 (subf : (⟨S6144x256, .f32⟩ : BufTy).Contents (Elt F) → (⟨S6144x256, .f32⟩ : BufTy).Contents (Elt F) → (⟨S6144x256, .f32⟩ : BufTy).Contents (Elt F)),
    StableHlo.binary main_v171 main_v171 main_v172 (mulf : (⟨S6144x256, .f32⟩ : BufTy).Contents (Elt F) → (⟨S6144x256, .f32⟩ : BufTy).Contents (Elt F) → (⟨S6144x256, .f32⟩ : BufTy).Contents (Elt F)),
    StableHlo.nullary main_cst_30 (constant S_ .f32 0x00000000#32),
    StableHlo.binary main_v172 main_cst_30 main_v173 ((fun x v => Host.reduceAdd x v reducesTo_S6144x256_S6144_d1 h_S_) : (⟨S6144x256, .f32⟩ : BufTy).Contents (Elt F) → (⟨S_, .f32⟩ : BufTy).Contents (Elt F) → (⟨S6144, .f32⟩ : BufTy).Contents (Elt F)),
    StableHlo.unary main_v173 main_v174 (broadcastInDim S6144x1 ![0] bcast_S6144_S6144x1_0 : (⟨S6144, .f32⟩ : BufTy).Contents (Elt F) → (⟨S6144x1, .f32⟩ : BufTy).Contents (Elt F)),
    StableHlo.nullary main_cst_31 (constant S_ .f32 0x43800000#32),
    StableHlo.unary main_cst_31 main_v175 (broadcastInDim S6144x1 ![] bcast_S_S6144x1 : (⟨S_, .f32⟩ : BufTy).Contents (Elt F) → (⟨S6144x1, .f32⟩ : BufTy).Contents (Elt F)),
    StableHlo.binary main_v174 main_v175 main_v176 (Host.divf : (⟨S6144x1, .f32⟩ : BufTy).Contents (Elt F) → (⟨S6144x1, .f32⟩ : BufTy).Contents (Elt F) → (⟨S6144x1, .f32⟩ : BufTy).Contents (Elt F)),
    StableHlo.unary main_v169 main_v177 (broadcastInDim S6144x256 ![0, 1] bcast_S6144x1_S6144x256_0_1 : (⟨S6144x1, .f32⟩ : BufTy).Contents (Elt F) → (⟨S6144x256, .f32⟩ : BufTy).Contents (Elt F)),
    StableHlo.binary main_v161 main_v177 main_v178 (subf : (⟨S6144x256, .f32⟩ : BufTy).Contents (Elt F) → (⟨S6144x256, .f32⟩ : BufTy).Contents (Elt F) → (⟨S6144x256, .f32⟩ : BufTy).Contents (Elt F)),
    StableHlo.nullary main_cst_32 (constant S_ .f32 0x3727C5AC#32),
    StableHlo.unary main_cst_32 main_v179 (broadcastInDim S6144x1 ![] bcast_S_S6144x1 : (⟨S_, .f32⟩ : BufTy).Contents (Elt F) → (⟨S6144x1, .f32⟩ : BufTy).Contents (Elt F)),
    StableHlo.binary main_v176 main_v179 main_v180 (addf : (⟨S6144x1, .f32⟩ : BufTy).Contents (Elt F) → (⟨S6144x1, .f32⟩ : BufTy).Contents (Elt F) → (⟨S6144x1, .f32⟩ : BufTy).Contents (Elt F)),
    StableHlo.unary main_v180 main_v181 (Host.rsqrt : (⟨S6144x1, .f32⟩ : BufTy).Contents (Elt F) → (⟨S6144x1, .f32⟩ : BufTy).Contents (Elt F)),
    StableHlo.unary main_v181 main_v182 (broadcastInDim S6144x256 ![0, 1] bcast_S6144x1_S6144x256_0_1 : (⟨S6144x1, .f32⟩ : BufTy).Contents (Elt F) → (⟨S6144x256, .f32⟩ : BufTy).Contents (Elt F)),
    StableHlo.binary main_v178 main_v182 main_v183 (mulf : (⟨S6144x256, .f32⟩ : BufTy).Contents (Elt F) → (⟨S6144x256, .f32⟩ : BufTy).Contents (Elt F) → (⟨S6144x256, .f32⟩ : BufTy).Contents (Elt F)),
    StableHlo.unary main_v163 main_v184 (broadcastInDim S1x256 ![1] bcast_S256_S1x256_1 : (⟨S256, .f32⟩ : BufTy).Contents (Elt F) → (⟨S1x256, .f32⟩ : BufTy).Contents (Elt F)),
    StableHlo.unary main_v184 main_v185 (broadcastInDim S6144x256 ![0, 1] bcast_S1x256_S6144x256_0_1 : (⟨S1x256, .f32⟩ : BufTy).Contents (Elt F) → (⟨S6144x256, .f32⟩ : BufTy).Contents (Elt F)),
    StableHlo.binary main_v183 main_v185 main_v186 (mulf : (⟨S6144x256, .f32⟩ : BufTy).Contents (Elt F) → (⟨S6144x256, .f32⟩ : BufTy).Contents (Elt F) → (⟨S6144x256, .f32⟩ : BufTy).Contents (Elt F)),
    StableHlo.unary main_v165 main_v187 (broadcastInDim S1x256 ![1] bcast_S256_S1x256_1 : (⟨S256, .f32⟩ : BufTy).Contents (Elt F) → (⟨S1x256, .f32⟩ : BufTy).Contents (Elt F)),
    StableHlo.unary main_v187 main_v188 (broadcastInDim S6144x256 ![0, 1] bcast_S1x256_S6144x256_0_1 : (⟨S1x256, .f32⟩ : BufTy).Contents (Elt F) → (⟨S6144x256, .f32⟩ : BufTy).Contents (Elt F)),
    StableHlo.binary main_v186 main_v188 main_v189 (addf : (⟨S6144x256, .f32⟩ : BufTy).Contents (Elt F) → (⟨S6144x256, .f32⟩ : BufTy).Contents (Elt F) → (⟨S6144x256, .f32⟩ : BufTy).Contents (Elt F)),
    StableHlo.unary main_arg9 main_v190 ((extractStridedSlice S1x256x768 ![1, 0, 0] · slices_S2x256x768_S1x256x768_1_0_0) : (⟨S2x256x768, .f32⟩ : BufTy).Contents (Elt F) → (⟨S1x256x768, .f32⟩ : BufTy).Contents (Elt F)),
    StableHlo.reshape main_v190 main_v191 rfl shapeCasts_S1x256x768_S256x768,
    StableHlo.binary main_v189 main_v191 main_v192 ((fun l r => Host.dotGeneral dot_S6144x256_S256x768_S6144x768_1_0_0_1_n_n none l r) : (⟨S6144x256, .f32⟩ : BufTy).Contents (Elt F) → (⟨S256x768, .f32⟩ : BufTy).Contents (Elt F) → (⟨S6144x768, .f32⟩ : BufTy).Contents (Elt F)),
    StableHlo.unary main_arg10 main_v193 ((extractStridedSlice S1x768 ![1, 0] · slices_S2x768_S1x768_1_0) : (⟨S2x768, .f32⟩ : BufTy).Contents (Elt F) → (⟨S1x768, .f32⟩ : BufTy).Contents (Elt F)),
    StableHlo.reshape main_v193 main_v194 rfl shapeCasts_S1x768_S768,
    StableHlo.unary main_v194 main_v195 (broadcastInDim S1x768 ![1] bcast_S768_S1x768_1 : (⟨S768, .f32⟩ : BufTy).Contents (Elt F) → (⟨S1x768, .f32⟩ : BufTy).Contents (Elt F)),
    StableHlo.unary main_v195 main_v196 (broadcastInDim S6144x768 ![0, 1] bcast_S1x768_S6144x768_0_1 : (⟨S1x768, .f32⟩ : BufTy).Contents (Elt F) → (⟨S6144x768, .f32⟩ : BufTy).Contents (Elt F)),
    StableHlo.binary main_v192 main_v196 main_v197 (addf : (⟨S6144x768, .f32⟩ : BufTy).Contents (Elt F) → (⟨S6144x768, .f32⟩ : BufTy).Contents (Elt F) → (⟨S6144x768, .f32⟩ : BufTy).Contents (Elt F)),
    StableHlo.unary main_v197 main_v198 ((extractStridedSlice S6144x256 ![0, 0] · slices_S6144x768_S6144x256_0_0) : (⟨S6144x768, .f32⟩ : BufTy).Contents (Elt F) → (⟨S6144x256, .f32⟩ : BufTy).Contents (Elt F)),
    StableHlo.unary main_v197 main_v199 ((extractStridedSlice S6144x256 ![0, 256] · slices_S6144x768_S6144x256_0_256) : (⟨S6144x768, .f32⟩ : BufTy).Contents (Elt F) → (⟨S6144x256, .f32⟩ : BufTy).Contents (Elt F)),
    StableHlo.unary main_v197 main_v200 ((extractStridedSlice S6144x256 ![0, 512] · slices_S6144x768_S6144x256_0_512) : (⟨S6144x768, .f32⟩ : BufTy).Contents (Elt F) → (⟨S6144x256, .f32⟩ : BufTy).Contents (Elt F)),
    StableHlo.reshape main_v198 main_v201 rfl shapeCasts_S6144x256_S6144x8x32,
    StableHlo.reshape main_v199 main_v202 rfl shapeCasts_S6144x256_S6144x8x32,
    StableHlo.reshape main_v200 main_v203 rfl shapeCasts_S6144x256_S6144x8x32,
    StableHlo.nullary main_c_33 (constantI S_ 32 0#32),
    StableHlo.unary main_c_33 main_v204 (broadcastInDim S297984 ![] bcast_S_S297984 : (⟨S_, .i32⟩ : BufTy).Contents (Elt F) → (⟨S297984, .i32⟩ : BufTy).Contents (Elt F)),
    StableHlo.binary main_arg2 main_v204 main_v205 (cmpi .slt : (⟨S297984, .i32⟩ : BufTy).Contents (Elt F) → (⟨S297984, .i32⟩ : BufTy).Contents (Elt F) → (⟨S297984, .i1⟩ : BufTy).Contents (Elt F)),
    StableHlo.nullary main_c_34 (constantI S_ 32 6144#32),
    StableHlo.unary main_c_34 main_v206 (broadcastInDim S297984 ![] bcast_S_S297984 : (⟨S_, .i32⟩ : BufTy).Contents (Elt F) → (⟨S297984, .i32⟩ : BufTy).Contents (Elt F)),
    StableHlo.binary main_arg2 main_v206 main_v207 (addi : (⟨S297984, .i32⟩ : BufTy).Contents (Elt F) → (⟨S297984, .i32⟩ : BufTy).Contents (Elt F) → (⟨S297984, .i32⟩ : BufTy).Contents (Elt F)),
    StableHlo.ternary main_v205 main_v207 main_arg2 main_v208 (select : (⟨S297984, .i1⟩ : BufTy).Contents (Elt F) → (⟨S297984, .i32⟩ : BufTy).Contents (Elt F) → (⟨S297984, .i32⟩ : BufTy).Contents (Elt F) → (⟨S297984, .i32⟩ : BufTy).Contents (Elt F)),
    StableHlo.unary main_v208 main_v209 (broadcastInDim S297984x1 ![0] bcast_S297984_S297984x1_0 : (⟨S297984, .i32⟩ : BufTy).Contents (Elt F) → (⟨S297984x1, .i32⟩ : BufTy).Contents (Elt F)),
    StableHlo.binary main_v202 main_v209 main_v210 ((fun x i => Host.gather gather_S6144x8x32_S297984x1_S297984x8x32_12_0_n_n_0_1_1832 x i) : (⟨S6144x8x32, .f32⟩ : BufTy).Contents (Elt F) → (⟨S297984x1, .i32⟩ : BufTy).Contents (Elt F) → (⟨S297984x8x32, .f32⟩ : BufTy).Contents (Elt F)),
    StableHlo.nullary main_c_35 (constantI S_ 32 0#32),
    StableHlo.unary main_c_35 main_v211 (broadcastInDim S297984 ![] bcast_S_S297984 : (⟨S_, .i32⟩ : BufTy).Contents (Elt F) → (⟨S297984, .i32⟩ : BufTy).Contents (Elt F)),
    StableHlo.binary main_arg3 main_v211 main_v212 (cmpi .slt : (⟨S297984, .i32⟩ : BufTy).Contents (Elt F) → (⟨S297984, .i32⟩ : BufTy).Contents (Elt F) → (⟨S297984, .i1⟩ : BufTy).Contents (Elt F)),
    StableHlo.nullary main_c_36 (constantI S_ 32 6144#32),
    StableHlo.unary main_c_36 main_v213 (broadcastInDim S297984 ![] bcast_S_S297984 : (⟨S_, .i32⟩ : BufTy).Contents (Elt F) → (⟨S297984, .i32⟩ : BufTy).Contents (Elt F)),
    StableHlo.binary main_arg3 main_v213 main_v214 (addi : (⟨S297984, .i32⟩ : BufTy).Contents (Elt F) → (⟨S297984, .i32⟩ : BufTy).Contents (Elt F) → (⟨S297984, .i32⟩ : BufTy).Contents (Elt F)),
    StableHlo.ternary main_v212 main_v214 main_arg3 main_v215 (select : (⟨S297984, .i1⟩ : BufTy).Contents (Elt F) → (⟨S297984, .i32⟩ : BufTy).Contents (Elt F) → (⟨S297984, .i32⟩ : BufTy).Contents (Elt F) → (⟨S297984, .i32⟩ : BufTy).Contents (Elt F)),
    StableHlo.unary main_v215 main_v216 (broadcastInDim S297984x1 ![0] bcast_S297984_S297984x1_0 : (⟨S297984, .i32⟩ : BufTy).Contents (Elt F) → (⟨S297984x1, .i32⟩ : BufTy).Contents (Elt F)),
    StableHlo.binary main_v201 main_v216 main_v217 ((fun x i => Host.gather gather_S6144x8x32_S297984x1_S297984x8x32_12_0_n_n_0_1_1832 x i) : (⟨S6144x8x32, .f32⟩ : BufTy).Contents (Elt F) → (⟨S297984x1, .i32⟩ : BufTy).Contents (Elt F) → (⟨S297984x8x32, .f32⟩ : BufTy).Contents (Elt F)) ]

/-- Each operation of the stretch reads and writes TensorCore buffers only. -/
theorem ops3_sub : (ops3 : List (HloOp τ sig (Elt F))).Forall fun op => op.bufs ⊆ tcRefs τ sig :=
  ⟨nullary_bufs_sub .., unary_bufs_sub .., unary_bufs_sub .., ternary_bufs_sub .., nullary_bufs_sub .., unary_bufs_sub .., unary_bufs_sub .., ternary_bufs_sub ..,
    unary_bufs_sub .., unary_bufs_sub .., binary_bufs_sub .., reshape_bufs_sub .., unary_bufs_sub .., reshape_bufs_sub .., binary_bufs_sub .., binary_bufs_sub ..,
    unary_bufs_sub .., reshape_bufs_sub .., unary_bufs_sub .., unary_bufs_sub .., binary_bufs_sub .., unary_bufs_sub .., reshape_bufs_sub .., unary_bufs_sub ..,
    reshape_bufs_sub .., nullary_bufs_sub .., binary_bufs_sub .., unary_bufs_sub .., nullary_bufs_sub .., unary_bufs_sub .., binary_bufs_sub .., unary_bufs_sub ..,
    binary_bufs_sub .., binary_bufs_sub .., nullary_bufs_sub .., binary_bufs_sub .., unary_bufs_sub .., nullary_bufs_sub .., unary_bufs_sub .., binary_bufs_sub ..,
    unary_bufs_sub .., binary_bufs_sub .., nullary_bufs_sub .., unary_bufs_sub .., binary_bufs_sub .., unary_bufs_sub .., unary_bufs_sub .., binary_bufs_sub ..,
    unary_bufs_sub .., unary_bufs_sub .., binary_bufs_sub .., unary_bufs_sub .., unary_bufs_sub .., binary_bufs_sub .., unary_bufs_sub .., reshape_bufs_sub ..,
    binary_bufs_sub .., unary_bufs_sub .., reshape_bufs_sub .., unary_bufs_sub .., unary_bufs_sub .., binary_bufs_sub .., nullary_bufs_sub .., unary_bufs_sub ..,
    binary_bufs_sub .., unary_bufs_sub .., reshape_bufs_sub .., binary_bufs_sub .., binary_bufs_sub .., unary_bufs_sub .., reshape_bufs_sub .., unary_bufs_sub ..,
    unary_bufs_sub .., binary_bufs_sub .., unary_bufs_sub .., reshape_bufs_sub .., unary_bufs_sub .., reshape_bufs_sub .., nullary_bufs_sub .., binary_bufs_sub ..,
    unary_bufs_sub .., nullary_bufs_sub .., unary_bufs_sub .., binary_bufs_sub .., unary_bufs_sub .., binary_bufs_sub .., binary_bufs_sub .., nullary_bufs_sub ..,
    binary_bufs_sub .., unary_bufs_sub .., nullary_bufs_sub .., unary_bufs_sub .., binary_bufs_sub .., unary_bufs_sub .., binary_bufs_sub .., nullary_bufs_sub ..,
    unary_bufs_sub .., binary_bufs_sub .., unary_bufs_sub .., unary_bufs_sub .., binary_bufs_sub .., unary_bufs_sub .., unary_bufs_sub .., binary_bufs_sub ..,
    unary_bufs_sub .., unary_bufs_sub .., binary_bufs_sub .., unary_bufs_sub .., reshape_bufs_sub .., binary_bufs_sub .., unary_bufs_sub .., reshape_bufs_sub ..,
    unary_bufs_sub .., unary_bufs_sub .., binary_bufs_sub .., unary_bufs_sub .., unary_bufs_sub .., unary_bufs_sub .., reshape_bufs_sub .., reshape_bufs_sub ..,
    reshape_bufs_sub .., nullary_bufs_sub .., unary_bufs_sub .., binary_bufs_sub .., nullary_bufs_sub .., unary_bufs_sub .., binary_bufs_sub .., ternary_bufs_sub ..,
    unary_bufs_sub .., binary_bufs_sub .., nullary_bufs_sub .., unary_bufs_sub .., binary_bufs_sub .., nullary_bufs_sub .., unary_bufs_sub .., binary_bufs_sub ..,
    ternary_bufs_sub .., unary_bufs_sub .., binary_bufs_sub ..⟩

/-- No operation of the stretch allocates a buffer. -/
theorem ops3_fresh : (ops3 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl⟩

end Cert.ReferenceIdeal.RefRun

end
-- ==== Proof.RefKeep3.lean ====
/- The buffers that stretch 3 of the reference program's operations writes, as a literal list in the operations' order; each operation's
  written buffer is in the list, so a buffer outside the list holds after the stretch what it held before. -/
import proofs.«124614_j50809463111778_2_alg».proof.Proof.RefOps3

set_option maxRecDepth 8000

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The buffers the 139 operations of stretch 3 write, in order. -/
abbrev ops3_W : List (Ref sig .tc) :=
  [main_cst_21, main_v97, main_v98, main_v99, main_cst_22, main_v100, main_v101, main_v102, main_v103, main_v104, main_v105, main_v106,
    main_v107, main_v108, main_v109, main_v110, main_v111, main_v112, main_v113, main_v114, main_v115, main_v116, main_v117, main_v118,
    main_v119, main_cst_23, main_v120, main_v121, main_cst_24, main_v122, main_v123, main_v124, main_v125, main_v126, main_cst_25, main_v127,
    main_v128, main_cst_26, main_v129, main_v130, main_v131, main_v132, main_cst_27, main_v133, main_v134, main_v135, main_v136, main_v137,
    main_v138, main_v139, main_v140, main_v141, main_v142, main_v143, main_v144, main_v145, main_v146, main_v147, main_v148, main_v149,
    main_v150, main_v151, main_call3_cst, main_call3_v0, main_v152, main_v153, main_v154, main_v155, main_v156, main_v157, main_v158, main_v159,
    main_v160, main_v161, main_v162, main_v163, main_v164, main_v165, main_cst_28, main_v166, main_v167, main_cst_29, main_v168, main_v169,
    main_v170, main_v171, main_v172, main_cst_30, main_v173, main_v174, main_cst_31, main_v175, main_v176, main_v177, main_v178, main_cst_32,
    main_v179, main_v180, main_v181, main_v182, main_v183, main_v184, main_v185, main_v186, main_v187, main_v188, main_v189, main_v190,
    main_v191, main_v192, main_v193, main_v194, main_v195, main_v196, main_v197, main_v198, main_v199, main_v200, main_v201, main_v202,
    main_v203, main_c_33, main_v204, main_v205, main_c_34, main_v206, main_v207, main_v208, main_v209, main_v210, main_c_35, main_v211,
    main_v212, main_c_36, main_v213, main_v214, main_v215, main_v216, main_v217]

/-- Each operation of the stretch writes a buffer of the list. -/
theorem ops3_writes : (ops3 : List (HloOp τ sig (Elt F))).Forall fun op =>
    op.writes ⊆ (ops3_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-- A buffer the stretch does not write holds after it what it held before. -/
theorem ops3_keep (V : Valuation τ sig (Elt F)) (r : Ref sig .tc) (h : r ∉ ops3_W) :
    after ops3 V (Proc.devRef .tc r) = V (Proc.devRef .tc r) :=
  after_of_writes_sub ops3 V ops3_writes h

end Cert.ReferenceIdeal.RefRun

end
-- ==== Proof.RefOps4.lean ====
/- Stretch 4 of 5 of the reference program's operations, in program order, as a literal list (operations 301 to 327 of 420;
  it ends with the operation that writes main_v233): each printed statement without its wrapper, a call replaced by the callee's
  statements over the call's own buffers. With it: every operation touches TensorCore buffers only, and none allocates. -/
import proofs.«124614_j50809463111778_2_alg».proof.Proof.Gen.ReferenceIdeal
import Idealize.ShloMosaic.Lib.StableHlo.Run

set_option maxRecDepth 8000

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The 27 operations of stretch 4, in order, the calls unfolded. -/
abbrev ops4 : List (HloOp τ sig (Elt F)) :=
  [ StableHlo.binary main_v210 main_v217 main_v218 (mulf : (⟨S297984x8x32, .f32⟩ : BufTy).Contents (Elt F) → (⟨S297984x8x32, .f32⟩ : BufTy).Contents (Elt F) → (⟨S297984x8x32, .f32⟩ : BufTy).Contents (Elt F)),
    StableHlo.nullary main_cst_37 (constant S_ .f32 0x00000000#32),
    StableHlo.binary main_v218 main_cst_37 main_v219 ((fun x v => Host.reduceAdd x v reducesTo_S297984x8x32_S297984x8_d2 h_S_) : (⟨S297984x8x32, .f32⟩ : BufTy).Contents (Elt F) → (⟨S_, .f32⟩ : BufTy).Contents (Elt F) → (⟨S297984x8, .f32⟩ : BufTy).Contents (Elt F)),
    StableHlo.nullary main_cst_38 (constant S_ .f32 0x40B504F3#32),
    StableHlo.unary main_cst_38 main_v220 (broadcastInDim S297984x8 ![] bcast_S_S297984x8 : (⟨S_, .f32⟩ : BufTy).Contents (Elt F) → (⟨S297984x8, .f32⟩ : BufTy).Contents (Elt F)),
    StableHlo.binary main_v219 main_v220 main_v221 (Host.divf : (⟨S297984x8, .f32⟩ : BufTy).Contents (Elt F) → (⟨S297984x8, .f32⟩ : BufTy).Contents (Elt F) → (⟨S297984x8, .f32⟩ : BufTy).Contents (Elt F)),
    StableHlo.nullary main_cst_39 (constant S_ .f32 0xC0A00000#32),
    StableHlo.nullary main_cst_40 (constant S_ .f32 0x40A00000#32),
    StableHlo.TRef.unary (.of main_cst_39 : StableHlo.TRef sig ⟨S_, .f32⟩) (.of main_call4_v0 : StableHlo.TRef sig ⟨S_, .f32⟩) id,
    StableHlo.TRef.unary (.of main_call4_v0 : StableHlo.TRef sig ⟨S_, .f32⟩) (.of main_call4_v1 : StableHlo.TRef sig ⟨S297984x8, .f32⟩) (broadcastInDim S297984x8 ![] bcast_S_S297984x8),
    StableHlo.TRef.binary (.of main_call4_v1 : StableHlo.TRef sig ⟨S297984x8, .f32⟩) (.of main_v221 : StableHlo.TRef sig ⟨S297984x8, .f32⟩) (.of main_call4_v2 : StableHlo.TRef sig ⟨S297984x8, .f32⟩) maximumf,
    StableHlo.TRef.unary (.of main_cst_40 : StableHlo.TRef sig ⟨S_, .f32⟩) (.of main_call4_v3 : StableHlo.TRef sig ⟨S_, .f32⟩) id,
    StableHlo.TRef.unary (.of main_call4_v3 : StableHlo.TRef sig ⟨S_, .f32⟩) (.of main_call4_v4 : StableHlo.TRef sig ⟨S297984x8, .f32⟩) (broadcastInDim S297984x8 ![] bcast_S_S297984x8),
    StableHlo.TRef.binary (.of main_call4_v4 : StableHlo.TRef sig ⟨S297984x8, .f32⟩) (.of main_call4_v2 : StableHlo.TRef sig ⟨S297984x8, .f32⟩) (.of main_v222 : StableHlo.TRef sig ⟨S297984x8, .f32⟩) minimumf,
    StableHlo.unary main_v222 main_v223 (Host.exp : (⟨S297984x8, .f32⟩ : BufTy).Contents (Elt F) → (⟨S297984x8, .f32⟩ : BufTy).Contents (Elt F)),
    StableHlo.nullary main_c_41 (constantI S_ 32 0#32),
    StableHlo.unary main_c_41 main_v224 (broadcastInDim S297984 ![] bcast_S_S297984 : (⟨S_, .i32⟩ : BufTy).Contents (Elt F) → (⟨S297984, .i32⟩ : BufTy).Contents (Elt F)),
    StableHlo.binary main_arg2 main_v224 main_v225 (cmpi .slt : (⟨S297984, .i32⟩ : BufTy).Contents (Elt F) → (⟨S297984, .i32⟩ : BufTy).Contents (Elt F) → (⟨S297984, .i1⟩ : BufTy).Contents (Elt F)),
    StableHlo.nullary main_c_42 (constantI S_ 32 6144#32),
    StableHlo.unary main_c_42 main_v226 (broadcastInDim S297984 ![] bcast_S_S297984 : (⟨S_, .i32⟩ : BufTy).Contents (Elt F) → (⟨S297984, .i32⟩ : BufTy).Contents (Elt F)),
    StableHlo.binary main_arg2 main_v226 main_v227 (addi : (⟨S297984, .i32⟩ : BufTy).Contents (Elt F) → (⟨S297984, .i32⟩ : BufTy).Contents (Elt F) → (⟨S297984, .i32⟩ : BufTy).Contents (Elt F)),
    StableHlo.ternary main_v225 main_v227 main_arg2 main_v228 (select : (⟨S297984, .i1⟩ : BufTy).Contents (Elt F) → (⟨S297984, .i32⟩ : BufTy).Contents (Elt F) → (⟨S297984, .i32⟩ : BufTy).Contents (Elt F) → (⟨S297984, .i32⟩ : BufTy).Contents (Elt F)),
    StableHlo.unary main_v228 main_v229 (broadcastInDim S297984x1 ![0] bcast_S297984_S297984x1_0 : (⟨S297984, .i32⟩ : BufTy).Contents (Elt F) → (⟨S297984x1, .i32⟩ : BufTy).Contents (Elt F)),
    StableHlo.binary main_v203 main_v229 main_v230 ((fun x i => Host.gather gather_S6144x8x32_S297984x1_S297984x8x32_12_0_n_n_0_1_1832 x i) : (⟨S6144x8x32, .f32⟩ : BufTy).Contents (Elt F) → (⟨S297984x1, .i32⟩ : BufTy).Contents (Elt F) → (⟨S297984x8x32, .f32⟩ : BufTy).Contents (Elt F)),
    StableHlo.unary main_v223 main_v231 (broadcastInDim S297984x8x1 ![0, 1] bcast_S297984x8_S297984x8x1_0_1 : (⟨S297984x8, .f32⟩ : BufTy).Contents (Elt F) → (⟨S297984x8x1, .f32⟩ : BufTy).Contents (Elt F)),
    StableHlo.unary main_v231 main_v232 (broadcastInDim S297984x8x32 ![0, 1, 2] bcast_S297984x8x1_S297984x8x32_0_1_2 : (⟨S297984x8x1, .f32⟩ : BufTy).Contents (Elt F) → (⟨S297984x8x32, .f32⟩ : BufTy).Contents (Elt F)),
    StableHlo.binary main_v230 main_v232 main_v233 (mulf : (⟨S297984x8x32, .f32⟩ : BufTy).Contents (Elt F) → (⟨S297984x8x32, .f32⟩ : BufTy).Contents (Elt F) → (⟨S297984x8x32, .f32⟩ : BufTy).Contents (Elt F)) ]

/-- Each operation of the stretch reads and writes TensorCore buffers only. -/
theorem ops4_sub : (ops4 : List (HloOp τ sig (Elt F))).Forall fun op => op.bufs ⊆ tcRefs τ sig :=
  ⟨binary_bufs_sub .., nullary_bufs_sub .., binary_bufs_sub .., nullary_bufs_sub .., unary_bufs_sub .., binary_bufs_sub .., nullary_bufs_sub .., nullary_bufs_sub ..,
    unary_bufs_sub .., unary_bufs_sub .., binary_bufs_sub .., unary_bufs_sub .., unary_bufs_sub .., binary_bufs_sub .., unary_bufs_sub .., nullary_bufs_sub ..,
    unary_bufs_sub .., binary_bufs_sub .., nullary_bufs_sub .., unary_bufs_sub .., binary_bufs_sub .., ternary_bufs_sub .., unary_bufs_sub .., binary_bufs_sub ..,
    unary_bufs_sub .., unary_bufs_sub .., binary_bufs_sub ..⟩

/-- No operation of the stretch allocates a buffer. -/
theorem ops4_fresh : (ops4 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl,
    rfl, rfl, rfl⟩

end Cert.ReferenceIdeal.RefRun

end
-- ==== Proof.RefKeep4.lean ====
/- The buffers that stretch 4 of the reference program's operations writes, as a literal list in the operations' order; each operation's
  written buffer is in the list, so a buffer outside the list holds after the stretch what it held before. -/
import proofs.«124614_j50809463111778_2_alg».proof.Proof.RefOps4

set_option maxRecDepth 8000

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The buffers the 27 operations of stretch 4 write, in order. -/
abbrev ops4_W : List (Ref sig .tc) :=
  [main_v218, main_cst_37, main_v219, main_cst_38, main_v220, main_v221, main_cst_39, main_cst_40, main_call4_v0, main_call4_v1, main_call4_v2, main_call4_v3,
    main_call4_v4, main_v222, main_v223, main_c_41, main_v224, main_v225, main_c_42, main_v226, main_v227, main_v228, main_v229, main_v230,
    main_v231, main_v232, main_v233]

/-- Each operation of the stretch writes a buffer of the list. -/
theorem ops4_writes : (ops4 : List (HloOp τ sig (Elt F))).Forall fun op =>
    op.writes ⊆ (ops4_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-- A buffer the stretch does not write holds after it what it held before. -/
theorem ops4_keep (V : Valuation τ sig (Elt F)) (r : Ref sig .tc) (h : r ∉ ops4_W) :
    after ops4 V (Proc.devRef .tc r) = V (Proc.devRef .tc r) :=
  after_of_writes_sub ops4 V ops4_writes h

end Cert.ReferenceIdeal.RefRun

end
-- ==== Proof.RefOps5.lean ====
/- Stretch 5 of 5 of the reference program's operations, in program order, as a literal list (operations 328 to 420 of 420;
  it ends with the operation that writes main_v303): each printed statement without its wrapper, a call replaced by the callee's
  statements over the call's own buffers. With it: every operation touches TensorCore buffers only, and none allocates. -/
import proofs.«124614_j50809463111778_2_alg».proof.Proof.Gen.ReferenceIdeal
import Idealize.ShloMosaic.Lib.StableHlo.Run

set_option maxRecDepth 8000

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The 93 operations of stretch 5, in order, the calls unfolded. -/
abbrev ops5 : List (HloOp τ sig (Elt F)) :=
  [ StableHlo.nullary main_cst_43 (constant S_ .f32 0x00000000#32),
    StableHlo.unary main_cst_43 main_v234 (broadcastInDim S6144x8x32 ![] bcast_S_S6144x8x32 : (⟨S_, .f32⟩ : BufTy).Contents (Elt F) → (⟨S6144x8x32, .f32⟩ : BufTy).Contents (Elt F)),
    StableHlo.unary main_arg3 main_v235 (broadcastInDim S297984x1 ![0] bcast_S297984_S297984x1_0 : (⟨S297984, .i32⟩ : BufTy).Contents (Elt F) → (⟨S297984x1, .i32⟩ : BufTy).Contents (Elt F)),
    StableHlo.ternary main_v234 main_v235 main_v233 main_v236 ((fun x i u => Host.scatterAdd scatter_S6144x8x32_S297984x1_S297984x8x32_12_0_0_1 x i u) : (⟨S6144x8x32, .f32⟩ : BufTy).Contents (Elt F) → (⟨S297984x1, .i32⟩ : BufTy).Contents (Elt F) → (⟨S297984x8x32, .f32⟩ : BufTy).Contents (Elt F) → (⟨S6144x8x32, .f32⟩ : BufTy).Contents (Elt F)),
    StableHlo.nullary main_cst_44 (constant S_ .f32 0x00000000#32),
    StableHlo.unary main_cst_44 main_v237 (broadcastInDim S6144x8 ![] bcast_S_S6144x8 : (⟨S_, .f32⟩ : BufTy).Contents (Elt F) → (⟨S6144x8, .f32⟩ : BufTy).Contents (Elt F)),
    StableHlo.unary main_arg3 main_v238 (broadcastInDim S297984x1 ![0] bcast_S297984_S297984x1_0 : (⟨S297984, .i32⟩ : BufTy).Contents (Elt F) → (⟨S297984x1, .i32⟩ : BufTy).Contents (Elt F)),
    StableHlo.ternary main_v237 main_v238 main_v223 main_v239 ((fun x i u => Host.scatterAdd scatter_S6144x8_S297984x1_S297984x8_1_0_0_1 x i u) : (⟨S6144x8, .f32⟩ : BufTy).Contents (Elt F) → (⟨S297984x1, .i32⟩ : BufTy).Contents (Elt F) → (⟨S297984x8, .f32⟩ : BufTy).Contents (Elt F) → (⟨S6144x8, .f32⟩ : BufTy).Contents (Elt F)),
    StableHlo.unary main_v239 main_v240 (broadcastInDim S6144x8x1 ![0, 1] bcast_S6144x8_S6144x8x1_0_1 : (⟨S6144x8, .f32⟩ : BufTy).Contents (Elt F) → (⟨S6144x8x1, .f32⟩ : BufTy).Contents (Elt F)),
    StableHlo.unary main_v240 main_v241 (broadcastInDim S6144x8x32 ![0, 1, 2] bcast_S6144x8x1_S6144x8x32_0_1_2 : (⟨S6144x8x1, .f32⟩ : BufTy).Contents (Elt F) → (⟨S6144x8x32, .f32⟩ : BufTy).Contents (Elt F)),
    StableHlo.binary main_v236 main_v241 main_v242 (Host.divf : (⟨S6144x8x32, .f32⟩ : BufTy).Contents (Elt F) → (⟨S6144x8x32, .f32⟩ : BufTy).Contents (Elt F) → (⟨S6144x8x32, .f32⟩ : BufTy).Contents (Elt F)),
    StableHlo.reshape main_v242 main_v243 rfl shapeCasts_S6144x8x32_S6144x256,
    StableHlo.unary main_arg11 main_v244 ((extractStridedSlice S1x256x256 ![1, 0, 0] · slices_S2x256x256_S1x256x256_1_0_0) : (⟨S2x256x256, .f32⟩ : BufTy).Contents (Elt F) → (⟨S1x256x256, .f32⟩ : BufTy).Contents (Elt F)),
    StableHlo.reshape main_v244 main_v245 rfl shapeCasts_S1x256x256_S256x256,
    StableHlo.binary main_v243 main_v245 main_v246 ((fun l r => Host.dotGeneral dot_S6144x256_S256x256_S6144x256_1_0_0_1_n_n none l r) : (⟨S6144x256, .f32⟩ : BufTy).Contents (Elt F) → (⟨S256x256, .f32⟩ : BufTy).Contents (Elt F) → (⟨S6144x256, .f32⟩ : BufTy).Contents (Elt F)),
    StableHlo.binary main_v161 main_v246 main_v247 (addf : (⟨S6144x256, .f32⟩ : BufTy).Contents (Elt F) → (⟨S6144x256, .f32⟩ : BufTy).Contents (Elt F) → (⟨S6144x256, .f32⟩ : BufTy).Contents (Elt F)),
    StableHlo.unary main_arg12 main_v248 ((extractStridedSlice S1x256 ![1, 0] · slices_S2x256_S1x256_1_0) : (⟨S2x256, .f32⟩ : BufTy).Contents (Elt F) → (⟨S1x256, .f32⟩ : BufTy).Contents (Elt F)),
    StableHlo.reshape main_v248 main_v249 rfl shapeCasts_S1x256_S256,
    StableHlo.unary main_v249 main_v250 (broadcastInDim S1x256 ![1] bcast_S256_S1x256_1 : (⟨S256, .f32⟩ : BufTy).Contents (Elt F) → (⟨S1x256, .f32⟩ : BufTy).Contents (Elt F)),
    StableHlo.unary main_v250 main_v251 (broadcastInDim S6144x256 ![0, 1] bcast_S1x256_S6144x256_0_1 : (⟨S1x256, .f32⟩ : BufTy).Contents (Elt F) → (⟨S6144x256, .f32⟩ : BufTy).Contents (Elt F)),
    StableHlo.binary main_v247 main_v251 main_v252 (addf : (⟨S6144x256, .f32⟩ : BufTy).Contents (Elt F) → (⟨S6144x256, .f32⟩ : BufTy).Contents (Elt F) → (⟨S6144x256, .f32⟩ : BufTy).Contents (Elt F)),
    StableHlo.unary main_arg13 main_v253 ((extractStridedSlice S1x256 ![1, 0] · slices_S2x256_S1x256_1_0) : (⟨S2x256, .f32⟩ : BufTy).Contents (Elt F) → (⟨S1x256, .f32⟩ : BufTy).Contents (Elt F)),
    StableHlo.reshape main_v253 main_v254 rfl shapeCasts_S1x256_S256,
    StableHlo.unary main_arg14 main_v255 ((extractStridedSlice S1x256 ![1, 0] · slices_S2x256_S1x256_1_0) : (⟨S2x256, .f32⟩ : BufTy).Contents (Elt F) → (⟨S1x256, .f32⟩ : BufTy).Contents (Elt F)),
    StableHlo.reshape main_v255 main_v256 rfl shapeCasts_S1x256_S256,
    StableHlo.nullary main_cst_45 (constant S_ .f32 0x00000000#32),
    StableHlo.binary main_v252 main_cst_45 main_v257 ((fun x v => Host.reduceAdd x v reducesTo_S6144x256_S6144_d1 h_S_) : (⟨S6144x256, .f32⟩ : BufTy).Contents (Elt F) → (⟨S_, .f32⟩ : BufTy).Contents (Elt F) → (⟨S6144, .f32⟩ : BufTy).Contents (Elt F)),
    StableHlo.unary main_v257 main_v258 (broadcastInDim S6144x1 ![0] bcast_S6144_S6144x1_0 : (⟨S6144, .f32⟩ : BufTy).Contents (Elt F) → (⟨S6144x1, .f32⟩ : BufTy).Contents (Elt F)),
    StableHlo.nullary main_cst_46 (constant S_ .f32 0x43800000#32),
    StableHlo.unary main_cst_46 main_v259 (broadcastInDim S6144x1 ![] bcast_S_S6144x1 : (⟨S_, .f32⟩ : BufTy).Contents (Elt F) → (⟨S6144x1, .f32⟩ : BufTy).Contents (Elt F)),
    StableHlo.binary main_v258 main_v259 main_v260 (Host.divf : (⟨S6144x1, .f32⟩ : BufTy).Contents (Elt F) → (⟨S6144x1, .f32⟩ : BufTy).Contents (Elt F) → (⟨S6144x1, .f32⟩ : BufTy).Contents (Elt F)),
    StableHlo.unary main_v260 main_v261 (broadcastInDim S6144x256 ![0, 1] bcast_S6144x1_S6144x256_0_1 : (⟨S6144x1, .f32⟩ : BufTy).Contents (Elt F) → (⟨S6144x256, .f32⟩ : BufTy).Contents (Elt F)),
    StableHlo.binary main_v252 main_v261 main_v262 (subf : (⟨S6144x256, .f32⟩ : BufTy).Contents (Elt F) → (⟨S6144x256, .f32⟩ : BufTy).Contents (Elt F) → (⟨S6144x256, .f32⟩ : BufTy).Contents (Elt F)),
    StableHlo.binary main_v262 main_v262 main_v263 (mulf : (⟨S6144x256, .f32⟩ : BufTy).Contents (Elt F) → (⟨S6144x256, .f32⟩ : BufTy).Contents (Elt F) → (⟨S6144x256, .f32⟩ : BufTy).Contents (Elt F)),
    StableHlo.nullary main_cst_47 (constant S_ .f32 0x00000000#32),
    StableHlo.binary main_v263 main_cst_47 main_v264 ((fun x v => Host.reduceAdd x v reducesTo_S6144x256_S6144_d1 h_S_) : (⟨S6144x256, .f32⟩ : BufTy).Contents (Elt F) → (⟨S_, .f32⟩ : BufTy).Contents (Elt F) → (⟨S6144, .f32⟩ : BufTy).Contents (Elt F)),
    StableHlo.unary main_v264 main_v265 (broadcastInDim S6144x1 ![0] bcast_S6144_S6144x1_0 : (⟨S6144, .f32⟩ : BufTy).Contents (Elt F) → (⟨S6144x1, .f32⟩ : BufTy).Contents (Elt F)),
    StableHlo.nullary main_cst_48 (constant S_ .f32 0x43800000#32),
    StableHlo.unary main_cst_48 main_v266 (broadcastInDim S6144x1 ![] bcast_S_S6144x1 : (⟨S_, .f32⟩ : BufTy).Contents (Elt F) → (⟨S6144x1, .f32⟩ : BufTy).Contents (Elt F)),
    StableHlo.binary main_v265 main_v266 main_v267 (Host.divf : (⟨S6144x1, .f32⟩ : BufTy).Contents (Elt F) → (⟨S6144x1, .f32⟩ : BufTy).Contents (Elt F) → (⟨S6144x1, .f32⟩ : BufTy).Contents (Elt F)),
    StableHlo.unary main_v260 main_v268 (broadcastInDim S6144x256 ![0, 1] bcast_S6144x1_S6144x256_0_1 : (⟨S6144x1, .f32⟩ : BufTy).Contents (Elt F) → (⟨S6144x256, .f32⟩ : BufTy).Contents (Elt F)),
    StableHlo.binary main_v252 main_v268 main_v269 (subf : (⟨S6144x256, .f32⟩ : BufTy).Contents (Elt F) → (⟨S6144x256, .f32⟩ : BufTy).Contents (Elt F) → (⟨S6144x256, .f32⟩ : BufTy).Contents (Elt F)),
    StableHlo.nullary main_cst_49 (constant S_ .f32 0x3727C5AC#32),
    StableHlo.unary main_cst_49 main_v270 (broadcastInDim S6144x1 ![] bcast_S_S6144x1 : (⟨S_, .f32⟩ : BufTy).Contents (Elt F) → (⟨S6144x1, .f32⟩ : BufTy).Contents (Elt F)),
    StableHlo.binary main_v267 main_v270 main_v271 (addf : (⟨S6144x1, .f32⟩ : BufTy).Contents (Elt F) → (⟨S6144x1, .f32⟩ : BufTy).Contents (Elt F) → (⟨S6144x1, .f32⟩ : BufTy).Contents (Elt F)),
    StableHlo.unary main_v271 main_v272 (Host.rsqrt : (⟨S6144x1, .f32⟩ : BufTy).Contents (Elt F) → (⟨S6144x1, .f32⟩ : BufTy).Contents (Elt F)),
    StableHlo.unary main_v272 main_v273 (broadcastInDim S6144x256 ![0, 1] bcast_S6144x1_S6144x256_0_1 : (⟨S6144x1, .f32⟩ : BufTy).Contents (Elt F) → (⟨S6144x256, .f32⟩ : BufTy).Contents (Elt F)),
    StableHlo.binary main_v269 main_v273 main_v274 (mulf : (⟨S6144x256, .f32⟩ : BufTy).Contents (Elt F) → (⟨S6144x256, .f32⟩ : BufTy).Contents (Elt F) → (⟨S6144x256, .f32⟩ : BufTy).Contents (Elt F)),
    StableHlo.unary main_v254 main_v275 (broadcastInDim S1x256 ![1] bcast_S256_S1x256_1 : (⟨S256, .f32⟩ : BufTy).Contents (Elt F) → (⟨S1x256, .f32⟩ : BufTy).Contents (Elt F)),
    StableHlo.unary main_v275 main_v276 (broadcastInDim S6144x256 ![0, 1] bcast_S1x256_S6144x256_0_1 : (⟨S1x256, .f32⟩ : BufTy).Contents (Elt F) → (⟨S6144x256, .f32⟩ : BufTy).Contents (Elt F)),
    StableHlo.binary main_v274 main_v276 main_v277 (mulf : (⟨S6144x256, .f32⟩ : BufTy).Contents (Elt F) → (⟨S6144x256, .f32⟩ : BufTy).Contents (Elt F) → (⟨S6144x256, .f32⟩ : BufTy).Contents (Elt F)),
    StableHlo.unary main_v256 main_v278 (broadcastInDim S1x256 ![1] bcast_S256_S1x256_1 : (⟨S256, .f32⟩ : BufTy).Contents (Elt F) → (⟨S1x256, .f32⟩ : BufTy).Contents (Elt F)),
    StableHlo.unary main_v278 main_v279 (broadcastInDim S6144x256 ![0, 1] bcast_S1x256_S6144x256_0_1 : (⟨S1x256, .f32⟩ : BufTy).Contents (Elt F) → (⟨S6144x256, .f32⟩ : BufTy).Contents (Elt F)),
    StableHlo.binary main_v277 main_v279 main_v280 (addf : (⟨S6144x256, .f32⟩ : BufTy).Contents (Elt F) → (⟨S6144x256, .f32⟩ : BufTy).Contents (Elt F) → (⟨S6144x256, .f32⟩ : BufTy).Contents (Elt F)),
    StableHlo.unary main_arg15 main_v281 ((extractStridedSlice S1x256x1024 ![1, 0, 0] · slices_S2x256x1024_S1x256x1024_1_0_0) : (⟨S2x256x1024, .f32⟩ : BufTy).Contents (Elt F) → (⟨S1x256x1024, .f32⟩ : BufTy).Contents (Elt F)),
    StableHlo.reshape main_v281 main_v282 rfl shapeCasts_S1x256x1024_S256x1024,
    StableHlo.binary main_v280 main_v282 main_v283 ((fun l r => Host.dotGeneral dot_S6144x256_S256x1024_S6144x1024_1_0_0_1_n_n none l r) : (⟨S6144x256, .f32⟩ : BufTy).Contents (Elt F) → (⟨S256x1024, .f32⟩ : BufTy).Contents (Elt F) → (⟨S6144x1024, .f32⟩ : BufTy).Contents (Elt F)),
    StableHlo.unary main_arg16 main_v284 ((extractStridedSlice S1x1024 ![1, 0] · slices_S2x1024_S1x1024_1_0) : (⟨S2x1024, .f32⟩ : BufTy).Contents (Elt F) → (⟨S1x1024, .f32⟩ : BufTy).Contents (Elt F)),
    StableHlo.reshape main_v284 main_v285 rfl shapeCasts_S1x1024_S1024,
    StableHlo.unary main_v285 main_v286 (broadcastInDim S1x1024 ![1] bcast_S1024_S1x1024_1 : (⟨S1024, .f32⟩ : BufTy).Contents (Elt F) → (⟨S1x1024, .f32⟩ : BufTy).Contents (Elt F)),
    StableHlo.unary main_v286 main_v287 (broadcastInDim S6144x1024 ![0, 1] bcast_S1x1024_S6144x1024_0_1 : (⟨S1x1024, .f32⟩ : BufTy).Contents (Elt F) → (⟨S6144x1024, .f32⟩ : BufTy).Contents (Elt F)),
    StableHlo.binary main_v283 main_v287 main_v288 (addf : (⟨S6144x1024, .f32⟩ : BufTy).Contents (Elt F) → (⟨S6144x1024, .f32⟩ : BufTy).Contents (Elt F) → (⟨S6144x1024, .f32⟩ : BufTy).Contents (Elt F)),
    StableHlo.TRef.nullary (.of main_call5_cst : StableHlo.TRef sig ⟨S_, .f32⟩) (constant S_ .f32 0x00000000#32),
    StableHlo.TRef.unary (.of main_call5_cst : StableHlo.TRef sig ⟨S_, .f32⟩) (.of main_call5_v0 : StableHlo.TRef sig ⟨S6144x1024, .f32⟩) (broadcastInDim S6144x1024 ![] bcast_S_S6144x1024),
    StableHlo.TRef.binary (.of main_v288 : StableHlo.TRef sig ⟨S6144x1024, .f32⟩) (.of main_call5_v0 : StableHlo.TRef sig ⟨S6144x1024, .f32⟩) (.of main_v289 : StableHlo.TRef sig ⟨S6144x1024, .f32⟩) maximumf,
    StableHlo.unary main_arg17 main_v290 ((extractStridedSlice S1x1024x256 ![1, 0, 0] · slices_S2x1024x256_S1x1024x256_1_0_0) : (⟨S2x1024x256, .f32⟩ : BufTy).Contents (Elt F) → (⟨S1x1024x256, .f32⟩ : BufTy).Contents (Elt F)),
    StableHlo.reshape main_v290 main_v291 rfl shapeCasts_S1x1024x256_S1024x256,
    StableHlo.binary main_v289 main_v291 main_v292 ((fun l r => Host.dotGeneral dot_S6144x1024_S1024x256_S6144x256_1_0_0_1_n_n none l r) : (⟨S6144x1024, .f32⟩ : BufTy).Contents (Elt F) → (⟨S1024x256, .f32⟩ : BufTy).Contents (Elt F) → (⟨S6144x256, .f32⟩ : BufTy).Contents (Elt F)),
    StableHlo.binary main_v252 main_v292 main_v293 (addf : (⟨S6144x256, .f32⟩ : BufTy).Contents (Elt F) → (⟨S6144x256, .f32⟩ : BufTy).Contents (Elt F) → (⟨S6144x256, .f32⟩ : BufTy).Contents (Elt F)),
    StableHlo.unary main_arg18 main_v294 ((extractStridedSlice S1x256 ![1, 0] · slices_S2x256_S1x256_1_0) : (⟨S2x256, .f32⟩ : BufTy).Contents (Elt F) → (⟨S1x256, .f32⟩ : BufTy).Contents (Elt F)),
    StableHlo.reshape main_v294 main_v295 rfl shapeCasts_S1x256_S256,
    StableHlo.unary main_v295 main_v296 (broadcastInDim S1x256 ![1] bcast_S256_S1x256_1 : (⟨S256, .f32⟩ : BufTy).Contents (Elt F) → (⟨S1x256, .f32⟩ : BufTy).Contents (Elt F)),
    StableHlo.unary main_v296 main_v297 (broadcastInDim S6144x256 ![0, 1] bcast_S1x256_S6144x256_0_1 : (⟨S1x256, .f32⟩ : BufTy).Contents (Elt F) → (⟨S6144x256, .f32⟩ : BufTy).Contents (Elt F)),
    StableHlo.binary main_v293 main_v297 main_v298 (addf : (⟨S6144x256, .f32⟩ : BufTy).Contents (Elt F) → (⟨S6144x256, .f32⟩ : BufTy).Contents (Elt F) → (⟨S6144x256, .f32⟩ : BufTy).Contents (Elt F)),
    StableHlo.binary main_v298 main_arg19 main_v299 ((fun l r => Host.dotGeneral dot_S6144x256_S256x1024_S6144x1024_1_0_0_1_n_n none l r) : (⟨S6144x256, .f32⟩ : BufTy).Contents (Elt F) → (⟨S256x1024, .f32⟩ : BufTy).Contents (Elt F) → (⟨S6144x1024, .f32⟩ : BufTy).Contents (Elt F)),
    StableHlo.unary main_arg20 main_v300 (broadcastInDim S1x1024 ![1] bcast_S1024_S1x1024_1 : (⟨S1024, .f32⟩ : BufTy).Contents (Elt F) → (⟨S1x1024, .f32⟩ : BufTy).Contents (Elt F)),
    StableHlo.unary main_v300 main_v301 (broadcastInDim S6144x1024 ![0, 1] bcast_S1x1024_S6144x1024_0_1 : (⟨S1x1024, .f32⟩ : BufTy).Contents (Elt F) → (⟨S6144x1024, .f32⟩ : BufTy).Contents (Elt F)),
    StableHlo.binary main_v299 main_v301 main_v302 (addf : (⟨S6144x1024, .f32⟩ : BufTy).Contents (Elt F) → (⟨S6144x1024, .f32⟩ : BufTy).Contents (Elt F) → (⟨S6144x1024, .f32⟩ : BufTy).Contents (Elt F)),
    StableHlo.TRef.nullary (.of main_call6_cst : StableHlo.TRef sig ⟨S_, .f32⟩) (constant S_ .f32 0xFF800000#32),
    StableHlo.TRef.binary (.of main_v302 : StableHlo.TRef sig ⟨S6144x1024, .f32⟩) (.of main_call6_cst : StableHlo.TRef sig ⟨S_, .f32⟩) (.of main_call6_v0 : StableHlo.TRef sig ⟨S6144, .f32⟩) (fun x v => Host.reduce FloatOps.maximumf x v reducesTo_S6144x1024_S6144_d1 h_S_),
    StableHlo.TRef.nullary (.of main_call6_cst_0 : StableHlo.TRef sig ⟨S_, .f32⟩) (constant S_ .f32 0xFF800000#32),
    StableHlo.TRef.unary (.of main_call6_cst_0 : StableHlo.TRef sig ⟨S_, .f32⟩) (.of main_call6_v1 : StableHlo.TRef sig ⟨S6144, .f32⟩) (broadcastInDim S6144 ![] bcast_S_S6144),
    StableHlo.TRef.binary (.of main_call6_v1 : StableHlo.TRef sig ⟨S6144, .f32⟩) (.of main_call6_v0 : StableHlo.TRef sig ⟨S6144, .f32⟩) (.of main_call6_v2 : StableHlo.TRef sig ⟨S6144, .f32⟩) maximumf,
    StableHlo.TRef.unary (.of main_call6_v2 : StableHlo.TRef sig ⟨S6144, .f32⟩) (.of main_call6_v3 : StableHlo.TRef sig ⟨S6144x1, .f32⟩) (broadcastInDim S6144x1 ![0] bcast_S6144_S6144x1_0),
    StableHlo.TRef.unary (.of main_call6_v3 : StableHlo.TRef sig ⟨S6144x1, .f32⟩) (.of main_call6_v4 : StableHlo.TRef sig ⟨S6144x1024, .f32⟩) (broadcastInDim S6144x1024 ![0, 1] bcast_S6144x1_S6144x1024_0_1),
    StableHlo.TRef.binary (.of main_v302 : StableHlo.TRef sig ⟨S6144x1024, .f32⟩) (.of main_call6_v4 : StableHlo.TRef sig ⟨S6144x1024, .f32⟩) (.of main_call6_v5 : StableHlo.TRef sig ⟨S6144x1024, .f32⟩) subf,
    StableHlo.TRef.unary (.of main_call6_v5 : StableHlo.TRef sig ⟨S6144x1024, .f32⟩) (.of main_call6_v6 : StableHlo.TRef sig ⟨S6144x1024, .f32⟩) Host.exp,
    StableHlo.TRef.nullary (.of main_call6_cst_1 : StableHlo.TRef sig ⟨S_, .f32⟩) (constant S_ .f32 0x00000000#32),
    StableHlo.TRef.binary (.of main_call6_v6 : StableHlo.TRef sig ⟨S6144x1024, .f32⟩) (.of main_call6_cst_1 : StableHlo.TRef sig ⟨S_, .f32⟩) (.of main_call6_v7 : StableHlo.TRef sig ⟨S6144, .f32⟩) (fun x v => Host.reduceAdd x v reducesTo_S6144x1024_S6144_d1 h_S_),
    StableHlo.TRef.unary (.of main_call6_v7 : StableHlo.TRef sig ⟨S6144, .f32⟩) (.of main_call6_v8 : StableHlo.TRef sig ⟨S6144x1, .f32⟩) (broadcastInDim S6144x1 ![0] bcast_S6144_S6144x1_0),
    StableHlo.TRef.unary (.of main_call6_v8 : StableHlo.TRef sig ⟨S6144x1, .f32⟩) (.of main_call6_v9 : StableHlo.TRef sig ⟨S6144x1, .f32⟩) Host.log,
    StableHlo.TRef.unary (.of main_call6_v9 : StableHlo.TRef sig ⟨S6144x1, .f32⟩) (.of main_call6_v10 : StableHlo.TRef sig ⟨S6144x1024, .f32⟩) (broadcastInDim S6144x1024 ![0, 1] bcast_S6144x1_S6144x1024_0_1),
    StableHlo.TRef.binary (.of main_call6_v5 : StableHlo.TRef sig ⟨S6144x1024, .f32⟩) (.of main_call6_v10 : StableHlo.TRef sig ⟨S6144x1024, .f32⟩) (.of main_v303 : StableHlo.TRef sig ⟨S6144x1024, .f32⟩) subf ]

/-- Each operation of the stretch reads and writes TensorCore buffers only. -/
theorem ops5_sub : (ops5 : List (HloOp τ sig (Elt F))).Forall fun op => op.bufs ⊆ tcRefs τ sig :=
  ⟨nullary_bufs_sub .., unary_bufs_sub .., unary_bufs_sub .., ternary_bufs_sub .., nullary_bufs_sub .., unary_bufs_sub .., unary_bufs_sub .., ternary_bufs_sub ..,
    unary_bufs_sub .., unary_bufs_sub .., binary_bufs_sub .., reshape_bufs_sub .., unary_bufs_sub .., reshape_bufs_sub .., binary_bufs_sub .., binary_bufs_sub ..,
    unary_bufs_sub .., reshape_bufs_sub .., unary_bufs_sub .., unary_bufs_sub .., binary_bufs_sub .., unary_bufs_sub .., reshape_bufs_sub .., unary_bufs_sub ..,
    reshape_bufs_sub .., nullary_bufs_sub .., binary_bufs_sub .., unary_bufs_sub .., nullary_bufs_sub .., unary_bufs_sub .., binary_bufs_sub .., unary_bufs_sub ..,
    binary_bufs_sub .., binary_bufs_sub .., nullary_bufs_sub .., binary_bufs_sub .., unary_bufs_sub .., nullary_bufs_sub .., unary_bufs_sub .., binary_bufs_sub ..,
    unary_bufs_sub .., binary_bufs_sub .., nullary_bufs_sub .., unary_bufs_sub .., binary_bufs_sub .., unary_bufs_sub .., unary_bufs_sub .., binary_bufs_sub ..,
    unary_bufs_sub .., unary_bufs_sub .., binary_bufs_sub .., unary_bufs_sub .., unary_bufs_sub .., binary_bufs_sub .., unary_bufs_sub .., reshape_bufs_sub ..,
    binary_bufs_sub .., unary_bufs_sub .., reshape_bufs_sub .., unary_bufs_sub .., unary_bufs_sub .., binary_bufs_sub .., nullary_bufs_sub .., unary_bufs_sub ..,
    binary_bufs_sub .., unary_bufs_sub .., reshape_bufs_sub .., binary_bufs_sub .., binary_bufs_sub .., unary_bufs_sub .., reshape_bufs_sub .., unary_bufs_sub ..,
    unary_bufs_sub .., binary_bufs_sub .., binary_bufs_sub .., unary_bufs_sub .., unary_bufs_sub .., binary_bufs_sub .., nullary_bufs_sub .., binary_bufs_sub ..,
    nullary_bufs_sub .., unary_bufs_sub .., binary_bufs_sub .., unary_bufs_sub .., unary_bufs_sub .., binary_bufs_sub .., unary_bufs_sub .., nullary_bufs_sub ..,
    binary_bufs_sub .., unary_bufs_sub .., unary_bufs_sub .., unary_bufs_sub .., binary_bufs_sub ..⟩

/-- No operation of the stretch allocates a buffer. -/
theorem ops5_fresh : (ops5 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl⟩

end Cert.ReferenceIdeal.RefRun

end
-- ==== Proof.LockPre.lean ====
/-
  The two programs in step, up to the first edge attention.  From contents that agree on the arguments, the host operations of the kernel's program before its first region and the first 134 operations of the reference leave equal arrays: the layer's input, the keys and queries gathered per edge, and the values gathered per edge (which the reference gathers a little later, inside its edge segment).  Both sides are the same operations applied to the same arguments, in the same order.
-/
import proofs.«124614_j50809463111778_2_alg».proof.Proof.Gen.KernelIdeal.Frame
import proofs.«124614_j50809463111778_2_alg».proof.Proof.RefOps1
import proofs.«124614_j50809463111778_2_alg».proof.Proof.RefOps2
import Idealize.ShloMosaic.Lib.StableHlo.Run

set_option maxRecDepth 16384

noncomputable section

namespace Cert.Lockstep

open Idealize.ShloMosaic Idealize.ShloMosaic.TcCoe Idealize.SL.Sem Idealize.ShloMosaic.StableHlo

set_option maxHeartbeats 64000000 in
theorem pre (VK : Valuation Cert.KernelIdeal.τ Cert.KernelIdeal.sig (Elt Ideal)) (VR : Valuation Cert.ReferenceIdeal.τ Cert.ReferenceIdeal.sig (Elt Ideal))
    (ha0 : VR (Proc.devRef .tc Cert.ReferenceIdeal.main_arg0) = VK (Proc.devRef .tc Cert.KernelIdeal.main_arg0))
    (ha1 : VR (Proc.devRef .tc Cert.ReferenceIdeal.main_arg1) = VK (Proc.devRef .tc Cert.KernelIdeal.main_arg1))
    (ha2 : VR (Proc.devRef .tc Cert.ReferenceIdeal.main_arg2) = VK (Proc.devRef .tc Cert.KernelIdeal.main_arg2))
    (ha3 : VR (Proc.devRef .tc Cert.ReferenceIdeal.main_arg3) = VK (Proc.devRef .tc Cert.KernelIdeal.main_arg3))
    (ha4 : VR (Proc.devRef .tc Cert.ReferenceIdeal.main_arg4) = VK (Proc.devRef .tc Cert.KernelIdeal.main_arg4))
    (ha5 : VR (Proc.devRef .tc Cert.ReferenceIdeal.main_arg5) = VK (Proc.devRef .tc Cert.KernelIdeal.main_arg5))
    (ha6 : VR (Proc.devRef .tc Cert.ReferenceIdeal.main_arg6) = VK (Proc.devRef .tc Cert.KernelIdeal.main_arg6))
    (ha7 : VR (Proc.devRef .tc Cert.ReferenceIdeal.main_arg7) = VK (Proc.devRef .tc Cert.KernelIdeal.main_arg7))
    (ha8 : VR (Proc.devRef .tc Cert.ReferenceIdeal.main_arg8) = VK (Proc.devRef .tc Cert.KernelIdeal.main_arg8))
    (ha9 : VR (Proc.devRef .tc Cert.ReferenceIdeal.main_arg9) = VK (Proc.devRef .tc Cert.KernelIdeal.main_arg9))
    (ha10 : VR (Proc.devRef .tc Cert.ReferenceIdeal.main_arg10) = VK (Proc.devRef .tc Cert.KernelIdeal.main_arg10)) :
    StableHlo.after (Cert.KernelIdeal.Gen.hostOps0_4 (F := Ideal)) (StableHlo.after (Cert.KernelIdeal.Gen.hostOps0_3 (F := Ideal)) (StableHlo.after (Cert.KernelIdeal.Gen.hostOps0_2 (F := Ideal)) (StableHlo.after (Cert.KernelIdeal.Gen.hostOps0_1 (F := Ideal)) (StableHlo.after (Cert.KernelIdeal.Gen.hostOps0 (F := Ideal)) (VK))))) (Proc.devRef .tc Cert.KernelIdeal.main_v24)
      = StableHlo.after (Cert.ReferenceIdeal.RefRun.ops1 (F := Ideal)) (VR) (Proc.devRef .tc Cert.ReferenceIdeal.main_v24)
    ∧
    StableHlo.after (Cert.KernelIdeal.Gen.hostOps0_4 (F := Ideal)) (StableHlo.after (Cert.KernelIdeal.Gen.hostOps0_3 (F := Ideal)) (StableHlo.after (Cert.KernelIdeal.Gen.hostOps0_2 (F := Ideal)) (StableHlo.after (Cert.KernelIdeal.Gen.hostOps0_1 (F := Ideal)) (StableHlo.after (Cert.KernelIdeal.Gen.hostOps0 (F := Ideal)) (VK))))) (Proc.devRef .tc Cert.KernelIdeal.main_v73)
      = StableHlo.after (Cert.ReferenceIdeal.RefRun.ops1 (F := Ideal)) (VR) (Proc.devRef .tc Cert.ReferenceIdeal.main_v73)
    ∧
    StableHlo.after (Cert.KernelIdeal.Gen.hostOps0_4 (F := Ideal)) (StableHlo.after (Cert.KernelIdeal.Gen.hostOps0_3 (F := Ideal)) (StableHlo.after (Cert.KernelIdeal.Gen.hostOps0_2 (F := Ideal)) (StableHlo.after (Cert.KernelIdeal.Gen.hostOps0_1 (F := Ideal)) (StableHlo.after (Cert.KernelIdeal.Gen.hostOps0 (F := Ideal)) (VK))))) (Proc.devRef .tc Cert.KernelIdeal.main_v80)
      = StableHlo.after (Cert.ReferenceIdeal.RefRun.ops1 (F := Ideal)) (VR) (Proc.devRef .tc Cert.ReferenceIdeal.main_v80)
    ∧
    StableHlo.after (Cert.KernelIdeal.Gen.hostOps0_4 (F := Ideal)) (StableHlo.after (Cert.KernelIdeal.Gen.hostOps0_3 (F := Ideal)) (StableHlo.after (Cert.KernelIdeal.Gen.hostOps0_2 (F := Ideal)) (StableHlo.after (Cert.KernelIdeal.Gen.hostOps0_1 (F := Ideal)) (StableHlo.after (Cert.KernelIdeal.Gen.hostOps0 (F := Ideal)) (VK))))) (Proc.devRef .tc Cert.KernelIdeal.main_v87)
      = StableHlo.after (Cert.ReferenceIdeal.RefRun.ops2 (F := Ideal)) (StableHlo.after (Cert.ReferenceIdeal.RefRun.ops1 (F := Ideal)) (VR)) (Proc.devRef .tc Cert.ReferenceIdeal.main_v93) := by
  dsimp only [Cert.KernelIdeal.Gen.hostOps0, Cert.KernelIdeal.Gen.hostOps0_1, Cert.KernelIdeal.Gen.hostOps0_2, Cert.KernelIdeal.Gen.hostOps0_3, Cert.KernelIdeal.Gen.hostOps0_4, Cert.ReferenceIdeal.RefRun.ops1, Cert.ReferenceIdeal.RefRun.ops2]
  after_results_simp
  simp only [ha0, ha1, ha2, ha3, ha4, ha5, ha6, ha7, ha8, ha9, ha10]
  refine ⟨?_, ?_, ?_, ?_⟩ <;> rfl

end Cert.Lockstep

end
-- ==== Proof.LockMid.lean ====
/-
  The two programs in step between the two edge attentions.  From contents that agree on the weighted values and the weights of the first layer's edges, on that layer's input and on the arguments, the host operations between the kernel's two regions and operations 162–300 of the reference leave equal arrays: the second layer's input, its keys and queries gathered per edge, and its values gathered per edge.
-/
import proofs.«124614_j50809463111778_2_alg».proof.Proof.Gen.KernelIdeal.Frame
import proofs.«124614_j50809463111778_2_alg».proof.Proof.RefOps3
import proofs.«124614_j50809463111778_2_alg».proof.Proof.RefOps4
import Idealize.ShloMosaic.Lib.StableHlo.Run

set_option maxRecDepth 16384

noncomputable section

namespace Cert.Lockstep

open Idealize.ShloMosaic Idealize.ShloMosaic.TcCoe Idealize.SL.Sem Idealize.ShloMosaic.StableHlo

set_option maxHeartbeats 64000000 in
theorem mid (VK : Valuation Cert.KernelIdeal.τ Cert.KernelIdeal.sig (Elt Ideal)) (VR : Valuation Cert.ReferenceIdeal.τ Cert.ReferenceIdeal.sig (Elt Ideal))
    (hw : VR (Proc.devRef .tc Cert.ReferenceIdeal.main_v96) = VK (Proc.devRef .tc Cert.KernelIdeal.main_v88_0))
    (hs : VR (Proc.devRef .tc Cert.ReferenceIdeal.main_v86) = VK (Proc.devRef .tc Cert.KernelIdeal.main_v88_1))
    (hx : VR (Proc.devRef .tc Cert.ReferenceIdeal.main_v24) = VK (Proc.devRef .tc Cert.KernelIdeal.main_v24))
    (ha2 : VR (Proc.devRef .tc Cert.ReferenceIdeal.main_arg2) = VK (Proc.devRef .tc Cert.KernelIdeal.main_arg2))
    (ha3 : VR (Proc.devRef .tc Cert.ReferenceIdeal.main_arg3) = VK (Proc.devRef .tc Cert.KernelIdeal.main_arg3))
    (ha7 : VR (Proc.devRef .tc Cert.ReferenceIdeal.main_arg7) = VK (Proc.devRef .tc Cert.KernelIdeal.main_arg7))
    (ha8 : VR (Proc.devRef .tc Cert.ReferenceIdeal.main_arg8) = VK (Proc.devRef .tc Cert.KernelIdeal.main_arg8))
    (ha9 : VR (Proc.devRef .tc Cert.ReferenceIdeal.main_arg9) = VK (Proc.devRef .tc Cert.KernelIdeal.main_arg9))
    (ha10 : VR (Proc.devRef .tc Cert.ReferenceIdeal.main_arg10) = VK (Proc.devRef .tc Cert.KernelIdeal.main_arg10))
    (ha11 : VR (Proc.devRef .tc Cert.ReferenceIdeal.main_arg11) = VK (Proc.devRef .tc Cert.KernelIdeal.main_arg11))
    (ha12 : VR (Proc.devRef .tc Cert.ReferenceIdeal.main_arg12) = VK (Proc.devRef .tc Cert.KernelIdeal.main_arg12))
    (ha13 : VR (Proc.devRef .tc Cert.ReferenceIdeal.main_arg13) = VK (Proc.devRef .tc Cert.KernelIdeal.main_arg13))
    (ha14 : VR (Proc.devRef .tc Cert.ReferenceIdeal.main_arg14) = VK (Proc.devRef .tc Cert.KernelIdeal.main_arg14))
    (ha15 : VR (Proc.devRef .tc Cert.ReferenceIdeal.main_arg15) = VK (Proc.devRef .tc Cert.KernelIdeal.main_arg15))
    (ha16 : VR (Proc.devRef .tc Cert.ReferenceIdeal.main_arg16) = VK (Proc.devRef .tc Cert.KernelIdeal.main_arg16))
    (ha17 : VR (Proc.devRef .tc Cert.ReferenceIdeal.main_arg17) = VK (Proc.devRef .tc Cert.KernelIdeal.main_arg17))
    (ha18 : VR (Proc.devRef .tc Cert.ReferenceIdeal.main_arg18) = VK (Proc.devRef .tc Cert.KernelIdeal.main_arg18)) :
    StableHlo.after (Cert.KernelIdeal.Gen.hostOps1_2 (F := Ideal)) (StableHlo.after (Cert.KernelIdeal.Gen.hostOps1_1 (F := Ideal)) (StableHlo.after (Cert.KernelIdeal.Gen.hostOps1 (F := Ideal)) (VK))) (Proc.devRef .tc Cert.KernelIdeal.main_v153)
      = StableHlo.after (Cert.ReferenceIdeal.RefRun.ops3 (F := Ideal)) (VR) (Proc.devRef .tc Cert.ReferenceIdeal.main_v161)
    ∧
    StableHlo.after (Cert.KernelIdeal.Gen.hostOps1_2 (F := Ideal)) (StableHlo.after (Cert.KernelIdeal.Gen.hostOps1_1 (F := Ideal)) (StableHlo.after (Cert.KernelIdeal.Gen.hostOps1 (F := Ideal)) (VK))) (Proc.devRef .tc Cert.KernelIdeal.main_v202)
      = StableHlo.after (Cert.ReferenceIdeal.RefRun.ops3 (F := Ideal)) (VR) (Proc.devRef .tc Cert.ReferenceIdeal.main_v210)
    ∧
    StableHlo.after (Cert.KernelIdeal.Gen.hostOps1_2 (F := Ideal)) (StableHlo.after (Cert.KernelIdeal.Gen.hostOps1_1 (F := Ideal)) (StableHlo.after (Cert.KernelIdeal.Gen.hostOps1 (F := Ideal)) (VK))) (Proc.devRef .tc Cert.KernelIdeal.main_v209)
      = StableHlo.after (Cert.ReferenceIdeal.RefRun.ops3 (F := Ideal)) (VR) (Proc.devRef .tc Cert.ReferenceIdeal.main_v217)
    ∧
    StableHlo.after (Cert.KernelIdeal.Gen.hostOps1_2 (F := Ideal)) (StableHlo.after (Cert.KernelIdeal.Gen.hostOps1_1 (F := Ideal)) (StableHlo.after (Cert.KernelIdeal.Gen.hostOps1 (F := Ideal)) (VK))) (Proc.devRef .tc Cert.KernelIdeal.main_v216)
      = StableHlo.after (Cert.ReferenceIdeal.RefRun.ops4 (F := Ideal)) (StableHlo.after (Cert.ReferenceIdeal.RefRun.ops3 (F := Ideal)) (VR)) (Proc.devRef .tc Cert.ReferenceIdeal.main_v230) := by
  dsimp only [Cert.KernelIdeal.Gen.hostOps1, Cert.KernelIdeal.Gen.hostOps1_1, Cert.KernelIdeal.Gen.hostOps1_2, Cert.ReferenceIdeal.RefRun.ops3, Cert.ReferenceIdeal.RefRun.ops4]
  after_results_simp
  simp only [hw, hs, hx, ha2, ha3, ha7, ha8, ha9, ha10, ha11, ha12, ha13, ha14, ha15, ha16, ha17, ha18]
  refine ⟨?_, ?_, ?_, ?_⟩ <;> rfl

end Cert.Lockstep

end
-- ==== Proof.LockPost.lean ====
/-
  The two programs in step after the second edge attention.  From contents that agree on the weighted values and the weights of the second layer's edges, on that layer's input and on the arguments, the host operations after the kernel's second region and the last 93 operations of the reference leave equal results.
-/
import proofs.«124614_j50809463111778_2_alg».proof.Proof.Gen.KernelIdeal.Frame
import proofs.«124614_j50809463111778_2_alg».proof.Proof.RefOps5
import Idealize.ShloMosaic.Lib.StableHlo.Run

set_option maxRecDepth 16384

noncomputable section

namespace Cert.Lockstep

open Idealize.ShloMosaic Idealize.ShloMosaic.TcCoe Idealize.SL.Sem Idealize.ShloMosaic.StableHlo

set_option maxHeartbeats 64000000 in
theorem post (VK : Valuation Cert.KernelIdeal.τ Cert.KernelIdeal.sig (Elt Ideal)) (VR : Valuation Cert.ReferenceIdeal.τ Cert.ReferenceIdeal.sig (Elt Ideal))
    (hw : VR (Proc.devRef .tc Cert.ReferenceIdeal.main_v233) = VK (Proc.devRef .tc Cert.KernelIdeal.main_v217_0))
    (hs : VR (Proc.devRef .tc Cert.ReferenceIdeal.main_v223) = VK (Proc.devRef .tc Cert.KernelIdeal.main_v217_1))
    (hx : VR (Proc.devRef .tc Cert.ReferenceIdeal.main_v161) = VK (Proc.devRef .tc Cert.KernelIdeal.main_v153))
    (ha3 : VR (Proc.devRef .tc Cert.ReferenceIdeal.main_arg3) = VK (Proc.devRef .tc Cert.KernelIdeal.main_arg3))
    (ha11 : VR (Proc.devRef .tc Cert.ReferenceIdeal.main_arg11) = VK (Proc.devRef .tc Cert.KernelIdeal.main_arg11))
    (ha12 : VR (Proc.devRef .tc Cert.ReferenceIdeal.main_arg12) = VK (Proc.devRef .tc Cert.KernelIdeal.main_arg12))
    (ha13 : VR (Proc.devRef .tc Cert.ReferenceIdeal.main_arg13) = VK (Proc.devRef .tc Cert.KernelIdeal.main_arg13))
    (ha14 : VR (Proc.devRef .tc Cert.ReferenceIdeal.main_arg14) = VK (Proc.devRef .tc Cert.KernelIdeal.main_arg14))
    (ha15 : VR (Proc.devRef .tc Cert.ReferenceIdeal.main_arg15) = VK (Proc.devRef .tc Cert.KernelIdeal.main_arg15))
    (ha16 : VR (Proc.devRef .tc Cert.ReferenceIdeal.main_arg16) = VK (Proc.devRef .tc Cert.KernelIdeal.main_arg16))
    (ha17 : VR (Proc.devRef .tc Cert.ReferenceIdeal.main_arg17) = VK (Proc.devRef .tc Cert.KernelIdeal.main_arg17))
    (ha18 : VR (Proc.devRef .tc Cert.ReferenceIdeal.main_arg18) = VK (Proc.devRef .tc Cert.KernelIdeal.main_arg18))
    (ha19 : VR (Proc.devRef .tc Cert.ReferenceIdeal.main_arg19) = VK (Proc.devRef .tc Cert.KernelIdeal.main_arg19))
    (ha20 : VR (Proc.devRef .tc Cert.ReferenceIdeal.main_arg20) = VK (Proc.devRef .tc Cert.KernelIdeal.main_arg20)) :
    StableHlo.after (Cert.KernelIdeal.Gen.hostOps2_3 (F := Ideal)) (StableHlo.after (Cert.KernelIdeal.Gen.hostOps2_2 (F := Ideal)) (StableHlo.after (Cert.KernelIdeal.Gen.hostOps2_1 (F := Ideal)) (StableHlo.after (Cert.KernelIdeal.Gen.hostOps2 (F := Ideal)) (VK)))) (Proc.devRef .tc Cert.KernelIdeal.main_v287)
      = StableHlo.after (Cert.ReferenceIdeal.RefRun.ops5 (F := Ideal)) (VR) (Proc.devRef .tc Cert.ReferenceIdeal.main_v303) := by
  dsimp only [Cert.KernelIdeal.Gen.hostOps2, Cert.KernelIdeal.Gen.hostOps2_1, Cert.KernelIdeal.Gen.hostOps2_2, Cert.KernelIdeal.Gen.hostOps2_3, Cert.ReferenceIdeal.RefRun.ops5]
  after_results_simp
  simp only [hw, hs, hx, ha3, ha11, ha12, ha13, ha14, ha15, ha16, ha17, ha18, ha19, ha20]
  rfl

end Cert.Lockstep

end
-- ==== Proof.KeepPre.lean ====
/-
  No host operation before the kernel program's first region writes an argument array: read after those operations, each argument the later operations use is what it was.
-/
import proofs.«124614_j50809463111778_2_alg».proof.Proof.Gen.KernelIdeal.Frame
import Idealize.ShloMosaic.Lib.StableHlo.Run

set_option maxRecDepth 16384

noncomputable section

namespace Cert.Lockstep

open Idealize.ShloMosaic Idealize.ShloMosaic.TcCoe Idealize.SL.Sem Idealize.ShloMosaic.StableHlo

set_option maxHeartbeats 64000000 in
theorem keepPre (VK : Valuation Cert.KernelIdeal.τ Cert.KernelIdeal.sig (Elt Ideal)) :
    StableHlo.after (Cert.KernelIdeal.Gen.hostOps0_4 (F := Ideal)) (StableHlo.after (Cert.KernelIdeal.Gen.hostOps0_3 (F := Ideal)) (StableHlo.after (Cert.KernelIdeal.Gen.hostOps0_2 (F := Ideal)) (StableHlo.after (Cert.KernelIdeal.Gen.hostOps0_1 (F := Ideal)) (StableHlo.after (Cert.KernelIdeal.Gen.hostOps0 (F := Ideal)) (VK))))) (Proc.devRef .tc Cert.KernelIdeal.main_arg2) = VK (Proc.devRef .tc Cert.KernelIdeal.main_arg2)
    ∧
    StableHlo.after (Cert.KernelIdeal.Gen.hostOps0_4 (F := Ideal)) (StableHlo.after (Cert.KernelIdeal.Gen.hostOps0_3 (F := Ideal)) (StableHlo.after (Cert.KernelIdeal.Gen.hostOps0_2 (F := Ideal)) (StableHlo.after (Cert.KernelIdeal.Gen.hostOps0_1 (F := Ideal)) (StableHlo.after (Cert.KernelIdeal.Gen.hostOps0 (F := Ideal)) (VK))))) (Proc.devRef .tc Cert.KernelIdeal.main_arg3) = VK (Proc.devRef .tc Cert.KernelIdeal.main_arg3)
    ∧
    StableHlo.after (Cert.KernelIdeal.Gen.hostOps0_4 (F := Ideal)) (StableHlo.after (Cert.KernelIdeal.Gen.hostOps0_3 (F := Ideal)) (StableHlo.after (Cert.KernelIdeal.Gen.hostOps0_2 (F := Ideal)) (StableHlo.after (Cert.KernelIdeal.Gen.hostOps0_1 (F := Ideal)) (StableHlo.after (Cert.KernelIdeal.Gen.hostOps0 (F := Ideal)) (VK))))) (Proc.devRef .tc Cert.KernelIdeal.main_arg7) = VK (Proc.devRef .tc Cert.KernelIdeal.main_arg7)
    ∧
    StableHlo.after (Cert.KernelIdeal.Gen.hostOps0_4 (F := Ideal)) (StableHlo.after (Cert.KernelIdeal.Gen.hostOps0_3 (F := Ideal)) (StableHlo.after (Cert.KernelIdeal.Gen.hostOps0_2 (F := Ideal)) (StableHlo.after (Cert.KernelIdeal.Gen.hostOps0_1 (F := Ideal)) (StableHlo.after (Cert.KernelIdeal.Gen.hostOps0 (F := Ideal)) (VK))))) (Proc.devRef .tc Cert.KernelIdeal.main_arg8) = VK (Proc.devRef .tc Cert.KernelIdeal.main_arg8)
    ∧
    StableHlo.after (Cert.KernelIdeal.Gen.hostOps0_4 (F := Ideal)) (StableHlo.after (Cert.KernelIdeal.Gen.hostOps0_3 (F := Ideal)) (StableHlo.after (Cert.KernelIdeal.Gen.hostOps0_2 (F := Ideal)) (StableHlo.after (Cert.KernelIdeal.Gen.hostOps0_1 (F := Ideal)) (StableHlo.after (Cert.KernelIdeal.Gen.hostOps0 (F := Ideal)) (VK))))) (Proc.devRef .tc Cert.KernelIdeal.main_arg9) = VK (Proc.devRef .tc Cert.KernelIdeal.main_arg9)
    ∧
    StableHlo.after (Cert.KernelIdeal.Gen.hostOps0_4 (F := Ideal)) (StableHlo.after (Cert.KernelIdeal.Gen.hostOps0_3 (F := Ideal)) (StableHlo.after (Cert.KernelIdeal.Gen.hostOps0_2 (F := Ideal)) (StableHlo.after (Cert.KernelIdeal.Gen.hostOps0_1 (F := Ideal)) (StableHlo.after (Cert.KernelIdeal.Gen.hostOps0 (F := Ideal)) (VK))))) (Proc.devRef .tc Cert.KernelIdeal.main_arg10) = VK (Proc.devRef .tc Cert.KernelIdeal.main_arg10)
    ∧
    StableHlo.after (Cert.KernelIdeal.Gen.hostOps0_4 (F := Ideal)) (StableHlo.after (Cert.KernelIdeal.Gen.hostOps0_3 (F := Ideal)) (StableHlo.after (Cert.KernelIdeal.Gen.hostOps0_2 (F := Ideal)) (StableHlo.after (Cert.KernelIdeal.Gen.hostOps0_1 (F := Ideal)) (StableHlo.after (Cert.KernelIdeal.Gen.hostOps0 (F := Ideal)) (VK))))) (Proc.devRef .tc Cert.KernelIdeal.main_arg11) = VK (Proc.devRef .tc Cert.KernelIdeal.main_arg11)
    ∧
    StableHlo.after (Cert.KernelIdeal.Gen.hostOps0_4 (F := Ideal)) (StableHlo.after (Cert.KernelIdeal.Gen.hostOps0_3 (F := Ideal)) (StableHlo.after (Cert.KernelIdeal.Gen.hostOps0_2 (F := Ideal)) (StableHlo.after (Cert.KernelIdeal.Gen.hostOps0_1 (F := Ideal)) (StableHlo.after (Cert.KernelIdeal.Gen.hostOps0 (F := Ideal)) (VK))))) (Proc.devRef .tc Cert.KernelIdeal.main_arg12) = VK (Proc.devRef .tc Cert.KernelIdeal.main_arg12)
    ∧
    StableHlo.after (Cert.KernelIdeal.Gen.hostOps0_4 (F := Ideal)) (StableHlo.after (Cert.KernelIdeal.Gen.hostOps0_3 (F := Ideal)) (StableHlo.after (Cert.KernelIdeal.Gen.hostOps0_2 (F := Ideal)) (StableHlo.after (Cert.KernelIdeal.Gen.hostOps0_1 (F := Ideal)) (StableHlo.after (Cert.KernelIdeal.Gen.hostOps0 (F := Ideal)) (VK))))) (Proc.devRef .tc Cert.KernelIdeal.main_arg13) = VK (Proc.devRef .tc Cert.KernelIdeal.main_arg13)
    ∧
    StableHlo.after (Cert.KernelIdeal.Gen.hostOps0_4 (F := Ideal)) (StableHlo.after (Cert.KernelIdeal.Gen.hostOps0_3 (F := Ideal)) (StableHlo.after (Cert.KernelIdeal.Gen.hostOps0_2 (F := Ideal)) (StableHlo.after (Cert.KernelIdeal.Gen.hostOps0_1 (F := Ideal)) (StableHlo.after (Cert.KernelIdeal.Gen.hostOps0 (F := Ideal)) (VK))))) (Proc.devRef .tc Cert.KernelIdeal.main_arg14) = VK (Proc.devRef .tc Cert.KernelIdeal.main_arg14)
    ∧
    StableHlo.after (Cert.KernelIdeal.Gen.hostOps0_4 (F := Ideal)) (StableHlo.after (Cert.KernelIdeal.Gen.hostOps0_3 (F := Ideal)) (StableHlo.after (Cert.KernelIdeal.Gen.hostOps0_2 (F := Ideal)) (StableHlo.after (Cert.KernelIdeal.Gen.hostOps0_1 (F := Ideal)) (StableHlo.after (Cert.KernelIdeal.Gen.hostOps0 (F := Ideal)) (VK))))) (Proc.devRef .tc Cert.KernelIdeal.main_arg15) = VK (Proc.devRef .tc Cert.KernelIdeal.main_arg15)
    ∧
    StableHlo.after (Cert.KernelIdeal.Gen.hostOps0_4 (F := Ideal)) (StableHlo.after (Cert.KernelIdeal.Gen.hostOps0_3 (F := Ideal)) (StableHlo.after (Cert.KernelIdeal.Gen.hostOps0_2 (F := Ideal)) (StableHlo.after (Cert.KernelIdeal.Gen.hostOps0_1 (F := Ideal)) (StableHlo.after (Cert.KernelIdeal.Gen.hostOps0 (F := Ideal)) (VK))))) (Proc.devRef .tc Cert.KernelIdeal.main_arg16) = VK (Proc.devRef .tc Cert.KernelIdeal.main_arg16)
    ∧
    StableHlo.after (Cert.KernelIdeal.Gen.hostOps0_4 (F := Ideal)) (StableHlo.after (Cert.KernelIdeal.Gen.hostOps0_3 (F := Ideal)) (StableHlo.after (Cert.KernelIdeal.Gen.hostOps0_2 (F := Ideal)) (StableHlo.after (Cert.KernelIdeal.Gen.hostOps0_1 (F := Ideal)) (StableHlo.after (Cert.KernelIdeal.Gen.hostOps0 (F := Ideal)) (VK))))) (Proc.devRef .tc Cert.KernelIdeal.main_arg17) = VK (Proc.devRef .tc Cert.KernelIdeal.main_arg17)
    ∧
    StableHlo.after (Cert.KernelIdeal.Gen.hostOps0_4 (F := Ideal)) (StableHlo.after (Cert.KernelIdeal.Gen.hostOps0_3 (F := Ideal)) (StableHlo.after (Cert.KernelIdeal.Gen.hostOps0_2 (F := Ideal)) (StableHlo.after (Cert.KernelIdeal.Gen.hostOps0_1 (F := Ideal)) (StableHlo.after (Cert.KernelIdeal.Gen.hostOps0 (F := Ideal)) (VK))))) (Proc.devRef .tc Cert.KernelIdeal.main_arg18) = VK (Proc.devRef .tc Cert.KernelIdeal.main_arg18)
    ∧
    StableHlo.after (Cert.KernelIdeal.Gen.hostOps0_4 (F := Ideal)) (StableHlo.after (Cert.KernelIdeal.Gen.hostOps0_3 (F := Ideal)) (StableHlo.after (Cert.KernelIdeal.Gen.hostOps0_2 (F := Ideal)) (StableHlo.after (Cert.KernelIdeal.Gen.hostOps0_1 (F := Ideal)) (StableHlo.after (Cert.KernelIdeal.Gen.hostOps0 (F := Ideal)) (VK))))) (Proc.devRef .tc Cert.KernelIdeal.main_arg19) = VK (Proc.devRef .tc Cert.KernelIdeal.main_arg19)
    ∧
    StableHlo.after (Cert.KernelIdeal.Gen.hostOps0_4 (F := Ideal)) (StableHlo.after (Cert.KernelIdeal.Gen.hostOps0_3 (F := Ideal)) (StableHlo.after (Cert.KernelIdeal.Gen.hostOps0_2 (F := Ideal)) (StableHlo.after (Cert.KernelIdeal.Gen.hostOps0_1 (F := Ideal)) (StableHlo.after (Cert.KernelIdeal.Gen.hostOps0 (F := Ideal)) (VK))))) (Proc.devRef .tc Cert.KernelIdeal.main_arg20) = VK (Proc.devRef .tc Cert.KernelIdeal.main_arg20) := by
  dsimp only [Cert.KernelIdeal.Gen.hostOps0, Cert.KernelIdeal.Gen.hostOps0_1, Cert.KernelIdeal.Gen.hostOps0_2, Cert.KernelIdeal.Gen.hostOps0_3, Cert.KernelIdeal.Gen.hostOps0_4]
  after_results_simp
  refine ⟨?_, ?_, ?_, ?_, ?_, ?_, ?_, ?_, ?_, ?_, ?_, ?_, ?_, ?_, ?_, ?_⟩ <;> trivial

end Cert.Lockstep

end
-- ==== Proof.KeepMid.lean ====
/-
  No host operation between the kernel program's two regions writes an argument array: read after those operations, each argument the last stretch uses is what it was.
-/
import proofs.«124614_j50809463111778_2_alg».proof.Proof.Gen.KernelIdeal.Frame
import Idealize.ShloMosaic.Lib.StableHlo.Run

set_option maxRecDepth 16384

noncomputable section

namespace Cert.Lockstep

open Idealize.ShloMosaic Idealize.ShloMosaic.TcCoe Idealize.SL.Sem Idealize.ShloMosaic.StableHlo

set_option maxHeartbeats 64000000 in
theorem keepMid (VK : Valuation Cert.KernelIdeal.τ Cert.KernelIdeal.sig (Elt Ideal)) :
    StableHlo.after (Cert.KernelIdeal.Gen.hostOps1_2 (F := Ideal)) (StableHlo.after (Cert.KernelIdeal.Gen.hostOps1_1 (F := Ideal)) (StableHlo.after (Cert.KernelIdeal.Gen.hostOps1 (F := Ideal)) (VK))) (Proc.devRef .tc Cert.KernelIdeal.main_arg3) = VK (Proc.devRef .tc Cert.KernelIdeal.main_arg3)
    ∧
    StableHlo.after (Cert.KernelIdeal.Gen.hostOps1_2 (F := Ideal)) (StableHlo.after (Cert.KernelIdeal.Gen.hostOps1_1 (F := Ideal)) (StableHlo.after (Cert.KernelIdeal.Gen.hostOps1 (F := Ideal)) (VK))) (Proc.devRef .tc Cert.KernelIdeal.main_arg11) = VK (Proc.devRef .tc Cert.KernelIdeal.main_arg11)
    ∧
    StableHlo.after (Cert.KernelIdeal.Gen.hostOps1_2 (F := Ideal)) (StableHlo.after (Cert.KernelIdeal.Gen.hostOps1_1 (F := Ideal)) (StableHlo.after (Cert.KernelIdeal.Gen.hostOps1 (F := Ideal)) (VK))) (Proc.devRef .tc Cert.KernelIdeal.main_arg12) = VK (Proc.devRef .tc Cert.KernelIdeal.main_arg12)
    ∧
    StableHlo.after (Cert.KernelIdeal.Gen.hostOps1_2 (F := Ideal)) (StableHlo.after (Cert.KernelIdeal.Gen.hostOps1_1 (F := Ideal)) (StableHlo.after (Cert.KernelIdeal.Gen.hostOps1 (F := Ideal)) (VK))) (Proc.devRef .tc Cert.KernelIdeal.main_arg13) = VK (Proc.devRef .tc Cert.KernelIdeal.main_arg13)
    ∧
    StableHlo.after (Cert.KernelIdeal.Gen.hostOps1_2 (F := Ideal)) (StableHlo.after (Cert.KernelIdeal.Gen.hostOps1_1 (F := Ideal)) (StableHlo.after (Cert.KernelIdeal.Gen.hostOps1 (F := Ideal)) (VK))) (Proc.devRef .tc Cert.KernelIdeal.main_arg14) = VK (Proc.devRef .tc Cert.KernelIdeal.main_arg14)
    ∧
    StableHlo.after (Cert.KernelIdeal.Gen.hostOps1_2 (F := Ideal)) (StableHlo.after (Cert.KernelIdeal.Gen.hostOps1_1 (F := Ideal)) (StableHlo.after (Cert.KernelIdeal.Gen.hostOps1 (F := Ideal)) (VK))) (Proc.devRef .tc Cert.KernelIdeal.main_arg15) = VK (Proc.devRef .tc Cert.KernelIdeal.main_arg15)
    ∧
    StableHlo.after (Cert.KernelIdeal.Gen.hostOps1_2 (F := Ideal)) (StableHlo.after (Cert.KernelIdeal.Gen.hostOps1_1 (F := Ideal)) (StableHlo.after (Cert.KernelIdeal.Gen.hostOps1 (F := Ideal)) (VK))) (Proc.devRef .tc Cert.KernelIdeal.main_arg16) = VK (Proc.devRef .tc Cert.KernelIdeal.main_arg16)
    ∧
    StableHlo.after (Cert.KernelIdeal.Gen.hostOps1_2 (F := Ideal)) (StableHlo.after (Cert.KernelIdeal.Gen.hostOps1_1 (F := Ideal)) (StableHlo.after (Cert.KernelIdeal.Gen.hostOps1 (F := Ideal)) (VK))) (Proc.devRef .tc Cert.KernelIdeal.main_arg17) = VK (Proc.devRef .tc Cert.KernelIdeal.main_arg17)
    ∧
    StableHlo.after (Cert.KernelIdeal.Gen.hostOps1_2 (F := Ideal)) (StableHlo.after (Cert.KernelIdeal.Gen.hostOps1_1 (F := Ideal)) (StableHlo.after (Cert.KernelIdeal.Gen.hostOps1 (F := Ideal)) (VK))) (Proc.devRef .tc Cert.KernelIdeal.main_arg18) = VK (Proc.devRef .tc Cert.KernelIdeal.main_arg18)
    ∧
    StableHlo.after (Cert.KernelIdeal.Gen.hostOps1_2 (F := Ideal)) (StableHlo.after (Cert.KernelIdeal.Gen.hostOps1_1 (F := Ideal)) (StableHlo.after (Cert.KernelIdeal.Gen.hostOps1 (F := Ideal)) (VK))) (Proc.devRef .tc Cert.KernelIdeal.main_arg19) = VK (Proc.devRef .tc Cert.KernelIdeal.main_arg19)
    ∧
    StableHlo.after (Cert.KernelIdeal.Gen.hostOps1_2 (F := Ideal)) (StableHlo.after (Cert.KernelIdeal.Gen.hostOps1_1 (F := Ideal)) (StableHlo.after (Cert.KernelIdeal.Gen.hostOps1 (F := Ideal)) (VK))) (Proc.devRef .tc Cert.KernelIdeal.main_arg20) = VK (Proc.devRef .tc Cert.KernelIdeal.main_arg20) := by
  dsimp only [Cert.KernelIdeal.Gen.hostOps1, Cert.KernelIdeal.Gen.hostOps1_1, Cert.KernelIdeal.Gen.hostOps1_2]
  after_results_simp
  refine ⟨?_, ?_, ?_, ?_, ?_, ?_, ?_, ?_, ?_, ?_, ?_⟩ <;> trivial

end Cert.Lockstep

end
-- ==== Proof.Bridge.lean ====
/-
  The two idealized programs end with the same result.

  Core by core the reference's 420 host operations and the kernel program's fourteen segments are the same computation:
  up to each layer's edge attention, and after it, both apply the same host operations to arrays that are equal, in the
  same order; the edge attention itself — per edge and head the exponential of the clamped, scaled inner product of key
  and query, and the values weighted by it — is one pair of whole-array functions, which the kernel's region computes
  388 blocks at a time and the reference with whole-array host operations.  So, from memories that agree on the
  arguments, the reference's result array is the kernel program's.
-/
import proofs.«124614_j50809463111778_2_alg».proof.Proof.KerRun
import proofs.«124614_j50809463111778_2_alg».proof.Proof.KerEdgeBlock0
import proofs.«124614_j50809463111778_2_alg».proof.Proof.KerEdgeBlock1
import proofs.«124614_j50809463111778_2_alg».proof.Proof.RefEdgeRun
import proofs.«124614_j50809463111778_2_alg».proof.Proof.RefAppend
import proofs.«124614_j50809463111778_2_alg».proof.Proof.RefKeep1
import proofs.«124614_j50809463111778_2_alg».proof.Proof.RefKeep2
import proofs.«124614_j50809463111778_2_alg».proof.Proof.RefKeep3
import proofs.«124614_j50809463111778_2_alg».proof.Proof.RefKeep4
import proofs.«124614_j50809463111778_2_alg».proof.Proof.RefOps5
import proofs.«124614_j50809463111778_2_alg».proof.Proof.LockPre
import proofs.«124614_j50809463111778_2_alg».proof.Proof.LockMid
import proofs.«124614_j50809463111778_2_alg».proof.Proof.LockPost
import proofs.«124614_j50809463111778_2_alg».proof.Proof.KeepPre
import proofs.«124614_j50809463111778_2_alg».proof.Proof.KeepMid

set_option maxRecDepth 16384

noncomputable section

namespace Cert.Bridge

open Idealize.ShloMosaic Idealize.ShloMosaic.TcCoe Idealize.SL.Sem Idealize.ShloMosaic.StableHlo

variable (m : (ℓ : Loc Cert.KernelIdeal.nD Cert.KernelIdeal.τ Cert.KernelIdeal.sig) → Buf (Elt Ideal) ℓ) (ρ : Dev Cert.KernelIdeal.nD → PrngReg)
  (m' : (ℓ : Loc Cert.ReferenceIdeal.nD Cert.ReferenceIdeal.τ Cert.ReferenceIdeal.sig) → Buf (Elt Ideal) ℓ) (c : Dev Cert.KernelIdeal.nD)

/-- The reference's contents on core `c` after its first segment (up to the first layer's gathered keys and queries). -/
abbrev R1 : Valuation Cert.ReferenceIdeal.τ Cert.ReferenceIdeal.sig (Elt Ideal) := StableHlo.after (Cert.ReferenceIdeal.RefRun.ops1 (F := Ideal)) (launchContents m' c)
/-- … after the first layer's edge attention. -/
abbrev R2 : Valuation Cert.ReferenceIdeal.τ Cert.ReferenceIdeal.sig (Elt Ideal) := StableHlo.after (Cert.ReferenceIdeal.RefRun.ops2 (F := Ideal)) (R1 m' c)
/-- … up to the second layer's gathered keys and queries. -/
abbrev R3 : Valuation Cert.ReferenceIdeal.τ Cert.ReferenceIdeal.sig (Elt Ideal) := StableHlo.after (Cert.ReferenceIdeal.RefRun.ops3 (F := Ideal)) (R2 m' c)
/-- … after the second layer's edge attention. -/
abbrev R4 : Valuation Cert.ReferenceIdeal.τ Cert.ReferenceIdeal.sig (Elt Ideal) := StableHlo.after (Cert.ReferenceIdeal.RefRun.ops4 (F := Ideal)) (R3 m' c)

/-- The reference's two edge segments are the lists whose folds are read in closed form. -/
theorem ops2_eq : (Cert.ReferenceIdeal.RefRun.ops2 (F := Ideal)) = Cert.ReferenceIdeal.RefEdge.edgeOps0 := rfl
theorem ops4_eq : (Cert.ReferenceIdeal.RefRun.ops4 (F := Ideal)) = Cert.ReferenceIdeal.RefEdge.edgeOps1 := rfl

/-- From memories that agree on the 21 arguments, core `c`'s result array of the reference — its operations folded over
    the launch contents — is the kernel program's result array at the last segment boundary. -/
theorem result_eq
    (hagree : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) :
    StableHlo.after (Cert.ReferenceIdeal.RefRun.ops1 (F := Ideal) ++ Cert.ReferenceIdeal.RefRun.ops2 ++ Cert.ReferenceIdeal.RefRun.ops3 ++ Cert.ReferenceIdeal.RefRun.ops4 ++ Cert.ReferenceIdeal.RefRun.ops5) (launchContents m' c) (Proc.devRef .tc Cert.ReferenceIdeal.main_v303)
      = Cert.KernelIdeal.Gen.W14 (F := Ideal) m ρ c (Proc.devRef .tc Cert.KernelIdeal.main_v287) := by
  obtain ⟨a0, a1, a2, a3, a4, a5, a6, a7, a8, a9, a10, a11, a12, a13, a14, a15, a16, a17, a18, a19, a20⟩ := hagree
  rw [Cert.ReferenceIdeal.RefRun.after_append, Cert.ReferenceIdeal.RefRun.after_append, Cert.ReferenceIdeal.RefRun.after_append, Cert.ReferenceIdeal.RefRun.after_append]
  change StableHlo.after (Cert.ReferenceIdeal.RefRun.ops5 (F := Ideal)) (R4 m' c) (Proc.devRef .tc Cert.ReferenceIdeal.main_v303) = _
  -- the arguments, read after the kernel program's first stretches and after the stretches between its regions
  obtain ⟨kp2, kp3, kp7, kp8, kp9, kp10, kp11, kp12, kp13, kp14, kp15, kp16, kp17, kp18, kp19, kp20⟩ := Cert.Lockstep.keepPre (Cert.KernelIdeal.Gen.W0 (F := Ideal) m ρ c)
  obtain ⟨km3, km11, km12, km13, km14, km15, km16, km17, km18, km19, km20⟩ := Cert.Lockstep.keepMid (Cert.KernelIdeal.Gen.W6 (F := Ideal) m ρ c)
  -- up to the first edge attention the two programs are in step
  obtain ⟨p24, p73, p80, p87⟩ := Cert.Lockstep.pre (Cert.KernelIdeal.Gen.W0 (F := Ideal) m ρ c) (launchContents m' c) a0 a1 a2 a3 a4 a5 a6 a7 a8 a9 a10
  have p24 : Cert.KernelIdeal.Gen.W5 (F := Ideal) m ρ c (Proc.devRef .tc Cert.KernelIdeal.main_v24) = R1 m' c (Proc.devRef .tc Cert.ReferenceIdeal.main_v24) := p24
  have p73 : Cert.KernelIdeal.Gen.W5 (F := Ideal) m ρ c (Proc.devRef .tc Cert.KernelIdeal.main_v73) = R1 m' c (Proc.devRef .tc Cert.ReferenceIdeal.main_v73) := p73
  have p80 : Cert.KernelIdeal.Gen.W5 (F := Ideal) m ρ c (Proc.devRef .tc Cert.KernelIdeal.main_v80) = R1 m' c (Proc.devRef .tc Cert.ReferenceIdeal.main_v80) := p80
  have p87 : Cert.KernelIdeal.Gen.W5 (F := Ideal) m ρ c (Proc.devRef .tc Cert.KernelIdeal.main_v87) = R2 m' c (Proc.devRef .tc Cert.ReferenceIdeal.main_v93) := p87
  -- the first edge attention: the region's two output arrays and the reference's two arrays are the same functions of equal arrays
  have hw : R2 m' c (Proc.devRef .tc Cert.ReferenceIdeal.main_v96) = Cert.KernelIdeal.Gen.W6 (F := Ideal) m ρ c (Proc.devRef .tc Cert.KernelIdeal.main_v88_0) := by
    have kw : Cert.KernelIdeal.Gen.W6 (F := Ideal) m ρ c (Proc.devRef .tc Cert.KernelIdeal.main_v88_0)
        = Cert.EdgeSpec.weighted (Cert.KernelIdeal.Gen.W5 (F := Ideal) m ρ c (Proc.devRef .tc Cert.KernelIdeal.main_v73)) (Cert.KernelIdeal.Gen.W5 (F := Ideal) m ρ c (Proc.devRef .tc Cert.KernelIdeal.main_v80)) (Cert.KernelIdeal.Gen.W5 (F := Ideal) m ρ c (Proc.devRef .tc Cert.KernelIdeal.main_v87)) :=
      (Cert.KernelIdeal.Gen.W6_arr m ρ c 3).trans (Cert.KernelIdeal.KerEdge.region0_weighted (Cert.KernelIdeal.Gen.V5 (F := Ideal) m ρ) c)
    have rw' : R2 m' c (Proc.devRef .tc Cert.ReferenceIdeal.main_v96)
        = Cert.EdgeSpec.weighted (R1 m' c (Proc.devRef .tc Cert.ReferenceIdeal.main_v73)) (R1 m' c (Proc.devRef .tc Cert.ReferenceIdeal.main_v80)) (R2 m' c (Proc.devRef .tc Cert.ReferenceIdeal.main_v93)) := by
      show StableHlo.after (Cert.ReferenceIdeal.RefRun.ops2 (F := Ideal)) (R1 m' c) (Proc.devRef .tc Cert.ReferenceIdeal.main_v96)
        = Cert.EdgeSpec.weighted (R1 m' c (Proc.devRef .tc Cert.ReferenceIdeal.main_v73)) (R1 m' c (Proc.devRef .tc Cert.ReferenceIdeal.main_v80)) (StableHlo.after (Cert.ReferenceIdeal.RefRun.ops2 (F := Ideal)) (R1 m' c) (Proc.devRef .tc Cert.ReferenceIdeal.main_v93))
      rw [ops2_eq, Cert.ReferenceIdeal.RefEdge.edge0_weighted, Cert.ReferenceIdeal.RefEdge.weightedChain_eq]
    rw [rw', kw, p73, p80, p87]
  have hs : R2 m' c (Proc.devRef .tc Cert.ReferenceIdeal.main_v86) = Cert.KernelIdeal.Gen.W6 (F := Ideal) m ρ c (Proc.devRef .tc Cert.KernelIdeal.main_v88_1) := by
    have ks : Cert.KernelIdeal.Gen.W6 (F := Ideal) m ρ c (Proc.devRef .tc Cert.KernelIdeal.main_v88_1)
        = Cert.EdgeSpec.score (Cert.KernelIdeal.Gen.W5 (F := Ideal) m ρ c (Proc.devRef .tc Cert.KernelIdeal.main_v73)) (Cert.KernelIdeal.Gen.W5 (F := Ideal) m ρ c (Proc.devRef .tc Cert.KernelIdeal.main_v80)) :=
      (Cert.KernelIdeal.Gen.W6_arr m ρ c 4).trans (Cert.KernelIdeal.KerEdge.region0_score (Cert.KernelIdeal.Gen.V5 (F := Ideal) m ρ) c)
    have rs' : R2 m' c (Proc.devRef .tc Cert.ReferenceIdeal.main_v86) = Cert.EdgeSpec.score (R1 m' c (Proc.devRef .tc Cert.ReferenceIdeal.main_v73)) (R1 m' c (Proc.devRef .tc Cert.ReferenceIdeal.main_v80)) := by
      show StableHlo.after (Cert.ReferenceIdeal.RefRun.ops2 (F := Ideal)) (R1 m' c) (Proc.devRef .tc Cert.ReferenceIdeal.main_v86) = _
      rw [ops2_eq, Cert.ReferenceIdeal.RefEdge.edge0_score, Cert.ReferenceIdeal.RefEdge.scoreChain_eq]
    rw [rs', ks, p73, p80]
  have hx : R2 m' c (Proc.devRef .tc Cert.ReferenceIdeal.main_v24) = Cert.KernelIdeal.Gen.W6 (F := Ideal) m ρ c (Proc.devRef .tc Cert.KernelIdeal.main_v24) :=
    ((Cert.ReferenceIdeal.RefRun.ops2_keep (R1 m' c) Cert.ReferenceIdeal.main_v24 (by decide)).trans p24.symm).trans (Cert.KernelIdeal.Gen.W6_of_ne m ρ c Cert.KernelIdeal.main_v24 (by decide)).symm
  have h2 : R2 m' c (Proc.devRef .tc Cert.ReferenceIdeal.main_arg2) = Cert.KernelIdeal.Gen.W6 (F := Ideal) m ρ c (Proc.devRef .tc Cert.KernelIdeal.main_arg2) :=
    (((Cert.ReferenceIdeal.RefRun.ops2_keep (R1 m' c) Cert.ReferenceIdeal.main_arg2 (by decide)).trans (Cert.ReferenceIdeal.RefRun.ops1_keep (launchContents m' c) Cert.ReferenceIdeal.main_arg2 (by decide))).trans a2).trans
      ((Cert.KernelIdeal.Gen.W6_of_ne m ρ c Cert.KernelIdeal.main_arg2 (by decide)).trans kp2).symm
  have h3 : R2 m' c (Proc.devRef .tc Cert.ReferenceIdeal.main_arg3) = Cert.KernelIdeal.Gen.W6 (F := Ideal) m ρ c (Proc.devRef .tc Cert.KernelIdeal.main_arg3) :=
    (((Cert.ReferenceIdeal.RefRun.ops2_keep (R1 m' c) Cert.ReferenceIdeal.main_arg3 (by decide)).trans (Cert.ReferenceIdeal.RefRun.ops1_keep (launchContents m' c) Cert.ReferenceIdeal.main_arg3 (by decide))).trans a3).trans
      ((Cert.KernelIdeal.Gen.W6_of_ne m ρ c Cert.KernelIdeal.main_arg3 (by decide)).trans kp3).symm
  have h7 : R2 m' c (Proc.devRef .tc Cert.ReferenceIdeal.main_arg7) = Cert.KernelIdeal.Gen.W6 (F := Ideal) m ρ c (Proc.devRef .tc Cert.KernelIdeal.main_arg7) :=
    (((Cert.ReferenceIdeal.RefRun.ops2_keep (R1 m' c) Cert.ReferenceIdeal.main_arg7 (by decide)).trans (Cert.ReferenceIdeal.RefRun.ops1_keep (launchContents m' c) Cert.ReferenceIdeal.main_arg7 (by decide))).trans a7).trans
      ((Cert.KernelIdeal.Gen.W6_of_ne m ρ c Cert.KernelIdeal.main_arg7 (by decide)).trans kp7).symm
  have h8 : R2 m' c (Proc.devRef .tc Cert.ReferenceIdeal.main_arg8) = Cert.KernelIdeal.Gen.W6 (F := Ideal) m ρ c (Proc.devRef .tc Cert.KernelIdeal.main_arg8) :=
    (((Cert.ReferenceIdeal.RefRun.ops2_keep (R1 m' c) Cert.ReferenceIdeal.main_arg8 (by decide)).trans (Cert.ReferenceIdeal.RefRun.ops1_keep (launchContents m' c) Cert.ReferenceIdeal.main_arg8 (by decide))).trans a8).trans
      ((Cert.KernelIdeal.Gen.W6_of_ne m ρ c Cert.KernelIdeal.main_arg8 (by decide)).trans kp8).symm
  have h9 : R2 m' c (Proc.devRef .tc Cert.ReferenceIdeal.main_arg9) = Cert.KernelIdeal.Gen.W6 (F := Ideal) m ρ c (Proc.devRef .tc Cert.KernelIdeal.main_arg9) :=
    (((Cert.ReferenceIdeal.RefRun.ops2_keep (R1 m' c) Cert.ReferenceIdeal.main_arg9 (by decide)).trans (Cert.ReferenceIdeal.RefRun.ops1_keep (launchContents m' c) Cert.ReferenceIdeal.main_arg9 (by decide))).trans a9).trans
      ((Cert.KernelIdeal.Gen.W6_of_ne m ρ c Cert.KernelIdeal.main_arg9 (by decide)).trans kp9).symm
  have h10 : R2 m' c (Proc.devRef .tc Cert.ReferenceIdeal.main_arg10) = Cert.KernelIdeal.Gen.W6 (F := Ideal) m ρ c (Proc.devRef .tc Cert.KernelIdeal.main_arg10) :=
    (((Cert.ReferenceIdeal.RefRun.ops2_keep (R1 m' c) Cert.ReferenceIdeal.main_arg10 (by decide)).trans (Cert.ReferenceIdeal.RefRun.ops1_keep (launchContents m' c) Cert.ReferenceIdeal.main_arg10 (by decide))).trans a10).trans
      ((Cert.KernelIdeal.Gen.W6_of_ne m ρ c Cert.KernelIdeal.main_arg10 (by decide)).trans kp10).symm
  have h11 : R2 m' c (Proc.devRef .tc Cert.ReferenceIdeal.main_arg11) = Cert.KernelIdeal.Gen.W6 (F := Ideal) m ρ c (Proc.devRef .tc Cert.KernelIdeal.main_arg11) :=
    (((Cert.ReferenceIdeal.RefRun.ops2_keep (R1 m' c) Cert.ReferenceIdeal.main_arg11 (by decide)).trans (Cert.ReferenceIdeal.RefRun.ops1_keep (launchContents m' c) Cert.ReferenceIdeal.main_arg11 (by decide))).trans a11).trans
      ((Cert.KernelIdeal.Gen.W6_of_ne m ρ c Cert.KernelIdeal.main_arg11 (by decide)).trans kp11).symm
  have h12 : R2 m' c (Proc.devRef .tc Cert.ReferenceIdeal.main_arg12) = Cert.KernelIdeal.Gen.W6 (F := Ideal) m ρ c (Proc.devRef .tc Cert.KernelIdeal.main_arg12) :=
    (((Cert.ReferenceIdeal.RefRun.ops2_keep (R1 m' c) Cert.ReferenceIdeal.main_arg12 (by decide)).trans (Cert.ReferenceIdeal.RefRun.ops1_keep (launchContents m' c) Cert.ReferenceIdeal.main_arg12 (by decide))).trans a12).trans
      ((Cert.KernelIdeal.Gen.W6_of_ne m ρ c Cert.KernelIdeal.main_arg12 (by decide)).trans kp12).symm
  have h13 : R2 m' c (Proc.devRef .tc Cert.ReferenceIdeal.main_arg13) = Cert.KernelIdeal.Gen.W6 (F := Ideal) m ρ c (Proc.devRef .tc Cert.KernelIdeal.main_arg13) :=
    (((Cert.ReferenceIdeal.RefRun.ops2_keep (R1 m' c) Cert.ReferenceIdeal.main_arg13 (by decide)).trans (Cert.ReferenceIdeal.RefRun.ops1_keep (launchContents m' c) Cert.ReferenceIdeal.main_arg13 (by decide))).trans a13).trans
      ((Cert.KernelIdeal.Gen.W6_of_ne m ρ c Cert.KernelIdeal.main_arg13 (by decide)).trans kp13).symm
  have h14 : R2 m' c (Proc.devRef .tc Cert.ReferenceIdeal.main_arg14) = Cert.KernelIdeal.Gen.W6 (F := Ideal) m ρ c (Proc.devRef .tc Cert.KernelIdeal.main_arg14) :=
    (((Cert.ReferenceIdeal.RefRun.ops2_keep (R1 m' c) Cert.ReferenceIdeal.main_arg14 (by decide)).trans (Cert.ReferenceIdeal.RefRun.ops1_keep (launchContents m' c) Cert.ReferenceIdeal.main_arg14 (by decide))).trans a14).trans
      ((Cert.KernelIdeal.Gen.W6_of_ne m ρ c Cert.KernelIdeal.main_arg14 (by decide)).trans kp14).symm
  have h15 : R2 m' c (Proc.devRef .tc Cert.ReferenceIdeal.main_arg15) = Cert.KernelIdeal.Gen.W6 (F := Ideal) m ρ c (Proc.devRef .tc Cert.KernelIdeal.main_arg15) :=
    (((Cert.ReferenceIdeal.RefRun.ops2_keep (R1 m' c) Cert.ReferenceIdeal.main_arg15 (by decide)).trans (Cert.ReferenceIdeal.RefRun.ops1_keep (launchContents m' c) Cert.ReferenceIdeal.main_arg15 (by decide))).trans a15).trans
      ((Cert.KernelIdeal.Gen.W6_of_ne m ρ c Cert.KernelIdeal.main_arg15 (by decide)).trans kp15).symm
  have h16 : R2 m' c (Proc.devRef .tc Cert.ReferenceIdeal.main_arg16) = Cert.KernelIdeal.Gen.W6 (F := Ideal) m ρ c (Proc.devRef .tc Cert.KernelIdeal.main_arg16) :=
    (((Cert.ReferenceIdeal.RefRun.ops2_keep (R1 m' c) Cert.ReferenceIdeal.main_arg16 (by decide)).trans (Cert.ReferenceIdeal.RefRun.ops1_keep (launchContents m' c) Cert.ReferenceIdeal.main_arg16 (by decide))).trans a16).trans
      ((Cert.KernelIdeal.Gen.W6_of_ne m ρ c Cert.KernelIdeal.main_arg16 (by decide)).trans kp16).symm
  have h17 : R2 m' c (Proc.devRef .tc Cert.ReferenceIdeal.main_arg17) = Cert.KernelIdeal.Gen.W6 (F := Ideal) m ρ c (Proc.devRef .tc Cert.KernelIdeal.main_arg17) :=
    (((Cert.ReferenceIdeal.RefRun.ops2_keep (R1 m' c) Cert.ReferenceIdeal.main_arg17 (by decide)).trans (Cert.ReferenceIdeal.RefRun.ops1_keep (launchContents m' c) Cert.ReferenceIdeal.main_arg17 (by decide))).trans a17).trans
      ((Cert.KernelIdeal.Gen.W6_of_ne m ρ c Cert.KernelIdeal.main_arg17 (by decide)).trans kp17).symm
  have h18 : R2 m' c (Proc.devRef .tc Cert.ReferenceIdeal.main_arg18) = Cert.KernelIdeal.Gen.W6 (F := Ideal) m ρ c (Proc.devRef .tc Cert.KernelIdeal.main_arg18) :=
    (((Cert.ReferenceIdeal.RefRun.ops2_keep (R1 m' c) Cert.ReferenceIdeal.main_arg18 (by decide)).trans (Cert.ReferenceIdeal.RefRun.ops1_keep (launchContents m' c) Cert.ReferenceIdeal.main_arg18 (by decide))).trans a18).trans
      ((Cert.KernelIdeal.Gen.W6_of_ne m ρ c Cert.KernelIdeal.main_arg18 (by decide)).trans kp18).symm
  -- between the two edge attentions the two programs are in step
  obtain ⟨q153, q202, q209, q216⟩ := Cert.Lockstep.mid (Cert.KernelIdeal.Gen.W6 (F := Ideal) m ρ c) (R2 m' c) hw hs hx h2 h3 h7 h8 h9 h10 h11 h12 h13 h14 h15 h16 h17 h18
  have q153 : Cert.KernelIdeal.Gen.W9 (F := Ideal) m ρ c (Proc.devRef .tc Cert.KernelIdeal.main_v153) = R3 m' c (Proc.devRef .tc Cert.ReferenceIdeal.main_v161) := q153
  have q202 : Cert.KernelIdeal.Gen.W9 (F := Ideal) m ρ c (Proc.devRef .tc Cert.KernelIdeal.main_v202) = R3 m' c (Proc.devRef .tc Cert.ReferenceIdeal.main_v210) := q202
  have q209 : Cert.KernelIdeal.Gen.W9 (F := Ideal) m ρ c (Proc.devRef .tc Cert.KernelIdeal.main_v209) = R3 m' c (Proc.devRef .tc Cert.ReferenceIdeal.main_v217) := q209
  have q216 : Cert.KernelIdeal.Gen.W9 (F := Ideal) m ρ c (Proc.devRef .tc Cert.KernelIdeal.main_v216) = R4 m' c (Proc.devRef .tc Cert.ReferenceIdeal.main_v230) := q216
  -- the second edge attention
  have hw2 : R4 m' c (Proc.devRef .tc Cert.ReferenceIdeal.main_v233) = Cert.KernelIdeal.Gen.W10 (F := Ideal) m ρ c (Proc.devRef .tc Cert.KernelIdeal.main_v217_0) := by
    have kw : Cert.KernelIdeal.Gen.W10 (F := Ideal) m ρ c (Proc.devRef .tc Cert.KernelIdeal.main_v217_0)
        = Cert.EdgeSpec.weighted (Cert.KernelIdeal.Gen.W9 (F := Ideal) m ρ c (Proc.devRef .tc Cert.KernelIdeal.main_v202)) (Cert.KernelIdeal.Gen.W9 (F := Ideal) m ρ c (Proc.devRef .tc Cert.KernelIdeal.main_v209)) (Cert.KernelIdeal.Gen.W9 (F := Ideal) m ρ c (Proc.devRef .tc Cert.KernelIdeal.main_v216)) :=
      (Cert.KernelIdeal.Gen.W10_arr m ρ c 3).trans (Cert.KernelIdeal.KerEdge.region1_weighted (Cert.KernelIdeal.Gen.V9 (F := Ideal) m ρ) c)
    have rw' : R4 m' c (Proc.devRef .tc Cert.ReferenceIdeal.main_v233)
        = Cert.EdgeSpec.weighted (R3 m' c (Proc.devRef .tc Cert.ReferenceIdeal.main_v210)) (R3 m' c (Proc.devRef .tc Cert.ReferenceIdeal.main_v217)) (R4 m' c (Proc.devRef .tc Cert.ReferenceIdeal.main_v230)) := by
      show StableHlo.after (Cert.ReferenceIdeal.RefRun.ops4 (F := Ideal)) (R3 m' c) (Proc.devRef .tc Cert.ReferenceIdeal.main_v233)
        = Cert.EdgeSpec.weighted (R3 m' c (Proc.devRef .tc Cert.ReferenceIdeal.main_v210)) (R3 m' c (Proc.devRef .tc Cert.ReferenceIdeal.main_v217)) (StableHlo.after (Cert.ReferenceIdeal.RefRun.ops4 (F := Ideal)) (R3 m' c) (Proc.devRef .tc Cert.ReferenceIdeal.main_v230))
      rw [ops4_eq, Cert.ReferenceIdeal.RefEdge.edge1_weighted, Cert.ReferenceIdeal.RefEdge.weightedChain_eq]
    rw [rw', kw, q202, q209, q216]
  have hs2 : R4 m' c (Proc.devRef .tc Cert.ReferenceIdeal.main_v223) = Cert.KernelIdeal.Gen.W10 (F := Ideal) m ρ c (Proc.devRef .tc Cert.KernelIdeal.main_v217_1) := by
    have ks : Cert.KernelIdeal.Gen.W10 (F := Ideal) m ρ c (Proc.devRef .tc Cert.KernelIdeal.main_v217_1)
        = Cert.EdgeSpec.score (Cert.KernelIdeal.Gen.W9 (F := Ideal) m ρ c (Proc.devRef .tc Cert.KernelIdeal.main_v202)) (Cert.KernelIdeal.Gen.W9 (F := Ideal) m ρ c (Proc.devRef .tc Cert.KernelIdeal.main_v209)) :=
      (Cert.KernelIdeal.Gen.W10_arr m ρ c 4).trans (Cert.KernelIdeal.KerEdge.region1_score (Cert.KernelIdeal.Gen.V9 (F := Ideal) m ρ) c)
    have rs' : R4 m' c (Proc.devRef .tc Cert.ReferenceIdeal.main_v223) = Cert.EdgeSpec.score (R3 m' c (Proc.devRef .tc Cert.ReferenceIdeal.main_v210)) (R3 m' c (Proc.devRef .tc Cert.ReferenceIdeal.main_v217)) := by
      show StableHlo.after (Cert.ReferenceIdeal.RefRun.ops4 (F := Ideal)) (R3 m' c) (Proc.devRef .tc Cert.ReferenceIdeal.main_v223) = _
      rw [ops4_eq, Cert.ReferenceIdeal.RefEdge.edge1_score, Cert.ReferenceIdeal.RefEdge.scoreChain_eq]
    rw [rs', ks, q202, q209]
  have hx2 : R4 m' c (Proc.devRef .tc Cert.ReferenceIdeal.main_v161) = Cert.KernelIdeal.Gen.W10 (F := Ideal) m ρ c (Proc.devRef .tc Cert.KernelIdeal.main_v153) :=
    ((Cert.ReferenceIdeal.RefRun.ops4_keep (R3 m' c) Cert.ReferenceIdeal.main_v161 (by decide)).trans q153.symm).trans (Cert.KernelIdeal.Gen.W10_of_ne m ρ c Cert.KernelIdeal.main_v153 (by decide)).symm
  have g3 : R4 m' c (Proc.devRef .tc Cert.ReferenceIdeal.main_arg3) = Cert.KernelIdeal.Gen.W10 (F := Ideal) m ρ c (Proc.devRef .tc Cert.KernelIdeal.main_arg3) :=
    (((((Cert.ReferenceIdeal.RefRun.ops4_keep (R3 m' c) Cert.ReferenceIdeal.main_arg3 (by decide)).trans (Cert.ReferenceIdeal.RefRun.ops3_keep (R2 m' c) Cert.ReferenceIdeal.main_arg3 (by decide))).trans
        (Cert.ReferenceIdeal.RefRun.ops2_keep (R1 m' c) Cert.ReferenceIdeal.main_arg3 (by decide))).trans (Cert.ReferenceIdeal.RefRun.ops1_keep (launchContents m' c) Cert.ReferenceIdeal.main_arg3 (by decide))).trans a3).trans
      ((((Cert.KernelIdeal.Gen.W10_of_ne m ρ c Cert.KernelIdeal.main_arg3 (by decide)).trans km3).trans (Cert.KernelIdeal.Gen.W6_of_ne m ρ c Cert.KernelIdeal.main_arg3 (by decide))).trans kp3).symm
  have g11 : R4 m' c (Proc.devRef .tc Cert.ReferenceIdeal.main_arg11) = Cert.KernelIdeal.Gen.W10 (F := Ideal) m ρ c (Proc.devRef .tc Cert.KernelIdeal.main_arg11) :=
    (((((Cert.ReferenceIdeal.RefRun.ops4_keep (R3 m' c) Cert.ReferenceIdeal.main_arg11 (by decide)).trans (Cert.ReferenceIdeal.RefRun.ops3_keep (R2 m' c) Cert.ReferenceIdeal.main_arg11 (by decide))).trans
        (Cert.ReferenceIdeal.RefRun.ops2_keep (R1 m' c) Cert.ReferenceIdeal.main_arg11 (by decide))).trans (Cert.ReferenceIdeal.RefRun.ops1_keep (launchContents m' c) Cert.ReferenceIdeal.main_arg11 (by decide))).trans a11).trans
      ((((Cert.KernelIdeal.Gen.W10_of_ne m ρ c Cert.KernelIdeal.main_arg11 (by decide)).trans km11).trans (Cert.KernelIdeal.Gen.W6_of_ne m ρ c Cert.KernelIdeal.main_arg11 (by decide))).trans kp11).symm
  have g12 : R4 m' c (Proc.devRef .tc Cert.ReferenceIdeal.main_arg12) = Cert.KernelIdeal.Gen.W10 (F := Ideal) m ρ c (Proc.devRef .tc Cert.KernelIdeal.main_arg12) :=
    (((((Cert.ReferenceIdeal.RefRun.ops4_keep (R3 m' c) Cert.ReferenceIdeal.main_arg12 (by decide)).trans (Cert.ReferenceIdeal.RefRun.ops3_keep (R2 m' c) Cert.ReferenceIdeal.main_arg12 (by decide))).trans
        (Cert.ReferenceIdeal.RefRun.ops2_keep (R1 m' c) Cert.ReferenceIdeal.main_arg12 (by decide))).trans (Cert.ReferenceIdeal.RefRun.ops1_keep (launchContents m' c) Cert.ReferenceIdeal.main_arg12 (by decide))).trans a12).trans
      ((((Cert.KernelIdeal.Gen.W10_of_ne m ρ c Cert.KernelIdeal.main_arg12 (by decide)).trans km12).trans (Cert.KernelIdeal.Gen.W6_of_ne m ρ c Cert.KernelIdeal.main_arg12 (by decide))).trans kp12).symm
  have g13 : R4 m' c (Proc.devRef .tc Cert.ReferenceIdeal.main_arg13) = Cert.KernelIdeal.Gen.W10 (F := Ideal) m ρ c (Proc.devRef .tc Cert.KernelIdeal.main_arg13) :=
    (((((Cert.ReferenceIdeal.RefRun.ops4_keep (R3 m' c) Cert.ReferenceIdeal.main_arg13 (by decide)).trans (Cert.ReferenceIdeal.RefRun.ops3_keep (R2 m' c) Cert.ReferenceIdeal.main_arg13 (by decide))).trans
        (Cert.ReferenceIdeal.RefRun.ops2_keep (R1 m' c) Cert.ReferenceIdeal.main_arg13 (by decide))).trans (Cert.ReferenceIdeal.RefRun.ops1_keep (launchContents m' c) Cert.ReferenceIdeal.main_arg13 (by decide))).trans a13).trans
      ((((Cert.KernelIdeal.Gen.W10_of_ne m ρ c Cert.KernelIdeal.main_arg13 (by decide)).trans km13).trans (Cert.KernelIdeal.Gen.W6_of_ne m ρ c Cert.KernelIdeal.main_arg13 (by decide))).trans kp13).symm
  have g14 : R4 m' c (Proc.devRef .tc Cert.ReferenceIdeal.main_arg14) = Cert.KernelIdeal.Gen.W10 (F := Ideal) m ρ c (Proc.devRef .tc Cert.KernelIdeal.main_arg14) :=
    (((((Cert.ReferenceIdeal.RefRun.ops4_keep (R3 m' c) Cert.ReferenceIdeal.main_arg14 (by decide)).trans (Cert.ReferenceIdeal.RefRun.ops3_keep (R2 m' c) Cert.ReferenceIdeal.main_arg14 (by decide))).trans
        (Cert.ReferenceIdeal.RefRun.ops2_keep (R1 m' c) Cert.ReferenceIdeal.main_arg14 (by decide))).trans (Cert.ReferenceIdeal.RefRun.ops1_keep (launchContents m' c) Cert.ReferenceIdeal.main_arg14 (by decide))).trans a14).trans
      ((((Cert.KernelIdeal.Gen.W10_of_ne m ρ c Cert.KernelIdeal.main_arg14 (by decide)).trans km14).trans (Cert.KernelIdeal.Gen.W6_of_ne m ρ c Cert.KernelIdeal.main_arg14 (by decide))).trans kp14).symm
  have g15 : R4 m' c (Proc.devRef .tc Cert.ReferenceIdeal.main_arg15) = Cert.KernelIdeal.Gen.W10 (F := Ideal) m ρ c (Proc.devRef .tc Cert.KernelIdeal.main_arg15) :=
    (((((Cert.ReferenceIdeal.RefRun.ops4_keep (R3 m' c) Cert.ReferenceIdeal.main_arg15 (by decide)).trans (Cert.ReferenceIdeal.RefRun.ops3_keep (R2 m' c) Cert.ReferenceIdeal.main_arg15 (by decide))).trans
        (Cert.ReferenceIdeal.RefRun.ops2_keep (R1 m' c) Cert.ReferenceIdeal.main_arg15 (by decide))).trans (Cert.ReferenceIdeal.RefRun.ops1_keep (launchContents m' c) Cert.ReferenceIdeal.main_arg15 (by decide))).trans a15).trans
      ((((Cert.KernelIdeal.Gen.W10_of_ne m ρ c Cert.KernelIdeal.main_arg15 (by decide)).trans km15).trans (Cert.KernelIdeal.Gen.W6_of_ne m ρ c Cert.KernelIdeal.main_arg15 (by decide))).trans kp15).symm
  have g16 : R4 m' c (Proc.devRef .tc Cert.ReferenceIdeal.main_arg16) = Cert.KernelIdeal.Gen.W10 (F := Ideal) m ρ c (Proc.devRef .tc Cert.KernelIdeal.main_arg16) :=
    (((((Cert.ReferenceIdeal.RefRun.ops4_keep (R3 m' c) Cert.ReferenceIdeal.main_arg16 (by decide)).trans (Cert.ReferenceIdeal.RefRun.ops3_keep (R2 m' c) Cert.ReferenceIdeal.main_arg16 (by decide))).trans
        (Cert.ReferenceIdeal.RefRun.ops2_keep (R1 m' c) Cert.ReferenceIdeal.main_arg16 (by decide))).trans (Cert.ReferenceIdeal.RefRun.ops1_keep (launchContents m' c) Cert.ReferenceIdeal.main_arg16 (by decide))).trans a16).trans
      ((((Cert.KernelIdeal.Gen.W10_of_ne m ρ c Cert.KernelIdeal.main_arg16 (by decide)).trans km16).trans (Cert.KernelIdeal.Gen.W6_of_ne m ρ c Cert.KernelIdeal.main_arg16 (by decide))).trans kp16).symm
  have g17 : R4 m' c (Proc.devRef .tc Cert.ReferenceIdeal.main_arg17) = Cert.KernelIdeal.Gen.W10 (F := Ideal) m ρ c (Proc.devRef .tc Cert.KernelIdeal.main_arg17) :=
    (((((Cert.ReferenceIdeal.RefRun.ops4_keep (R3 m' c) Cert.ReferenceIdeal.main_arg17 (by decide)).trans (Cert.ReferenceIdeal.RefRun.ops3_keep (R2 m' c) Cert.ReferenceIdeal.main_arg17 (by decide))).trans
        (Cert.ReferenceIdeal.RefRun.ops2_keep (R1 m' c) Cert.ReferenceIdeal.main_arg17 (by decide))).trans (Cert.ReferenceIdeal.RefRun.ops1_keep (launchContents m' c) Cert.ReferenceIdeal.main_arg17 (by decide))).trans a17).trans
      ((((Cert.KernelIdeal.Gen.W10_of_ne m ρ c Cert.KernelIdeal.main_arg17 (by decide)).trans km17).trans (Cert.KernelIdeal.Gen.W6_of_ne m ρ c Cert.KernelIdeal.main_arg17 (by decide))).trans kp17).symm
  have g18 : R4 m' c (Proc.devRef .tc Cert.ReferenceIdeal.main_arg18) = Cert.KernelIdeal.Gen.W10 (F := Ideal) m ρ c (Proc.devRef .tc Cert.KernelIdeal.main_arg18) :=
    (((((Cert.ReferenceIdeal.RefRun.ops4_keep (R3 m' c) Cert.ReferenceIdeal.main_arg18 (by decide)).trans (Cert.ReferenceIdeal.RefRun.ops3_keep (R2 m' c) Cert.ReferenceIdeal.main_arg18 (by decide))).trans
        (Cert.ReferenceIdeal.RefRun.ops2_keep (R1 m' c) Cert.ReferenceIdeal.main_arg18 (by decide))).trans (Cert.ReferenceIdeal.RefRun.ops1_keep (launchContents m' c) Cert.ReferenceIdeal.main_arg18 (by decide))).trans a18).trans
      ((((Cert.KernelIdeal.Gen.W10_of_ne m ρ c Cert.KernelIdeal.main_arg18 (by decide)).trans km18).trans (Cert.KernelIdeal.Gen.W6_of_ne m ρ c Cert.KernelIdeal.main_arg18 (by decide))).trans kp18).symm
  have g19 : R4 m' c (Proc.devRef .tc Cert.ReferenceIdeal.main_arg19) = Cert.KernelIdeal.Gen.W10 (F := Ideal) m ρ c (Proc.devRef .tc Cert.KernelIdeal.main_arg19) :=
    (((((Cert.ReferenceIdeal.RefRun.ops4_keep (R3 m' c) Cert.ReferenceIdeal.main_arg19 (by decide)).trans (Cert.ReferenceIdeal.RefRun.ops3_keep (R2 m' c) Cert.ReferenceIdeal.main_arg19 (by decide))).trans
        (Cert.ReferenceIdeal.RefRun.ops2_keep (R1 m' c) Cert.ReferenceIdeal.main_arg19 (by decide))).trans (Cert.ReferenceIdeal.RefRun.ops1_keep (launchContents m' c) Cert.ReferenceIdeal.main_arg19 (by decide))).trans a19).trans
      ((((Cert.KernelIdeal.Gen.W10_of_ne m ρ c Cert.KernelIdeal.main_arg19 (by decide)).trans km19).trans (Cert.KernelIdeal.Gen.W6_of_ne m ρ c Cert.KernelIdeal.main_arg19 (by decide))).trans kp19).symm
  have g20 : R4 m' c (Proc.devRef .tc Cert.ReferenceIdeal.main_arg20) = Cert.KernelIdeal.Gen.W10 (F := Ideal) m ρ c (Proc.devRef .tc Cert.KernelIdeal.main_arg20) :=
    (((((Cert.ReferenceIdeal.RefRun.ops4_keep (R3 m' c) Cert.ReferenceIdeal.main_arg20 (by decide)).trans (Cert.ReferenceIdeal.RefRun.ops3_keep (R2 m' c) Cert.ReferenceIdeal.main_arg20 (by decide))).trans
        (Cert.ReferenceIdeal.RefRun.ops2_keep (R1 m' c) Cert.ReferenceIdeal.main_arg20 (by decide))).trans (Cert.ReferenceIdeal.RefRun.ops1_keep (launchContents m' c) Cert.ReferenceIdeal.main_arg20 (by decide))).trans a20).trans
      ((((Cert.KernelIdeal.Gen.W10_of_ne m ρ c Cert.KernelIdeal.main_arg20 (by decide)).trans km20).trans (Cert.KernelIdeal.Gen.W6_of_ne m ρ c Cert.KernelIdeal.main_arg20 (by decide))).trans kp20).symm
  -- after the second edge attention the two programs are in step, to the result
  exact (Cert.Lockstep.post (Cert.KernelIdeal.Gen.W10 (F := Ideal) m ρ c) (R4 m' c) hw2 hs2 hx2 g3 g11 g12 g13 g14 g15 g16 g17 g18 g19 g20).symm

end Cert.Bridge

end
-- ==== Proof.RefPart0.lean ====
/- The operations of the reference program's window main_part0, in order, as a literal list: each printed statement
  without its wrapper, a call replaced by the callee's statements over the call's own buffers. -/
import proofs.«124614_j50809463111778_2_alg».proof.Proof.Gen.ReferenceIdeal
import Idealize.ShloMosaic.Lib.StableHlo.Run

set_option maxRecDepth 8000

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The 96 operations of main_part0, in order, the calls unfolded. -/
abbrev part0 : List (HloOp τ sig (Elt F)) :=
  [ StableHlo.nullary main_c (constantI S_ 32 3#32),
    StableHlo.TRef.unary (.of main_c : StableHlo.TRef sig ⟨S_, .i32⟩) (.of main_call0_v0 : StableHlo.TRef sig ⟨S_, .i32⟩) id,
    StableHlo.TRef.nullary (.of main_call0_c : StableHlo.TRef sig ⟨S_, .i32⟩) (constantI S_ 32 0#32),
    StableHlo.TRef.binary (.of main_call0_v0 : StableHlo.TRef sig ⟨S_, .i32⟩) (.of main_call0_c : StableHlo.TRef sig ⟨S_, .i32⟩) (.of main_call0_v1 : StableHlo.TRef sig ⟨S_, .i1⟩) (cmpi .eq),
    StableHlo.TRef.nullary (.of main_call0_c_0 : StableHlo.TRef sig ⟨S_, .i32⟩) (constantI S_ 32 1#32),
    StableHlo.TRef.ternary (.of main_call0_v1 : StableHlo.TRef sig ⟨S_, .i1⟩) (.of main_call0_c_0 : StableHlo.TRef sig ⟨S_, .i32⟩) (.of main_call0_v0 : StableHlo.TRef sig ⟨S_, .i32⟩) (.of main_call0_v2 : StableHlo.TRef sig ⟨S_, .i32⟩) select,
    StableHlo.TRef.unary (.of main_call0_v2 : StableHlo.TRef sig ⟨S_, .i32⟩) (.of main_call0_v3 : StableHlo.TRef sig ⟨S6144, .i32⟩) (broadcastInDim S6144 ![] bcast_S_S6144),
    StableHlo.TRef.binary (.of main_arg1 : StableHlo.TRef sig ⟨S6144, .i32⟩) (.of main_call0_v3 : StableHlo.TRef sig ⟨S6144, .i32⟩) (.of main_call0_v4 : StableHlo.TRef sig ⟨S6144, .i32⟩) Host.remsi,
    StableHlo.TRef.nullary (.of main_call0_c_1 : StableHlo.TRef sig ⟨S_, .i32⟩) (constantI S_ 32 0#32),
    StableHlo.TRef.unary (.of main_call0_c_1 : StableHlo.TRef sig ⟨S_, .i32⟩) (.of main_call0_v5 : StableHlo.TRef sig ⟨S6144, .i32⟩) (broadcastInDim S6144 ![] bcast_S_S6144),
    StableHlo.TRef.binary (.of main_call0_v4 : StableHlo.TRef sig ⟨S6144, .i32⟩) (.of main_call0_v5 : StableHlo.TRef sig ⟨S6144, .i32⟩) (.of main_call0_v6 : StableHlo.TRef sig ⟨S6144, .i1⟩) (cmpi .ne),
    StableHlo.TRef.nullary (.of main_call0_c_2 : StableHlo.TRef sig ⟨S_, .i32⟩) (constantI S_ 32 0#32),
    StableHlo.TRef.unary (.of main_call0_c_2 : StableHlo.TRef sig ⟨S_, .i32⟩) (.of main_call0_v7 : StableHlo.TRef sig ⟨S6144, .i32⟩) (broadcastInDim S6144 ![] bcast_S_S6144),
    StableHlo.TRef.binary (.of main_call0_v4 : StableHlo.TRef sig ⟨S6144, .i32⟩) (.of main_call0_v7 : StableHlo.TRef sig ⟨S6144, .i32⟩) (.of main_call0_v8 : StableHlo.TRef sig ⟨S6144, .i1⟩) (cmpi .slt),
    StableHlo.TRef.nullary (.of main_call0_c_3 : StableHlo.TRef sig ⟨S_, .i32⟩) (constantI S_ 32 0#32),
    StableHlo.TRef.binary (.of main_call0_v2 : StableHlo.TRef sig ⟨S_, .i32⟩) (.of main_call0_c_3 : StableHlo.TRef sig ⟨S_, .i32⟩) (.of main_call0_v9 : StableHlo.TRef sig ⟨S_, .i1⟩) (cmpi .slt),
    StableHlo.TRef.unary (.of main_call0_v9 : StableHlo.TRef sig ⟨S_, .i1⟩) (.of main_call0_v10 : StableHlo.TRef sig ⟨S6144, .i1⟩) (broadcastInDim S6144 ![] bcast_S_S6144),
    StableHlo.TRef.binary (.of main_call0_v8 : StableHlo.TRef sig ⟨S6144, .i1⟩) (.of main_call0_v10 : StableHlo.TRef sig ⟨S6144, .i1⟩) (.of main_call0_v11 : StableHlo.TRef sig ⟨S6144, .i1⟩) (cmpi .ne),
    StableHlo.TRef.binary (.of main_call0_v11 : StableHlo.TRef sig ⟨S6144, .i1⟩) (.of main_call0_v6 : StableHlo.TRef sig ⟨S6144, .i1⟩) (.of main_call0_v12 : StableHlo.TRef sig ⟨S6144, .i1⟩) andi,
    StableHlo.TRef.unary (.of main_call0_v2 : StableHlo.TRef sig ⟨S_, .i32⟩) (.of main_call0_v13 : StableHlo.TRef sig ⟨S6144, .i32⟩) (broadcastInDim S6144 ![] bcast_S_S6144),
    StableHlo.TRef.binary (.of main_call0_v4 : StableHlo.TRef sig ⟨S6144, .i32⟩) (.of main_call0_v13 : StableHlo.TRef sig ⟨S6144, .i32⟩) (.of main_call0_v14 : StableHlo.TRef sig ⟨S6144, .i32⟩) addi,
    StableHlo.TRef.ternary (.of main_call0_v12 : StableHlo.TRef sig ⟨S6144, .i1⟩) (.of main_call0_v14 : StableHlo.TRef sig ⟨S6144, .i32⟩) (.of main_call0_v4 : StableHlo.TRef sig ⟨S6144, .i32⟩) (.of main_v0 : StableHlo.TRef sig ⟨S6144, .i32⟩) select,
    StableHlo.nullary main_c_0 (constantI S_ 32 0#32),
    StableHlo.unary main_c_0 main_v1 (broadcastInDim S6144 ![] bcast_S_S6144 : (⟨S_, .i32⟩ : BufTy).Contents (Elt F) → (⟨S6144, .i32⟩ : BufTy).Contents (Elt F)),
    StableHlo.binary main_v0 main_v1 main_v2 (cmpi .slt : (⟨S6144, .i32⟩ : BufTy).Contents (Elt F) → (⟨S6144, .i32⟩ : BufTy).Contents (Elt F) → (⟨S6144, .i1⟩ : BufTy).Contents (Elt F)),
    StableHlo.nullary main_c_1 (constantI S_ 32 3#32),
    StableHlo.unary main_c_1 main_v3 (broadcastInDim S6144 ![] bcast_S_S6144 : (⟨S_, .i32⟩ : BufTy).Contents (Elt F) → (⟨S6144, .i32⟩ : BufTy).Contents (Elt F)),
    StableHlo.binary main_v0 main_v3 main_v4 (addi : (⟨S6144, .i32⟩ : BufTy).Contents (Elt F) → (⟨S6144, .i32⟩ : BufTy).Contents (Elt F) → (⟨S6144, .i32⟩ : BufTy).Contents (Elt F)),
    StableHlo.ternary main_v2 main_v4 main_v0 main_v5 (select : (⟨S6144, .i1⟩ : BufTy).Contents (Elt F) → (⟨S6144, .i32⟩ : BufTy).Contents (Elt F) → (⟨S6144, .i32⟩ : BufTy).Contents (Elt F) → (⟨S6144, .i32⟩ : BufTy).Contents (Elt F)),
    StableHlo.unary main_v5 main_v6 (broadcastInDim S6144x1 ![0] bcast_S6144_S6144x1_0 : (⟨S6144, .i32⟩ : BufTy).Contents (Elt F) → (⟨S6144x1, .i32⟩ : BufTy).Contents (Elt F)),
    StableHlo.binary main_arg5 main_v6 main_v7 ((fun x i => Host.gather gather_S3x256_S6144x1_S6144x256_1_0_n_n_0_1_1256 x i) : (⟨S3x256, .f32⟩ : BufTy).Contents (Elt F) → (⟨S6144x1, .i32⟩ : BufTy).Contents (Elt F) → (⟨S6144x256, .f32⟩ : BufTy).Contents (Elt F)),
    StableHlo.nullary main_c_2 (constantI S_ 32 3#32),
    StableHlo.TRef.unary (.of main_c_2 : StableHlo.TRef sig ⟨S_, .i32⟩) (.of main_call1_v0 : StableHlo.TRef sig ⟨S_, .i32⟩) id,
    StableHlo.TRef.unary (.of main_call1_v0 : StableHlo.TRef sig ⟨S_, .i32⟩) (.of main_call1_v1 : StableHlo.TRef sig ⟨S6144, .i32⟩) (broadcastInDim S6144 ![] bcast_S_S6144),
    StableHlo.TRef.binary (.of main_arg1 : StableHlo.TRef sig ⟨S6144, .i32⟩) (.of main_call1_v1 : StableHlo.TRef sig ⟨S6144, .i32⟩) (.of main_call1_v2 : StableHlo.TRef sig ⟨S6144, .i32⟩) Host.divsi,
    StableHlo.TRef.unary (.of main_arg1 : StableHlo.TRef sig ⟨S6144, .i32⟩) (.of main_call1_v3 : StableHlo.TRef sig ⟨S6144, .i32⟩) signi,
    StableHlo.TRef.unary (.of main_call1_v0 : StableHlo.TRef sig ⟨S_, .i32⟩) (.of main_call1_v4 : StableHlo.TRef sig ⟨S_, .i32⟩) signi,
    StableHlo.TRef.unary (.of main_call1_v4 : StableHlo.TRef sig ⟨S_, .i32⟩) (.of main_call1_v5 : StableHlo.TRef sig ⟨S6144, .i32⟩) (broadcastInDim S6144 ![] bcast_S_S6144),
    StableHlo.TRef.binary (.of main_call1_v3 : StableHlo.TRef sig ⟨S6144, .i32⟩) (.of main_call1_v5 : StableHlo.TRef sig ⟨S6144, .i32⟩) (.of main_call1_v6 : StableHlo.TRef sig ⟨S6144, .i1⟩) (cmpi .ne),
    StableHlo.TRef.unary (.of main_call1_v0 : StableHlo.TRef sig ⟨S_, .i32⟩) (.of main_call1_v7 : StableHlo.TRef sig ⟨S6144, .i32⟩) (broadcastInDim S6144 ![] bcast_S_S6144),
    StableHlo.TRef.binary (.of main_arg1 : StableHlo.TRef sig ⟨S6144, .i32⟩) (.of main_call1_v7 : StableHlo.TRef sig ⟨S6144, .i32⟩) (.of main_call1_v8 : StableHlo.TRef sig ⟨S6144, .i32⟩) Host.remsi,
    StableHlo.TRef.nullary (.of main_call1_c : StableHlo.TRef sig ⟨S_, .i32⟩) (constantI S_ 32 0#32),
    StableHlo.TRef.unary (.of main_call1_c : StableHlo.TRef sig ⟨S_, .i32⟩) (.of main_call1_v9 : StableHlo.TRef sig ⟨S6144, .i32⟩) (broadcastInDim S6144 ![] bcast_S_S6144),
    StableHlo.TRef.binary (.of main_call1_v8 : StableHlo.TRef sig ⟨S6144, .i32⟩) (.of main_call1_v9 : StableHlo.TRef sig ⟨S6144, .i32⟩) (.of main_call1_v10 : StableHlo.TRef sig ⟨S6144, .i1⟩) (cmpi .ne),
    StableHlo.TRef.binary (.of main_call1_v6 : StableHlo.TRef sig ⟨S6144, .i1⟩) (.of main_call1_v10 : StableHlo.TRef sig ⟨S6144, .i1⟩) (.of main_call1_v11 : StableHlo.TRef sig ⟨S6144, .i1⟩) andi,
    StableHlo.TRef.nullary (.of main_call1_c_0 : StableHlo.TRef sig ⟨S_, .i32⟩) (constantI S_ 32 1#32),
    StableHlo.TRef.unary (.of main_call1_c_0 : StableHlo.TRef sig ⟨S_, .i32⟩) (.of main_call1_v12 : StableHlo.TRef sig ⟨S6144, .i32⟩) (broadcastInDim S6144 ![] bcast_S_S6144),
    StableHlo.TRef.binary (.of main_call1_v2 : StableHlo.TRef sig ⟨S6144, .i32⟩) (.of main_call1_v12 : StableHlo.TRef sig ⟨S6144, .i32⟩) (.of main_call1_v13 : StableHlo.TRef sig ⟨S6144, .i32⟩) subi,
    StableHlo.TRef.ternary (.of main_call1_v11 : StableHlo.TRef sig ⟨S6144, .i1⟩) (.of main_call1_v13 : StableHlo.TRef sig ⟨S6144, .i32⟩) (.of main_call1_v2 : StableHlo.TRef sig ⟨S6144, .i32⟩) (.of main_v8 : StableHlo.TRef sig ⟨S6144, .i32⟩) select,
    StableHlo.nullary main_c_3 (constantI S_ 32 0#32),
    StableHlo.unary main_c_3 main_v9 (broadcastInDim S6144 ![] bcast_S_S6144 : (⟨S_, .i32⟩ : BufTy).Contents (Elt F) → (⟨S6144, .i32⟩ : BufTy).Contents (Elt F)),
    StableHlo.binary main_v8 main_v9 main_v10 (cmpi .slt : (⟨S6144, .i32⟩ : BufTy).Contents (Elt F) → (⟨S6144, .i32⟩ : BufTy).Contents (Elt F) → (⟨S6144, .i1⟩ : BufTy).Contents (Elt F)),
    StableHlo.nullary main_c_4 (constantI S_ 32 32#32),
    StableHlo.unary main_c_4 main_v11 (broadcastInDim S6144 ![] bcast_S_S6144 : (⟨S_, .i32⟩ : BufTy).Contents (Elt F) → (⟨S6144, .i32⟩ : BufTy).Contents (Elt F)),
    StableHlo.binary main_v8 main_v11 main_v12 (addi : (⟨S6144, .i32⟩ : BufTy).Contents (Elt F) → (⟨S6144, .i32⟩ : BufTy).Contents (Elt F) → (⟨S6144, .i32⟩ : BufTy).Contents (Elt F)),
    StableHlo.ternary main_v10 main_v12 main_v8 main_v13 (select : (⟨S6144, .i1⟩ : BufTy).Contents (Elt F) → (⟨S6144, .i32⟩ : BufTy).Contents (Elt F) → (⟨S6144, .i32⟩ : BufTy).Contents (Elt F) → (⟨S6144, .i32⟩ : BufTy).Contents (Elt F)),
    StableHlo.unary main_v13 main_v14 (broadcastInDim S6144x1 ![0] bcast_S6144_S6144x1_0 : (⟨S6144, .i32⟩ : BufTy).Contents (Elt F) → (⟨S6144x1, .i32⟩ : BufTy).Contents (Elt F)),
    StableHlo.binary main_arg6 main_v14 main_v15 ((fun x i => Host.gather gather_S32x256_S6144x1_S6144x256_1_0_n_n_0_1_1256 x i) : (⟨S32x256, .f32⟩ : BufTy).Contents (Elt F) → (⟨S6144x1, .i32⟩ : BufTy).Contents (Elt F) → (⟨S6144x256, .f32⟩ : BufTy).Contents (Elt F)),
    StableHlo.binary main_v7 main_v15 main_v16 (addf : (⟨S6144x256, .f32⟩ : BufTy).Contents (Elt F) → (⟨S6144x256, .f32⟩ : BufTy).Contents (Elt F) → (⟨S6144x256, .f32⟩ : BufTy).Contents (Elt F)),
    StableHlo.nullary main_c_5 (constantI S_ 32 0#32),
    StableHlo.unary main_c_5 main_v17 (broadcastInDim S6144 ![] bcast_S_S6144 : (⟨S_, .i32⟩ : BufTy).Contents (Elt F) → (⟨S6144, .i32⟩ : BufTy).Contents (Elt F)),
    StableHlo.binary main_arg0 main_v17 main_v18 (cmpi .slt : (⟨S6144, .i32⟩ : BufTy).Contents (Elt F) → (⟨S6144, .i32⟩ : BufTy).Contents (Elt F) → (⟨S6144, .i1⟩ : BufTy).Contents (Elt F)),
    StableHlo.nullary main_c_6 (constantI S_ 32 1024#32),
    StableHlo.unary main_c_6 main_v19 (broadcastInDim S6144 ![] bcast_S_S6144 : (⟨S_, .i32⟩ : BufTy).Contents (Elt F) → (⟨S6144, .i32⟩ : BufTy).Contents (Elt F)),
    StableHlo.binary main_arg0 main_v19 main_v20 (addi : (⟨S6144, .i32⟩ : BufTy).Contents (Elt F) → (⟨S6144, .i32⟩ : BufTy).Contents (Elt F) → (⟨S6144, .i32⟩ : BufTy).Contents (Elt F)),
    StableHlo.ternary main_v18 main_v20 main_arg0 main_v21 (select : (⟨S6144, .i1⟩ : BufTy).Contents (Elt F) → (⟨S6144, .i32⟩ : BufTy).Contents (Elt F) → (⟨S6144, .i32⟩ : BufTy).Contents (Elt F) → (⟨S6144, .i32⟩ : BufTy).Contents (Elt F)),
    StableHlo.unary main_v21 main_v22 (broadcastInDim S6144x1 ![0] bcast_S6144_S6144x1_0 : (⟨S6144, .i32⟩ : BufTy).Contents (Elt F) → (⟨S6144x1, .i32⟩ : BufTy).Contents (Elt F)),
    StableHlo.binary main_arg4 main_v22 main_v23 ((fun x i => Host.gather gather_S1024x256_S6144x1_S6144x256_1_0_n_n_0_1_1256 x i) : (⟨S1024x256, .f32⟩ : BufTy).Contents (Elt F) → (⟨S6144x1, .i32⟩ : BufTy).Contents (Elt F) → (⟨S6144x256, .f32⟩ : BufTy).Contents (Elt F)),
    StableHlo.binary main_v16 main_v23 main_v24 (addf : (⟨S6144x256, .f32⟩ : BufTy).Contents (Elt F) → (⟨S6144x256, .f32⟩ : BufTy).Contents (Elt F) → (⟨S6144x256, .f32⟩ : BufTy).Contents (Elt F)),
    StableHlo.unary main_arg7 main_v25 ((extractStridedSlice S1x256 ![0, 0] · slices_S2x256_S1x256_0_0) : (⟨S2x256, .f32⟩ : BufTy).Contents (Elt F) → (⟨S1x256, .f32⟩ : BufTy).Contents (Elt F)),
    StableHlo.reshape main_v25 main_v26 rfl shapeCasts_S1x256_S256,
    StableHlo.unary main_arg8 main_v27 ((extractStridedSlice S1x256 ![0, 0] · slices_S2x256_S1x256_0_0) : (⟨S2x256, .f32⟩ : BufTy).Contents (Elt F) → (⟨S1x256, .f32⟩ : BufTy).Contents (Elt F)),
    StableHlo.reshape main_v27 main_v28 rfl shapeCasts_S1x256_S256,
    StableHlo.nullary main_cst (constant S_ .f32 0x00000000#32),
    StableHlo.binary main_v24 main_cst main_v29 ((fun x v => Host.reduceAdd x v reducesTo_S6144x256_S6144_d1 h_S_) : (⟨S6144x256, .f32⟩ : BufTy).Contents (Elt F) → (⟨S_, .f32⟩ : BufTy).Contents (Elt F) → (⟨S6144, .f32⟩ : BufTy).Contents (Elt F)),
    StableHlo.unary main_v29 main_v30 (broadcastInDim S6144x1 ![0] bcast_S6144_S6144x1_0 : (⟨S6144, .f32⟩ : BufTy).Contents (Elt F) → (⟨S6144x1, .f32⟩ : BufTy).Contents (Elt F)),
    StableHlo.nullary main_cst_7 (constant S_ .f32 0x43800000#32),
    StableHlo.unary main_cst_7 main_v31 (broadcastInDim S6144x1 ![] bcast_S_S6144x1 : (⟨S_, .f32⟩ : BufTy).Contents (Elt F) → (⟨S6144x1, .f32⟩ : BufTy).Contents (Elt F)),
    StableHlo.binary main_v30 main_v31 main_v32 (Host.divf : (⟨S6144x1, .f32⟩ : BufTy).Contents (Elt F) → (⟨S6144x1, .f32⟩ : BufTy).Contents (Elt F) → (⟨S6144x1, .f32⟩ : BufTy).Contents (Elt F)),
    StableHlo.unary main_v32 main_v33 (broadcastInDim S6144x256 ![0, 1] bcast_S6144x1_S6144x256_0_1 : (⟨S6144x1, .f32⟩ : BufTy).Contents (Elt F) → (⟨S6144x256, .f32⟩ : BufTy).Contents (Elt F)),
    StableHlo.binary main_v24 main_v33 main_v34 (subf : (⟨S6144x256, .f32⟩ : BufTy).Contents (Elt F) → (⟨S6144x256, .f32⟩ : BufTy).Contents (Elt F) → (⟨S6144x256, .f32⟩ : BufTy).Contents (Elt F)),
    StableHlo.binary main_v34 main_v34 main_v35 (mulf : (⟨S6144x256, .f32⟩ : BufTy).Contents (Elt F) → (⟨S6144x256, .f32⟩ : BufTy).Contents (Elt F) → (⟨S6144x256, .f32⟩ : BufTy).Contents (Elt F)),
    StableHlo.nullary main_cst_8 (constant S_ .f32 0x00000000#32),
    StableHlo.binary main_v35 main_cst_8 main_v36 ((fun x v => Host.reduceAdd x v reducesTo_S6144x256_S6144_d1 h_S_) : (⟨S6144x256, .f32⟩ : BufTy).Contents (Elt F) → (⟨S_, .f32⟩ : BufTy).Contents (Elt F) → (⟨S6144, .f32⟩ : BufTy).Contents (Elt F)),
    StableHlo.unary main_v36 main_v37 (broadcastInDim S6144x1 ![0] bcast_S6144_S6144x1_0 : (⟨S6144, .f32⟩ : BufTy).Contents (Elt F) → (⟨S6144x1, .f32⟩ : BufTy).Contents (Elt F)),
    StableHlo.nullary main_cst_9 (constant S_ .f32 0x43800000#32),
    StableHlo.unary main_cst_9 main_v38 (broadcastInDim S6144x1 ![] bcast_S_S6144x1 : (⟨S_, .f32⟩ : BufTy).Contents (Elt F) → (⟨S6144x1, .f32⟩ : BufTy).Contents (Elt F)),
    StableHlo.binary main_v37 main_v38 main_v39 (Host.divf : (⟨S6144x1, .f32⟩ : BufTy).Contents (Elt F) → (⟨S6144x1, .f32⟩ : BufTy).Contents (Elt F) → (⟨S6144x1, .f32⟩ : BufTy).Contents (Elt F)),
    StableHlo.unary main_v32 main_v40 (broadcastInDim S6144x256 ![0, 1] bcast_S6144x1_S6144x256_0_1 : (⟨S6144x1, .f32⟩ : BufTy).Contents (Elt F) → (⟨S6144x256, .f32⟩ : BufTy).Contents (Elt F)),
    StableHlo.binary main_v24 main_v40 main_v41 (subf : (⟨S6144x256, .f32⟩ : BufTy).Contents (Elt F) → (⟨S6144x256, .f32⟩ : BufTy).Contents (Elt F) → (⟨S6144x256, .f32⟩ : BufTy).Contents (Elt F)),
    StableHlo.nullary main_cst_10 (constant S_ .f32 0x3727C5AC#32),
    StableHlo.unary main_cst_10 main_v42 (broadcastInDim S6144x1 ![] bcast_S_S6144x1 : (⟨S_, .f32⟩ : BufTy).Contents (Elt F) → (⟨S6144x1, .f32⟩ : BufTy).Contents (Elt F)),
    StableHlo.binary main_v39 main_v42 main_v43 (addf : (⟨S6144x1, .f32⟩ : BufTy).Contents (Elt F) → (⟨S6144x1, .f32⟩ : BufTy).Contents (Elt F) → (⟨S6144x1, .f32⟩ : BufTy).Contents (Elt F)),
    StableHlo.unary main_v43 main_v44 (Host.rsqrt : (⟨S6144x1, .f32⟩ : BufTy).Contents (Elt F) → (⟨S6144x1, .f32⟩ : BufTy).Contents (Elt F)),
    StableHlo.unary main_v44 main_v45 (broadcastInDim S6144x256 ![0, 1] bcast_S6144x1_S6144x256_0_1 : (⟨S6144x1, .f32⟩ : BufTy).Contents (Elt F) → (⟨S6144x256, .f32⟩ : BufTy).Contents (Elt F)),
    StableHlo.binary main_v41 main_v45 main_v46 (mulf : (⟨S6144x256, .f32⟩ : BufTy).Contents (Elt F) → (⟨S6144x256, .f32⟩ : BufTy).Contents (Elt F) → (⟨S6144x256, .f32⟩ : BufTy).Contents (Elt F)) ]

end Cert.ReferenceIdeal.RefRun

end
-- ==== Proof.RefPartEq0.lean ====
/-
  The window main_part0 of the reference program is the straight line of its operations: the program text and the list
  `part0` are the same chain of steps once each called function is unfolded at its call and sequencing is re-associated to the right.
-/
import proofs.«124614_j50809463111778_2_alg».proof.Proof.RefPart0

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

-- one bind per operation is re-associated: the rewriting under the chain recurses once per operation
set_option maxRecDepth 16384 in
set_option maxHeartbeats 4000000 in
/-- The window is its list run in order: the called functions' definitions unfolded at their calls (`fn_remainder.body`, `fn_where.body`, `fn_floor_divide.body`, `fn_where_0.body`), the window's definition unfolded, every bind moved to the right
    (`bind_assoc`, `pure_bind`), both sides are one chain of `hlo` steps ending in the return. -/
theorem main_part0_eq (c : Dev nD) : main_part0 (F := F) c = seq part0 := by
  simp only [main_part0, fn_remainder.body, fn_where.body, fn_floor_divide.body, fn_where_0.body, seq, bind_assoc, pure_bind]
  rfl

end Cert.ReferenceIdeal.RefRun

end
-- ==== Proof.RefPart1.lean ====
/- The operations of the reference program's window main_part1, in order, as a literal list: each printed statement
  without its wrapper, a call replaced by the callee's statements over the call's own buffers. -/
import proofs.«124614_j50809463111778_2_alg».proof.Proof.Gen.ReferenceIdeal
import Idealize.ShloMosaic.Lib.StableHlo.Run

set_option maxRecDepth 8000

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The 65 operations of main_part1, in order, the calls unfolded. -/
abbrev part1 : List (HloOp τ sig (Elt F)) :=
  [ StableHlo.unary main_v26 main_v47 (broadcastInDim S1x256 ![1] bcast_S256_S1x256_1 : (⟨S256, .f32⟩ : BufTy).Contents (Elt F) → (⟨S1x256, .f32⟩ : BufTy).Contents (Elt F)),
    StableHlo.unary main_v47 main_v48 (broadcastInDim S6144x256 ![0, 1] bcast_S1x256_S6144x256_0_1 : (⟨S1x256, .f32⟩ : BufTy).Contents (Elt F) → (⟨S6144x256, .f32⟩ : BufTy).Contents (Elt F)),
    StableHlo.binary main_v46 main_v48 main_v49 (mulf : (⟨S6144x256, .f32⟩ : BufTy).Contents (Elt F) → (⟨S6144x256, .f32⟩ : BufTy).Contents (Elt F) → (⟨S6144x256, .f32⟩ : BufTy).Contents (Elt F)),
    StableHlo.unary main_v28 main_v50 (broadcastInDim S1x256 ![1] bcast_S256_S1x256_1 : (⟨S256, .f32⟩ : BufTy).Contents (Elt F) → (⟨S1x256, .f32⟩ : BufTy).Contents (Elt F)),
    StableHlo.unary main_v50 main_v51 (broadcastInDim S6144x256 ![0, 1] bcast_S1x256_S6144x256_0_1 : (⟨S1x256, .f32⟩ : BufTy).Contents (Elt F) → (⟨S6144x256, .f32⟩ : BufTy).Contents (Elt F)),
    StableHlo.binary main_v49 main_v51 main_v52 (addf : (⟨S6144x256, .f32⟩ : BufTy).Contents (Elt F) → (⟨S6144x256, .f32⟩ : BufTy).Contents (Elt F) → (⟨S6144x256, .f32⟩ : BufTy).Contents (Elt F)),
    StableHlo.unary main_arg9 main_v53 ((extractStridedSlice S1x256x768 ![0, 0, 0] · slices_S2x256x768_S1x256x768_0_0_0) : (⟨S2x256x768, .f32⟩ : BufTy).Contents (Elt F) → (⟨S1x256x768, .f32⟩ : BufTy).Contents (Elt F)),
    StableHlo.reshape main_v53 main_v54 rfl shapeCasts_S1x256x768_S256x768,
    StableHlo.binary main_v52 main_v54 main_v55 ((fun l r => Host.dotGeneral dot_S6144x256_S256x768_S6144x768_1_0_0_1_n_n none l r) : (⟨S6144x256, .f32⟩ : BufTy).Contents (Elt F) → (⟨S256x768, .f32⟩ : BufTy).Contents (Elt F) → (⟨S6144x768, .f32⟩ : BufTy).Contents (Elt F)),
    StableHlo.unary main_arg10 main_v56 ((extractStridedSlice S1x768 ![0, 0] · slices_S2x768_S1x768_0_0) : (⟨S2x768, .f32⟩ : BufTy).Contents (Elt F) → (⟨S1x768, .f32⟩ : BufTy).Contents (Elt F)),
    StableHlo.reshape main_v56 main_v57 rfl shapeCasts_S1x768_S768,
    StableHlo.unary main_v57 main_v58 (broadcastInDim S1x768 ![1] bcast_S768_S1x768_1 : (⟨S768, .f32⟩ : BufTy).Contents (Elt F) → (⟨S1x768, .f32⟩ : BufTy).Contents (Elt F)),
    StableHlo.unary main_v58 main_v59 (broadcastInDim S6144x768 ![0, 1] bcast_S1x768_S6144x768_0_1 : (⟨S1x768, .f32⟩ : BufTy).Contents (Elt F) → (⟨S6144x768, .f32⟩ : BufTy).Contents (Elt F)),
    StableHlo.binary main_v55 main_v59 main_v60 (addf : (⟨S6144x768, .f32⟩ : BufTy).Contents (Elt F) → (⟨S6144x768, .f32⟩ : BufTy).Contents (Elt F) → (⟨S6144x768, .f32⟩ : BufTy).Contents (Elt F)),
    StableHlo.unary main_v60 main_v61 ((extractStridedSlice S6144x256 ![0, 0] · slices_S6144x768_S6144x256_0_0) : (⟨S6144x768, .f32⟩ : BufTy).Contents (Elt F) → (⟨S6144x256, .f32⟩ : BufTy).Contents (Elt F)),
    StableHlo.unary main_v60 main_v62 ((extractStridedSlice S6144x256 ![0, 256] · slices_S6144x768_S6144x256_0_256) : (⟨S6144x768, .f32⟩ : BufTy).Contents (Elt F) → (⟨S6144x256, .f32⟩ : BufTy).Contents (Elt F)),
    StableHlo.unary main_v60 main_v63 ((extractStridedSlice S6144x256 ![0, 512] · slices_S6144x768_S6144x256_0_512) : (⟨S6144x768, .f32⟩ : BufTy).Contents (Elt F) → (⟨S6144x256, .f32⟩ : BufTy).Contents (Elt F)),
    StableHlo.reshape main_v61 main_v64 rfl shapeCasts_S6144x256_S6144x8x32,
    StableHlo.reshape main_v62 main_v65 rfl shapeCasts_S6144x256_S6144x8x32,
    StableHlo.reshape main_v63 main_v66 rfl shapeCasts_S6144x256_S6144x8x32,
    StableHlo.nullary main_c_11 (constantI S_ 32 0#32),
    StableHlo.unary main_c_11 main_v67 (broadcastInDim S297984 ![] bcast_S_S297984 : (⟨S_, .i32⟩ : BufTy).Contents (Elt F) → (⟨S297984, .i32⟩ : BufTy).Contents (Elt F)),
    StableHlo.binary main_arg2 main_v67 main_v68 (cmpi .slt : (⟨S297984, .i32⟩ : BufTy).Contents (Elt F) → (⟨S297984, .i32⟩ : BufTy).Contents (Elt F) → (⟨S297984, .i1⟩ : BufTy).Contents (Elt F)),
    StableHlo.nullary main_c_12 (constantI S_ 32 6144#32),
    StableHlo.unary main_c_12 main_v69 (broadcastInDim S297984 ![] bcast_S_S297984 : (⟨S_, .i32⟩ : BufTy).Contents (Elt F) → (⟨S297984, .i32⟩ : BufTy).Contents (Elt F)),
    StableHlo.binary main_arg2 main_v69 main_v70 (addi : (⟨S297984, .i32⟩ : BufTy).Contents (Elt F) → (⟨S297984, .i32⟩ : BufTy).Contents (Elt F) → (⟨S297984, .i32⟩ : BufTy).Contents (Elt F)),
    StableHlo.ternary main_v68 main_v70 main_arg2 main_v71 (select : (⟨S297984, .i1⟩ : BufTy).Contents (Elt F) → (⟨S297984, .i32⟩ : BufTy).Contents (Elt F) → (⟨S297984, .i32⟩ : BufTy).Contents (Elt F) → (⟨S297984, .i32⟩ : BufTy).Contents (Elt F)),
    StableHlo.unary main_v71 main_v72 (broadcastInDim S297984x1 ![0] bcast_S297984_S297984x1_0 : (⟨S297984, .i32⟩ : BufTy).Contents (Elt F) → (⟨S297984x1, .i32⟩ : BufTy).Contents (Elt F)),
    StableHlo.binary main_v65 main_v72 main_v73 ((fun x i => Host.gather gather_S6144x8x32_S297984x1_S297984x8x32_12_0_n_n_0_1_1832 x i) : (⟨S6144x8x32, .f32⟩ : BufTy).Contents (Elt F) → (⟨S297984x1, .i32⟩ : BufTy).Contents (Elt F) → (⟨S297984x8x32, .f32⟩ : BufTy).Contents (Elt F)),
    StableHlo.nullary main_c_13 (constantI S_ 32 0#32),
    StableHlo.unary main_c_13 main_v74 (broadcastInDim S297984 ![] bcast_S_S297984 : (⟨S_, .i32⟩ : BufTy).Contents (Elt F) → (⟨S297984, .i32⟩ : BufTy).Contents (Elt F)),
    StableHlo.binary main_arg3 main_v74 main_v75 (cmpi .slt : (⟨S297984, .i32⟩ : BufTy).Contents (Elt F) → (⟨S297984, .i32⟩ : BufTy).Contents (Elt F) → (⟨S297984, .i1⟩ : BufTy).Contents (Elt F)),
    StableHlo.nullary main_c_14 (constantI S_ 32 6144#32),
    StableHlo.unary main_c_14 main_v76 (broadcastInDim S297984 ![] bcast_S_S297984 : (⟨S_, .i32⟩ : BufTy).Contents (Elt F) → (⟨S297984, .i32⟩ : BufTy).Contents (Elt F)),
    StableHlo.binary main_arg3 main_v76 main_v77 (addi : (⟨S297984, .i32⟩ : BufTy).Contents (Elt F) → (⟨S297984, .i32⟩ : BufTy).Contents (Elt F) → (⟨S297984, .i32⟩ : BufTy).Contents (Elt F)),
    StableHlo.ternary main_v75 main_v77 main_arg3 main_v78 (select : (⟨S297984, .i1⟩ : BufTy).Contents (Elt F) → (⟨S297984, .i32⟩ : BufTy).Contents (Elt F) → (⟨S297984, .i32⟩ : BufTy).Contents (Elt F) → (⟨S297984, .i32⟩ : BufTy).Contents (Elt F)),
    StableHlo.unary main_v78 main_v79 (broadcastInDim S297984x1 ![0] bcast_S297984_S297984x1_0 : (⟨S297984, .i32⟩ : BufTy).Contents (Elt F) → (⟨S297984x1, .i32⟩ : BufTy).Contents (Elt F)),
    StableHlo.binary main_v64 main_v79 main_v80 ((fun x i => Host.gather gather_S6144x8x32_S297984x1_S297984x8x32_12_0_n_n_0_1_1832 x i) : (⟨S6144x8x32, .f32⟩ : BufTy).Contents (Elt F) → (⟨S297984x1, .i32⟩ : BufTy).Contents (Elt F) → (⟨S297984x8x32, .f32⟩ : BufTy).Contents (Elt F)),
    StableHlo.binary main_v73 main_v80 main_v81 (mulf : (⟨S297984x8x32, .f32⟩ : BufTy).Contents (Elt F) → (⟨S297984x8x32, .f32⟩ : BufTy).Contents (Elt F) → (⟨S297984x8x32, .f32⟩ : BufTy).Contents (Elt F)),
    StableHlo.nullary main_cst_15 (constant S_ .f32 0x00000000#32),
    StableHlo.binary main_v81 main_cst_15 main_v82 ((fun x v => Host.reduceAdd x v reducesTo_S297984x8x32_S297984x8_d2 h_S_) : (⟨S297984x8x32, .f32⟩ : BufTy).Contents (Elt F) → (⟨S_, .f32⟩ : BufTy).Contents (Elt F) → (⟨S297984x8, .f32⟩ : BufTy).Contents (Elt F)),
    StableHlo.nullary main_cst_16 (constant S_ .f32 0x40B504F3#32),
    StableHlo.unary main_cst_16 main_v83 (broadcastInDim S297984x8 ![] bcast_S_S297984x8 : (⟨S_, .f32⟩ : BufTy).Contents (Elt F) → (⟨S297984x8, .f32⟩ : BufTy).Contents (Elt F)),
    StableHlo.binary main_v82 main_v83 main_v84 (Host.divf : (⟨S297984x8, .f32⟩ : BufTy).Contents (Elt F) → (⟨S297984x8, .f32⟩ : BufTy).Contents (Elt F) → (⟨S297984x8, .f32⟩ : BufTy).Contents (Elt F)),
    StableHlo.nullary main_cst_17 (constant S_ .f32 0xC0A00000#32),
    StableHlo.nullary main_cst_18 (constant S_ .f32 0x40A00000#32),
    StableHlo.TRef.unary (.of main_cst_17 : StableHlo.TRef sig ⟨S_, .f32⟩) (.of main_call2_v0 : StableHlo.TRef sig ⟨S_, .f32⟩) id,
    StableHlo.TRef.unary (.of main_call2_v0 : StableHlo.TRef sig ⟨S_, .f32⟩) (.of main_call2_v1 : StableHlo.TRef sig ⟨S297984x8, .f32⟩) (broadcastInDim S297984x8 ![] bcast_S_S297984x8),
    StableHlo.TRef.binary (.of main_call2_v1 : StableHlo.TRef sig ⟨S297984x8, .f32⟩) (.of main_v84 : StableHlo.TRef sig ⟨S297984x8, .f32⟩) (.of main_call2_v2 : StableHlo.TRef sig ⟨S297984x8, .f32⟩) maximumf,
    StableHlo.TRef.unary (.of main_cst_18 : StableHlo.TRef sig ⟨S_, .f32⟩) (.of main_call2_v3 : StableHlo.TRef sig ⟨S_, .f32⟩) id,
    StableHlo.TRef.unary (.of main_call2_v3 : StableHlo.TRef sig ⟨S_, .f32⟩) (.of main_call2_v4 : StableHlo.TRef sig ⟨S297984x8, .f32⟩) (broadcastInDim S297984x8 ![] bcast_S_S297984x8),
    StableHlo.TRef.binary (.of main_call2_v4 : StableHlo.TRef sig ⟨S297984x8, .f32⟩) (.of main_call2_v2 : StableHlo.TRef sig ⟨S297984x8, .f32⟩) (.of main_v85 : StableHlo.TRef sig ⟨S297984x8, .f32⟩) minimumf,
    StableHlo.unary main_v85 main_v86 (Host.exp : (⟨S297984x8, .f32⟩ : BufTy).Contents (Elt F) → (⟨S297984x8, .f32⟩ : BufTy).Contents (Elt F)),
    StableHlo.nullary main_c_19 (constantI S_ 32 0#32),
    StableHlo.unary main_c_19 main_v87 (broadcastInDim S297984 ![] bcast_S_S297984 : (⟨S_, .i32⟩ : BufTy).Contents (Elt F) → (⟨S297984, .i32⟩ : BufTy).Contents (Elt F)),
    StableHlo.binary main_arg2 main_v87 main_v88 (cmpi .slt : (⟨S297984, .i32⟩ : BufTy).Contents (Elt F) → (⟨S297984, .i32⟩ : BufTy).Contents (Elt F) → (⟨S297984, .i1⟩ : BufTy).Contents (Elt F)),
    StableHlo.nullary main_c_20 (constantI S_ 32 6144#32),
    StableHlo.unary main_c_20 main_v89 (broadcastInDim S297984 ![] bcast_S_S297984 : (⟨S_, .i32⟩ : BufTy).Contents (Elt F) → (⟨S297984, .i32⟩ : BufTy).Contents (Elt F)),
    StableHlo.binary main_arg2 main_v89 main_v90 (addi : (⟨S297984, .i32⟩ : BufTy).Contents (Elt F) → (⟨S297984, .i32⟩ : BufTy).Contents (Elt F) → (⟨S297984, .i32⟩ : BufTy).Contents (Elt F)),
    StableHlo.ternary main_v88 main_v90 main_arg2 main_v91 (select : (⟨S297984, .i1⟩ : BufTy).Contents (Elt F) → (⟨S297984, .i32⟩ : BufTy).Contents (Elt F) → (⟨S297984, .i32⟩ : BufTy).Contents (Elt F) → (⟨S297984, .i32⟩ : BufTy).Contents (Elt F)),
    StableHlo.unary main_v91 main_v92 (broadcastInDim S297984x1 ![0] bcast_S297984_S297984x1_0 : (⟨S297984, .i32⟩ : BufTy).Contents (Elt F) → (⟨S297984x1, .i32⟩ : BufTy).Contents (Elt F)),
    StableHlo.binary main_v66 main_v92 main_v93 ((fun x i => Host.gather gather_S6144x8x32_S297984x1_S297984x8x32_12_0_n_n_0_1_1832 x i) : (⟨S6144x8x32, .f32⟩ : BufTy).Contents (Elt F) → (⟨S297984x1, .i32⟩ : BufTy).Contents (Elt F) → (⟨S297984x8x32, .f32⟩ : BufTy).Contents (Elt F)),
    StableHlo.unary main_v86 main_v94 (broadcastInDim S297984x8x1 ![0, 1] bcast_S297984x8_S297984x8x1_0_1 : (⟨S297984x8, .f32⟩ : BufTy).Contents (Elt F) → (⟨S297984x8x1, .f32⟩ : BufTy).Contents (Elt F)),
    StableHlo.unary main_v94 main_v95 (broadcastInDim S297984x8x32 ![0, 1, 2] bcast_S297984x8x1_S297984x8x32_0_1_2 : (⟨S297984x8x1, .f32⟩ : BufTy).Contents (Elt F) → (⟨S297984x8x32, .f32⟩ : BufTy).Contents (Elt F)),
    StableHlo.binary main_v93 main_v95 main_v96 (mulf : (⟨S297984x8x32, .f32⟩ : BufTy).Contents (Elt F) → (⟨S297984x8x32, .f32⟩ : BufTy).Contents (Elt F) → (⟨S297984x8x32, .f32⟩ : BufTy).Contents (Elt F)) ]

end Cert.ReferenceIdeal.RefRun

end
-- ==== Proof.RefPartEq1.lean ====
/-
  The window main_part1 of the reference program is the straight line of its operations: the program text and the list
  `part1` are the same chain of steps once each called function is unfolded at its call and sequencing is re-associated to the right.
-/
import proofs.«124614_j50809463111778_2_alg».proof.Proof.RefPart1

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

-- one bind per operation is re-associated: the rewriting under the chain recurses once per operation
set_option maxRecDepth 16384 in
set_option maxHeartbeats 4000000 in
/-- The window is its list run in order: the called functions' definitions unfolded at their calls (`fn_clip.body`), the window's definition unfolded, every bind moved to the right
    (`bind_assoc`, `pure_bind`), both sides are one chain of `hlo` steps ending in the return. -/
theorem main_part1_eq (c : Dev nD) : main_part1 (F := F) c = seq part1 := by
  simp only [main_part1, fn_clip.body, seq, bind_assoc, pure_bind]
  rfl

end Cert.ReferenceIdeal.RefRun

end
-- ==== Proof.RefPart2.lean ====
/- The operations of the reference program's window main_part2, in order, as a literal list: each printed statement
  without its wrapper, a call replaced by the callee's statements over the call's own buffers. -/
import proofs.«124614_j50809463111778_2_alg».proof.Proof.Gen.ReferenceIdeal
import Idealize.ShloMosaic.Lib.StableHlo.Run

set_option maxRecDepth 8000

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The 60 operations of main_part2, in order, the calls unfolded. -/
abbrev part2 : List (HloOp τ sig (Elt F)) :=
  [ StableHlo.nullary main_cst_21 (constant S_ .f32 0x00000000#32),
    StableHlo.unary main_cst_21 main_v97 (broadcastInDim S6144x8x32 ![] bcast_S_S6144x8x32 : (⟨S_, .f32⟩ : BufTy).Contents (Elt F) → (⟨S6144x8x32, .f32⟩ : BufTy).Contents (Elt F)),
    StableHlo.unary main_arg3 main_v98 (broadcastInDim S297984x1 ![0] bcast_S297984_S297984x1_0 : (⟨S297984, .i32⟩ : BufTy).Contents (Elt F) → (⟨S297984x1, .i32⟩ : BufTy).Contents (Elt F)),
    StableHlo.ternary main_v97 main_v98 main_v96 main_v99 ((fun x i u => Host.scatterAdd scatter_S6144x8x32_S297984x1_S297984x8x32_12_0_0_1 x i u) : (⟨S6144x8x32, .f32⟩ : BufTy).Contents (Elt F) → (⟨S297984x1, .i32⟩ : BufTy).Contents (Elt F) → (⟨S297984x8x32, .f32⟩ : BufTy).Contents (Elt F) → (⟨S6144x8x32, .f32⟩ : BufTy).Contents (Elt F)),
    StableHlo.nullary main_cst_22 (constant S_ .f32 0x00000000#32),
    StableHlo.unary main_cst_22 main_v100 (broadcastInDim S6144x8 ![] bcast_S_S6144x8 : (⟨S_, .f32⟩ : BufTy).Contents (Elt F) → (⟨S6144x8, .f32⟩ : BufTy).Contents (Elt F)),
    StableHlo.unary main_arg3 main_v101 (broadcastInDim S297984x1 ![0] bcast_S297984_S297984x1_0 : (⟨S297984, .i32⟩ : BufTy).Contents (Elt F) → (⟨S297984x1, .i32⟩ : BufTy).Contents (Elt F)),
    StableHlo.ternary main_v100 main_v101 main_v86 main_v102 ((fun x i u => Host.scatterAdd scatter_S6144x8_S297984x1_S297984x8_1_0_0_1 x i u) : (⟨S6144x8, .f32⟩ : BufTy).Contents (Elt F) → (⟨S297984x1, .i32⟩ : BufTy).Contents (Elt F) → (⟨S297984x8, .f32⟩ : BufTy).Contents (Elt F) → (⟨S6144x8, .f32⟩ : BufTy).Contents (Elt F)),
    StableHlo.unary main_v102 main_v103 (broadcastInDim S6144x8x1 ![0, 1] bcast_S6144x8_S6144x8x1_0_1 : (⟨S6144x8, .f32⟩ : BufTy).Contents (Elt F) → (⟨S6144x8x1, .f32⟩ : BufTy).Contents (Elt F)),
    StableHlo.unary main_v103 main_v104 (broadcastInDim S6144x8x32 ![0, 1, 2] bcast_S6144x8x1_S6144x8x32_0_1_2 : (⟨S6144x8x1, .f32⟩ : BufTy).Contents (Elt F) → (⟨S6144x8x32, .f32⟩ : BufTy).Contents (Elt F)),
    StableHlo.binary main_v99 main_v104 main_v105 (Host.divf : (⟨S6144x8x32, .f32⟩ : BufTy).Contents (Elt F) → (⟨S6144x8x32, .f32⟩ : BufTy).Contents (Elt F) → (⟨S6144x8x32, .f32⟩ : BufTy).Contents (Elt F)),
    StableHlo.reshape main_v105 main_v106 rfl shapeCasts_S6144x8x32_S6144x256,
    StableHlo.unary main_arg11 main_v107 ((extractStridedSlice S1x256x256 ![0, 0, 0] · slices_S2x256x256_S1x256x256_0_0_0) : (⟨S2x256x256, .f32⟩ : BufTy).Contents (Elt F) → (⟨S1x256x256, .f32⟩ : BufTy).Contents (Elt F)),
    StableHlo.reshape main_v107 main_v108 rfl shapeCasts_S1x256x256_S256x256,
    StableHlo.binary main_v106 main_v108 main_v109 ((fun l r => Host.dotGeneral dot_S6144x256_S256x256_S6144x256_1_0_0_1_n_n none l r) : (⟨S6144x256, .f32⟩ : BufTy).Contents (Elt F) → (⟨S256x256, .f32⟩ : BufTy).Contents (Elt F) → (⟨S6144x256, .f32⟩ : BufTy).Contents (Elt F)),
    StableHlo.binary main_v24 main_v109 main_v110 (addf : (⟨S6144x256, .f32⟩ : BufTy).Contents (Elt F) → (⟨S6144x256, .f32⟩ : BufTy).Contents (Elt F) → (⟨S6144x256, .f32⟩ : BufTy).Contents (Elt F)),
    StableHlo.unary main_arg12 main_v111 ((extractStridedSlice S1x256 ![0, 0] · slices_S2x256_S1x256_0_0) : (⟨S2x256, .f32⟩ : BufTy).Contents (Elt F) → (⟨S1x256, .f32⟩ : BufTy).Contents (Elt F)),
    StableHlo.reshape main_v111 main_v112 rfl shapeCasts_S1x256_S256,
    StableHlo.unary main_v112 main_v113 (broadcastInDim S1x256 ![1] bcast_S256_S1x256_1 : (⟨S256, .f32⟩ : BufTy).Contents (Elt F) → (⟨S1x256, .f32⟩ : BufTy).Contents (Elt F)),
    StableHlo.unary main_v113 main_v114 (broadcastInDim S6144x256 ![0, 1] bcast_S1x256_S6144x256_0_1 : (⟨S1x256, .f32⟩ : BufTy).Contents (Elt F) → (⟨S6144x256, .f32⟩ : BufTy).Contents (Elt F)),
    StableHlo.binary main_v110 main_v114 main_v115 (addf : (⟨S6144x256, .f32⟩ : BufTy).Contents (Elt F) → (⟨S6144x256, .f32⟩ : BufTy).Contents (Elt F) → (⟨S6144x256, .f32⟩ : BufTy).Contents (Elt F)),
    StableHlo.unary main_arg13 main_v116 ((extractStridedSlice S1x256 ![0, 0] · slices_S2x256_S1x256_0_0) : (⟨S2x256, .f32⟩ : BufTy).Contents (Elt F) → (⟨S1x256, .f32⟩ : BufTy).Contents (Elt F)),
    StableHlo.reshape main_v116 main_v117 rfl shapeCasts_S1x256_S256,
    StableHlo.unary main_arg14 main_v118 ((extractStridedSlice S1x256 ![0, 0] · slices_S2x256_S1x256_0_0) : (⟨S2x256, .f32⟩ : BufTy).Contents (Elt F) → (⟨S1x256, .f32⟩ : BufTy).Contents (Elt F)),
    StableHlo.reshape main_v118 main_v119 rfl shapeCasts_S1x256_S256,
    StableHlo.nullary main_cst_23 (constant S_ .f32 0x00000000#32),
    StableHlo.binary main_v115 main_cst_23 main_v120 ((fun x v => Host.reduceAdd x v reducesTo_S6144x256_S6144_d1 h_S_) : (⟨S6144x256, .f32⟩ : BufTy).Contents (Elt F) → (⟨S_, .f32⟩ : BufTy).Contents (Elt F) → (⟨S6144, .f32⟩ : BufTy).Contents (Elt F)),
    StableHlo.unary main_v120 main_v121 (broadcastInDim S6144x1 ![0] bcast_S6144_S6144x1_0 : (⟨S6144, .f32⟩ : BufTy).Contents (Elt F) → (⟨S6144x1, .f32⟩ : BufTy).Contents (Elt F)),
    StableHlo.nullary main_cst_24 (constant S_ .f32 0x43800000#32),
    StableHlo.unary main_cst_24 main_v122 (broadcastInDim S6144x1 ![] bcast_S_S6144x1 : (⟨S_, .f32⟩ : BufTy).Contents (Elt F) → (⟨S6144x1, .f32⟩ : BufTy).Contents (Elt F)),
    StableHlo.binary main_v121 main_v122 main_v123 (Host.divf : (⟨S6144x1, .f32⟩ : BufTy).Contents (Elt F) → (⟨S6144x1, .f32⟩ : BufTy).Contents (Elt F) → (⟨S6144x1, .f32⟩ : BufTy).Contents (Elt F)),
    StableHlo.unary main_v123 main_v124 (broadcastInDim S6144x256 ![0, 1] bcast_S6144x1_S6144x256_0_1 : (⟨S6144x1, .f32⟩ : BufTy).Contents (Elt F) → (⟨S6144x256, .f32⟩ : BufTy).Contents (Elt F)),
    StableHlo.binary main_v115 main_v124 main_v125 (subf : (⟨S6144x256, .f32⟩ : BufTy).Contents (Elt F) → (⟨S6144x256, .f32⟩ : BufTy).Contents (Elt F) → (⟨S6144x256, .f32⟩ : BufTy).Contents (Elt F)),
    StableHlo.binary main_v125 main_v125 main_v126 (mulf : (⟨S6144x256, .f32⟩ : BufTy).Contents (Elt F) → (⟨S6144x256, .f32⟩ : BufTy).Contents (Elt F) → (⟨S6144x256, .f32⟩ : BufTy).Contents (Elt F)),
    StableHlo.nullary main_cst_25 (constant S_ .f32 0x00000000#32),
    StableHlo.binary main_v126 main_cst_25 main_v127 ((fun x v => Host.reduceAdd x v reducesTo_S6144x256_S6144_d1 h_S_) : (⟨S6144x256, .f32⟩ : BufTy).Contents (Elt F) → (⟨S_, .f32⟩ : BufTy).Contents (Elt F) → (⟨S6144, .f32⟩ : BufTy).Contents (Elt F)),
    StableHlo.unary main_v127 main_v128 (broadcastInDim S6144x1 ![0] bcast_S6144_S6144x1_0 : (⟨S6144, .f32⟩ : BufTy).Contents (Elt F) → (⟨S6144x1, .f32⟩ : BufTy).Contents (Elt F)),
    StableHlo.nullary main_cst_26 (constant S_ .f32 0x43800000#32),
    StableHlo.unary main_cst_26 main_v129 (broadcastInDim S6144x1 ![] bcast_S_S6144x1 : (⟨S_, .f32⟩ : BufTy).Contents (Elt F) → (⟨S6144x1, .f32⟩ : BufTy).Contents (Elt F)),
    StableHlo.binary main_v128 main_v129 main_v130 (Host.divf : (⟨S6144x1, .f32⟩ : BufTy).Contents (Elt F) → (⟨S6144x1, .f32⟩ : BufTy).Contents (Elt F) → (⟨S6144x1, .f32⟩ : BufTy).Contents (Elt F)),
    StableHlo.unary main_v123 main_v131 (broadcastInDim S6144x256 ![0, 1] bcast_S6144x1_S6144x256_0_1 : (⟨S6144x1, .f32⟩ : BufTy).Contents (Elt F) → (⟨S6144x256, .f32⟩ : BufTy).Contents (Elt F)),
    StableHlo.binary main_v115 main_v131 main_v132 (subf : (⟨S6144x256, .f32⟩ : BufTy).Contents (Elt F) → (⟨S6144x256, .f32⟩ : BufTy).Contents (Elt F) → (⟨S6144x256, .f32⟩ : BufTy).Contents (Elt F)),
    StableHlo.nullary main_cst_27 (constant S_ .f32 0x3727C5AC#32),
    StableHlo.unary main_cst_27 main_v133 (broadcastInDim S6144x1 ![] bcast_S_S6144x1 : (⟨S_, .f32⟩ : BufTy).Contents (Elt F) → (⟨S6144x1, .f32⟩ : BufTy).Contents (Elt F)),
    StableHlo.binary main_v130 main_v133 main_v134 (addf : (⟨S6144x1, .f32⟩ : BufTy).Contents (Elt F) → (⟨S6144x1, .f32⟩ : BufTy).Contents (Elt F) → (⟨S6144x1, .f32⟩ : BufTy).Contents (Elt F)),
    StableHlo.unary main_v134 main_v135 (Host.rsqrt : (⟨S6144x1, .f32⟩ : BufTy).Contents (Elt F) → (⟨S6144x1, .f32⟩ : BufTy).Contents (Elt F)),
    StableHlo.unary main_v135 main_v136 (broadcastInDim S6144x256 ![0, 1] bcast_S6144x1_S6144x256_0_1 : (⟨S6144x1, .f32⟩ : BufTy).Contents (Elt F) → (⟨S6144x256, .f32⟩ : BufTy).Contents (Elt F)),
    StableHlo.binary main_v132 main_v136 main_v137 (mulf : (⟨S6144x256, .f32⟩ : BufTy).Contents (Elt F) → (⟨S6144x256, .f32⟩ : BufTy).Contents (Elt F) → (⟨S6144x256, .f32⟩ : BufTy).Contents (Elt F)),
    StableHlo.unary main_v117 main_v138 (broadcastInDim S1x256 ![1] bcast_S256_S1x256_1 : (⟨S256, .f32⟩ : BufTy).Contents (Elt F) → (⟨S1x256, .f32⟩ : BufTy).Contents (Elt F)),
    StableHlo.unary main_v138 main_v139 (broadcastInDim S6144x256 ![0, 1] bcast_S1x256_S6144x256_0_1 : (⟨S1x256, .f32⟩ : BufTy).Contents (Elt F) → (⟨S6144x256, .f32⟩ : BufTy).Contents (Elt F)),
    StableHlo.binary main_v137 main_v139 main_v140 (mulf : (⟨S6144x256, .f32⟩ : BufTy).Contents (Elt F) → (⟨S6144x256, .f32⟩ : BufTy).Contents (Elt F) → (⟨S6144x256, .f32⟩ : BufTy).Contents (Elt F)),
    StableHlo.unary main_v119 main_v141 (broadcastInDim S1x256 ![1] bcast_S256_S1x256_1 : (⟨S256, .f32⟩ : BufTy).Contents (Elt F) → (⟨S1x256, .f32⟩ : BufTy).Contents (Elt F)),
    StableHlo.unary main_v141 main_v142 (broadcastInDim S6144x256 ![0, 1] bcast_S1x256_S6144x256_0_1 : (⟨S1x256, .f32⟩ : BufTy).Contents (Elt F) → (⟨S6144x256, .f32⟩ : BufTy).Contents (Elt F)),
    StableHlo.binary main_v140 main_v142 main_v143 (addf : (⟨S6144x256, .f32⟩ : BufTy).Contents (Elt F) → (⟨S6144x256, .f32⟩ : BufTy).Contents (Elt F) → (⟨S6144x256, .f32⟩ : BufTy).Contents (Elt F)),
    StableHlo.unary main_arg15 main_v144 ((extractStridedSlice S1x256x1024 ![0, 0, 0] · slices_S2x256x1024_S1x256x1024_0_0_0) : (⟨S2x256x1024, .f32⟩ : BufTy).Contents (Elt F) → (⟨S1x256x1024, .f32⟩ : BufTy).Contents (Elt F)),
    StableHlo.reshape main_v144 main_v145 rfl shapeCasts_S1x256x1024_S256x1024,
    StableHlo.binary main_v143 main_v145 main_v146 ((fun l r => Host.dotGeneral dot_S6144x256_S256x1024_S6144x1024_1_0_0_1_n_n none l r) : (⟨S6144x256, .f32⟩ : BufTy).Contents (Elt F) → (⟨S256x1024, .f32⟩ : BufTy).Contents (Elt F) → (⟨S6144x1024, .f32⟩ : BufTy).Contents (Elt F)),
    StableHlo.unary main_arg16 main_v147 ((extractStridedSlice S1x1024 ![0, 0] · slices_S2x1024_S1x1024_0_0) : (⟨S2x1024, .f32⟩ : BufTy).Contents (Elt F) → (⟨S1x1024, .f32⟩ : BufTy).Contents (Elt F)),
    StableHlo.reshape main_v147 main_v148 rfl shapeCasts_S1x1024_S1024,
    StableHlo.unary main_v148 main_v149 (broadcastInDim S1x1024 ![1] bcast_S1024_S1x1024_1 : (⟨S1024, .f32⟩ : BufTy).Contents (Elt F) → (⟨S1x1024, .f32⟩ : BufTy).Contents (Elt F)) ]

end Cert.ReferenceIdeal.RefRun

end
-- ==== Proof.RefPartEq2.lean ====
/-
  The window main_part2 of the reference program is the straight line of its operations: the program text and the list
  `part2` are the same chain of steps once sequencing is re-associated to the right.
-/
import proofs.«124614_j50809463111778_2_alg».proof.Proof.RefPart2

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

-- one bind per operation is re-associated: the rewriting under the chain recurses once per operation
set_option maxRecDepth 16384 in
set_option maxHeartbeats 4000000 in
/-- The window is its list run in order: the window's definition unfolded, every bind moved to the right
    (`bind_assoc`, `pure_bind`), both sides are one chain of `hlo` steps ending in the return. -/
theorem main_part2_eq (c : Dev nD) : main_part2 (F := F) c = seq part2 := by
  simp only [main_part2, seq, bind_assoc, pure_bind]
  rfl

end Cert.ReferenceIdeal.RefRun

end
-- ==== Proof.RefPart3.lean ====
/- The operations of the reference program's window main_part3, in order, as a literal list: each printed statement
  without its wrapper, a call replaced by the callee's statements over the call's own buffers. -/
import proofs.«124614_j50809463111778_2_alg».proof.Proof.Gen.ReferenceIdeal
import Idealize.ShloMosaic.Lib.StableHlo.Run

set_option maxRecDepth 8000

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The 62 operations of main_part3, in order, the calls unfolded. -/
abbrev part3 : List (HloOp τ sig (Elt F)) :=
  [ StableHlo.unary main_v149 main_v150 (broadcastInDim S6144x1024 ![0, 1] bcast_S1x1024_S6144x1024_0_1 : (⟨S1x1024, .f32⟩ : BufTy).Contents (Elt F) → (⟨S6144x1024, .f32⟩ : BufTy).Contents (Elt F)),
    StableHlo.binary main_v146 main_v150 main_v151 (addf : (⟨S6144x1024, .f32⟩ : BufTy).Contents (Elt F) → (⟨S6144x1024, .f32⟩ : BufTy).Contents (Elt F) → (⟨S6144x1024, .f32⟩ : BufTy).Contents (Elt F)),
    StableHlo.TRef.nullary (.of main_call3_cst : StableHlo.TRef sig ⟨S_, .f32⟩) (constant S_ .f32 0x00000000#32),
    StableHlo.TRef.unary (.of main_call3_cst : StableHlo.TRef sig ⟨S_, .f32⟩) (.of main_call3_v0 : StableHlo.TRef sig ⟨S6144x1024, .f32⟩) (broadcastInDim S6144x1024 ![] bcast_S_S6144x1024),
    StableHlo.TRef.binary (.of main_v151 : StableHlo.TRef sig ⟨S6144x1024, .f32⟩) (.of main_call3_v0 : StableHlo.TRef sig ⟨S6144x1024, .f32⟩) (.of main_v152 : StableHlo.TRef sig ⟨S6144x1024, .f32⟩) maximumf,
    StableHlo.unary main_arg17 main_v153 ((extractStridedSlice S1x1024x256 ![0, 0, 0] · slices_S2x1024x256_S1x1024x256_0_0_0) : (⟨S2x1024x256, .f32⟩ : BufTy).Contents (Elt F) → (⟨S1x1024x256, .f32⟩ : BufTy).Contents (Elt F)),
    StableHlo.reshape main_v153 main_v154 rfl shapeCasts_S1x1024x256_S1024x256,
    StableHlo.binary main_v152 main_v154 main_v155 ((fun l r => Host.dotGeneral dot_S6144x1024_S1024x256_S6144x256_1_0_0_1_n_n none l r) : (⟨S6144x1024, .f32⟩ : BufTy).Contents (Elt F) → (⟨S1024x256, .f32⟩ : BufTy).Contents (Elt F) → (⟨S6144x256, .f32⟩ : BufTy).Contents (Elt F)),
    StableHlo.binary main_v115 main_v155 main_v156 (addf : (⟨S6144x256, .f32⟩ : BufTy).Contents (Elt F) → (⟨S6144x256, .f32⟩ : BufTy).Contents (Elt F) → (⟨S6144x256, .f32⟩ : BufTy).Contents (Elt F)),
    StableHlo.unary main_arg18 main_v157 ((extractStridedSlice S1x256 ![0, 0] · slices_S2x256_S1x256_0_0) : (⟨S2x256, .f32⟩ : BufTy).Contents (Elt F) → (⟨S1x256, .f32⟩ : BufTy).Contents (Elt F)),
    StableHlo.reshape main_v157 main_v158 rfl shapeCasts_S1x256_S256,
    StableHlo.unary main_v158 main_v159 (broadcastInDim S1x256 ![1] bcast_S256_S1x256_1 : (⟨S256, .f32⟩ : BufTy).Contents (Elt F) → (⟨S1x256, .f32⟩ : BufTy).Contents (Elt F)),
    StableHlo.unary main_v159 main_v160 (broadcastInDim S6144x256 ![0, 1] bcast_S1x256_S6144x256_0_1 : (⟨S1x256, .f32⟩ : BufTy).Contents (Elt F) → (⟨S6144x256, .f32⟩ : BufTy).Contents (Elt F)),
    StableHlo.binary main_v156 main_v160 main_v161 (addf : (⟨S6144x256, .f32⟩ : BufTy).Contents (Elt F) → (⟨S6144x256, .f32⟩ : BufTy).Contents (Elt F) → (⟨S6144x256, .f32⟩ : BufTy).Contents (Elt F)),
    StableHlo.unary main_arg7 main_v162 ((extractStridedSlice S1x256 ![1, 0] · slices_S2x256_S1x256_1_0) : (⟨S2x256, .f32⟩ : BufTy).Contents (Elt F) → (⟨S1x256, .f32⟩ : BufTy).Contents (Elt F)),
    StableHlo.reshape main_v162 main_v163 rfl shapeCasts_S1x256_S256,
    StableHlo.unary main_arg8 main_v164 ((extractStridedSlice S1x256 ![1, 0] · slices_S2x256_S1x256_1_0) : (⟨S2x256, .f32⟩ : BufTy).Contents (Elt F) → (⟨S1x256, .f32⟩ : BufTy).Contents (Elt F)),
    StableHlo.reshape main_v164 main_v165 rfl shapeCasts_S1x256_S256,
    StableHlo.nullary main_cst_28 (constant S_ .f32 0x00000000#32),
    StableHlo.binary main_v161 main_cst_28 main_v166 ((fun x v => Host.reduceAdd x v reducesTo_S6144x256_S6144_d1 h_S_) : (⟨S6144x256, .f32⟩ : BufTy).Contents (Elt F) → (⟨S_, .f32⟩ : BufTy).Contents (Elt F) → (⟨S6144, .f32⟩ : BufTy).Contents (Elt F)),
    StableHlo.unary main_v166 main_v167 (broadcastInDim S6144x1 ![0] bcast_S6144_S6144x1_0 : (⟨S6144, .f32⟩ : BufTy).Contents (Elt F) → (⟨S6144x1, .f32⟩ : BufTy).Contents (Elt F)),
    StableHlo.nullary main_cst_29 (constant S_ .f32 0x43800000#32),
    StableHlo.unary main_cst_29 main_v168 (broadcastInDim S6144x1 ![] bcast_S_S6144x1 : (⟨S_, .f32⟩ : BufTy).Contents (Elt F) → (⟨S6144x1, .f32⟩ : BufTy).Contents (Elt F)),
    StableHlo.binary main_v167 main_v168 main_v169 (Host.divf : (⟨S6144x1, .f32⟩ : BufTy).Contents (Elt F) → (⟨S6144x1, .f32⟩ : BufTy).Contents (Elt F) → (⟨S6144x1, .f32⟩ : BufTy).Contents (Elt F)),
    StableHlo.unary main_v169 main_v170 (broadcastInDim S6144x256 ![0, 1] bcast_S6144x1_S6144x256_0_1 : (⟨S6144x1, .f32⟩ : BufTy).Contents (Elt F) → (⟨S6144x256, .f32⟩ : BufTy).Contents (Elt F)),
    StableHlo.binary main_v161 main_v170 main_v171 (subf : (⟨S6144x256, .f32⟩ : BufTy).Contents (Elt F) → (⟨S6144x256, .f32⟩ : BufTy).Contents (Elt F) → (⟨S6144x256, .f32⟩ : BufTy).Contents (Elt F)),
    StableHlo.binary main_v171 main_v171 main_v172 (mulf : (⟨S6144x256, .f32⟩ : BufTy).Contents (Elt F) → (⟨S6144x256, .f32⟩ : BufTy).Contents (Elt F) → (⟨S6144x256, .f32⟩ : BufTy).Contents (Elt F)),
    StableHlo.nullary main_cst_30 (constant S_ .f32 0x00000000#32),
    StableHlo.binary main_v172 main_cst_30 main_v173 ((fun x v => Host.reduceAdd x v reducesTo_S6144x256_S6144_d1 h_S_) : (⟨S6144x256, .f32⟩ : BufTy).Contents (Elt F) → (⟨S_, .f32⟩ : BufTy).Contents (Elt F) → (⟨S6144, .f32⟩ : BufTy).Contents (Elt F)),
    StableHlo.unary main_v173 main_v174 (broadcastInDim S6144x1 ![0] bcast_S6144_S6144x1_0 : (⟨S6144, .f32⟩ : BufTy).Contents (Elt F) → (⟨S6144x1, .f32⟩ : BufTy).Contents (Elt F)),
    StableHlo.nullary main_cst_31 (constant S_ .f32 0x43800000#32),
    StableHlo.unary main_cst_31 main_v175 (broadcastInDim S6144x1 ![] bcast_S_S6144x1 : (⟨S_, .f32⟩ : BufTy).Contents (Elt F) → (⟨S6144x1, .f32⟩ : BufTy).Contents (Elt F)),
    StableHlo.binary main_v174 main_v175 main_v176 (Host.divf : (⟨S6144x1, .f32⟩ : BufTy).Contents (Elt F) → (⟨S6144x1, .f32⟩ : BufTy).Contents (Elt F) → (⟨S6144x1, .f32⟩ : BufTy).Contents (Elt F)),
    StableHlo.unary main_v169 main_v177 (broadcastInDim S6144x256 ![0, 1] bcast_S6144x1_S6144x256_0_1 : (⟨S6144x1, .f32⟩ : BufTy).Contents (Elt F) → (⟨S6144x256, .f32⟩ : BufTy).Contents (Elt F)),
    StableHlo.binary main_v161 main_v177 main_v178 (subf : (⟨S6144x256, .f32⟩ : BufTy).Contents (Elt F) → (⟨S6144x256, .f32⟩ : BufTy).Contents (Elt F) → (⟨S6144x256, .f32⟩ : BufTy).Contents (Elt F)),
    StableHlo.nullary main_cst_32 (constant S_ .f32 0x3727C5AC#32),
    StableHlo.unary main_cst_32 main_v179 (broadcastInDim S6144x1 ![] bcast_S_S6144x1 : (⟨S_, .f32⟩ : BufTy).Contents (Elt F) → (⟨S6144x1, .f32⟩ : BufTy).Contents (Elt F)),
    StableHlo.binary main_v176 main_v179 main_v180 (addf : (⟨S6144x1, .f32⟩ : BufTy).Contents (Elt F) → (⟨S6144x1, .f32⟩ : BufTy).Contents (Elt F) → (⟨S6144x1, .f32⟩ : BufTy).Contents (Elt F)),
    StableHlo.unary main_v180 main_v181 (Host.rsqrt : (⟨S6144x1, .f32⟩ : BufTy).Contents (Elt F) → (⟨S6144x1, .f32⟩ : BufTy).Contents (Elt F)),
    StableHlo.unary main_v181 main_v182 (broadcastInDim S6144x256 ![0, 1] bcast_S6144x1_S6144x256_0_1 : (⟨S6144x1, .f32⟩ : BufTy).Contents (Elt F) → (⟨S6144x256, .f32⟩ : BufTy).Contents (Elt F)),
    StableHlo.binary main_v178 main_v182 main_v183 (mulf : (⟨S6144x256, .f32⟩ : BufTy).Contents (Elt F) → (⟨S6144x256, .f32⟩ : BufTy).Contents (Elt F) → (⟨S6144x256, .f32⟩ : BufTy).Contents (Elt F)),
    StableHlo.unary main_v163 main_v184 (broadcastInDim S1x256 ![1] bcast_S256_S1x256_1 : (⟨S256, .f32⟩ : BufTy).Contents (Elt F) → (⟨S1x256, .f32⟩ : BufTy).Contents (Elt F)),
    StableHlo.unary main_v184 main_v185 (broadcastInDim S6144x256 ![0, 1] bcast_S1x256_S6144x256_0_1 : (⟨S1x256, .f32⟩ : BufTy).Contents (Elt F) → (⟨S6144x256, .f32⟩ : BufTy).Contents (Elt F)),
    StableHlo.binary main_v183 main_v185 main_v186 (mulf : (⟨S6144x256, .f32⟩ : BufTy).Contents (Elt F) → (⟨S6144x256, .f32⟩ : BufTy).Contents (Elt F) → (⟨S6144x256, .f32⟩ : BufTy).Contents (Elt F)),
    StableHlo.unary main_v165 main_v187 (broadcastInDim S1x256 ![1] bcast_S256_S1x256_1 : (⟨S256, .f32⟩ : BufTy).Contents (Elt F) → (⟨S1x256, .f32⟩ : BufTy).Contents (Elt F)),
    StableHlo.unary main_v187 main_v188 (broadcastInDim S6144x256 ![0, 1] bcast_S1x256_S6144x256_0_1 : (⟨S1x256, .f32⟩ : BufTy).Contents (Elt F) → (⟨S6144x256, .f32⟩ : BufTy).Contents (Elt F)),
    StableHlo.binary main_v186 main_v188 main_v189 (addf : (⟨S6144x256, .f32⟩ : BufTy).Contents (Elt F) → (⟨S6144x256, .f32⟩ : BufTy).Contents (Elt F) → (⟨S6144x256, .f32⟩ : BufTy).Contents (Elt F)),
    StableHlo.unary main_arg9 main_v190 ((extractStridedSlice S1x256x768 ![1, 0, 0] · slices_S2x256x768_S1x256x768_1_0_0) : (⟨S2x256x768, .f32⟩ : BufTy).Contents (Elt F) → (⟨S1x256x768, .f32⟩ : BufTy).Contents (Elt F)),
    StableHlo.reshape main_v190 main_v191 rfl shapeCasts_S1x256x768_S256x768,
    StableHlo.binary main_v189 main_v191 main_v192 ((fun l r => Host.dotGeneral dot_S6144x256_S256x768_S6144x768_1_0_0_1_n_n none l r) : (⟨S6144x256, .f32⟩ : BufTy).Contents (Elt F) → (⟨S256x768, .f32⟩ : BufTy).Contents (Elt F) → (⟨S6144x768, .f32⟩ : BufTy).Contents (Elt F)),
    StableHlo.unary main_arg10 main_v193 ((extractStridedSlice S1x768 ![1, 0] · slices_S2x768_S1x768_1_0) : (⟨S2x768, .f32⟩ : BufTy).Contents (Elt F) → (⟨S1x768, .f32⟩ : BufTy).Contents (Elt F)),
    StableHlo.reshape main_v193 main_v194 rfl shapeCasts_S1x768_S768,
    StableHlo.unary main_v194 main_v195 (broadcastInDim S1x768 ![1] bcast_S768_S1x768_1 : (⟨S768, .f32⟩ : BufTy).Contents (Elt F) → (⟨S1x768, .f32⟩ : BufTy).Contents (Elt F)),
    StableHlo.unary main_v195 main_v196 (broadcastInDim S6144x768 ![0, 1] bcast_S1x768_S6144x768_0_1 : (⟨S1x768, .f32⟩ : BufTy).Contents (Elt F) → (⟨S6144x768, .f32⟩ : BufTy).Contents (Elt F)),
    StableHlo.binary main_v192 main_v196 main_v197 (addf : (⟨S6144x768, .f32⟩ : BufTy).Contents (Elt F) → (⟨S6144x768, .f32⟩ : BufTy).Contents (Elt F) → (⟨S6144x768, .f32⟩ : BufTy).Contents (Elt F)),
    StableHlo.unary main_v197 main_v198 ((extractStridedSlice S6144x256 ![0, 0] · slices_S6144x768_S6144x256_0_0) : (⟨S6144x768, .f32⟩ : BufTy).Contents (Elt F) → (⟨S6144x256, .f32⟩ : BufTy).Contents (Elt F)),
    StableHlo.unary main_v197 main_v199 ((extractStridedSlice S6144x256 ![0, 256] · slices_S6144x768_S6144x256_0_256) : (⟨S6144x768, .f32⟩ : BufTy).Contents (Elt F) → (⟨S6144x256, .f32⟩ : BufTy).Contents (Elt F)),
    StableHlo.unary main_v197 main_v200 ((extractStridedSlice S6144x256 ![0, 512] · slices_S6144x768_S6144x256_0_512) : (⟨S6144x768, .f32⟩ : BufTy).Contents (Elt F) → (⟨S6144x256, .f32⟩ : BufTy).Contents (Elt F)),
    StableHlo.reshape main_v198 main_v201 rfl shapeCasts_S6144x256_S6144x8x32,
    StableHlo.reshape main_v199 main_v202 rfl shapeCasts_S6144x256_S6144x8x32,
    StableHlo.reshape main_v200 main_v203 rfl shapeCasts_S6144x256_S6144x8x32,
    StableHlo.nullary main_c_33 (constantI S_ 32 0#32) ]

end Cert.ReferenceIdeal.RefRun

end
-- ==== Proof.RefPartEq3.lean ====
/-
  The window main_part3 of the reference program is the straight line of its operations: the program text and the list
  `part3` are the same chain of steps once each called function is unfolded at its call and sequencing is re-associated to the right.
-/
import proofs.«124614_j50809463111778_2_alg».proof.Proof.RefPart3

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

-- one bind per operation is re-associated: the rewriting under the chain recurses once per operation
set_option maxRecDepth 16384 in
set_option maxHeartbeats 4000000 in
/-- The window is its list run in order: the called functions' definitions unfolded at their calls (`fn_relu.body`), the window's definition unfolded, every bind moved to the right
    (`bind_assoc`, `pure_bind`), both sides are one chain of `hlo` steps ending in the return. -/
theorem main_part3_eq (c : Dev nD) : main_part3 (F := F) c = seq part3 := by
  simp only [main_part3, fn_relu.body, seq, bind_assoc, pure_bind]
  rfl

end Cert.ReferenceIdeal.RefRun

end
-- ==== Proof.RefPart4.lean ====
/- The operations of the reference program's window main_part4, in order, as a literal list: each printed statement
  without its wrapper, a call replaced by the callee's statements over the call's own buffers. -/
import proofs.«124614_j50809463111778_2_alg».proof.Proof.Gen.ReferenceIdeal
import Idealize.ShloMosaic.Lib.StableHlo.Run

set_option maxRecDepth 8000

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The 65 operations of main_part4, in order, the calls unfolded. -/
abbrev part4 : List (HloOp τ sig (Elt F)) :=
  [ StableHlo.unary main_c_33 main_v204 (broadcastInDim S297984 ![] bcast_S_S297984 : (⟨S_, .i32⟩ : BufTy).Contents (Elt F) → (⟨S297984, .i32⟩ : BufTy).Contents (Elt F)),
    StableHlo.binary main_arg2 main_v204 main_v205 (cmpi .slt : (⟨S297984, .i32⟩ : BufTy).Contents (Elt F) → (⟨S297984, .i32⟩ : BufTy).Contents (Elt F) → (⟨S297984, .i1⟩ : BufTy).Contents (Elt F)),
    StableHlo.nullary main_c_34 (constantI S_ 32 6144#32),
    StableHlo.unary main_c_34 main_v206 (broadcastInDim S297984 ![] bcast_S_S297984 : (⟨S_, .i32⟩ : BufTy).Contents (Elt F) → (⟨S297984, .i32⟩ : BufTy).Contents (Elt F)),
    StableHlo.binary main_arg2 main_v206 main_v207 (addi : (⟨S297984, .i32⟩ : BufTy).Contents (Elt F) → (⟨S297984, .i32⟩ : BufTy).Contents (Elt F) → (⟨S297984, .i32⟩ : BufTy).Contents (Elt F)),
    StableHlo.ternary main_v205 main_v207 main_arg2 main_v208 (select : (⟨S297984, .i1⟩ : BufTy).Contents (Elt F) → (⟨S297984, .i32⟩ : BufTy).Contents (Elt F) → (⟨S297984, .i32⟩ : BufTy).Contents (Elt F) → (⟨S297984, .i32⟩ : BufTy).Contents (Elt F)),
    StableHlo.unary main_v208 main_v209 (broadcastInDim S297984x1 ![0] bcast_S297984_S297984x1_0 : (⟨S297984, .i32⟩ : BufTy).Contents (Elt F) → (⟨S297984x1, .i32⟩ : BufTy).Contents (Elt F)),
    StableHlo.binary main_v202 main_v209 main_v210 ((fun x i => Host.gather gather_S6144x8x32_S297984x1_S297984x8x32_12_0_n_n_0_1_1832 x i) : (⟨S6144x8x32, .f32⟩ : BufTy).Contents (Elt F) → (⟨S297984x1, .i32⟩ : BufTy).Contents (Elt F) → (⟨S297984x8x32, .f32⟩ : BufTy).Contents (Elt F)),
    StableHlo.nullary main_c_35 (constantI S_ 32 0#32),
    StableHlo.unary main_c_35 main_v211 (broadcastInDim S297984 ![] bcast_S_S297984 : (⟨S_, .i32⟩ : BufTy).Contents (Elt F) → (⟨S297984, .i32⟩ : BufTy).Contents (Elt F)),
    StableHlo.binary main_arg3 main_v211 main_v212 (cmpi .slt : (⟨S297984, .i32⟩ : BufTy).Contents (Elt F) → (⟨S297984, .i32⟩ : BufTy).Contents (Elt F) → (⟨S297984, .i1⟩ : BufTy).Contents (Elt F)),
    StableHlo.nullary main_c_36 (constantI S_ 32 6144#32),
    StableHlo.unary main_c_36 main_v213 (broadcastInDim S297984 ![] bcast_S_S297984 : (⟨S_, .i32⟩ : BufTy).Contents (Elt F) → (⟨S297984, .i32⟩ : BufTy).Contents (Elt F)),
    StableHlo.binary main_arg3 main_v213 main_v214 (addi : (⟨S297984, .i32⟩ : BufTy).Contents (Elt F) → (⟨S297984, .i32⟩ : BufTy).Contents (Elt F) → (⟨S297984, .i32⟩ : BufTy).Contents (Elt F)),
    StableHlo.ternary main_v212 main_v214 main_arg3 main_v215 (select : (⟨S297984, .i1⟩ : BufTy).Contents (Elt F) → (⟨S297984, .i32⟩ : BufTy).Contents (Elt F) → (⟨S297984, .i32⟩ : BufTy).Contents (Elt F) → (⟨S297984, .i32⟩ : BufTy).Contents (Elt F)),
    StableHlo.unary main_v215 main_v216 (broadcastInDim S297984x1 ![0] bcast_S297984_S297984x1_0 : (⟨S297984, .i32⟩ : BufTy).Contents (Elt F) → (⟨S297984x1, .i32⟩ : BufTy).Contents (Elt F)),
    StableHlo.binary main_v201 main_v216 main_v217 ((fun x i => Host.gather gather_S6144x8x32_S297984x1_S297984x8x32_12_0_n_n_0_1_1832 x i) : (⟨S6144x8x32, .f32⟩ : BufTy).Contents (Elt F) → (⟨S297984x1, .i32⟩ : BufTy).Contents (Elt F) → (⟨S297984x8x32, .f32⟩ : BufTy).Contents (Elt F)),
    StableHlo.binary main_v210 main_v217 main_v218 (mulf : (⟨S297984x8x32, .f32⟩ : BufTy).Contents (Elt F) → (⟨S297984x8x32, .f32⟩ : BufTy).Contents (Elt F) → (⟨S297984x8x32, .f32⟩ : BufTy).Contents (Elt F)),
    StableHlo.nullary main_cst_37 (constant S_ .f32 0x00000000#32),
    StableHlo.binary main_v218 main_cst_37 main_v219 ((fun x v => Host.reduceAdd x v reducesTo_S297984x8x32_S297984x8_d2 h_S_) : (⟨S297984x8x32, .f32⟩ : BufTy).Contents (Elt F) → (⟨S_, .f32⟩ : BufTy).Contents (Elt F) → (⟨S297984x8, .f32⟩ : BufTy).Contents (Elt F)),
    StableHlo.nullary main_cst_38 (constant S_ .f32 0x40B504F3#32),
    StableHlo.unary main_cst_38 main_v220 (broadcastInDim S297984x8 ![] bcast_S_S297984x8 : (⟨S_, .f32⟩ : BufTy).Contents (Elt F) → (⟨S297984x8, .f32⟩ : BufTy).Contents (Elt F)),
    StableHlo.binary main_v219 main_v220 main_v221 (Host.divf : (⟨S297984x8, .f32⟩ : BufTy).Contents (Elt F) → (⟨S297984x8, .f32⟩ : BufTy).Contents (Elt F) → (⟨S297984x8, .f32⟩ : BufTy).Contents (Elt F)),
    StableHlo.nullary main_cst_39 (constant S_ .f32 0xC0A00000#32),
    StableHlo.nullary main_cst_40 (constant S_ .f32 0x40A00000#32),
    StableHlo.TRef.unary (.of main_cst_39 : StableHlo.TRef sig ⟨S_, .f32⟩) (.of main_call4_v0 : StableHlo.TRef sig ⟨S_, .f32⟩) id,
    StableHlo.TRef.unary (.of main_call4_v0 : StableHlo.TRef sig ⟨S_, .f32⟩) (.of main_call4_v1 : StableHlo.TRef sig ⟨S297984x8, .f32⟩) (broadcastInDim S297984x8 ![] bcast_S_S297984x8),
    StableHlo.TRef.binary (.of main_call4_v1 : StableHlo.TRef sig ⟨S297984x8, .f32⟩) (.of main_v221 : StableHlo.TRef sig ⟨S297984x8, .f32⟩) (.of main_call4_v2 : StableHlo.TRef sig ⟨S297984x8, .f32⟩) maximumf,
    StableHlo.TRef.unary (.of main_cst_40 : StableHlo.TRef sig ⟨S_, .f32⟩) (.of main_call4_v3 : StableHlo.TRef sig ⟨S_, .f32⟩) id,
    StableHlo.TRef.unary (.of main_call4_v3 : StableHlo.TRef sig ⟨S_, .f32⟩) (.of main_call4_v4 : StableHlo.TRef sig ⟨S297984x8, .f32⟩) (broadcastInDim S297984x8 ![] bcast_S_S297984x8),
    StableHlo.TRef.binary (.of main_call4_v4 : StableHlo.TRef sig ⟨S297984x8, .f32⟩) (.of main_call4_v2 : StableHlo.TRef sig ⟨S297984x8, .f32⟩) (.of main_v222 : StableHlo.TRef sig ⟨S297984x8, .f32⟩) minimumf,
    StableHlo.unary main_v222 main_v223 (Host.exp : (⟨S297984x8, .f32⟩ : BufTy).Contents (Elt F) → (⟨S297984x8, .f32⟩ : BufTy).Contents (Elt F)),
    StableHlo.nullary main_c_41 (constantI S_ 32 0#32),
    StableHlo.unary main_c_41 main_v224 (broadcastInDim S297984 ![] bcast_S_S297984 : (⟨S_, .i32⟩ : BufTy).Contents (Elt F) → (⟨S297984, .i32⟩ : BufTy).Contents (Elt F)),
    StableHlo.binary main_arg2 main_v224 main_v225 (cmpi .slt : (⟨S297984, .i32⟩ : BufTy).Contents (Elt F) → (⟨S297984, .i32⟩ : BufTy).Contents (Elt F) → (⟨S297984, .i1⟩ : BufTy).Contents (Elt F)),
    StableHlo.nullary main_c_42 (constantI S_ 32 6144#32),
    StableHlo.unary main_c_42 main_v226 (broadcastInDim S297984 ![] bcast_S_S297984 : (⟨S_, .i32⟩ : BufTy).Contents (Elt F) → (⟨S297984, .i32⟩ : BufTy).Contents (Elt F)),
    StableHlo.binary main_arg2 main_v226 main_v227 (addi : (⟨S297984, .i32⟩ : BufTy).Contents (Elt F) → (⟨S297984, .i32⟩ : BufTy).Contents (Elt F) → (⟨S297984, .i32⟩ : BufTy).Contents (Elt F)),
    StableHlo.ternary main_v225 main_v227 main_arg2 main_v228 (select : (⟨S297984, .i1⟩ : BufTy).Contents (Elt F) → (⟨S297984, .i32⟩ : BufTy).Contents (Elt F) → (⟨S297984, .i32⟩ : BufTy).Contents (Elt F) → (⟨S297984, .i32⟩ : BufTy).Contents (Elt F)),
    StableHlo.unary main_v228 main_v229 (broadcastInDim S297984x1 ![0] bcast_S297984_S297984x1_0 : (⟨S297984, .i32⟩ : BufTy).Contents (Elt F) → (⟨S297984x1, .i32⟩ : BufTy).Contents (Elt F)),
    StableHlo.binary main_v203 main_v229 main_v230 ((fun x i => Host.gather gather_S6144x8x32_S297984x1_S297984x8x32_12_0_n_n_0_1_1832 x i) : (⟨S6144x8x32, .f32⟩ : BufTy).Contents (Elt F) → (⟨S297984x1, .i32⟩ : BufTy).Contents (Elt F) → (⟨S297984x8x32, .f32⟩ : BufTy).Contents (Elt F)),
    StableHlo.unary main_v223 main_v231 (broadcastInDim S297984x8x1 ![0, 1] bcast_S297984x8_S297984x8x1_0_1 : (⟨S297984x8, .f32⟩ : BufTy).Contents (Elt F) → (⟨S297984x8x1, .f32⟩ : BufTy).Contents (Elt F)),
    StableHlo.unary main_v231 main_v232 (broadcastInDim S297984x8x32 ![0, 1, 2] bcast_S297984x8x1_S297984x8x32_0_1_2 : (⟨S297984x8x1, .f32⟩ : BufTy).Contents (Elt F) → (⟨S297984x8x32, .f32⟩ : BufTy).Contents (Elt F)),
    StableHlo.binary main_v230 main_v232 main_v233 (mulf : (⟨S297984x8x32, .f32⟩ : BufTy).Contents (Elt F) → (⟨S297984x8x32, .f32⟩ : BufTy).Contents (Elt F) → (⟨S297984x8x32, .f32⟩ : BufTy).Contents (Elt F)),
    StableHlo.nullary main_cst_43 (constant S_ .f32 0x00000000#32),
    StableHlo.unary main_cst_43 main_v234 (broadcastInDim S6144x8x32 ![] bcast_S_S6144x8x32 : (⟨S_, .f32⟩ : BufTy).Contents (Elt F) → (⟨S6144x8x32, .f32⟩ : BufTy).Contents (Elt F)),
    StableHlo.unary main_arg3 main_v235 (broadcastInDim S297984x1 ![0] bcast_S297984_S297984x1_0 : (⟨S297984, .i32⟩ : BufTy).Contents (Elt F) → (⟨S297984x1, .i32⟩ : BufTy).Contents (Elt F)),
    StableHlo.ternary main_v234 main_v235 main_v233 main_v236 ((fun x i u => Host.scatterAdd scatter_S6144x8x32_S297984x1_S297984x8x32_12_0_0_1 x i u) : (⟨S6144x8x32, .f32⟩ : BufTy).Contents (Elt F) → (⟨S297984x1, .i32⟩ : BufTy).Contents (Elt F) → (⟨S297984x8x32, .f32⟩ : BufTy).Contents (Elt F) → (⟨S6144x8x32, .f32⟩ : BufTy).Contents (Elt F)),
    StableHlo.nullary main_cst_44 (constant S_ .f32 0x00000000#32),
    StableHlo.unary main_cst_44 main_v237 (broadcastInDim S6144x8 ![] bcast_S_S6144x8 : (⟨S_, .f32⟩ : BufTy).Contents (Elt F) → (⟨S6144x8, .f32⟩ : BufTy).Contents (Elt F)),
    StableHlo.unary main_arg3 main_v238 (broadcastInDim S297984x1 ![0] bcast_S297984_S297984x1_0 : (⟨S297984, .i32⟩ : BufTy).Contents (Elt F) → (⟨S297984x1, .i32⟩ : BufTy).Contents (Elt F)),
    StableHlo.ternary main_v237 main_v238 main_v223 main_v239 ((fun x i u => Host.scatterAdd scatter_S6144x8_S297984x1_S297984x8_1_0_0_1 x i u) : (⟨S6144x8, .f32⟩ : BufTy).Contents (Elt F) → (⟨S297984x1, .i32⟩ : BufTy).Contents (Elt F) → (⟨S297984x8, .f32⟩ : BufTy).Contents (Elt F) → (⟨S6144x8, .f32⟩ : BufTy).Contents (Elt F)),
    StableHlo.unary main_v239 main_v240 (broadcastInDim S6144x8x1 ![0, 1] bcast_S6144x8_S6144x8x1_0_1 : (⟨S6144x8, .f32⟩ : BufTy).Contents (Elt F) → (⟨S6144x8x1, .f32⟩ : BufTy).Contents (Elt F)),
    StableHlo.unary main_v240 main_v241 (broadcastInDim S6144x8x32 ![0, 1, 2] bcast_S6144x8x1_S6144x8x32_0_1_2 : (⟨S6144x8x1, .f32⟩ : BufTy).Contents (Elt F) → (⟨S6144x8x32, .f32⟩ : BufTy).Contents (Elt F)),
    StableHlo.binary main_v236 main_v241 main_v242 (Host.divf : (⟨S6144x8x32, .f32⟩ : BufTy).Contents (Elt F) → (⟨S6144x8x32, .f32⟩ : BufTy).Contents (Elt F) → (⟨S6144x8x32, .f32⟩ : BufTy).Contents (Elt F)),
    StableHlo.reshape main_v242 main_v243 rfl shapeCasts_S6144x8x32_S6144x256,
    StableHlo.unary main_arg11 main_v244 ((extractStridedSlice S1x256x256 ![1, 0, 0] · slices_S2x256x256_S1x256x256_1_0_0) : (⟨S2x256x256, .f32⟩ : BufTy).Contents (Elt F) → (⟨S1x256x256, .f32⟩ : BufTy).Contents (Elt F)),
    StableHlo.reshape main_v244 main_v245 rfl shapeCasts_S1x256x256_S256x256,
    StableHlo.binary main_v243 main_v245 main_v246 ((fun l r => Host.dotGeneral dot_S6144x256_S256x256_S6144x256_1_0_0_1_n_n none l r) : (⟨S6144x256, .f32⟩ : BufTy).Contents (Elt F) → (⟨S256x256, .f32⟩ : BufTy).Contents (Elt F) → (⟨S6144x256, .f32⟩ : BufTy).Contents (Elt F)),
    StableHlo.binary main_v161 main_v246 main_v247 (addf : (⟨S6144x256, .f32⟩ : BufTy).Contents (Elt F) → (⟨S6144x256, .f32⟩ : BufTy).Contents (Elt F) → (⟨S6144x256, .f32⟩ : BufTy).Contents (Elt F)),
    StableHlo.unary main_arg12 main_v248 ((extractStridedSlice S1x256 ![1, 0] · slices_S2x256_S1x256_1_0) : (⟨S2x256, .f32⟩ : BufTy).Contents (Elt F) → (⟨S1x256, .f32⟩ : BufTy).Contents (Elt F)),
    StableHlo.reshape main_v248 main_v249 rfl shapeCasts_S1x256_S256,
    StableHlo.unary main_v249 main_v250 (broadcastInDim S1x256 ![1] bcast_S256_S1x256_1 : (⟨S256, .f32⟩ : BufTy).Contents (Elt F) → (⟨S1x256, .f32⟩ : BufTy).Contents (Elt F)),
    StableHlo.unary main_v250 main_v251 (broadcastInDim S6144x256 ![0, 1] bcast_S1x256_S6144x256_0_1 : (⟨S1x256, .f32⟩ : BufTy).Contents (Elt F) → (⟨S6144x256, .f32⟩ : BufTy).Contents (Elt F)),
    StableHlo.binary main_v247 main_v251 main_v252 (addf : (⟨S6144x256, .f32⟩ : BufTy).Contents (Elt F) → (⟨S6144x256, .f32⟩ : BufTy).Contents (Elt F) → (⟨S6144x256, .f32⟩ : BufTy).Contents (Elt F)) ]

end Cert.ReferenceIdeal.RefRun

end
-- ==== Proof.RefPartEq4.lean ====
/-
  The window main_part4 of the reference program is the straight line of its operations: the program text and the list
  `part4` are the same chain of steps once each called function is unfolded at its call and sequencing is re-associated to the right.
-/
import proofs.«124614_j50809463111778_2_alg».proof.Proof.RefPart4

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

-- one bind per operation is re-associated: the rewriting under the chain recurses once per operation
set_option maxRecDepth 16384 in
set_option maxHeartbeats 4000000 in
/-- The window is its list run in order: the called functions' definitions unfolded at their calls (`fn_clip.body`), the window's definition unfolded, every bind moved to the right
    (`bind_assoc`, `pure_bind`), both sides are one chain of `hlo` steps ending in the return. -/
theorem main_part4_eq (c : Dev nD) : main_part4 (F := F) c = seq part4 := by
  simp only [main_part4, fn_clip.body, seq, bind_assoc, pure_bind]
  rfl

end Cert.ReferenceIdeal.RefRun

end
-- ==== Proof.RefPart5.lean ====
/- The operations of the reference program's window main_part5, in order, as a literal list: each printed statement
  without its wrapper, a call replaced by the callee's statements over the call's own buffers. -/
import proofs.«124614_j50809463111778_2_alg».proof.Proof.Gen.ReferenceIdeal
import Idealize.ShloMosaic.Lib.StableHlo.Run

set_option maxRecDepth 8000

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The 72 operations of main_part5, in order, the calls unfolded. -/
abbrev part5 : List (HloOp τ sig (Elt F)) :=
  [ StableHlo.unary main_arg13 main_v253 ((extractStridedSlice S1x256 ![1, 0] · slices_S2x256_S1x256_1_0) : (⟨S2x256, .f32⟩ : BufTy).Contents (Elt F) → (⟨S1x256, .f32⟩ : BufTy).Contents (Elt F)),
    StableHlo.reshape main_v253 main_v254 rfl shapeCasts_S1x256_S256,
    StableHlo.unary main_arg14 main_v255 ((extractStridedSlice S1x256 ![1, 0] · slices_S2x256_S1x256_1_0) : (⟨S2x256, .f32⟩ : BufTy).Contents (Elt F) → (⟨S1x256, .f32⟩ : BufTy).Contents (Elt F)),
    StableHlo.reshape main_v255 main_v256 rfl shapeCasts_S1x256_S256,
    StableHlo.nullary main_cst_45 (constant S_ .f32 0x00000000#32),
    StableHlo.binary main_v252 main_cst_45 main_v257 ((fun x v => Host.reduceAdd x v reducesTo_S6144x256_S6144_d1 h_S_) : (⟨S6144x256, .f32⟩ : BufTy).Contents (Elt F) → (⟨S_, .f32⟩ : BufTy).Contents (Elt F) → (⟨S6144, .f32⟩ : BufTy).Contents (Elt F)),
    StableHlo.unary main_v257 main_v258 (broadcastInDim S6144x1 ![0] bcast_S6144_S6144x1_0 : (⟨S6144, .f32⟩ : BufTy).Contents (Elt F) → (⟨S6144x1, .f32⟩ : BufTy).Contents (Elt F)),
    StableHlo.nullary main_cst_46 (constant S_ .f32 0x43800000#32),
    StableHlo.unary main_cst_46 main_v259 (broadcastInDim S6144x1 ![] bcast_S_S6144x1 : (⟨S_, .f32⟩ : BufTy).Contents (Elt F) → (⟨S6144x1, .f32⟩ : BufTy).Contents (Elt F)),
    StableHlo.binary main_v258 main_v259 main_v260 (Host.divf : (⟨S6144x1, .f32⟩ : BufTy).Contents (Elt F) → (⟨S6144x1, .f32⟩ : BufTy).Contents (Elt F) → (⟨S6144x1, .f32⟩ : BufTy).Contents (Elt F)),
    StableHlo.unary main_v260 main_v261 (broadcastInDim S6144x256 ![0, 1] bcast_S6144x1_S6144x256_0_1 : (⟨S6144x1, .f32⟩ : BufTy).Contents (Elt F) → (⟨S6144x256, .f32⟩ : BufTy).Contents (Elt F)),
    StableHlo.binary main_v252 main_v261 main_v262 (subf : (⟨S6144x256, .f32⟩ : BufTy).Contents (Elt F) → (⟨S6144x256, .f32⟩ : BufTy).Contents (Elt F) → (⟨S6144x256, .f32⟩ : BufTy).Contents (Elt F)),
    StableHlo.binary main_v262 main_v262 main_v263 (mulf : (⟨S6144x256, .f32⟩ : BufTy).Contents (Elt F) → (⟨S6144x256, .f32⟩ : BufTy).Contents (Elt F) → (⟨S6144x256, .f32⟩ : BufTy).Contents (Elt F)),
    StableHlo.nullary main_cst_47 (constant S_ .f32 0x00000000#32),
    StableHlo.binary main_v263 main_cst_47 main_v264 ((fun x v => Host.reduceAdd x v reducesTo_S6144x256_S6144_d1 h_S_) : (⟨S6144x256, .f32⟩ : BufTy).Contents (Elt F) → (⟨S_, .f32⟩ : BufTy).Contents (Elt F) → (⟨S6144, .f32⟩ : BufTy).Contents (Elt F)),
    StableHlo.unary main_v264 main_v265 (broadcastInDim S6144x1 ![0] bcast_S6144_S6144x1_0 : (⟨S6144, .f32⟩ : BufTy).Contents (Elt F) → (⟨S6144x1, .f32⟩ : BufTy).Contents (Elt F)),
    StableHlo.nullary main_cst_48 (constant S_ .f32 0x43800000#32),
    StableHlo.unary main_cst_48 main_v266 (broadcastInDim S6144x1 ![] bcast_S_S6144x1 : (⟨S_, .f32⟩ : BufTy).Contents (Elt F) → (⟨S6144x1, .f32⟩ : BufTy).Contents (Elt F)),
    StableHlo.binary main_v265 main_v266 main_v267 (Host.divf : (⟨S6144x1, .f32⟩ : BufTy).Contents (Elt F) → (⟨S6144x1, .f32⟩ : BufTy).Contents (Elt F) → (⟨S6144x1, .f32⟩ : BufTy).Contents (Elt F)),
    StableHlo.unary main_v260 main_v268 (broadcastInDim S6144x256 ![0, 1] bcast_S6144x1_S6144x256_0_1 : (⟨S6144x1, .f32⟩ : BufTy).Contents (Elt F) → (⟨S6144x256, .f32⟩ : BufTy).Contents (Elt F)),
    StableHlo.binary main_v252 main_v268 main_v269 (subf : (⟨S6144x256, .f32⟩ : BufTy).Contents (Elt F) → (⟨S6144x256, .f32⟩ : BufTy).Contents (Elt F) → (⟨S6144x256, .f32⟩ : BufTy).Contents (Elt F)),
    StableHlo.nullary main_cst_49 (constant S_ .f32 0x3727C5AC#32),
    StableHlo.unary main_cst_49 main_v270 (broadcastInDim S6144x1 ![] bcast_S_S6144x1 : (⟨S_, .f32⟩ : BufTy).Contents (Elt F) → (⟨S6144x1, .f32⟩ : BufTy).Contents (Elt F)),
    StableHlo.binary main_v267 main_v270 main_v271 (addf : (⟨S6144x1, .f32⟩ : BufTy).Contents (Elt F) → (⟨S6144x1, .f32⟩ : BufTy).Contents (Elt F) → (⟨S6144x1, .f32⟩ : BufTy).Contents (Elt F)),
    StableHlo.unary main_v271 main_v272 (Host.rsqrt : (⟨S6144x1, .f32⟩ : BufTy).Contents (Elt F) → (⟨S6144x1, .f32⟩ : BufTy).Contents (Elt F)),
    StableHlo.unary main_v272 main_v273 (broadcastInDim S6144x256 ![0, 1] bcast_S6144x1_S6144x256_0_1 : (⟨S6144x1, .f32⟩ : BufTy).Contents (Elt F) → (⟨S6144x256, .f32⟩ : BufTy).Contents (Elt F)),
    StableHlo.binary main_v269 main_v273 main_v274 (mulf : (⟨S6144x256, .f32⟩ : BufTy).Contents (Elt F) → (⟨S6144x256, .f32⟩ : BufTy).Contents (Elt F) → (⟨S6144x256, .f32⟩ : BufTy).Contents (Elt F)),
    StableHlo.unary main_v254 main_v275 (broadcastInDim S1x256 ![1] bcast_S256_S1x256_1 : (⟨S256, .f32⟩ : BufTy).Contents (Elt F) → (⟨S1x256, .f32⟩ : BufTy).Contents (Elt F)),
    StableHlo.unary main_v275 main_v276 (broadcastInDim S6144x256 ![0, 1] bcast_S1x256_S6144x256_0_1 : (⟨S1x256, .f32⟩ : BufTy).Contents (Elt F) → (⟨S6144x256, .f32⟩ : BufTy).Contents (Elt F)),
    StableHlo.binary main_v274 main_v276 main_v277 (mulf : (⟨S6144x256, .f32⟩ : BufTy).Contents (Elt F) → (⟨S6144x256, .f32⟩ : BufTy).Contents (Elt F) → (⟨S6144x256, .f32⟩ : BufTy).Contents (Elt F)),
    StableHlo.unary main_v256 main_v278 (broadcastInDim S1x256 ![1] bcast_S256_S1x256_1 : (⟨S256, .f32⟩ : BufTy).Contents (Elt F) → (⟨S1x256, .f32⟩ : BufTy).Contents (Elt F)),
    StableHlo.unary main_v278 main_v279 (broadcastInDim S6144x256 ![0, 1] bcast_S1x256_S6144x256_0_1 : (⟨S1x256, .f32⟩ : BufTy).Contents (Elt F) → (⟨S6144x256, .f32⟩ : BufTy).Contents (Elt F)),
    StableHlo.binary main_v277 main_v279 main_v280 (addf : (⟨S6144x256, .f32⟩ : BufTy).Contents (Elt F) → (⟨S6144x256, .f32⟩ : BufTy).Contents (Elt F) → (⟨S6144x256, .f32⟩ : BufTy).Contents (Elt F)),
    StableHlo.unary main_arg15 main_v281 ((extractStridedSlice S1x256x1024 ![1, 0, 0] · slices_S2x256x1024_S1x256x1024_1_0_0) : (⟨S2x256x1024, .f32⟩ : BufTy).Contents (Elt F) → (⟨S1x256x1024, .f32⟩ : BufTy).Contents (Elt F)),
    StableHlo.reshape main_v281 main_v282 rfl shapeCasts_S1x256x1024_S256x1024,
    StableHlo.binary main_v280 main_v282 main_v283 ((fun l r => Host.dotGeneral dot_S6144x256_S256x1024_S6144x1024_1_0_0_1_n_n none l r) : (⟨S6144x256, .f32⟩ : BufTy).Contents (Elt F) → (⟨S256x1024, .f32⟩ : BufTy).Contents (Elt F) → (⟨S6144x1024, .f32⟩ : BufTy).Contents (Elt F)),
    StableHlo.unary main_arg16 main_v284 ((extractStridedSlice S1x1024 ![1, 0] · slices_S2x1024_S1x1024_1_0) : (⟨S2x1024, .f32⟩ : BufTy).Contents (Elt F) → (⟨S1x1024, .f32⟩ : BufTy).Contents (Elt F)),
    StableHlo.reshape main_v284 main_v285 rfl shapeCasts_S1x1024_S1024,
    StableHlo.unary main_v285 main_v286 (broadcastInDim S1x1024 ![1] bcast_S1024_S1x1024_1 : (⟨S1024, .f32⟩ : BufTy).Contents (Elt F) → (⟨S1x1024, .f32⟩ : BufTy).Contents (Elt F)),
    StableHlo.unary main_v286 main_v287 (broadcastInDim S6144x1024 ![0, 1] bcast_S1x1024_S6144x1024_0_1 : (⟨S1x1024, .f32⟩ : BufTy).Contents (Elt F) → (⟨S6144x1024, .f32⟩ : BufTy).Contents (Elt F)),
    StableHlo.binary main_v283 main_v287 main_v288 (addf : (⟨S6144x1024, .f32⟩ : BufTy).Contents (Elt F) → (⟨S6144x1024, .f32⟩ : BufTy).Contents (Elt F) → (⟨S6144x1024, .f32⟩ : BufTy).Contents (Elt F)),
    StableHlo.TRef.nullary (.of main_call5_cst : StableHlo.TRef sig ⟨S_, .f32⟩) (constant S_ .f32 0x00000000#32),
    StableHlo.TRef.unary (.of main_call5_cst : StableHlo.TRef sig ⟨S_, .f32⟩) (.of main_call5_v0 : StableHlo.TRef sig ⟨S6144x1024, .f32⟩) (broadcastInDim S6144x1024 ![] bcast_S_S6144x1024),
    StableHlo.TRef.binary (.of main_v288 : StableHlo.TRef sig ⟨S6144x1024, .f32⟩) (.of main_call5_v0 : StableHlo.TRef sig ⟨S6144x1024, .f32⟩) (.of main_v289 : StableHlo.TRef sig ⟨S6144x1024, .f32⟩) maximumf,
    StableHlo.unary main_arg17 main_v290 ((extractStridedSlice S1x1024x256 ![1, 0, 0] · slices_S2x1024x256_S1x1024x256_1_0_0) : (⟨S2x1024x256, .f32⟩ : BufTy).Contents (Elt F) → (⟨S1x1024x256, .f32⟩ : BufTy).Contents (Elt F)),
    StableHlo.reshape main_v290 main_v291 rfl shapeCasts_S1x1024x256_S1024x256,
    StableHlo.binary main_v289 main_v291 main_v292 ((fun l r => Host.dotGeneral dot_S6144x1024_S1024x256_S6144x256_1_0_0_1_n_n none l r) : (⟨S6144x1024, .f32⟩ : BufTy).Contents (Elt F) → (⟨S1024x256, .f32⟩ : BufTy).Contents (Elt F) → (⟨S6144x256, .f32⟩ : BufTy).Contents (Elt F)),
    StableHlo.binary main_v252 main_v292 main_v293 (addf : (⟨S6144x256, .f32⟩ : BufTy).Contents (Elt F) → (⟨S6144x256, .f32⟩ : BufTy).Contents (Elt F) → (⟨S6144x256, .f32⟩ : BufTy).Contents (Elt F)),
    StableHlo.unary main_arg18 main_v294 ((extractStridedSlice S1x256 ![1, 0] · slices_S2x256_S1x256_1_0) : (⟨S2x256, .f32⟩ : BufTy).Contents (Elt F) → (⟨S1x256, .f32⟩ : BufTy).Contents (Elt F)),
    StableHlo.reshape main_v294 main_v295 rfl shapeCasts_S1x256_S256,
    StableHlo.unary main_v295 main_v296 (broadcastInDim S1x256 ![1] bcast_S256_S1x256_1 : (⟨S256, .f32⟩ : BufTy).Contents (Elt F) → (⟨S1x256, .f32⟩ : BufTy).Contents (Elt F)),
    StableHlo.unary main_v296 main_v297 (broadcastInDim S6144x256 ![0, 1] bcast_S1x256_S6144x256_0_1 : (⟨S1x256, .f32⟩ : BufTy).Contents (Elt F) → (⟨S6144x256, .f32⟩ : BufTy).Contents (Elt F)),
    StableHlo.binary main_v293 main_v297 main_v298 (addf : (⟨S6144x256, .f32⟩ : BufTy).Contents (Elt F) → (⟨S6144x256, .f32⟩ : BufTy).Contents (Elt F) → (⟨S6144x256, .f32⟩ : BufTy).Contents (Elt F)),
    StableHlo.binary main_v298 main_arg19 main_v299 ((fun l r => Host.dotGeneral dot_S6144x256_S256x1024_S6144x1024_1_0_0_1_n_n none l r) : (⟨S6144x256, .f32⟩ : BufTy).Contents (Elt F) → (⟨S256x1024, .f32⟩ : BufTy).Contents (Elt F) → (⟨S6144x1024, .f32⟩ : BufTy).Contents (Elt F)),
    StableHlo.unary main_arg20 main_v300 (broadcastInDim S1x1024 ![1] bcast_S1024_S1x1024_1 : (⟨S1024, .f32⟩ : BufTy).Contents (Elt F) → (⟨S1x1024, .f32⟩ : BufTy).Contents (Elt F)),
    StableHlo.unary main_v300 main_v301 (broadcastInDim S6144x1024 ![0, 1] bcast_S1x1024_S6144x1024_0_1 : (⟨S1x1024, .f32⟩ : BufTy).Contents (Elt F) → (⟨S6144x1024, .f32⟩ : BufTy).Contents (Elt F)),
    StableHlo.binary main_v299 main_v301 main_v302 (addf : (⟨S6144x1024, .f32⟩ : BufTy).Contents (Elt F) → (⟨S6144x1024, .f32⟩ : BufTy).Contents (Elt F) → (⟨S6144x1024, .f32⟩ : BufTy).Contents (Elt F)),
    StableHlo.TRef.nullary (.of main_call6_cst : StableHlo.TRef sig ⟨S_, .f32⟩) (constant S_ .f32 0xFF800000#32),
    StableHlo.TRef.binary (.of main_v302 : StableHlo.TRef sig ⟨S6144x1024, .f32⟩) (.of main_call6_cst : StableHlo.TRef sig ⟨S_, .f32⟩) (.of main_call6_v0 : StableHlo.TRef sig ⟨S6144, .f32⟩) (fun x v => Host.reduce FloatOps.maximumf x v reducesTo_S6144x1024_S6144_d1 h_S_),
    StableHlo.TRef.nullary (.of main_call6_cst_0 : StableHlo.TRef sig ⟨S_, .f32⟩) (constant S_ .f32 0xFF800000#32),
    StableHlo.TRef.unary (.of main_call6_cst_0 : StableHlo.TRef sig ⟨S_, .f32⟩) (.of main_call6_v1 : StableHlo.TRef sig ⟨S6144, .f32⟩) (broadcastInDim S6144 ![] bcast_S_S6144),
    StableHlo.TRef.binary (.of main_call6_v1 : StableHlo.TRef sig ⟨S6144, .f32⟩) (.of main_call6_v0 : StableHlo.TRef sig ⟨S6144, .f32⟩) (.of main_call6_v2 : StableHlo.TRef sig ⟨S6144, .f32⟩) maximumf,
    StableHlo.TRef.unary (.of main_call6_v2 : StableHlo.TRef sig ⟨S6144, .f32⟩) (.of main_call6_v3 : StableHlo.TRef sig ⟨S6144x1, .f32⟩) (broadcastInDim S6144x1 ![0] bcast_S6144_S6144x1_0),
    StableHlo.TRef.unary (.of main_call6_v3 : StableHlo.TRef sig ⟨S6144x1, .f32⟩) (.of main_call6_v4 : StableHlo.TRef sig ⟨S6144x1024, .f32⟩) (broadcastInDim S6144x1024 ![0, 1] bcast_S6144x1_S6144x1024_0_1),
    StableHlo.TRef.binary (.of main_v302 : StableHlo.TRef sig ⟨S6144x1024, .f32⟩) (.of main_call6_v4 : StableHlo.TRef sig ⟨S6144x1024, .f32⟩) (.of main_call6_v5 : StableHlo.TRef sig ⟨S6144x1024, .f32⟩) subf,
    StableHlo.TRef.unary (.of main_call6_v5 : StableHlo.TRef sig ⟨S6144x1024, .f32⟩) (.of main_call6_v6 : StableHlo.TRef sig ⟨S6144x1024, .f32⟩) Host.exp,
    StableHlo.TRef.nullary (.of main_call6_cst_1 : StableHlo.TRef sig ⟨S_, .f32⟩) (constant S_ .f32 0x00000000#32),
    StableHlo.TRef.binary (.of main_call6_v6 : StableHlo.TRef sig ⟨S6144x1024, .f32⟩) (.of main_call6_cst_1 : StableHlo.TRef sig ⟨S_, .f32⟩) (.of main_call6_v7 : StableHlo.TRef sig ⟨S6144, .f32⟩) (fun x v => Host.reduceAdd x v reducesTo_S6144x1024_S6144_d1 h_S_),
    StableHlo.TRef.unary (.of main_call6_v7 : StableHlo.TRef sig ⟨S6144, .f32⟩) (.of main_call6_v8 : StableHlo.TRef sig ⟨S6144x1, .f32⟩) (broadcastInDim S6144x1 ![0] bcast_S6144_S6144x1_0),
    StableHlo.TRef.unary (.of main_call6_v8 : StableHlo.TRef sig ⟨S6144x1, .f32⟩) (.of main_call6_v9 : StableHlo.TRef sig ⟨S6144x1, .f32⟩) Host.log,
    StableHlo.TRef.unary (.of main_call6_v9 : StableHlo.TRef sig ⟨S6144x1, .f32⟩) (.of main_call6_v10 : StableHlo.TRef sig ⟨S6144x1024, .f32⟩) (broadcastInDim S6144x1024 ![0, 1] bcast_S6144x1_S6144x1024_0_1),
    StableHlo.TRef.binary (.of main_call6_v5 : StableHlo.TRef sig ⟨S6144x1024, .f32⟩) (.of main_call6_v10 : StableHlo.TRef sig ⟨S6144x1024, .f32⟩) (.of main_v303 : StableHlo.TRef sig ⟨S6144x1024, .f32⟩) subf ]

end Cert.ReferenceIdeal.RefRun

end
-- ==== Proof.RefPartEq5.lean ====
/-
  The window main_part5 of the reference program is the straight line of its operations: the program text and the list
  `part5` are the same chain of steps once each called function is unfolded at its call and sequencing is re-associated to the right.
-/
import proofs.«124614_j50809463111778_2_alg».proof.Proof.RefPart5

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

-- one bind per operation is re-associated: the rewriting under the chain recurses once per operation
set_option maxRecDepth 16384 in
set_option maxHeartbeats 4000000 in
/-- The window is its list run in order: the called functions' definitions unfolded at their calls (`fn_relu.body`, `fn_log_softmax.body`), the window's definition unfolded, every bind moved to the right
    (`bind_assoc`, `pure_bind`), both sides are the same chain of `hlo` steps ending in the return. -/
theorem main_part5_eq (c : Dev nD) : main_part5 (F := F) c = seq part5 := by
  simp only [main_part5, fn_relu.body, fn_log_softmax.body, seq, bind_assoc, pure_bind]

end Cert.ReferenceIdeal.RefRun

end
-- ==== Proof.RefRun.lean ====
/-
  The reference program's run, read back.  The program is a straight line of 420 host operations — the printed windows
  main_part0 … main_part5 one after the other, each called function unfolded at its call — and the five lists
  ops1 … ops5 are that line cut into five consecutive stretches.  From any memory with zero counters every weakly fair
  execution terminates, and each TensorCore buffer then holds the fold of the operations' results over the launch
  contents.
-/
import proofs.«124614_j50809463111778_2_alg».proof.Proof.RefAppend
import proofs.«124614_j50809463111778_2_alg».proof.Proof.RefOps1
import proofs.«124614_j50809463111778_2_alg».proof.Proof.RefOps2
import proofs.«124614_j50809463111778_2_alg».proof.Proof.RefOps3
import proofs.«124614_j50809463111778_2_alg».proof.Proof.RefOps4
import proofs.«124614_j50809463111778_2_alg».proof.Proof.RefOps5
import proofs.«124614_j50809463111778_2_alg».proof.Proof.RefPartEq0
import proofs.«124614_j50809463111778_2_alg».proof.Proof.RefPartEq1
import proofs.«124614_j50809463111778_2_alg».proof.Proof.RefPartEq2
import proofs.«124614_j50809463111778_2_alg».proof.Proof.RefPartEq3
import proofs.«124614_j50809463111778_2_alg».proof.Proof.RefPartEq4
import proofs.«124614_j50809463111778_2_alg».proof.Proof.RefPartEq5

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 65536 in
set_option maxHeartbeats 4000000 in
/-- The six windows' lists one after the other are the five stretches one after the other: the same 420 operations in
    the same order, cut at different places. -/
theorem parts_eq : (part0 ++ part1 ++ part2 ++ part3 ++ part4 ++ part5 : List (HloOp τ sig (Elt F)))
    = ops1 ++ ops2 ++ ops3 ++ ops4 ++ ops5 := by
  simp only [part0, part1, part2, part3, part4, part5, ops1, ops2, ops3, ops4, ops5, List.cons_append, List.nil_append]

/-- @main is the straight line of the 420 operations: its six windows in order, each the line of its own list
    (`main_partK_eq`), and lines run one after the other are their concatenation run as one (`seq_append`). -/
theorem main_eq (c : Dev nD) : main (F := F) c = seq (ops1 ++ ops2 ++ ops3 ++ ops4 ++ ops5) := by
  rw [← parts_eq]
  simp only [main, main_part0_eq, main_part1_eq, main_part2_eq, main_part3_eq, main_part4_eq, main_part5_eq, seq_append,
    bind_assoc]

/-- The signature scopes no buffer. -/
theorem scopedRefs_eq : (Finset.univ.filter fun b : Ref sig .tc => b.isScoped) = ∅ := by decide
/-- The signature scopes no semaphore. -/
theorem scopedSems_eq : (Finset.univ.filter fun sm : SemLoc sig => sm.isScoped .tc) = ∅ := by decide

/-- Every operation of the line reads and writes TensorCore buffers only. -/
theorem ops_sub : (ops1 ++ ops2 ++ ops3 ++ ops4 ++ ops5 : List (HloOp τ sig (Elt F))).Forall fun op => op.bufs ⊆ tcRefs τ sig :=
  List.forall_append.mpr ⟨List.forall_append.mpr ⟨List.forall_append.mpr ⟨List.forall_append.mpr ⟨ops1_sub, ops2_sub⟩, ops3_sub⟩,
    ops4_sub⟩, ops5_sub⟩

/-- No operation of the line allocates a buffer. -/
theorem ops_fresh : ∀ op ∈ (ops1 ++ ops2 ++ ops3 ++ ops4 ++ ops5 : List (HloOp τ sig (Elt F))), op.fresh = ∅ :=
  List.forall_iff_forall_mem.mp (List.forall_append.mpr ⟨List.forall_append.mpr ⟨List.forall_append.mpr
    ⟨List.forall_append.mpr ⟨ops1_fresh, ops2_fresh⟩, ops3_fresh⟩, ops4_fresh⟩, ops5_fresh⟩)

/-- At the compiled mesh, for any float values, from any memory with zero counters: every weakly fair execution of @main
    on the TensorCores terminates, and every final state has each TensorCore buffer at the fold of the 420 operations'
    results over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b)
        = after (ops1 ++ ops2 ++ ops3 ++ ops4 ++ ops5) (launchContents m c) (b : DevRef τ sig) :=
  run_seq scopedRefs_eq scopedSems_eq defs main (fun _ => ops1 ++ ops2 ++ ops3 ++ ops4 ++ ops5) main_eq (fun _ => ops_sub) m ρ
    (fun _ => ops_fresh)

end Cert.ReferenceIdeal.RefRun

end
-- ==== Proof.RefKeep5.lean ====
/- The buffers that stretch 5 of the reference program's operations writes, as a literal list in the operations' order; each operation's
  written buffer is in the list, so a buffer outside the list holds after the stretch what it held before. -/
import proofs.«124614_j50809463111778_2_alg».proof.Proof.RefOps5

set_option maxRecDepth 8000

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The buffers the 93 operations of stretch 5 write, in order. -/
abbrev ops5_W : List (Ref sig .tc) :=
  [main_cst_43, main_v234, main_v235, main_v236, main_cst_44, main_v237, main_v238, main_v239, main_v240, main_v241, main_v242, main_v243,
    main_v244, main_v245, main_v246, main_v247, main_v248, main_v249, main_v250, main_v251, main_v252, main_v253, main_v254, main_v255,
    main_v256, main_cst_45, main_v257, main_v258, main_cst_46, main_v259, main_v260, main_v261, main_v262, main_v263, main_cst_47, main_v264,
    main_v265, main_cst_48, main_v266, main_v267, main_v268, main_v269, main_cst_49, main_v270, main_v271, main_v272, main_v273, main_v274,
    main_v275, main_v276, main_v277, main_v278, main_v279, main_v280, main_v281, main_v282, main_v283, main_v284, main_v285, main_v286,
    main_v287, main_v288, main_call5_cst, main_call5_v0, main_v289, main_v290, main_v291, main_v292, main_v293, main_v294, main_v295, main_v296,
    main_v297, main_v298, main_v299, main_v300, main_v301, main_v302, main_call6_cst, main_call6_v0, main_call6_cst_0, main_call6_v1, main_call6_v2, main_call6_v3,
    main_call6_v4, main_call6_v5, main_call6_v6, main_call6_cst_1, main_call6_v7, main_call6_v8, main_call6_v9, main_call6_v10, main_v303]

/-- Each operation of the stretch writes a buffer of the list. -/
theorem ops5_writes : (ops5 : List (HloOp τ sig (Elt F))).Forall fun op =>
    op.writes ⊆ (ops5_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-- A buffer the stretch does not write holds after it what it held before. -/
theorem ops5_keep (V : Valuation τ sig (Elt F)) (r : Ref sig .tc) (h : r ∉ ops5_W) :
    after ops5 V (Proc.devRef .tc r) = V (Proc.devRef .tc r) :=
  after_of_writes_sub ops5 V ops5_writes h

end Cert.ReferenceIdeal.RefRun

end
-- ==== Proof.RefKept.lean ====
/- No operation of the reference program writes an argument of @main: each of the five stretches leaves a buffer outside its
  list of written buffers as it was, and an argument is in none of the five lists. -/
import proofs.«124614_j50809463111778_2_alg».proof.Proof.RefAppend
import proofs.«124614_j50809463111778_2_alg».proof.Proof.RefKeep1
import proofs.«124614_j50809463111778_2_alg».proof.Proof.RefKeep2
import proofs.«124614_j50809463111778_2_alg».proof.Proof.RefKeep3
import proofs.«124614_j50809463111778_2_alg».proof.Proof.RefKeep4
import proofs.«124614_j50809463111778_2_alg».proof.Proof.RefKeep5

set_option maxRecDepth 8000

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- A buffer none of the five stretches writes holds after the whole line what it held before. -/
theorem kept_of_not_mem (V : Valuation τ sig (Elt F)) (r : Ref sig .tc) (h1 : r ∉ ops1_W) (h2 : r ∉ ops2_W) (h3 : r ∉ ops3_W)
    (h4 : r ∉ ops4_W) (h5 : r ∉ ops5_W) : after (ops1 ++ ops2 ++ ops3 ++ ops4 ++ ops5) V (Proc.devRef .tc r) = V (Proc.devRef .tc r) := by
  rw [after_append (ops1 ++ ops2 ++ ops3 ++ ops4) ops5, after_append (ops1 ++ ops2 ++ ops3) ops4, after_append (ops1 ++ ops2) ops3,
    after_append ops1 ops2, ops5_keep _ r h5, ops4_keep _ r h4, ops3_keep _ r h3, ops2_keep _ r h2, ops1_keep _ r h1]

/-- No operation writes argument 0. -/
theorem kept_main_arg0 (V : Valuation τ sig (Elt F)) :
    after (ops1 ++ ops2 ++ ops3 ++ ops4 ++ ops5) V (Proc.devRef .tc main_arg0) = V (Proc.devRef .tc main_arg0) :=
  kept_of_not_mem V main_arg0 (by decide) (by decide) (by decide) (by decide) (by decide)

/-- No operation writes argument 1. -/
theorem kept_main_arg1 (V : Valuation τ sig (Elt F)) :
    after (ops1 ++ ops2 ++ ops3 ++ ops4 ++ ops5) V (Proc.devRef .tc main_arg1) = V (Proc.devRef .tc main_arg1) :=
  kept_of_not_mem V main_arg1 (by decide) (by decide) (by decide) (by decide) (by decide)

/-- No operation writes argument 2. -/
theorem kept_main_arg2 (V : Valuation τ sig (Elt F)) :
    after (ops1 ++ ops2 ++ ops3 ++ ops4 ++ ops5) V (Proc.devRef .tc main_arg2) = V (Proc.devRef .tc main_arg2) :=
  kept_of_not_mem V main_arg2 (by decide) (by decide) (by decide) (by decide) (by decide)

/-- No operation writes argument 3. -/
theorem kept_main_arg3 (V : Valuation τ sig (Elt F)) :
    after (ops1 ++ ops2 ++ ops3 ++ ops4 ++ ops5) V (Proc.devRef .tc main_arg3) = V (Proc.devRef .tc main_arg3) :=
  kept_of_not_mem V main_arg3 (by decide) (by decide) (by decide) (by decide) (by decide)

/-- No operation writes argument 4. -/
theorem kept_main_arg4 (V : Valuation τ sig (Elt F)) :
    after (ops1 ++ ops2 ++ ops3 ++ ops4 ++ ops5) V (Proc.devRef .tc main_arg4) = V (Proc.devRef .tc main_arg4) :=
  kept_of_not_mem V main_arg4 (by decide) (by decide) (by decide) (by decide) (by decide)

/-- No operation writes argument 5. -/
theorem kept_main_arg5 (V : Valuation τ sig (Elt F)) :
    after (ops1 ++ ops2 ++ ops3 ++ ops4 ++ ops5) V (Proc.devRef .tc main_arg5) = V (Proc.devRef .tc main_arg5) :=
  kept_of_not_mem V main_arg5 (by decide) (by decide) (by decide) (by decide) (by decide)

/-- No operation writes argument 6. -/
theorem kept_main_arg6 (V : Valuation τ sig (Elt F)) :
    after (ops1 ++ ops2 ++ ops3 ++ ops4 ++ ops5) V (Proc.devRef .tc main_arg6) = V (Proc.devRef .tc main_arg6) :=
  kept_of_not_mem V main_arg6 (by decide) (by decide) (by decide) (by decide) (by decide)

/-- No operation writes argument 7. -/
theorem kept_main_arg7 (V : Valuation τ sig (Elt F)) :
    after (ops1 ++ ops2 ++ ops3 ++ ops4 ++ ops5) V (Proc.devRef .tc main_arg7) = V (Proc.devRef .tc main_arg7) :=
  kept_of_not_mem V main_arg7 (by decide) (by decide) (by decide) (by decide) (by decide)

/-- No operation writes argument 8. -/
theorem kept_main_arg8 (V : Valuation τ sig (Elt F)) :
    after (ops1 ++ ops2 ++ ops3 ++ ops4 ++ ops5) V (Proc.devRef .tc main_arg8) = V (Proc.devRef .tc main_arg8) :=
  kept_of_not_mem V main_arg8 (by decide) (by decide) (by decide) (by decide) (by decide)

/-- No operation writes argument 9. -/
theorem kept_main_arg9 (V : Valuation τ sig (Elt F)) :
    after (ops1 ++ ops2 ++ ops3 ++ ops4 ++ ops5) V (Proc.devRef .tc main_arg9) = V (Proc.devRef .tc main_arg9) :=
  kept_of_not_mem V main_arg9 (by decide) (by decide) (by decide) (by decide) (by decide)

/-- No operation writes argument 10. -/
theorem kept_main_arg10 (V : Valuation τ sig (Elt F)) :
    after (ops1 ++ ops2 ++ ops3 ++ ops4 ++ ops5) V (Proc.devRef .tc main_arg10) = V (Proc.devRef .tc main_arg10) :=
  kept_of_not_mem V main_arg10 (by decide) (by decide) (by decide) (by decide) (by decide)

/-- No operation writes argument 11. -/
theorem kept_main_arg11 (V : Valuation τ sig (Elt F)) :
    after (ops1 ++ ops2 ++ ops3 ++ ops4 ++ ops5) V (Proc.devRef .tc main_arg11) = V (Proc.devRef .tc main_arg11) :=
  kept_of_not_mem V main_arg11 (by decide) (by decide) (by decide) (by decide) (by decide)

/-- No operation writes argument 12. -/
theorem kept_main_arg12 (V : Valuation τ sig (Elt F)) :
    after (ops1 ++ ops2 ++ ops3 ++ ops4 ++ ops5) V (Proc.devRef .tc main_arg12) = V (Proc.devRef .tc main_arg12) :=
  kept_of_not_mem V main_arg12 (by decide) (by decide) (by decide) (by decide) (by decide)

/-- No operation writes argument 13. -/
theorem kept_main_arg13 (V : Valuation τ sig (Elt F)) :
    after (ops1 ++ ops2 ++ ops3 ++ ops4 ++ ops5) V (Proc.devRef .tc main_arg13) = V (Proc.devRef .tc main_arg13) :=
  kept_of_not_mem V main_arg13 (by decide) (by decide) (by decide) (by decide) (by decide)

/-- No operation writes argument 14. -/
theorem kept_main_arg14 (V : Valuation τ sig (Elt F)) :
    after (ops1 ++ ops2 ++ ops3 ++ ops4 ++ ops5) V (Proc.devRef .tc main_arg14) = V (Proc.devRef .tc main_arg14) :=
  kept_of_not_mem V main_arg14 (by decide) (by decide) (by decide) (by decide) (by decide)

/-- No operation writes argument 15. -/
theorem kept_main_arg15 (V : Valuation τ sig (Elt F)) :
    after (ops1 ++ ops2 ++ ops3 ++ ops4 ++ ops5) V (Proc.devRef .tc main_arg15) = V (Proc.devRef .tc main_arg15) :=
  kept_of_not_mem V main_arg15 (by decide) (by decide) (by decide) (by decide) (by decide)

/-- No operation writes argument 16. -/
theorem kept_main_arg16 (V : Valuation τ sig (Elt F)) :
    after (ops1 ++ ops2 ++ ops3 ++ ops4 ++ ops5) V (Proc.devRef .tc main_arg16) = V (Proc.devRef .tc main_arg16) :=
  kept_of_not_mem V main_arg16 (by decide) (by decide) (by decide) (by decide) (by decide)

/-- No operation writes argument 17. -/
theorem kept_main_arg17 (V : Valuation τ sig (Elt F)) :
    after (ops1 ++ ops2 ++ ops3 ++ ops4 ++ ops5) V (Proc.devRef .tc main_arg17) = V (Proc.devRef .tc main_arg17) :=
  kept_of_not_mem V main_arg17 (by decide) (by decide) (by decide) (by decide) (by decide)

/-- No operation writes argument 18. -/
theorem kept_main_arg18 (V : Valuation τ sig (Elt F)) :
    after (ops1 ++ ops2 ++ ops3 ++ ops4 ++ ops5) V (Proc.devRef .tc main_arg18) = V (Proc.devRef .tc main_arg18) :=
  kept_of_not_mem V main_arg18 (by decide) (by decide) (by decide) (by decide) (by decide)

/-- No operation writes argument 19. -/
theorem kept_main_arg19 (V : Valuation τ sig (Elt F)) :
    after (ops1 ++ ops2 ++ ops3 ++ ops4 ++ ops5) V (Proc.devRef .tc main_arg19) = V (Proc.devRef .tc main_arg19) :=
  kept_of_not_mem V main_arg19 (by decide) (by decide) (by decide) (by decide) (by decide)

/-- No operation writes argument 20. -/
theorem kept_main_arg20 (V : Valuation τ sig (Elt F)) :
    after (ops1 ++ ops2 ++ ops3 ++ ops4 ++ ops5) V (Proc.devRef .tc main_arg20) = V (Proc.devRef .tc main_arg20) :=
  kept_of_not_mem V main_arg20 (by decide) (by decide) (by decide) (by decide) (by decide)

end Cert.ReferenceIdeal.RefRun

end
-- ==== Proof.Claims.lean ====
/-
  The five claims of the certificate, assembled.

  The kernel program, as printed and idealized, runs and keeps its arguments: the generated frames.  The idealized
  reference is a straight line of host operations none of which writes an argument.  The idealization's two rewrites name
  the scaling constant of the edge attention, once per region, with the exact reciprocal of the reference's divisor.  On
  the extended reals the two idealized programs, from memories that agree on the arguments, end with the same result
  array: the kernel program's is the contents at its last segment boundary, the reference's the fold of its operations
  over the launch contents, and these are equal core by core.
-/
import proofs.«124614_j50809463111778_2_alg».proof.Defs
import proofs.«124614_j50809463111778_2_alg».proof.Proof.Gen.Pre_finite_inputs
import proofs.«124614_j50809463111778_2_alg».proof.Proof.Gen.Kernel.Frame
import proofs.«124614_j50809463111778_2_alg».proof.Proof.Gen.KernelIdeal.Frame
import proofs.«124614_j50809463111778_2_alg».proof.Proof.KerRun
import proofs.«124614_j50809463111778_2_alg».proof.Proof.Bridge
import proofs.«124614_j50809463111778_2_alg».proof.Proof.RefRun
import proofs.«124614_j50809463111778_2_alg».proof.Proof.RefKept

noncomputable section

namespace Cert.Proof.Claims

open Idealize.ShloMosaic Idealize.ShloMosaic.TcCoe Idealize.SL.Sem

/-- The kernel program as printed runs and leaves its arguments as launched. -/
theorem frame_p : Cert.frame_Kernel := fun m ρ _ => Cert.Kernel.Gen.frame m ρ

/-- So does the idealized kernel program. -/
theorem frame_pi : Cert.frame_KernelIdeal := fun m ρ _ => Cert.KernelIdeal.Gen.frame m ρ

/-- The idealized reference runs, and no operation of its line writes an argument: each argument buffer ends at the
    fold of the operations over the launch contents, which at an argument is the launch contents themselves. -/
theorem frame_ri : Cert.frame_ReferenceIdeal := fun m ρ _ =>
  (θ_run Cert.ReferenceIdeal.defs _ _).mono (fun r h c => ⟨
      (h c Cert.ReferenceIdeal.main_arg0).trans (Cert.ReferenceIdeal.RefRun.kept_main_arg0 _),
      (h c Cert.ReferenceIdeal.main_arg1).trans (Cert.ReferenceIdeal.RefRun.kept_main_arg1 _),
      (h c Cert.ReferenceIdeal.main_arg2).trans (Cert.ReferenceIdeal.RefRun.kept_main_arg2 _),
      (h c Cert.ReferenceIdeal.main_arg3).trans (Cert.ReferenceIdeal.RefRun.kept_main_arg3 _),
      (h c Cert.ReferenceIdeal.main_arg4).trans (Cert.ReferenceIdeal.RefRun.kept_main_arg4 _),
      (h c Cert.ReferenceIdeal.main_arg5).trans (Cert.ReferenceIdeal.RefRun.kept_main_arg5 _),
      (h c Cert.ReferenceIdeal.main_arg6).trans (Cert.ReferenceIdeal.RefRun.kept_main_arg6 _),
      (h c Cert.ReferenceIdeal.main_arg7).trans (Cert.ReferenceIdeal.RefRun.kept_main_arg7 _),
      (h c Cert.ReferenceIdeal.main_arg8).trans (Cert.ReferenceIdeal.RefRun.kept_main_arg8 _),
      (h c Cert.ReferenceIdeal.main_arg9).trans (Cert.ReferenceIdeal.RefRun.kept_main_arg9 _),
      (h c Cert.ReferenceIdeal.main_arg10).trans (Cert.ReferenceIdeal.RefRun.kept_main_arg10 _),
      (h c Cert.ReferenceIdeal.main_arg11).trans (Cert.ReferenceIdeal.RefRun.kept_main_arg11 _),
      (h c Cert.ReferenceIdeal.main_arg12).trans (Cert.ReferenceIdeal.RefRun.kept_main_arg12 _),
      (h c Cert.ReferenceIdeal.main_arg13).trans (Cert.ReferenceIdeal.RefRun.kept_main_arg13 _),
      (h c Cert.ReferenceIdeal.main_arg14).trans (Cert.ReferenceIdeal.RefRun.kept_main_arg14 _),
      (h c Cert.ReferenceIdeal.main_arg15).trans (Cert.ReferenceIdeal.RefRun.kept_main_arg15 _),
      (h c Cert.ReferenceIdeal.main_arg16).trans (Cert.ReferenceIdeal.RefRun.kept_main_arg16 _),
      (h c Cert.ReferenceIdeal.main_arg17).trans (Cert.ReferenceIdeal.RefRun.kept_main_arg17 _),
      (h c Cert.ReferenceIdeal.main_arg18).trans (Cert.ReferenceIdeal.RefRun.kept_main_arg18 _),
      (h c Cert.ReferenceIdeal.main_arg19).trans (Cert.ReferenceIdeal.RefRun.kept_main_arg19 _),
      (h c Cert.ReferenceIdeal.main_arg20).trans (Cert.ReferenceIdeal.RefRun.kept_main_arg20 _)⟩)
    (Cert.ReferenceIdeal.RefRun.run_main (F := Ideal) m ρ)

/-- The two rewrites of the idealization, one per region: the table gives the scaling constant of the edge attention the
    value 2097152/11863283, the reciprocal of the reference's divisor, and the printed constant is that value on the
    extended reals. -/
theorem preserves : Cert.preserves_Kernel_KernelIdeal :=
  ⟨IdealRules.named_const.statement Cert.KernelIdeal.κ "inv_scale" .f32 0x3E3504F3#32 ((2097152 / 11863283 : ℝ) : EReal) rfl,
    IdealRules.named_const.statement Cert.KernelIdeal.κ "inv_scale" .f32 0x3E3504F3#32 ((2097152 / 11863283 : ℝ) : EReal) rfl⟩

/-- On the extended reals, from memories that agree on the 21 arguments, both programs run and end with one result: the
    kernel program's result array is the last segment boundary's contents, the reference's is the fold of its
    operations, and the two are equal core by core; each program's arguments end as launched. -/
theorem algebraic : Cert.algebraic_KernelIdeal_ReferenceIdeal := by
  intro m ρ m' ρ' _ hagree
  refine ⟨fun c => Cert.KernelIdeal.Gen.W14 (F := Ideal) m ρ c (Proc.devRef .tc Cert.KernelIdeal.main_v287), ?_, ?_⟩
  · exact (θ_run Cert.KernelIdeal.defs _ _).mono (fun r h c => ⟨
      h c Cert.KernelIdeal.main_v287 (by decide),
      (h c Cert.KernelIdeal.main_arg0 (by decide)).trans (Cert.KernelIdeal.Gen.W14_main_arg0 m ρ c),
      (h c Cert.KernelIdeal.main_arg1 (by decide)).trans (Cert.KernelIdeal.Gen.W14_main_arg1 m ρ c),
      (h c Cert.KernelIdeal.main_arg2 (by decide)).trans (Cert.KernelIdeal.Gen.W14_main_arg2 m ρ c),
      (h c Cert.KernelIdeal.main_arg3 (by decide)).trans (Cert.KernelIdeal.Gen.W14_main_arg3 m ρ c),
      (h c Cert.KernelIdeal.main_arg4 (by decide)).trans (Cert.KernelIdeal.Gen.W14_main_arg4 m ρ c),
      (h c Cert.KernelIdeal.main_arg5 (by decide)).trans (Cert.KernelIdeal.Gen.W14_main_arg5 m ρ c),
      (h c Cert.KernelIdeal.main_arg6 (by decide)).trans (Cert.KernelIdeal.Gen.W14_main_arg6 m ρ c),
      (h c Cert.KernelIdeal.main_arg7 (by decide)).trans (Cert.KernelIdeal.Gen.W14_main_arg7 m ρ c),
      (h c Cert.KernelIdeal.main_arg8 (by decide)).trans (Cert.KernelIdeal.Gen.W14_main_arg8 m ρ c),
      (h c Cert.KernelIdeal.main_arg9 (by decide)).trans (Cert.KernelIdeal.Gen.W14_main_arg9 m ρ c),
      (h c Cert.KernelIdeal.main_arg10 (by decide)).trans (Cert.KernelIdeal.Gen.W14_main_arg10 m ρ c),
      (h c Cert.KernelIdeal.main_arg11 (by decide)).trans (Cert.KernelIdeal.Gen.W14_main_arg11 m ρ c),
      (h c Cert.KernelIdeal.main_arg12 (by decide)).trans (Cert.KernelIdeal.Gen.W14_main_arg12 m ρ c),
      (h c Cert.KernelIdeal.main_arg13 (by decide)).trans (Cert.KernelIdeal.Gen.W14_main_arg13 m ρ c),
      (h c Cert.KernelIdeal.main_arg14 (by decide)).trans (Cert.KernelIdeal.Gen.W14_main_arg14 m ρ c),
      (h c Cert.KernelIdeal.main_arg15 (by decide)).trans (Cert.KernelIdeal.Gen.W14_main_arg15 m ρ c),
      (h c Cert.KernelIdeal.main_arg16 (by decide)).trans (Cert.KernelIdeal.Gen.W14_main_arg16 m ρ c),
      (h c Cert.KernelIdeal.main_arg17 (by decide)).trans (Cert.KernelIdeal.Gen.W14_main_arg17 m ρ c),
      (h c Cert.KernelIdeal.main_arg18 (by decide)).trans (Cert.KernelIdeal.Gen.W14_main_arg18 m ρ c),
      (h c Cert.KernelIdeal.main_arg19 (by decide)).trans (Cert.KernelIdeal.Gen.W14_main_arg19 m ρ c),
      (h c Cert.KernelIdeal.main_arg20 (by decide)).trans (Cert.KernelIdeal.Gen.W14_main_arg20 m ρ c)⟩)
      (Cert.KernelIdeal.KerRun.run_value (F := Ideal) m ρ)
  · exact (θ_run Cert.ReferenceIdeal.defs _ _).mono (fun r h c => ⟨
      (h c Cert.ReferenceIdeal.main_v303).trans (Cert.Bridge.result_eq m ρ m' c (hagree c)),
      (h c Cert.ReferenceIdeal.main_arg0).trans (Cert.ReferenceIdeal.RefRun.kept_main_arg0 _),
      (h c Cert.ReferenceIdeal.main_arg1).trans (Cert.ReferenceIdeal.RefRun.kept_main_arg1 _),
      (h c Cert.ReferenceIdeal.main_arg2).trans (Cert.ReferenceIdeal.RefRun.kept_main_arg2 _),
      (h c Cert.ReferenceIdeal.main_arg3).trans (Cert.ReferenceIdeal.RefRun.kept_main_arg3 _),
      (h c Cert.ReferenceIdeal.main_arg4).trans (Cert.ReferenceIdeal.RefRun.kept_main_arg4 _),
      (h c Cert.ReferenceIdeal.main_arg5).trans (Cert.ReferenceIdeal.RefRun.kept_main_arg5 _),
      (h c Cert.ReferenceIdeal.main_arg6).trans (Cert.ReferenceIdeal.RefRun.kept_main_arg6 _),
      (h c Cert.ReferenceIdeal.main_arg7).trans (Cert.ReferenceIdeal.RefRun.kept_main_arg7 _),
      (h c Cert.ReferenceIdeal.main_arg8).trans (Cert.ReferenceIdeal.RefRun.kept_main_arg8 _),
      (h c Cert.ReferenceIdeal.main_arg9).trans (Cert.ReferenceIdeal.RefRun.kept_main_arg9 _),
      (h c Cert.ReferenceIdeal.main_arg10).trans (Cert.ReferenceIdeal.RefRun.kept_main_arg10 _),
      (h c Cert.ReferenceIdeal.main_arg11).trans (Cert.ReferenceIdeal.RefRun.kept_main_arg11 _),
      (h c Cert.ReferenceIdeal.main_arg12).trans (Cert.ReferenceIdeal.RefRun.kept_main_arg12 _),
      (h c Cert.ReferenceIdeal.main_arg13).trans (Cert.ReferenceIdeal.RefRun.kept_main_arg13 _),
      (h c Cert.ReferenceIdeal.main_arg14).trans (Cert.ReferenceIdeal.RefRun.kept_main_arg14 _),
      (h c Cert.ReferenceIdeal.main_arg15).trans (Cert.ReferenceIdeal.RefRun.kept_main_arg15 _),
      (h c Cert.ReferenceIdeal.main_arg16).trans (Cert.ReferenceIdeal.RefRun.kept_main_arg16 _),
      (h c Cert.ReferenceIdeal.main_arg17).trans (Cert.ReferenceIdeal.RefRun.kept_main_arg17 _),
      (h c Cert.ReferenceIdeal.main_arg18).trans (Cert.ReferenceIdeal.RefRun.kept_main_arg18 _),
      (h c Cert.ReferenceIdeal.main_arg19).trans (Cert.ReferenceIdeal.RefRun.kept_main_arg19 _),
      (h c Cert.ReferenceIdeal.main_arg20).trans (Cert.ReferenceIdeal.RefRun.kept_main_arg20 _)⟩)
      (Cert.ReferenceIdeal.RefRun.run_main (F := Ideal) m' ρ')

end Cert.Proof.Claims

end
-- ==== Proof.lean ====
/-
  The certificate of the edge-attention transformer kernel against its reference.

  The programs.  Two layers of a graph transformer over 6144 nodes and 297984 edges: embeddings, then per layer a layer
  norm, the query / key / value projection, per edge and head the weight exp(clamp(⟨K, Q⟩ / √32, −5, 5)) of the source
  node's key against the destination node's query, the values weighted by it, both summed into the destination nodes,
  their quotient projected and added to the residual stream, and a feed-forward block; last a projection and a
  log-softmax.  The kernel program computes each layer's weights and weighted values in a kernel region, 768 edges at a
  time, multiplying the inner product by a constant; the reference computes them with whole-array operations, dividing
  by the 32-bit float nearest √32.  The constant is read as the exact reciprocal of that divisor (the certificate's
  table), so both are one function on the extended reals: x · (1/D) = x / D for every extended real x.

  The proof.  The kernel program's run names every buffer's final contents as a fold of its fourteen segments
  (KerRun); each region's two output arrays are whole-array functions of its three input arrays (KerEdgeBlock0/1, over
  the payloads read at an index in KerEdgePay); the reference's run is the fold of its 420 operations (RefRun), its two
  edge segments the same two functions (RefEdge, RefEdgeRun); outside the edge attention the two programs apply the
  same operations in the same order to equal arrays (LockPre, LockMid, LockPost); Bridge chains these from the
  arguments to the result, and Claims states the five claims.  No step needs the inputs to be finite.
-/
import proofs.«124614_j50809463111778_2_alg».proof.Defs
import proofs.«124614_j50809463111778_2_alg».proof.Proof.Gen.Kernel
import proofs.«124614_j50809463111778_2_alg».proof.Proof.Gen.Kernel.Skeleton
import proofs.«124614_j50809463111778_2_alg».proof.Proof.Gen.Kernel.Launch
import proofs.«124614_j50809463111778_2_alg».proof.Proof.Gen.Kernel.Points
import proofs.«124614_j50809463111778_2_alg».proof.Proof.Gen.Kernel.Frame
import proofs.«124614_j50809463111778_2_alg».proof.Proof.Gen.KernelIdeal
import proofs.«124614_j50809463111778_2_alg».proof.Proof.Gen.KernelIdeal.Skeleton
import proofs.«124614_j50809463111778_2_alg».proof.Proof.Gen.KernelIdeal.Launch
import proofs.«124614_j50809463111778_2_alg».proof.Proof.Gen.KernelIdeal.Points
import proofs.«124614_j50809463111778_2_alg».proof.Proof.Gen.KernelIdeal.Frame
import proofs.«124614_j50809463111778_2_alg».proof.Proof.Gen.ReferenceIdeal
import proofs.«124614_j50809463111778_2_alg».proof.Proof.Gen.Pre_finite_inputs
import proofs.«124614_j50809463111778_2_alg».proof.Proof.Claims
import Idealize.ShloMosaic.Adequacy
import Idealize.ShloMosaic.Init

noncomputable section

namespace Cert.Proof

open Idealize.ShloMosaic Idealize.SL.Sem Cert.Kernel

/-- The five claims under the programs' stated side conditions: the three frames, the two readings of the named
    constant, and the equality of the two idealized programs' results. -/
theorem claim : Cert.Claim := ⟨Cert.Kernel.Gen.facts, Cert.KernelIdeal.Gen.facts, Cert.ReferenceIdeal.Gen.facts, Cert.Pre_finite_inputs.Gen.facts,
  Claims.frame_p, Claims.frame_pi, Claims.frame_ri, Claims.preserves, Claims.algebraic⟩

end Cert.Proof

end
